-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x768 : Shape := ⟨3, ![2, 2048, 768]⟩
abbrev S768x2304 : Shape := ⟨2, ![768, 2304]⟩
abbrev S768x768 : Shape := ⟨2, ![768, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S_ : Shape := ⟨0, ![]⟩

class Facts : Prop where
  bcast_S_S2x2048x768 : S_.BroadcastsInDim S2x2048x768 (![] : Fin 0 → Fin S2x2048x768.rank)
  reducesTo_S2x2048x768_S_d0_1_2 : S2x2048x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S768x3072 : S_.BroadcastsInDim S768x3072 (![] : Fin 0 → Fin S768x3072.rank)
  reducesTo_S768x3072_S_d0_1 : S768x3072.ReducesTo [0, 1] S_
  bcast_S_S3072 : S_.BroadcastsInDim S3072 (![] : Fin 0 → Fin S3072.rank)
  reducesTo_S3072_S_d0 : S3072.ReducesTo [0] S_
  bcast_S_S3072x768 : S_.BroadcastsInDim S3072x768 (![] : Fin 0 → Fin S3072x768.rank)
  reducesTo_S3072x768_S_d0_1 : S3072x768.ReducesTo [0, 1] S_

variable [Facts]

def fn_part3 {F : FTy → Type} [FloatOps F] (main_arg11 : FVec F S768 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S768 .f32 := Host.absf main_arg11
  let main_cst_20 : FVec F S_ .f32 := constant S_ .f32 0x7F800000#32
  let main_v55 : FVec F S768 .f32 := broadcastInDim S768 ![] bcast_S_S768 main_cst_20
  let main_v56 : IVec S768 1 := cmpf .olt main_v54 main_v55
  let main_c_21 : IVec S_ 1 := constantI S_ 1 1#1
  let main_v57 : IVec S_ 1 := (fun x v => Host.reduce IntOp.andi x v reducesTo_S768_S_d0 h_S_) main_v56 main_c_21
  let main_v58 : IVec S_ 1 := andi main_v53 main_v57
  main_v58

def fn_part2 {F : FTy → Type} [FloatOps F] (main_arg7 : FVec F S768 .f32) (main_arg8 : FVec F S768 .f32) (main_arg9 : FVec F S768 .f32) (main_arg10 : FVec F S768 .f32) (main_arg11 : FVec F S768 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S768 .f32 := Host.absf main_arg9
  let main_cst_16 : FVec F S_ .f32 := constant S_ .f32 0x7F800000#32
  let main_v45 : FVec F S768 .f32 := broadcastInDim S768 ![] bcast_S_S768 main_cst_16
  let main_v46 : IVec S768 1 := cmpf .olt main_v44 main_v45
  let main_c_17 : IVec S_ 1 := constantI S_ 1 1#1
  let main_v47 : IVec S_ 1 := (fun x v => Host.reduce IntOp.andi x v reducesTo_S768_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_v48 main_v49 main_v50

def fn_part1 {F : FTy → Type} [FloatOps F] (main_arg4 : FVec F S768x3072 .f32) (main_arg5 : FVec F S3072 .f32) (main_arg6 : FVec F S3072x768 .f32) (main_arg7 : FVec F S768 .f32) (main_arg8 : FVec F S768 .f32) (main_arg9 : FVec F S768 .f32) (main_arg10 : FVec F S768 .f32) (main_arg11 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x3072 .f32 := Host.absf main_arg4
  let main_cst_6 : FVec F S_ .f32 := constant S_ .f32 0x7F800000#32
  let main_v20 : FVec F S768x3072 .f32 := broadcastInDim S768x3072 ![] bcast_S_S768x3072 main_cst_6
  let main_v21 : IVec S768x3072 1 := cmpf .olt main_v19 main_v20
  let main_c_7 : IVec S_ 1 := constantI S_ 1 1#1
  let main_v22 : IVec S_ 1 := (fun x v => Host.reduce IntOp.andi x v reducesTo_S768x3072_S_d0_1 h_S_) main_v21 main_c_7
  let main_v23 : IVec S_ 1 := andi main_v18 main_v22
  let main_v24 : FVec F S3072 .f32 := Host.absf main_arg5
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S3072x768 .f32 := Host.absf main_arg6
  let main_cst_10 : FVec F S_ .f32 := constant S_ .f32 0x7F800000#32
  let main_v30 : FVec F S3072x768 .f32 := broadcastInDim S3072x768 ![] bcast_S_S3072x768 main_cst_10
  let main_v31 : IVec S3072x768 1 := cmpf .olt main_v29 main_v30
  let main_c_11 : IVec S_ 1 := constantI S_ 1 1#1
  let main_v32 : IVec S_ 1 := (fun x v => Host.reduce IntOp.andi x v reducesTo_S3072x768_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2x2048x768 .f32) (main_arg1 : FVec F S768x2304 .f32) (main_arg2 : FVec F S768x768 .f32) (main_arg3 : FVec F S768 .f32) (main_arg4 : FVec F S768x3072 .f32) (main_arg5 : FVec F S3072 .f32) (main_arg6 : FVec F S3072x768 .f32) (main_arg7 : FVec F S768 .f32) (main_arg8 : FVec F S768 .f32) (main_arg9 : FVec F S768 .f32) (main_arg10 : FVec F S768 .f32) (main_arg11 : FVec F S768 .f32) : IVec S_ 1 :=
  let main_v0 : FVec F S2x2048x768 .f32 := Host.absf main_arg0
  let main_cst : FVec F S_ .f32 := constant S_ .f32 0x7F800000#32
  let main_v1 : FVec F S2x2048x768 .f32 := broadcastInDim S2x2048x768 ![] bcast_S_S2x2048x768 main_cst
  let main_v2 : IVec S2x2048x768 1 := cmpf .olt main_v0 main_v1
  let main_c : IVec S_ 1 := constantI S_ 1 1#1
  let main_v3 : IVec S_ 1 := (fun x v => Host.reduce IntOp.andi x v reducesTo_S2x2048x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_arg8 main_arg9 main_arg10 main_arg11 main_v13 main_v16
-- ==== Kernel.lean ====
abbrev S2x2048x768 : Shape := ⟨3, ![2, 2048, 768]⟩
abbrev S768x2304 : Shape := ⟨2, ![768, 2304]⟩
abbrev S768x768 : Shape := ⟨2, ![768, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S4096x768 : Shape := ⟨2, ![4096, 768]⟩
abbrev S_ : Shape := ⟨0, ![]⟩
abbrev S2304 : Shape := ⟨1, ![2304]⟩
abbrev S4096x2304 : Shape := ⟨2, ![4096, 2304]⟩
abbrev S512x768 : Shape := ⟨2, ![512, 768]⟩
abbrev S512x2304 : Shape := ⟨2, ![512, 2304]⟩
abbrev S1x2304 : Shape := ⟨2, ![1, 2304]⟩
abbrev S2x2048x12x64 : Shape := ⟨4, ![2, 2048, 12, 64]⟩
abbrev S2x12x2048x64 : Shape := ⟨4, ![2, 12, 2048, 64]⟩
abbrev S24x2048x64 : Shape := ⟨3, ![24, 2048, 64]⟩
abbrev S1x512x64 : Shape := ⟨3, ![1, 512, 64]⟩
abbrev S512x1 : Shape := ⟨2, ![512, 1]⟩
abbrev S512x64 : Shape := ⟨2, ![512, 64]⟩
abbrev S64x512 : Shape := ⟨2, ![64, 512]⟩
abbrev S512x512 : Shape := ⟨2, ![512, 512]⟩
abbrev S512 : Shape := ⟨1, ![512]⟩
abbrev S1x768 : Shape := ⟨2, ![1, 768]⟩
abbrev S4096x3072 : Shape := ⟨2, ![4096, 3072]⟩
abbrev S512x3072 : Shape := ⟨2, ![512, 3072]⟩
abbrev S1x3072 : Shape := ⟨2, ![1, 3072]⟩

abbrev nBuf : Space → Nat
  | .hbm => 36
  | .vmem => 43
  | .smem => 0
  | _ => 0

abbrev bufTy : (tb : Table) → Fin (tcTables nBuf tb) → BufTy
  | .hbm, ⟨0, _⟩ => ⟨S2x2048x768, .f32⟩
  | .hbm, ⟨1, _⟩ => ⟨S768x2304, .f32⟩
  | .hbm, ⟨2, _⟩ => ⟨S768x768, .f32⟩
  | .hbm, ⟨3, _⟩ => ⟨S768, .f32⟩
  | .hbm, ⟨4, _⟩ => ⟨S768x3072, .f32⟩
  | .hbm, ⟨5, _⟩ => ⟨S3072, .f32⟩
  | .hbm, ⟨6, _⟩ => ⟨S3072x768, .f32⟩
  | .hbm, ⟨7, _⟩ => ⟨S768, .f32⟩
  | .hbm, ⟨8, _⟩ => ⟨S768, .f32⟩
  | .hbm, ⟨9, _⟩ => ⟨S768, .f32⟩
  | .hbm, ⟨10, _⟩ => ⟨S768, .f32⟩
  | .hbm, ⟨11, _⟩ => ⟨S768, .f32⟩
  | .hbm, ⟨12, _⟩ => ⟨S4096x768, .f32⟩
  | .hbm, ⟨13, _⟩ => ⟨S_, .f32⟩
  | .hbm, ⟨14, _⟩ => ⟨S2304, .f32⟩
  | .hbm, ⟨15, _⟩ => ⟨S4096x2304, .bf16⟩
  | .hbm, ⟨16, _⟩ => ⟨S4096x768, .bf16⟩
  | .hbm, ⟨17, _⟩ => ⟨S4096x768, .bf16⟩
  | .hbm, ⟨18, _⟩ => ⟨S4096x768, .bf16⟩
  | .hbm, ⟨19, _⟩ => ⟨S2x2048x12x64, .bf16⟩
  | .hbm, ⟨20, _⟩ => ⟨S2x12x2048x64, .bf16⟩
  | .hbm, ⟨21, _⟩ => ⟨S24x2048x64, .bf16⟩
  | .hbm, ⟨22, _⟩ => ⟨S2x2048x12x64, .bf16⟩
  | .hbm, ⟨23, _⟩ => ⟨S2x12x2048x64, .bf16⟩
  | .hbm, ⟨24, _⟩ => ⟨S24x2048x64, .bf16⟩
  | .hbm, ⟨25, _⟩ => ⟨S2x2048x12x64, .bf16⟩
  | .hbm, ⟨26, _⟩ => ⟨S2x12x2048x64, .bf16⟩
  | .hbm, ⟨27, _⟩ => ⟨S24x2048x64, .bf16⟩
  | .hbm, ⟨28, _⟩ => ⟨S24x2048x64, .bf16⟩
  | .hbm, ⟨29, _⟩ => ⟨S2x12x2048x64, .bf16⟩
  | .hbm, ⟨30, _⟩ => ⟨S2x2048x12x64, .bf16⟩
  | .hbm, ⟨31, _⟩ => ⟨S4096x768, .bf16⟩
  | .hbm, ⟨32, _⟩ => ⟨S4096x768, .f32⟩
  | .hbm, ⟨33, _⟩ => ⟨S4096x3072, .bf16⟩
  | .hbm, ⟨34, _⟩ => ⟨S4096x768, .f32⟩
  | .hbm, ⟨35, _⟩ => ⟨S2x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .f32⟩
  | .local _ .vmem, ⟨3, _⟩ => ⟨S2304, .f32⟩
  | .local _ .vmem, ⟨4, _⟩ => ⟨S512x2304, .bf16⟩
  | .local _ .vmem, ⟨5, _⟩ => ⟨S512x2304, .bf16⟩
  | .local _ .vmem, ⟨6, _⟩ => ⟨S1x512x64, .bf16⟩
  | .local _ .vmem, ⟨7, _⟩ => ⟨S1x512x64, .bf16⟩
  | .local _ .vmem, ⟨8, _⟩ => ⟨S1x512x64, .bf16⟩
  | .local _ .vmem, ⟨9, _⟩ => ⟨S1x512x64, .bf16⟩
  | .local _ .vmem, ⟨10, _⟩ => ⟨S1x512x64, .bf16⟩
  | .local _ .vmem, ⟨11, _⟩ => ⟨S1x512x64, .bf16⟩
  | .local _ .vmem, ⟨12, _⟩ => ⟨S1x512x64, .bf16⟩
  | .local _ .vmem, ⟨13, _⟩ => ⟨S1x512x64, .bf16⟩
  | .local _ .vmem, ⟨14, _⟩ => ⟨S512x1, .f32⟩
  | .local _ .vmem, ⟨15, _⟩ => ⟨S512x1, .f32⟩
  | .local _ .vmem, ⟨16, _⟩ => ⟨S512x64, .f32⟩
  | .local _ .vmem, ⟨17, _⟩ => ⟨S512x768, .f32⟩
  | .local _ .vmem, ⟨18, _⟩ => ⟨S512x768, .f32⟩
  | .local _ .vmem, ⟨19, _⟩ => ⟨S512x768, .bf16⟩
  | .local _ .vmem, ⟨20, _⟩ => ⟨S512x768, .bf16⟩
  | .local _ .vmem, ⟨21, _⟩ => ⟨S768x768, .f32⟩
  | .local _ .vmem, ⟨22, _⟩ => ⟨S768, .f32⟩
  | .local _ .vmem, ⟨23, _⟩ => ⟨S768, .f32⟩
  | .local _ .vmem, ⟨24, _⟩ => ⟨S768, .f32⟩
  | .local _ .vmem, ⟨25, _⟩ => ⟨S512x768, .f32⟩
  | .local _ .vmem, ⟨26, _⟩ => ⟨S512x768, .f32⟩
  | .local _ .vmem, ⟨27, _⟩ => ⟨S512x768, .f32⟩
  | .local _ .vmem, ⟨28, _⟩ => ⟨S512x768, .f32⟩
  | .local _ .vmem, ⟨29, _⟩ => ⟨S768x3072, .f32⟩
  | .local _ .vmem, ⟨30, _⟩ => ⟨S3072, .f32⟩
  | .local _ .vmem, ⟨31, _⟩ => ⟨S512x3072, .bf16⟩
  | .local _ .vmem, ⟨32, _⟩ => ⟨S512x3072, .bf16⟩
  | .local _ .vmem, ⟨33, _⟩ => ⟨S512x768, .f32⟩
  | .local _ .vmem, ⟨34, _⟩ => ⟨S512x768, .f32⟩
  | .local _ .vmem, ⟨35, _⟩ => ⟨S512x3072, .bf16⟩
  | .local _ .vmem, ⟨36, _⟩ => ⟨S512x3072, .bf16⟩
  | .local _ .vmem, ⟨37, _⟩ => ⟨S3072x768, .f32⟩
  | .local _ .vmem, ⟨38, _⟩ => ⟨S768, .f32⟩
  | .local _ .vmem, ⟨39, _⟩ => ⟨S768, .f32⟩
  | .local _ .vmem, ⟨40, _⟩ => ⟨S768, .f32⟩
  | .local _ .vmem, ⟨41, _⟩ => ⟨S512x768, .f32⟩
  | .local _ .vmem, ⟨42, _⟩ => ⟨S512x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg3_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg6_0 : Ref sig .tc := ⟨.vmem, 41, rfl⟩
abbrev cc4_stg6_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem6_1 : DmaSem sig := 39

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![24, 4, 4], ![false, false, false]⟩

def k1_cond3 (i : grid1.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x768 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S768x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S768 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S768 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x3072 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S3072 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x3072 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x3072 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S3072x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S768 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S768 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S768 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S512x768 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  shapeCasts_S2x2048x768_S4096x768 : S2x2048x768.ShapeCasts S4096x768
  bcast_S_S2304 : S_.BroadcastsInDim S2304 (![] : Fin 0 → Fin S2304.rank)
  inb_S512x768_S512x768_0_0 : ∀ a, (![0, 0] : Fin 2 → Nat) a + S512x768.size a ≤ S512x768.size a
  h_S512x768 : 0 < S512x768.numel
  shapeCasts_S512x768_S512x768 : S512x768.ShapeCasts S512x768
  bitsLt_bf16_f32 : FTy.bits .bf16 < FTy.bits .f32
  inb_S768x2304_S768x2304_0_0 : ∀ a, (![0, 0] : Fin 2 → Nat) a + S768x2304.size a ≤ S768x2304.size a
  h_S768x2304 : 0 < S768x2304.numel
  inb_S2304_S2304_0 : ∀ a, (![0] : Fin 1 → Nat) a + S2304.size a ≤ S2304.size a
  h_S2304 : 0 < S2304.numel
  shapeCasts_S2304_S2304 : S2304.ShapeCasts S2304
  shapeCasts_S2304_S1x2304 : S2304.ShapeCasts S1x2304
  broadcasts_S1x2304_S512x2304 : S1x2304.Broadcasts S512x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  slices_S4096x2304_S4096x768_0_0 : S4096x2304.Slices ![0, 0] S4096x768
  slices_S4096x2304_S4096x768_0_768 : S4096x2304.Slices ![0, 768] S4096x768
  slices_S4096x2304_S4096x768_0_1536 : S4096x2304.Slices ![0, 1536] S4096x768
  shapeCasts_S4096x768_S2x2048x12x64 : S4096x768.ShapeCasts S2x2048x12x64
  transposes_S2x2048x12x64_S2x12x2048x64_0_2_1_3 : S2x2048x12x64.Transposes [0, 2, 1, 3] S2x12x2048x64
  shapeCasts_S2x12x2048x64_S24x2048x64 : S2x12x2048x64.ShapeCasts S24x2048x64
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  transposes_S512x64_p1_0_S64x512 : S512x64.Transposes [1, 0] S64x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S24x2048x64_S2x12x2048x64 : S24x2048x64.ShapeCasts S2x12x2048x64
  transposes_S2x12x2048x64_S2x2048x12x64_0_2_1_3 : S2x12x2048x64.Transposes [0, 2, 1, 3] S2x2048x12x64
  shapeCasts_S2x2048x12x64_S4096x768 : S2x2048x12x64.ShapeCasts S4096x768
  inb_S768x768_S768x768_0_0 : ∀ a, (![0, 0] : Fin 2 → Nat) a + S768x768.size a ≤ S768x768.size a
  h_S768x768 : 0 < S768x768.numel
  inb_S768_S768_0 : ∀ a, (![0] : Fin 1 → Nat) a + S768.size a ≤ S768.size a
  h_S768 : 0 < S768.numel
  shapeCasts_S768_S1x768 : S768.ShapeCasts S1x768
  broadcasts_S1x768_S512x768 : S1x768.Broadcasts S512x768
  reduces_S512x768_S512 : S512x768.Reduces [1] S512
  broadcasts_S512x1_S512x768 : S512x1.Broadcasts S512x768
  inb_S768x3072_S768x3072_0_0 : ∀ a, (![0, 0] : Fin 2 → Nat) a + S768x3072.size a ≤ S768x3072.size a
  h_S768x3072 : 0 < S768x3072.numel
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S512x3072_S512x3072 : S512x3072.ShapeCasts S512x3072
  inb_S3072x768_S3072x768_0_0 : ∀ a, (![0, 0] : Fin 2 → Nat) a + S3072x768.size a ≤ S3072x768.size a
  h_S3072x768 : 0 < S3072x768.numel
  shapeCasts_S4096x768_S2x2048x768 : S4096x768.ShapeCasts S2x2048x768
  dot_S512x768_S768x2304_S512x2304_1_0_0_1_n_n_wf : DotDims.WF S512x768 S768x2304 S512x2304 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  dot_S512x768_S768x768_S512x768_1_0_0_1_n_n_wf : DotDims.WF S512x768 S768x768 S512x768 [1] [0] [0] [1] [] []
  dot_S512x768_S768x3072_S512x3072_1_0_0_1_n_n_wf : DotDims.WF S512x768 S768x3072 S512x3072 [1] [0] [0] [1] [] []
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S4096x768.size a
  hwx0_0 : ∀ i : grid0.Coords, EltTy.bits .f32 = 32 ∨ (Rect.block (s := S4096x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .f32 = 32 ∨ (Rect.block (s := S768x2304) S768x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2304.size a ≤ S4096x2304.size a
  hwx0_3 : ∀ i : grid0.Coords, EltTy.bits .bf16 = 32 ∨ (Rect.block (s := S4096x2304) S512x2304.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S24x2048x64.size a
  hwx1_0 : ∀ i : grid1.Coords, EltTy.bits .bf16 = 32 ∨ (Rect.block (s := S24x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x64.size a ≤ S24x2048x64.size a
  hwx1_1 : ∀ i : grid1.Coords, EltTy.bits .bf16 = 32 ∨ (Rect.block (s := S24x2048x64) S1x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x64.size a ≤ S24x2048x64.size a
  hwx1_2 : ∀ i : grid1.Coords, EltTy.bits .bf16 = 32 ∨ (Rect.block (s := S24x2048x64) S1x512x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S24x2048x64.size a
  hwx1_3 : ∀ i : grid1.Coords, EltTy.bits .bf16 = 32 ∨ (Rect.block (s := S24x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x768.size a ≤ S4096x768.size a
  hwx2_0 : ∀ i : grid2.Coords, EltTy.bits .f32 = 32 ∨ (Rect.block (s := S4096x768) S512x768.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x768.size a ≤ S4096x768.size a
  hwx2_1 : ∀ i : grid2.Coords, EltTy.bits .bf16 = 32 ∨ (Rect.block (s := S4096x768) S512x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S768x768.size a ≤ S768x768.size a
  hwx2_2 : ∀ i : grid2.Coords, EltTy.bits .f32 = 32 ∨ (Rect.block (s := S768x768) S768x768.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S768.size a ≤ S768.size a
  hwx2_3 : ∀ i : grid2.Coords, EltTy.bits .f32 = 32 ∨ (Rect.block (s := S768) S768.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S768.size a ≤ S768.size a
  hwx2_4 : ∀ i : grid2.Coords, EltTy.bits .f32 = 32 ∨ (Rect.block (s := S768) S768.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S768.size a ≤ S768.size a
  hwx2_5 : ∀ i : grid2.Coords, EltTy.bits .f32 = 32 ∨ (Rect.block (s := S768) S768.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x768.size a ≤ S4096x768.size a
  hwx2_6 : ∀ i : grid2.Coords, EltTy.bits .f32 = 32 ∨ (Rect.block (s := S4096x768) S512x768.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x768.size a ≤ S4096x768.size a
  hwx3_0 : ∀ i : grid3.Coords, EltTy.bits .f32 = 32 ∨ (Rect.block (s := S4096x768) S512x768.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x3072.size a ≤ S768x3072.size a
  hwx3_1 : ∀ i : grid3.Coords, EltTy.bits .f32 = 32 ∨ (Rect.block (s := S768x3072) S768x3072.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S3072.size a ≤ S3072.size a
  hwx3_2 : ∀ i : grid3.Coords, EltTy.bits .f32 = 32 ∨ (Rect.block (s := S3072) S3072.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x3072.size a ≤ S4096x3072.size a
  hwx3_3 : ∀ i : grid3.Coords, EltTy.bits .bf16 = 32 ∨ (Rect.block (s := S4096x3072) S512x3072.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x768.size a ≤ S4096x768.size a
  hwx4_0 : ∀ i : grid4.Coords, EltTy.bits .f32 = 32 ∨ (Rect.block (s := S4096x768) S512x768.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x3072.size a ≤ S4096x3072.size a
  hwx4_1 : ∀ i : grid4.Coords, EltTy.bits .bf16 = 32 ∨ (Rect.block (s := S4096x3072) S512x3072.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S3072x768.size a ≤ S3072x768.size a
  hwx4_2 : ∀ i : grid4.Coords, EltTy.bits .f32 = 32 ∨ (Rect.block (s := S3072x768) S3072x768.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S768.size a ≤ S768.size a
  hwx4_3 : ∀ i : grid4.Coords, EltTy.bits .f32 = 32 ∨ (Rect.block (s := S768) S768.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S768.size a ≤ S768.size a
  hwx4_4 : ∀ i : grid4.Coords, EltTy.bits .f32 = 32 ∨ (Rect.block (s := S768) S768.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S768.size a ≤ S768.size a
  hwx4_5 : ∀ i : grid4.Coords, EltTy.bits .f32 = 32 ∨ (Rect.block (s := S768) S768.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S512x768.size a ≤ S4096x768.size a
  hwx4_6 : ∀ i : grid4.Coords, EltTy.bits .f32 = 32 ∨ (Rect.block (s := S4096x768) S512x768.size (cc4_transform_6 i) (hinb4_6 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S768x3072_S512x3072_1_0_0_1_n_n : DotDims S512x768 S768x3072 S512x3072 where
  lhsContracting := [1]
  rhsContracting := [0]
  lhsNonContracting := [0]
  rhsNonContracting := [1]
  lhsBatch := []
  rhsBatch := []
  wf := dot_S512x768_S768x3072_S512x3072_1_0_0_1_n_n_wf
def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2304.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

abbrev win2_0 : Pipeline.Window sig grid2 :=
  Pipeline.Window.ofSpec (Memref.whole main_v0) S512x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S512x768.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S768x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S768.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S768.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v19) S512x768.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v19) S512x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S768x3072.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S3072.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v20) S512x3072.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v19) S512x768.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S512x3072.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg6) S3072x768.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg7) S768.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S768.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S768.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v21) S512x768.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S2x2048x768 : Shape := ⟨3, ![2, 2048, 768]⟩
abbrev S768x2304 : Shape := ⟨2, ![768, 2304]⟩
abbrev S768x768 : Shape := ⟨2, ![768, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S2x2048x2304 : Shape := ⟨3, ![2, 2048, 2304]⟩
abbrev S2x2048x12x64 : Shape := ⟨4, ![2, 2048, 12, 64]⟩
abbrev S2x12x2048x64 : Shape := ⟨4, ![2, 12, 2048, 64]⟩
abbrev S2x12x2048x2048 : Shape := ⟨4, ![2, 12, 2048, 2048]⟩
abbrev S_ : Shape := ⟨0, ![]⟩
abbrev S2048x2048 : Shape := ⟨2, ![2048, 2048]⟩
abbrev S2x12x2048 : Shape := ⟨3, ![2, 12, 2048]⟩
abbrev S2x12x2048x1 : Shape := ⟨4, ![2, 12, 2048, 1]⟩
abbrev S1x1x768 : Shape := ⟨3, ![1, 1, 768]⟩
abbrev S2x2048 : Shape := ⟨2, ![2, 2048]⟩
abbrev S2x2048x1 : Shape := ⟨3, ![2, 2048, 1]⟩
abbrev S2x2048x3072 : Shape := ⟨3, ![2, 2048, 3072]⟩
abbrev S1x1x3072 : Shape := ⟨3, ![1, 1, 3072]⟩

abbrev nBuf : Space → Nat
  | .hbm => 134
  | .vmem => 0
  | .smem => 0
  | _ => 0

abbrev hbmTy0_0 (i : Nat) : BufTy := match i % 128 with
  | 0 => ⟨S2x2048x768, .f32⟩
  | 1 => ⟨S768x2304, .f32⟩
  | 2 => ⟨S768x768, .f32⟩
  | 3 => ⟨S768, .f32⟩
  | 4 => ⟨S768x3072, .f32⟩
  | 5 => ⟨S3072, .f32⟩
  | 6 => ⟨S3072x768, .f32⟩
  | 7 => ⟨S768, .f32⟩
  | 8 => ⟨S768, .f32⟩
  | 9 => ⟨S768, .f32⟩
  | 10 => ⟨S768, .f32⟩
  | 11 => ⟨S768, .f32⟩
  | 12 => ⟨S2x2048x2304, .f32⟩
  | 13 => ⟨S2x2048x768, .f32⟩
  | 14 => ⟨S2x2048x768, .f32⟩
  | 15 => ⟨S2x2048x768, .f32⟩
  | 16 => ⟨S2x2048x12x64, .f32⟩
  | 17 => ⟨S2x12x2048x64, .f32⟩
  | 18 => ⟨S2x2048x12x64, .f32⟩
  | 19 => ⟨S2x12x2048x64, .f32⟩
  | 20 => ⟨S2x2048x12x64, .f32⟩
  | 21 => ⟨S2x12x2048x64, .f32⟩
  | 22 => ⟨S2x12x2048x2048, .f32⟩
  | 23 => ⟨S_, .f32⟩
  | 24 => ⟨S2x12x2048x2048, .f32⟩
  | 25 => ⟨S2x12x2048x2048, .f32⟩
  | 26 => ⟨S_, .i1⟩
  | 27 => ⟨S2048x2048, .i1⟩
  | 28 => ⟨S2048x2048, .i32⟩
  | 29 => ⟨S_, .i32⟩
  | 30 => ⟨S2048x2048, .i32⟩
  | 31 => ⟨S2048x2048, .i32⟩
  | 32 => ⟨S2048x2048, .i32⟩
  | 33 => ⟨S2048x2048, .i1⟩
  | 34 => ⟨S_, .i1⟩
  | 35 => ⟨S2048x2048, .i1⟩
  | 36 => ⟨S2048x2048, .i1⟩
  | 37 => ⟨S_, .f32⟩
  | 38 => ⟨S_, .f32⟩
  | 39 => ⟨S2x12x2048x2048, .i1⟩
  | 40 => ⟨S2x12x2048x2048, .f32⟩
  | 41 => ⟨S2x12x2048x2048, .f32⟩
  | 42 => ⟨S_, .f32⟩
  | 43 => ⟨S2x12x2048, .f32⟩
  | 44 => ⟨S_, .f32⟩
  | 45 => ⟨S2x12x2048, .f32⟩
  | 46 => ⟨S2x12x2048, .f32⟩
  | 47 => ⟨S2x12x2048x1, .f32⟩
  | 48 => ⟨S2x12x2048x2048, .f32⟩
  | 49 => ⟨S2x12x2048x2048, .f32⟩
  | 50 => ⟨S2x12x2048x2048, .f32⟩
  | 51 => ⟨S_, .f32⟩
  | 52 => ⟨S2x12x2048, .f32⟩
  | 53 => ⟨S2x12x2048x1, .f32⟩
  | 54 => ⟨S2x12x2048x2048, .f32⟩
  | 55 => ⟨S2x12x2048x2048, .f32⟩
  | 56 => ⟨S2x12x2048x64, .f32⟩
  | 57 => ⟨S2x2048x12x64, .f32⟩
  | 58 => ⟨S2x2048x768, .f32⟩
  | 59 => ⟨S2x2048x768, .f32⟩
  | 60 => ⟨S1x1x768, .f32⟩
  | 61 => ⟨S2x2048x768, .f32⟩
  | 62 => ⟨S2x2048x768, .f32⟩
  | 63 => ⟨S2x2048x768, .f32⟩
  | 64 => ⟨S_, .f32⟩
  | 65 => ⟨S2x2048, .f32⟩
  | 66 => ⟨S2x2048x1, .f32⟩
  | 67 => ⟨S_, .f32⟩
  | 68 => ⟨S2x2048x1, .f32⟩
  | 69 => ⟨S2x2048x1, .f32⟩
  | 70 => ⟨S2x2048x768, .f32⟩
  | 71 => ⟨S2x2048x768, .f32⟩
  | 72 => ⟨S2x2048x768, .f32⟩
  | 73 => ⟨S_, .f32⟩
  | 74 => ⟨S2x2048, .f32⟩
  | 75 => ⟨S2x2048x1, .f32⟩
  | 76 => ⟨S_, .f32⟩
  | 77 => ⟨S2x2048x1, .f32⟩
  | 78 => ⟨S2x2048x1, .f32⟩
  | 79 => ⟨S2x2048x768, .f32⟩
  | 80 => ⟨S2x2048x768, .f32⟩
  | 81 => ⟨S1x1x768, .f32⟩
  | 82 => ⟨S2x2048x768, .f32⟩
  | 83 => ⟨S2x2048x768, .f32⟩
  | 84 => ⟨S_, .f32⟩
  | 85 => ⟨S2x2048x1, .f32⟩
  | 86 => ⟨S2x2048x1, .f32⟩
  | 87 => ⟨S2x2048x1, .f32⟩
  | 88 => ⟨S2x2048x768, .f32⟩
  | 89 => ⟨S2x2048x768, .f32⟩
  | 90 => ⟨S1x1x768, .f32⟩
  | 91 => ⟨S2x2048x768, .f32⟩
  | 92 => ⟨S2x2048x768, .f32⟩
  | 93 => ⟨S2x2048x3072, .f32⟩
  | 94 => ⟨S1x1x3072, .f32⟩
  | 95 => ⟨S2x2048x3072, .f32⟩
  | 96 => ⟨S2x2048x3072, .f32⟩
  | 97 => ⟨S_, .f32⟩
  | 98 => ⟨S2x2048x3072, .f32⟩
  | 99 => ⟨S2x2048x3072, .f32⟩
  | 100 => ⟨S2x2048x768, .f32⟩
  | 101 => ⟨S1x1x768, .f32⟩
  | 102 => ⟨S2x2048x768, .f32⟩
  | 103 => ⟨S2x2048x768, .f32⟩
  | 104 => ⟨S2x2048x768, .f32⟩
  | 105 => ⟨S_, .f32⟩
  | 106 => ⟨S2x2048, .f32⟩
  | 107 => ⟨S2x2048x1, .f32⟩
  | 108 => ⟨S_, .f32⟩
  | 109 => ⟨S2x2048x1, .f32⟩
  | 110 => ⟨S2x2048x1, .f32⟩
  | 111 => ⟨S2x2048x768, .f32⟩
  | 112 => ⟨S2x2048x768, .f32⟩
  | 113 => ⟨S2x2048x768, .f32⟩
  | 114 => ⟨S_, .f32⟩
  | 115 => ⟨S2x2048, .f32⟩
  | 116 => ⟨S2x2048x1, .f32⟩
  | 117 => ⟨S_, .f32⟩
  | 118 => ⟨S2x2048x1, .f32⟩
  | 119 => ⟨S2x2048x1, .f32⟩
  | 120 => ⟨S2x2048x768, .f32⟩
  | 121 => ⟨S2x2048x768, .f32⟩
  | 122 => ⟨S1x1x768, .f32⟩
  | 123 => ⟨S2x2048x768, .f32⟩
  | 124 => ⟨S2x2048x768, .f32⟩
  | 125 => ⟨S_, .f32⟩
  | 126 => ⟨S2x2048x1, .f32⟩
  | 127 => ⟨S2x2048x1, .f32⟩
  | _ => ⟨S2x2048x768, .f32⟩

abbrev hbmTy0_1 (i : Nat) : BufTy := match i % 128 with
  | 0 => ⟨S2x2048x1, .f32⟩
  | 1 => ⟨S2x2048x768, .f32⟩
  | 2 => ⟨S2x2048x768, .f32⟩
  | 3 => ⟨S1x1x768, .f32⟩
  | 4 => ⟨S2x2048x768, .f32⟩
  | 5 => ⟨S2x2048x768, .f32⟩
  | _ => ⟨S2x2048x768, .f32⟩

abbrev hbmTy (i : Nat) : BufTy := match i / 128 with
  | 0 => hbmTy0_0 i
  | 1 => hbmTy0_1 i
  | _ => ⟨S2x2048x768, .f32⟩

abbrev bufTy : (tb : Table) → Fin (tcTables nBuf tb) → BufTy
  | .hbm, ⟨i, _⟩ => hbmTy i
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_call0_v0 : Ref sig .tc := ⟨.hbm, 28, rfl⟩
abbrev main_call0_c : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_0 : Ref sig .tc := ⟨.hbm, 34, rfl⟩
abbrev main_call0_v5 : Ref sig .tc := ⟨.hbm, 35, rfl⟩
abbrev main_v14 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_cst_2 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_4 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_6 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_8 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call2_cst : Ref sig .tc := ⟨.hbm, 97, rfl⟩
abbrev main_call2_v0 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_9 : Ref sig .tc := ⟨.hbm, 105, rfl⟩
abbrev main_v69 : Ref sig .tc := ⟨.hbm, 106, rfl⟩
abbrev main_v70 : Ref sig .tc := ⟨.hbm, 107, rfl⟩
abbrev main_cst_10 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_11 : Ref sig .tc := ⟨.hbm, 114, rfl⟩
abbrev main_v76 : Ref sig .tc := ⟨.hbm, 115, rfl⟩
abbrev main_v77 : Ref sig .tc := ⟨.hbm, 116, rfl⟩
abbrev main_cst_12 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_13 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩

abbrev nD : Nat := 1
abbrev τ : Topo := Topo.v7x

variable {F : FTy → Type} [FloatOps F]

class Facts₀ : Prop where
  slices_S2x2048x2304_S2x2048x768_0_0_0 : S2x2048x2304.Slices ![0, 0, 0] S2x2048x768
  slices_S2x2048x2304_S2x2048x768_0_0_768 : S2x2048x2304.Slices ![0, 0, 768] S2x2048x768
  slices_S2x2048x2304_S2x2048x768_0_0_1536 : S2x2048x2304.Slices ![0, 0, 1536] S2x2048x768
  shapeCasts_S2x2048x768_S2x2048x12x64 : S2x2048x768.ShapeCasts S2x2048x12x64
  transposes_S2x2048x12x64_S2x12x2048x64_0_2_1_3 : S2x2048x12x64.Transposes [0, 2, 1, 3] S2x12x2048x64
  bcast_S_S2x12x2048x2048 : S_.BroadcastsInDim S2x12x2048x2048 (![] : Fin 0 → Fin S2x12x2048x2048.rank)
  bcast_S_S2048x2048 : S_.BroadcastsInDim S2048x2048 (![] : Fin 0 → Fin S2048x2048.rank)
  bcast_S2048x2048_S2x12x2048x2048_2_3 : S2048x2048.BroadcastsInDim S2x12x2048x2048 (![2, 3] : Fin 2 → Fin S2x12x2048x2048.rank)
  reducesTo_S2x12x2048x2048_S2x12x2048_d3 : S2x12x2048x2048.ReducesTo [3] S2x12x2048
  h_S_ : 0 < S_.numel
  bcast_S_S2x12x2048 : S_.BroadcastsInDim S2x12x2048 (![] : Fin 0 → Fin S2x12x2048.rank)
  bcast_S2x12x2048_S2x12x2048x1_0_1_2 : S2x12x2048.BroadcastsInDim S2x12x2048x1 (![0, 1, 2] : Fin 3 → Fin S2x12x2048x1.rank)
  bcast_S2x12x2048x1_S2x12x2048x2048_0_1_2_3 : S2x12x2048x1.BroadcastsInDim S2x12x2048x2048 (![0, 1, 2, 3] : Fin 4 → Fin S2x12x2048x2048.rank)
  transposes_S2x12x2048x64_S2x2048x12x64_0_2_1_3 : S2x12x2048x64.Transposes [0, 2, 1, 3] S2x2048x12x64
  shapeCasts_S2x2048x12x64_S2x2048x768 : S2x2048x12x64.ShapeCasts S2x2048x768
  bcast_S768_S1x1x768_2 : S768.BroadcastsInDim S1x1x768 (![2] : Fin 1 → Fin S1x1x768.rank)
  bcast_S1x1x768_S2x2048x768_0_1_2 : S1x1x768.BroadcastsInDim S2x2048x768 (![0, 1, 2] : Fin 3 → Fin S2x2048x768.rank)
  reducesTo_S2x2048x768_S2x2048_d2 : S2x2048x768.ReducesTo [2] S2x2048
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x768_0_1_2 : S2x2048x1.BroadcastsInDim S2x2048x768 (![0, 1, 2] : Fin 3 → Fin S2x2048x768.rank)
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  bcast_S_S2x2048x3072 : S_.BroadcastsInDim S2x2048x3072 (![] : Fin 0 → Fin S2x2048x3072.rank)
  dot_S2x2048x768_S768x2304_S2x2048x2304_2_0_01_1_n_n_wf : DotDims.WF S2x2048x768 S768x2304 S2x2048x2304 [2] [0] [0, 1] [1] [] []
  dot_S2x12x2048x64_S2x12x2048x64_S2x12x2048x2048_3_3_2_2_01_01_wf : DotDims.WF S2x12x2048x64 S2x12x2048x64 S2x12x2048x2048 [3] [3] [2] [2] [0, 1] [0, 1]
  dot_S2x12x2048x2048_S2x12x2048x64_S2x12x2048x64_3_2_2_3_01_01_wf : DotDims.WF S2x12x2048x2048 S2x12x2048x64 S2x12x2048x64 [3] [2] [2] [3] [0, 1] [0, 1]
  dot_S2x2048x768_S768x768_S2x2048x768_2_0_01_1_n_n_wf : DotDims.WF S2x2048x768 S768x768 S2x2048x768 [2] [0] [0, 1] [1] [] []
  dot_S2x2048x768_S768x3072_S2x2048x3072_2_0_01_1_n_n_wf : DotDims.WF S2x2048x768 S768x3072 S2x2048x3072 [2] [0] [0, 1] [1] [] []
  dot_S2x2048x3072_S3072x768_S2x2048x768_2_0_01_1_n_n_wf : DotDims.WF S2x2048x3072 S3072x768 S2x2048x768 [2] [0] [0, 1] [1] [] []

variable [Facts₀]

def dot_S2x2048x768_S768x2304_S2x2048x2304_2_0_01_1_n_n : DotDims S2x2048x768 S768x2304 S2x2048x2304 where
  lhsContracting := [2]
  rhsContracting := [0]
  lhsNonContracting := [0, 1]
  rhsNonContracting := [1]
  lhsBatch := []
  rhsBatch := []
  wf := dot_S2x2048x768_S768x2304_S2x2048x2304_2_0_01_1_n_n_wf
def dot_S2x12x2048x64_S2x12x2048x64_S2x12x2048x2048_3_3_2_2_01_01 : DotDims S2x12x2048x64 S2x12x2048x64 S2x12x2048x2048 where
  lhsContracting := [3]
  rhsContracting := [3]
  lhsNonContracting := [2]
  rhsNonContracting := [2]
  lhsBatch := [0, 1]
  rhsBatch := [0, 1]
  wf := dot_S2x12x2048x64_S2x12x2048x64_S2x12x2048x2048_3_3_2_2_01_01_wf
def dot_S2x12x2048x2048_S2x12x2048x64_S2x12x2048x64_3_2_2_3_01_01 : DotDims S2x12x2048x2048 S2x12x2048x64 S2x12x2048x64 where
  lhsContracting := [3]
  rhsContracting := [2]
  lhsNonContracting := [2]
  rhsNonContracting := [3]
  lhsBatch := [0, 1]
  rhsBatch := [0, 1]
  wf := dot_S2x12x2048x2048_S2x12x2048x64_S2x12x2048x64_3_2_2_3_01_01_wf
def dot_S2x2048x768_S768x768_S2x2048x768_2_0_01_1_n_n : DotDims S2x2048x768 S768x768 S2x2048x768 where
  lhsContracting := [2]
  rhsContracting := [0]
  lhsNonContracting := [0, 1]
  rhsNonContracting := [1]
  lhsBatch := []
  rhsBatch := []
  wf := dot_S2x2048x768_S768x768_S2x2048x768_2_0_01_1_n_n_wf
def dot_S2x2048x768_S768x3072_S2x2048x3072_2_0_01_1_n_n : DotDims S2x2048x768 S768x3072 S2x2048x3072 where
  lhsContracting := [2]
  rhsContracting := [0]
  lhsNonContracting := [0, 1]
  rhsNonContracting := [1]
  lhsBatch := []
  rhsBatch := []
  wf := dot_S2x2048x768_S768x3072_S2x2048x3072_2_0_01_1_n_n_wf
def dot_S2x2048x3072_S3072x768_S2x2048x768_2_0_01_1_n_n : DotDims S2x2048x3072 S3072x768 S2x2048x768 where
  lhsContracting := [2]
  rhsContracting := [0]
  lhsNonContracting := [0, 1]
  rhsNonContracting := [1]
  lhsBatch := []
  rhsBatch := []
  wf := dot_S2x2048x3072_S3072x768_S2x2048x768_2_0_01_1_n_n_wf

class Facts : Prop extends Facts₀ where

variable [Facts]
-- ==== Proof.KI.Reg0.lean ====
/- REGION 0 of @main (custom_call 0, the kernel cc0_kernel: a matrix product plus a bias row, rounded to bf16),
   at a PARAMETER V, the TensorCore's buffer contents when the region is entered.

   The kernel body loads its three input windows whole, loads the output window once (a value nothing reads),
   and stores ONE payload, k0_pay1 of the three loaded blocks, over the whole output window. So after the body at a
   point each input's staging buffer still holds its block and the output's holds that payload of the three blocks:
   this is the proof data dat0, and body_obligation0 is the pipeline's obligation for it, at any float
   instance F (payloads are never opened). -/
import proofs.«151460_j71262097375467_2_alg».proof.Proof.Gen.KernelIdeal.Launch
import proofs.«151460_j71262097375467_2_alg».proof.Proof.Gen.KernelIdeal.Skeleton
import proofs.«151460_j71262097375467_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block, fetched at every point): its current staging buffer holds its block
    at every point, for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, one block for the whole grid, fetched at the first point only): at a later
    point the block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block for the whole grid, fetched at the first point only): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window whole -/

abbrev r0_x : Rect S512x768 := Rect.unit (s := S512x768) ![0, 0] S512x768.size inb_S512x768_S512x768_0_0
abbrev r0_w : Rect S768x2304 := Rect.unit (s := S768x2304) ![0, 0] S768x2304.size inb_S768x2304_S768x2304_0_0
abbrev r0_b : Rect S2304 := Rect.unit (s := S2304) ![0] S2304.size inb_S2304_S2304_0
abbrev r0_o : Rect S512x2304 := Rect.unit (s := S512x2304) ![0, 0] S512x2304.size inb_S512x2304_S512x2304_0_0

/-! ## What the body leaves in the output window's buffer -/

/-- The output window's staging buffer after the body, from the input windows' blocks: its one store, the payload
    of the three whole loads, over the whole window. -/
def out0 (x0 : Vec F S512x768 .f32) (x1 : Vec F S768x2304 .f32) (x2 : Vec F S2304 .f32) : Vec F S512x2304 .bf16 :=
  View.canon [⟨r0_o, k0_pay1 (View.ld x0 r0_x) (View.ld x1 r0_w) (View.ld x2 r0_b)⟩]

/-- The one store is the whole window, so it covers it. -/
theorem cover0 (p0 : Vec F S512x2304 .bf16) (y : S512x2304.Idx) :
    ∃ pc ∈ ([⟨r0_o, p0⟩] : List (View.Piece (Elt F) S512x2304 .bf16)), y ∈ pc.1.set :=
  View.cover_of_tiled [⟨r0_o, p0⟩] S512x2304.size (by rfl) y

/-! ## The body's triple -/

set_option maxHeartbeats 1000000 in
/-- The kernel body on whole staging memrefs, the inputs' at read contents x0, x1, x2 and the output's at anything,
    runs to the continuation holding the inputs' as they were and the output's at out0 of the inputs'. -/
theorem sound_kernel0 (c : Dev nD) (E : Set ℕ) (i : grid0.Coords)
    (arg0 : Memref sig .tc .vmem S512x768 .f32) (harg0 : arg0.IsWhole) (arg1 : Memref sig .tc .vmem S768x2304 .f32) (harg1 : arg1.IsWhole)
    (arg2 : Memref sig .tc .vmem S2304 .f32) (harg2 : arg2.IsWhole) (arg3 : Memref sig .tc .vmem S512x2304 .bf16) (harg3 : arg3.IsWhole)
    (x0 : Vec F S512x768 .f32) (x1 : Vec F S768x2304 .f32) (x2 : Vec F S2304 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0 x0 x1 x2)) -∗ K ⟨⟩))
      ⊢ wp frame (wpE (defs₀ (F := F)) Variants.none c none) E (cc0_kernel i arg0 harg0 arg1 harg1 arg2 harg2 arg3 harg3) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0 _)

/-! ## The pipeline's proof data -/

/-- The proof data of pipeline 0 on core c: the arrays as the region finds them (V); after the body at point t
    each input's buffer at its block and the output's at out0 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so sound_kernel0 applies; the invariant and the
    core's owed counts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg2.lean ====
/- REGION 2 of @main (custom_call 2, the kernel cc2_kernel: a matrix product plus a bias row, added to the residual, then normalised along each row and scaled and shifted),
   at a PARAMETER V, the TensorCore's buffer contents when the region is entered.

   The kernel body loads its six input windows whole, loads the output window once (a value nothing reads),
   and stores ONE payload, k2_pay1 of the six loaded blocks, over the whole output window. So after the body at a
   point each input's staging buffer still holds its block and the output's holds that payload of the six blocks:
   this is the proof data dat2, and body_obligation2 is the pipeline's obligation for it, at any float
   instance F (payloads are never opened). -/
import proofs.«151460_j71262097375467_2_alg».proof.Proof.Gen.KernelIdeal.Launch
import proofs.«151460_j71262097375467_2_alg».proof.Proof.Gen.KernelIdeal.Skeleton
import proofs.«151460_j71262097375467_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the residual's row block, fetched at every point): its current staging buffer holds its block at every
    point, fetched there or not (unfetched, the block index has not moved), for any proof data whose array is V's and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the activations' row block, fetched at every point): its current staging buffer holds its block at every
    point, fetched there or not (unfetched, the block index has not moved), for any proof data whose array is V's and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the weight matrix, one block for the whole grid, fetched at the first point only): its current staging buffer holds its block at every
    point, fetched there or not (unfetched, the block index has not moved), for any proof data whose array is V's and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the bias row, one block for the whole grid, fetched at the first point only): its current staging buffer holds its block at every
    point, fetched there or not (unfetched, the block index has not moved), for any proof data whose array is V's and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the normalisation's scale row, one block for the whole grid, fetched at the first point only): its current staging buffer holds its block at every
    point, fetched there or not (unfetched, the block index has not moved), for any proof data whose array is V's and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the normalisation's shift row, one block for the whole grid, fetched at the first point only): its current staging buffer holds its block at every
    point, fetched there or not (unfetched, the block index has not moved), for any proof data whose array is V's and
    whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window whole -/

abbrev r2_0 : Rect S512x768 := Rect.unit (s := S512x768) ![0, 0] S512x768.size inb_S512x768_S512x768_0_0
abbrev r2_1 : Rect S512x768 := Rect.unit (s := S512x768) ![0, 0] S512x768.size inb_S512x768_S512x768_0_0
abbrev r2_2 : Rect S768x768 := Rect.unit (s := S768x768) ![0, 0] S768x768.size inb_S768x768_S768x768_0_0
abbrev r2_3 : Rect S768 := Rect.unit (s := S768) ![0] S768.size inb_S768_S768_0
abbrev r2_4 : Rect S768 := Rect.unit (s := S768) ![0] S768.size inb_S768_S768_0
abbrev r2_5 : Rect S768 := Rect.unit (s := S768) ![0] S768.size inb_S768_S768_0
abbrev r2_o : Rect S512x768 := Rect.unit (s := S512x768) ![0, 0] S512x768.size inb_S512x768_S512x768_0_0

/-! ## What the body leaves in the output window's buffer -/

/-- The output window's staging buffer after the body, from the input windows' blocks (in window order): its one
    store, the payload of the six whole loads (in the order the body reads them), over the whole window. -/
def out2 (x0 : Vec F S512x768 .f32) (x1 : Vec F S512x768 .bf16) (x2 : Vec F S768x768 .f32) (x3 : Vec F S768 .f32) (x4 : Vec F S768 .f32) (x5 : Vec F S768 .f32) : Vec F S512x768 .f32 :=
  View.canon [⟨r2_o, k2_pay1 (View.ld x1 r2_1) (View.ld x2 r2_2) (View.ld x3 r2_3) (View.ld x0 r2_0) (View.ld x4 r2_4) (View.ld x5 r2_5)⟩]

/-- The one store is the whole window, so it covers it. -/
theorem cover2 (p0 : Vec F S512x768 .f32) (y : S512x768.Idx) :
    ∃ pc ∈ ([⟨r2_o, p0⟩] : List (View.Piece (Elt F) S512x768 .f32)), y ∈ pc.1.set :=
  View.cover_of_tiled [⟨r2_o, p0⟩] S512x768.size (by rfl) y

/-! ## The body's triple -/

set_option maxHeartbeats 1000000 in
/-- The kernel body on whole staging memrefs, the inputs' at read contents x0 … x5 and the output's at anything,
    runs to the continuation holding the inputs' as they were and the output's at out2 of the inputs'. -/
theorem sound_kernel2 (c : Dev nD) (E : Set ℕ) (i : grid2.Coords)
    (arg0 : Memref sig .tc .vmem S512x768 .f32) (harg0 : arg0.IsWhole) (arg1 : Memref sig .tc .vmem S512x768 .bf16) (harg1 : arg1.IsWhole) (arg2 : Memref sig .tc .vmem S768x768 .f32) (harg2 : arg2.IsWhole) (arg3 : Memref sig .tc .vmem S768 .f32) (harg3 : arg3.IsWhole) (arg4 : Memref sig .tc .vmem S768 .f32) (harg4 : arg4.IsWhole) (arg5 : Memref sig .tc .vmem S768 .f32) (harg5 : arg5.IsWhole) (arg6 : Memref sig .tc .vmem S512x768 .f32) (harg6 : arg6.IsWhole)
    (x0 : Vec F S512x768 .f32) (x1 : Vec F S512x768 .bf16) (x2 : Vec F S768x768 .f32) (x3 : Vec F S768 .f32) (x4 : Vec F S768 .f32) (x5 : Vec F S768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2 x0 x1 x2 x3 x4 x5)) -∗ K ⟨⟩))
      ⊢ wp frame (wpE (defs₀ (F := F)) Variants.none c none) E (cc2_kernel i arg0 harg0 arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2 _)

/-! ## The pipeline's proof data -/

/-- The proof data of pipeline 2 on core c: the arrays as the region finds them (V); after the body at point t
    each input's buffer at its block and the output's at out2 of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so sound_kernel2 applies; the invariant and the
    core's owed counts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/- REGION 3 of @main (custom_call 3, the kernel cc3_kernel: a matrix product plus a bias row, then the maximum with zero, rounded to bf16),
   at a PARAMETER V, the TensorCore's buffer contents when the region is entered.

   The kernel body loads its three input windows whole, loads the output window once (a value nothing reads),
   and stores ONE payload, k3_pay1 of the three loaded blocks, over the whole output window. So after the body at a
   point each input's staging buffer still holds its block and the output's holds that payload of the three blocks:
   this is the proof data dat3, and body_obligation3 is the pipeline's obligation for it, at any float
   instance F (payloads are never opened). -/
import proofs.«151460_j71262097375467_2_alg».proof.Proof.Gen.KernelIdeal.Launch
import proofs.«151460_j71262097375467_2_alg».proof.Proof.Gen.KernelIdeal.Skeleton
import proofs.«151460_j71262097375467_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the activations' row block, fetched at every point): its current staging buffer holds its block
    at every point, for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weight matrix, one block for the whole grid, fetched at the first point only): at a later
    point the block index has not moved, so the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the bias row, one block for the whole grid, fetched at the first point only): likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window whole -/

abbrev r3_x : Rect S512x768 := Rect.unit (s := S512x768) ![0, 0] S512x768.size inb_S512x768_S512x768_0_0
abbrev r3_w : Rect S768x3072 := Rect.unit (s := S768x3072) ![0, 0] S768x3072.size inb_S768x3072_S768x3072_0_0
abbrev r3_b : Rect S3072 := Rect.unit (s := S3072) ![0] S3072.size inb_S3072_S3072_0
abbrev r3_o : Rect S512x3072 := Rect.unit (s := S512x3072) ![0, 0] S512x3072.size inb_S512x3072_S512x3072_0_0

/-! ## What the body leaves in the output window's buffer -/

/-- The output window's staging buffer after the body, from the input windows' blocks: its one store, the payload
    of the three whole loads, over the whole window. -/
def out3 (x0 : Vec F S512x768 .f32) (x1 : Vec F S768x3072 .f32) (x2 : Vec F S3072 .f32) : Vec F S512x3072 .bf16 :=
  View.canon [⟨r3_o, k3_pay1 (View.ld x0 r3_x) (View.ld x1 r3_w) (View.ld x2 r3_b)⟩]

/-- The one store is the whole window, so it covers it. -/
theorem cover3 (p0 : Vec F S512x3072 .bf16) (y : S512x3072.Idx) :
    ∃ pc ∈ ([⟨r3_o, p0⟩] : List (View.Piece (Elt F) S512x3072 .bf16)), y ∈ pc.1.set :=
  View.cover_of_tiled [⟨r3_o, p0⟩] S512x3072.size (by rfl) y

/-! ## The body's triple -/

set_option maxHeartbeats 1000000 in
/-- The kernel body on whole staging memrefs, the inputs' at read contents x0, x1, x2 and the output's at anything,
    runs to the continuation holding the inputs' as they were and the output's at out3 of the inputs'. -/
theorem sound_kernel3 (c : Dev nD) (E : Set ℕ) (i : grid3.Coords)
    (arg0 : Memref sig .tc .vmem S512x768 .f32) (harg0 : arg0.IsWhole) (arg1 : Memref sig .tc .vmem S768x3072 .f32) (harg1 : arg1.IsWhole)
    (arg2 : Memref sig .tc .vmem S3072 .f32) (harg2 : arg2.IsWhole) (arg3 : Memref sig .tc .vmem S512x3072 .bf16) (harg3 : arg3.IsWhole)
    (x0 : Vec F S512x768 .f32) (x1 : Vec F S768x3072 .f32) (x2 : Vec F S3072 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3 x0 x1 x2)) -∗ K ⟨⟩))
      ⊢ wp frame (wpE (defs₀ (F := F)) Variants.none c none) E (cc3_kernel i arg0 harg0 arg1 harg1 arg2 harg2 arg3 harg3) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3 _)

/-! ## The pipeline's proof data -/

/-- The proof data of pipeline 3 on core c: the arrays as the region finds them (V); after the body at point t
    each input's buffer at its block and the output's at out3 of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so sound_kernel3 applies; the invariant and the
    core's owed counts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/- REGION 4 of @main (custom_call 4, the kernel cc4_kernel: a matrix product plus a bias row, added to the residual, then normalised along each row and scaled and shifted),
   at a PARAMETER V, the TensorCore's buffer contents when the region is entered.

   The kernel body loads its six input windows whole, loads the output window once (a value nothing reads),
   and stores ONE payload, k4_pay1 of the six loaded blocks, over the whole output window. So after the body at a
   point each input's staging buffer still holds its block and the output's holds that payload of the six blocks:
   this is the proof data dat4, and body_obligation4 is the pipeline's obligation for it, at any float
   instance F (payloads are never opened). -/
import proofs.«151460_j71262097375467_2_alg».proof.Proof.Gen.KernelIdeal.Launch
import proofs.«151460_j71262097375467_2_alg».proof.Proof.Gen.KernelIdeal.Skeleton
import proofs.«151460_j71262097375467_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the residual's row block, fetched at every point): its current staging buffer holds its block at every
    point, fetched there or not (unfetched, the block index has not moved), for any proof data whose array is V's and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the activations' row block, fetched at every point): its current staging buffer holds its block at every
    point, fetched there or not (unfetched, the block index has not moved), for any proof data whose array is V's and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the weight matrix, one block for the whole grid, fetched at the first point only): its current staging buffer holds its block at every
    point, fetched there or not (unfetched, the block index has not moved), for any proof data whose array is V's and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the bias row, one block for the whole grid, fetched at the first point only): its current staging buffer holds its block at every
    point, fetched there or not (unfetched, the block index has not moved), for any proof data whose array is V's and
    whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the normalisation's scale row, one block for the whole grid, fetched at the first point only): its current staging buffer holds its block at every
    point, fetched there or not (unfetched, the block index has not moved), for any proof data whose array is V's and
    whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5 (the normalisation's shift row, one block for the whole grid, fetched at the first point only): its current staging buffer holds its block at every
    point, fetched there or not (unfetched, the block index has not moved), for any proof data whose array is V's and
    whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each window whole -/

abbrev r4_0 : Rect S512x768 := Rect.unit (s := S512x768) ![0, 0] S512x768.size inb_S512x768_S512x768_0_0
abbrev r4_1 : Rect S512x3072 := Rect.unit (s := S512x3072) ![0, 0] S512x3072.size inb_S512x3072_S512x3072_0_0
abbrev r4_2 : Rect S3072x768 := Rect.unit (s := S3072x768) ![0, 0] S3072x768.size inb_S3072x768_S3072x768_0_0
abbrev r4_3 : Rect S768 := Rect.unit (s := S768) ![0] S768.size inb_S768_S768_0
abbrev r4_4 : Rect S768 := Rect.unit (s := S768) ![0] S768.size inb_S768_S768_0
abbrev r4_5 : Rect S768 := Rect.unit (s := S768) ![0] S768.size inb_S768_S768_0
abbrev r4_o : Rect S512x768 := Rect.unit (s := S512x768) ![0, 0] S512x768.size inb_S512x768_S512x768_0_0

/-! ## What the body leaves in the output window's buffer -/

/-- The output window's staging buffer after the body, from the input windows' blocks (in window order): its one
    store, the payload of the six whole loads (in the order the body reads them), over the whole window. -/
def out4 (x0 : Vec F S512x768 .f32) (x1 : Vec F S512x3072 .bf16) (x2 : Vec F S3072x768 .f32) (x3 : Vec F S768 .f32) (x4 : Vec F S768 .f32) (x5 : Vec F S768 .f32) : Vec F S512x768 .f32 :=
  View.canon [⟨r4_o, k4_pay1 (View.ld x1 r4_1) (View.ld x2 r4_2) (View.ld x3 r4_3) (View.ld x0 r4_0) (View.ld x4 r4_4) (View.ld x5 r4_5)⟩]

/-- The one store is the whole window, so it covers it. -/
theorem cover4 (p0 : Vec F S512x768 .f32) (y : S512x768.Idx) :
    ∃ pc ∈ ([⟨r4_o, p0⟩] : List (View.Piece (Elt F) S512x768 .f32)), y ∈ pc.1.set :=
  View.cover_of_tiled [⟨r4_o, p0⟩] S512x768.size (by rfl) y

/-! ## The body's triple -/

set_option maxHeartbeats 1000000 in
/-- The kernel body on whole staging memrefs, the inputs' at read contents x0 … x5 and the output's at anything,
    runs to the continuation holding the inputs' as they were and the output's at out4 of the inputs'. -/
theorem sound_kernel4 (c : Dev nD) (E : Set ℕ) (i : grid4.Coords)
    (arg0 : Memref sig .tc .vmem S512x768 .f32) (harg0 : arg0.IsWhole) (arg1 : Memref sig .tc .vmem S512x3072 .bf16) (harg1 : arg1.IsWhole) (arg2 : Memref sig .tc .vmem S3072x768 .f32) (harg2 : arg2.IsWhole) (arg3 : Memref sig .tc .vmem S768 .f32) (harg3 : arg3.IsWhole) (arg4 : Memref sig .tc .vmem S768 .f32) (harg4 : arg4.IsWhole) (arg5 : Memref sig .tc .vmem S768 .f32) (harg5 : arg5.IsWhole) (arg6 : Memref sig .tc .vmem S512x768 .f32) (harg6 : arg6.IsWhole)
    (x0 : Vec F S512x768 .f32) (x1 : Vec F S512x3072 .bf16) (x2 : Vec F S3072x768 .f32) (x3 : Vec F S768 .f32) (x4 : Vec F S768 .f32) (x5 : Vec F S768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out4 x0 x1 x2 x3 x4 x5)) -∗ K ⟨⟩))
      ⊢ wp frame (wpE (defs₀ (F := F)) Variants.none c none) E (cc4_kernel i arg0 harg0 arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover4 _)

/-! ## The pipeline's proof data -/

/-- The proof data of pipeline 4 on core c: the arrays as the region finds them (V); after the body at point t
    each input's buffer at its block and the output's at out4 of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so sound_kernel4 applies; the invariant and the
    core's owed counts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Attn.Runs.lean ====
/-
  Causal attention, one (batch·head, query tile) group of four key-tile points at a time: what the tile-by-tile
  body shares across its five control cases. The three conditionals read only the grid coordinates — key tile 0
  (reset the running maximum, the denominator and the numerator), key tile ≤ query tile (one online-softmax step),
  key tile = query tile (divide and store the output tile) — so each is decided over the grid in closed form.
-/
import proofs.«151460_j71262097375467_2_alg».proof.Proof.Gen.KernelIdeal.Launch
import proofs.«151460_j71262097375467_2_alg».proof.Proof.Gen.KernelIdeal.Skeleton
import proofs.«151460_j71262097375467_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three conditions, decided over the grid (point t = (bh·4 + qi)·4 + ki) -/

/-- Key tile 0: the accumulators are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- Key tile at or before the query tile: one step of the running softmax. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
/-- Key tile = query tile (the diagonal, the last tile that contributes): the output tile is stored. -/
abbrev cond1_2 (i : grid1.Coords) : Prop := k1_cond3 i = 1#1
theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output tile is stored exactly on the diagonal. -/
theorem idleAt1_3 : ∀ t : Fin cfg1.N, ¬cond1_2 (grid1.coords t) → cfg1.idle 3 (grid1.coords t) = true := by decide +kernel
theorem liveAt1_3 : ∀ t : Fin cfg1.N, cond1_2 (grid1.coords t) → cfg1.idle 3 (grid1.coords t) = false := by decide +kernel
/-- It is written back after the group's last point. -/
theorem flushAt1_3 : ∀ t : Fin cfg1.N, (cfg1.win 3).flush t = true ↔ t.val % 4 = 3 := flush1_3
theorem noFlush1_3 (t : Fin cfg1.N) (h : ¬ t.val % 4 = 3) : (cfg1.win 3).flush t = false := by
  cases hf : (cfg1.win 3).flush t with
  | false => rfl
  | true => exact absurd ((flushAt1_3 t).mp hf) h

/-! ## The memrefs the body is called with -/

abbrev VO1_3 : View sig .tc .vmem S1x512x64 .bf16 := (Memref.whole cc1_stg3_0 : Memref sig .tc .vmem S1x512x64 .bf16).view
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .bf16 := win1_3.stage (cfg1.slots t 3)
abbrev hs1_3 (t : Fin cfg1.N) : (ms1_3 t).IsWhole := hstage1_3 ((cfg1.slots t 3).cast nbuf1_3)
/-- The running maximum, the denominator and the numerator: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2
abbrev VS1_0 : View sig .tc .vmem S512x1 .f32 := scM1_0.view
abbrev VS1_1 : View sig .tc .vmem S512x1 .f32 := scM1_1.view
abbrev VS1_2 : View sig .tc .vmem S512x64 .f32 := scM1_2.view

/-- What is left of the scoped buffers once the three accumulators are taken out. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ restBut1 (F := F) c) ∗ (∃ r, prngReg c r)) := by
  unfold Pipeline.ΦA; rw [scopedRest1_split]; simp only [scM1_0, scM1_1, scM1_2, owns_whole]; try rfl

end Cert.KernelIdeal.Hand

end
-- ==== Proof.KI.Attn.RunA.lean ====
import proofs.«151460_j71262097375467_2_alg».proof.Proof.KI.Attn.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The first key tile of the first query tile (reset, one step, output stored): the pieces the stores leave in
    the output tile and in the three accumulators, with the body's triple — the accumulators and the output tile
    at anything on entry. -/
noncomputable def kernelRun1_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : cond1_2 i)
    (x0 x1 x2 : Vec F S1x512x64 .bf16) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; iexact HS0
    isplitl [HS1]
    · iexists _; iexact HS1
    iexists _; iexact HS2

end Cert.KernelIdeal.Hand

end
-- ==== Proof.KI.Attn.RunB.lean ====
import proofs.«151460_j71262097375467_2_alg».proof.Proof.KI.Attn.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The first key tile of a later query tile (reset, one step, no output store): the pieces left in the three
    accumulators, the output tile handed back untouched. -/
noncomputable def kernelRun1_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) :
    Σ' (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.KernelIdeal.Hand

end
-- ==== Proof.KI.Attn.RunC.lean ====
import proofs.«151460_j71262097375467_2_alg».proof.Proof.KI.Attn.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A key tile strictly between the first and the diagonal (no reset, one step, no output store): what the step's
    three stores leave in the running maximum, the denominator and the numerator, as pieces, with the body's triple
    on whole memrefs — the inputs at their blocks, the output tile handed back untouched, the accumulators at what
    the point before left. -/
noncomputable def kernelRun1_C (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xs0 xs1 : Vec F S512x1 .f32) (xs2 : Vec F S512x64 .f32) :
    Σ' (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.KernelIdeal.Hand

end
-- ==== Proof.KI.Attn.RunD.lean ====
import proofs.«151460_j71262097375467_2_alg».proof.Proof.KI.Attn.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The diagonal key tile of a later query tile (no reset, one step, output stored): the pieces left in the output
    tile and the three accumulators, from what the point before left in the accumulators. -/
noncomputable def kernelRun1_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xs0 xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; iexact HS0
    isplitl [HS1]
    · iexists _; iexact HS1
    iexists _; iexact HS2

end Cert.KernelIdeal.Hand

end
-- ==== Proof.KI.Attn.RunE.lean ====
import proofs.«151460_j71262097375467_2_alg».proof.Proof.KI.Attn.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A key tile past the diagonal (every entry masked): the body does nothing; every memref is handed back as found. -/
theorem kernelRun1_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (x0 x1 x2 : Vec F S1x512x64 .bf16) (xs0 xs1 : Vec F S512x1 .f32) (xs2 : Vec F S512x64 .f32)
    (xi3 : Vec F S1x512x64 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K := by
    simp only [cc1_kernel_eq_skeleton]; unfold cc1_kernel_skel
    unfold owns
    iintro ⟨H0, H1, H2, H3, HS0, HS1, HS2, Hk⟩
    sl_exec (disch := first | exact hc0 | exact hc1 | exact hc2)
    sl_step
    iapply Hk
    isplitl [H0]; · iexact H0
    isplitl [H1]; · iexact H1
    isplitl [H2]; · iexact H2
    isplitl [H3]; · iexact H3
    isplitl [HS0]; · iexact HS0
    isplitl [HS1]; · iexact HS1
    iexact HS2

end Cert.KernelIdeal.Hand

end
-- ==== Proof.KI.Attn.Frame.lean ====
/-
  Causal attention, the region's proof data. After each grid point the running maximum, the denominator and the
  numerator hold one more online-softmax step over the key tiles 0 … min(ki, qi) of the point's (batch·head, query
  tile) group; the output tile holds numerator / denominator from the diagonal point on, and is carried unchanged
  through the masked points after it until the group's last point writes it back.
-/
import proofs.«151460_j71262097375467_2_alg».proof.Proof.KI.Attn.RunA
import proofs.«151460_j71262097375467_2_alg».proof.Proof.KI.Attn.RunB
import proofs.«151460_j71262097375467_2_alg».proof.Proof.KI.Attn.RunC
import proofs.«151460_j71262097375467_2_alg».proof.Proof.KI.Attn.RunD
import proofs.«151460_j71262097375467_2_alg».proof.Proof.KI.Attn.RunE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The output tile and the three accumulators. -/
abbrev St1 (F : FTy → Type) [FloatOps F] : Type := Vec F S1x512x64 .bf16 × Vec F S512x1 .f32 × Vec F S512x1 .f32 × Vec F S512x64 .f32

/-! ## The five cases at a point of the grid -/

def ptA (c : Dev nD) (t : Fin cfg1.N) (h0 : t.val % 4 = 0) (h2 : t.val % 4 = t.val / 4 % 4) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (le_of_eq h2)) ((hcond1_2 t).mpr h2) (iblk1 V c 0 t) (iblk1 V c 1 t) (iblk1 V c 2 t)
def ptB (c : Dev nD) (t : Fin cfg1.N) (h0 : t.val % 4 = 0) (h2 : ¬t.val % 4 = t.val / 4 % 4) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => h2 ((hcond1_2 t).mp h)) (iblk1 V c 0 t) (iblk1 V c 1 t) (iblk1 V c 2 t)
def ptC (c : Dev nD) (t : Fin cfg1.N) (h0 : ¬t.val % 4 = 0) (h1 : t.val % 4 ≤ t.val / 4 % 4) (h2 : ¬t.val % 4 = t.val / 4 % 4) (s : St1 F) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) s.2.1 s.2.2.1 s.2.2.2
def ptD (c : Dev nD) (t : Fin cfg1.N) (h0 : ¬t.val % 4 = 0) (h2 : t.val % 4 = t.val / 4 % 4) (s : St1 F) :=
  kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr (le_of_eq h2)) ((hcond1_2 t).mpr h2) (iblk1 V c 0 t) (iblk1 V c 1 t) (iblk1 V c 2 t) s.2.1 s.2.2.1 s.2.2.2

/-- What a list of pieces leaves in a buffer, read back. -/
abbrev rdO (L : List (View.Piece (Elt F) S1x512x64 .bf16)) : Vec F S1x512x64 .bf16 := VO1_3.read (Elt F) (VO1_3.writes (Elt F) VO1_3.junk L)
abbrev rdM (L : List (View.Piece (Elt F) S512x1 .f32)) : Vec F S512x1 .f32 := VS1_0.read (Elt F) (VS1_0.writes (Elt F) VS1_0.junk L)
abbrev rdL (L : List (View.Piece (Elt F) S512x1 .f32)) : Vec F S512x1 .f32 := VS1_1.read (Elt F) (VS1_1.writes (Elt F) VS1_1.junk L)
abbrev rdA (L : List (View.Piece (Elt F) S512x64 .f32)) : Vec F S512x64 .f32 := VS1_2.read (Elt F) (VS1_2.writes (Elt F) VS1_2.junk L)

def stA (c : Dev nD) (t : Fin cfg1.N) (h0 : t.val % 4 = 0) (h2 : t.val % 4 = t.val / 4 % 4) : St1 F :=
  (rdO (ptA V c t h0 h2).1, rdM (ptA V c t h0 h2).2.1, rdL (ptA V c t h0 h2).2.2.1, rdA (ptA V c t h0 h2).2.2.2.1)
def stB (c : Dev nD) (t : Fin cfg1.N) (h0 : t.val % 4 = 0) (h2 : ¬t.val % 4 = t.val / 4 % 4) (s : St1 F) : St1 F :=
  (s.1, rdM (ptB V c t h0 h2).1, rdL (ptB V c t h0 h2).2.1, rdA (ptB V c t h0 h2).2.2.1)
def stC (c : Dev nD) (t : Fin cfg1.N) (h0 : ¬t.val % 4 = 0) (h1 : t.val % 4 ≤ t.val / 4 % 4) (h2 : ¬t.val % 4 = t.val / 4 % 4) (s : St1 F) : St1 F :=
  (s.1, rdM (ptC V c t h0 h1 h2 s).1, rdL (ptC V c t h0 h1 h2 s).2.1, rdA (ptC V c t h0 h1 h2 s).2.2.1)
def stD (c : Dev nD) (t : Fin cfg1.N) (h0 : ¬t.val % 4 = 0) (h2 : t.val % 4 = t.val / 4 % 4) (s : St1 F) : St1 F :=
  (rdO (ptD V c t h0 h2 s).1, rdM (ptD V c t h0 h2 s).2.1, rdL (ptD V c t h0 h2 s).2.2.1, rdA (ptD V c t h0 h2 s).2.2.2.1)

/-! ## The pieces tile their buffers -/

theorem coverA_3 (c : Dev nD) (t : Fin cfg1.N) (h0) (h2) (y : S1x512x64.Idx) : ∃ pc ∈ (ptA (F := F) V c t h0 h2).1, y ∈ pc.1.set :=
  View.cover_of_tiledL (ptA V c t h0 h2).1 S1x512x64.size (by unfold ptA; sl_kernel_rfl) y
theorem coverA_s0 (c : Dev nD) (t : Fin cfg1.N) (h0) (h2) (y : S512x1.Idx) : ∃ pc ∈ (ptA (F := F) V c t h0 h2).2.1, y ∈ pc.1.set :=
  View.cover_of_tiledL (ptA V c t h0 h2).2.1 S512x1.size (by unfold ptA; sl_kernel_rfl) y
theorem coverA_s1 (c : Dev nD) (t : Fin cfg1.N) (h0) (h2) (y : S512x1.Idx) : ∃ pc ∈ (ptA (F := F) V c t h0 h2).2.2.1, y ∈ pc.1.set :=
  View.cover_of_tiledL (ptA V c t h0 h2).2.2.1 S512x1.size (by unfold ptA; sl_kernel_rfl) y
theorem coverA_s2 (c : Dev nD) (t : Fin cfg1.N) (h0) (h2) (y : S512x64.Idx) : ∃ pc ∈ (ptA (F := F) V c t h0 h2).2.2.2.1, y ∈ pc.1.set :=
  View.cover_of_tiledL (ptA V c t h0 h2).2.2.2.1 S512x64.size (by unfold ptA; sl_kernel_rfl) y
theorem coverB_s0 (c : Dev nD) (t : Fin cfg1.N) (h0) (h2) (y : S512x1.Idx) : ∃ pc ∈ (ptB (F := F) V c t h0 h2).1, y ∈ pc.1.set :=
  View.cover_of_tiledL (ptB V c t h0 h2).1 S512x1.size (by unfold ptB; sl_kernel_rfl) y
theorem coverB_s1 (c : Dev nD) (t : Fin cfg1.N) (h0) (h2) (y : S512x1.Idx) : ∃ pc ∈ (ptB (F := F) V c t h0 h2).2.1, y ∈ pc.1.set :=
  View.cover_of_tiledL (ptB V c t h0 h2).2.1 S512x1.size (by unfold ptB; sl_kernel_rfl) y
theorem coverB_s2 (c : Dev nD) (t : Fin cfg1.N) (h0) (h2) (y : S512x64.Idx) : ∃ pc ∈ (ptB (F := F) V c t h0 h2).2.2.1, y ∈ pc.1.set :=
  View.cover_of_tiledL (ptB V c t h0 h2).2.2.1 S512x64.size (by unfold ptB; sl_kernel_rfl) y
theorem coverC_s0 (c : Dev nD) (t : Fin cfg1.N) (h0) (h1) (h2) (s : St1 F) (y : S512x1.Idx) : ∃ pc ∈ (ptC (F := F) V c t h0 h1 h2 s).1, y ∈ pc.1.set :=
  View.cover_of_tiledL (ptC V c t h0 h1 h2 s).1 S512x1.size (by unfold ptC; sl_kernel_rfl) y
theorem coverC_s1 (c : Dev nD) (t : Fin cfg1.N) (h0) (h1) (h2) (s : St1 F) (y : S512x1.Idx) : ∃ pc ∈ (ptC (F := F) V c t h0 h1 h2 s).2.1, y ∈ pc.1.set :=
  View.cover_of_tiledL (ptC V c t h0 h1 h2 s).2.1 S512x1.size (by unfold ptC; sl_kernel_rfl) y
theorem coverC_s2 (c : Dev nD) (t : Fin cfg1.N) (h0) (h1) (h2) (s : St1 F) (y : S512x64.Idx) : ∃ pc ∈ (ptC (F := F) V c t h0 h1 h2 s).2.2.1, y ∈ pc.1.set :=
  View.cover_of_tiledL (ptC V c t h0 h1 h2 s).2.2.1 S512x64.size (by unfold ptC; sl_kernel_rfl) y
theorem coverD_3 (c : Dev nD) (t : Fin cfg1.N) (h0) (h2) (s : St1 F) (y : S1x512x64.Idx) : ∃ pc ∈ (ptD (F := F) V c t h0 h2 s).1, y ∈ pc.1.set :=
  View.cover_of_tiledL (ptD V c t h0 h2 s).1 S1x512x64.size (by unfold ptD; sl_kernel_rfl) y
theorem coverD_s0 (c : Dev nD) (t : Fin cfg1.N) (h0) (h2) (s : St1 F) (y : S512x1.Idx) : ∃ pc ∈ (ptD (F := F) V c t h0 h2 s).2.1, y ∈ pc.1.set :=
  View.cover_of_tiledL (ptD V c t h0 h2 s).2.1 S512x1.size (by unfold ptD; sl_kernel_rfl) y
theorem coverD_s1 (c : Dev nD) (t : Fin cfg1.N) (h0) (h2) (s : St1 F) (y : S512x1.Idx) : ∃ pc ∈ (ptD (F := F) V c t h0 h2 s).2.2.1, y ∈ pc.1.set :=
  View.cover_of_tiledL (ptD V c t h0 h2 s).2.2.1 S512x1.size (by unfold ptD; sl_kernel_rfl) y
theorem coverD_s2 (c : Dev nD) (t : Fin cfg1.N) (h0) (h2) (s : St1 F) (y : S512x64.Idx) : ∃ pc ∈ (ptD (F := F) V c t h0 h2 s).2.2.2.1, y ∈ pc.1.set :=
  View.cover_of_tiledL (ptD V c t h0 h2 s).2.2.2.1 S512x64.size (by unfold ptD; sl_kernel_rfl) y

/-! ## The state after each point -/

/-- The output tile and the accumulators after the body at position `n`: by the point's case, over what the
    point before left; a masked point changes nothing. -/
def outsAt1 (c : Dev nD) : (n : ℕ) → n < cfg1.N → St1 F
  | 0, hn => stA V c ⟨0, hn⟩ (Nat.zero_mod _) (by show 0 % 4 = 0 / 4 % 4; rfl)
  | n + 1, hn =>
    if h0 : (n + 1) % 4 = 0 then
      if h2 : (n + 1) % 4 = (n + 1) / 4 % 4 then stA V c ⟨n + 1, hn⟩ h0 h2
      else stB V c ⟨n + 1, hn⟩ h0 h2 (outsAt1 c n (Nat.lt_of_succ_lt hn))
    else if h1 : (n + 1) % 4 ≤ (n + 1) / 4 % 4 then
      if h2 : (n + 1) % 4 = (n + 1) / 4 % 4 then stD V c ⟨n + 1, hn⟩ h0 h2 (outsAt1 c n (Nat.lt_of_succ_lt hn))
      else stC V c ⟨n + 1, hn⟩ h0 h1 h2 (outsAt1 c n (Nat.lt_of_succ_lt hn))
    else outsAt1 c n (Nat.lt_of_succ_lt hn)

/-- The state the point before left (anything at the first point: never consulted there). -/
abbrev prev1 (c : Dev nD) (t : Fin cfg1.N) : St1 F := outsAt1 V c (t.val - 1) (Nat.lt_of_le_of_lt (Nat.sub_le _ _) t.isLt)

theorem outsAt1_A (c : Dev nD) (t : Fin cfg1.N) (h0 : t.val % 4 = 0) (h2 : t.val % 4 = t.val / 4 % 4) :
    outsAt1 V c t.val t.isLt = stA V c t h0 h2 := by
  obtain ⟨n, hn⟩ := t
  cases n with
  | zero => rfl
  | succ n => exact (dif_pos h0).trans (dif_pos h2)
theorem outsAt1_B (c : Dev nD) (t : Fin cfg1.N) (h0 : t.val % 4 = 0) (h2 : ¬t.val % 4 = t.val / 4 % 4) :
    outsAt1 V c t.val t.isLt = stB V c t h0 h2 (prev1 V c t) := by
  obtain ⟨n, hn⟩ := t
  cases n with
  | zero => exact absurd (by show 0 % 4 = 0 / 4 % 4; rfl) h2
  | succ n => exact (dif_pos h0).trans (dif_neg h2)
theorem outsAt1_C (c : Dev nD) (t : Fin cfg1.N) (h0 : ¬t.val % 4 = 0) (h1 : t.val % 4 ≤ t.val / 4 % 4) (h2 : ¬t.val % 4 = t.val / 4 % 4) :
    outsAt1 V c t.val t.isLt = stC V c t h0 h1 h2 (prev1 V c t) := by
  obtain ⟨n, hn⟩ := t
  cases n with
  | zero => exact absurd (Nat.zero_mod _) h0
  | succ n => exact (dif_neg h0).trans ((dif_pos h1).trans (dif_neg h2))
theorem outsAt1_D (c : Dev nD) (t : Fin cfg1.N) (h0 : ¬t.val % 4 = 0) (h2 : t.val % 4 = t.val / 4 % 4) :
    outsAt1 V c t.val t.isLt = stD V c t h0 h2 (prev1 V c t) := by
  obtain ⟨n, hn⟩ := t
  cases n with
  | zero => exact absurd (Nat.zero_mod _) h0
  | succ n => exact (dif_neg h0).trans ((dif_pos (le_of_eq h2)).trans (dif_pos h2))
theorem outsAt1_E (c : Dev nD) (t : Fin cfg1.N) (h1 : ¬t.val % 4 ≤ t.val / 4 % 4) :
    outsAt1 V c t.val t.isLt = prev1 V c t := by
  obtain ⟨n, hn⟩ := t
  cases n with
  | zero => exact absurd (Nat.zero_le _) h1
  | succ n => exact (dif_neg (fun h0 => h1 (by rw [h0]; exact Nat.zero_le _))).trans (dif_neg h1)

/-! ## The region invariant and the proof data -/

/-- Before the first point the class invariant (every scoped buffer at anything); afterwards the three accumulators
    at what the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2)
      ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2)
      ∗ restBut1 (F := F) c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2)
      ∗ restBut1 (F := F) c) ∗ (∃ r, prngReg c r)) := by
  cases n with
  | zero => exact absurd rfl hz
  | succ n => rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The output tile through the masked points -/

/-- At a masked point (key tile past the diagonal) the output window's staging buffer holds what the point before
    left: the diagonal point's tile, carried through the masked points between (none of them writes it back). -/
theorem before1_3_masked (c : Dev nD) : ∀ (n : ℕ) (hn : n < cfg1.N), ¬n % 4 ≤ n / 4 % 4 → ∀ d,
    (dat1 V c).before 3 ⟨n, hn⟩ d = (outsAt1 V c (n - 1) (Nat.lt_of_le_of_lt (Nat.sub_le _ _) hn)).1 := by
  intro n
  induction n with
  | zero => intro hn h; exact absurd (Nat.zero_le _) h
  | succ n ih =>
    intro hn h1 d
    have hn' : n < cfg1.N := Nat.lt_of_succ_lt hn
    rw [Dat.before_of_pos (dat1 V c) 3 ⟨n + 1, hn⟩ (Nat.succ_ne_zero n) ((cfg1.win 3).fetch_out rfl _) d]
    rw [show (⟨(⟨n + 1, hn⟩ : Fin cfg1.N).val - 1, Nat.lt_of_le_of_lt (Nat.sub_le _ _) (⟨n + 1, hn⟩ : Fin cfg1.N).isLt⟩ : Fin cfg1.N) = ⟨n, hn'⟩ from rfl]
    rw [noFlush1_3 ⟨n, hn'⟩ (by show ¬ n % 4 = 3; omega), if_neg Bool.false_ne_true]
    show (dat1 V c).left 3 ⟨n, hn'⟩ d = (outsAt1 V c n hn').1
    unfold Dat.left
    by_cases hl : n % 4 = n / 4 % 4
    · rw [liveAt1_3 ⟨n, hn'⟩ ((hcond1_2 ⟨n, hn'⟩).mpr hl)]
      show (dat1 V c).kept 3 ⟨n, hn'⟩ d = _
      unfold Dat.kept
      rw [Pipeline.fill_of_clip_none 3 _ (fun _ => rfl) d ((dat1 V c).after 3 ⟨n, hn'⟩) _, Window.fill_cut, after1_3]
    · rw [idleAt1_3 ⟨n, hn'⟩ (fun h => hl ((hcond1_2 ⟨n, hn'⟩).mp h))]
      show (dat1 V c).before 3 ⟨n, hn'⟩ d = _
      have hm : ¬n % 4 ≤ n / 4 % 4 := by omega
      rw [ih hn' hm d]
      exact (congrArg Prod.fst (outsAt1_E V c ⟨n, hn'⟩ hm)).symm

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which of the five cases the point is in; that case's run applies,
    the invariant handing it the accumulators at what the point before left (at anything at the first point) and
    taking them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 384 := lt_of_lt_of_eq t.isLt (show cfg1.N = 384 from N_1)
  by_cases h0 : t.val % 4 = 0
  · by_cases h2 : t.val % 4 = t.val / 4 % 4
    · -- the first key tile of the first query tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_2 t).mpr h2)], after1_3]
      rw [outsAt1_A V c t h0 h2]
      unfold stA; (try dsimp only)
      by_cases hz : t.val = 0
      · rw [PhiS1_castSucc V c t, PhiS1_zero V c _ _ hz, PhiA1_eq]
        iintro ⟨⟨⟨⟨HS0, HS1, HS2⟩, Hr⟩, Hg⟩, Ho, ⟨%d0, H0⟩, ⟨%d1, H1⟩, ⟨%d2, H2⟩, ⟨%d3, H3⟩⟩
        iapply ((ptA V c t h0 h2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (coverA_s0 V c t h0 h2)
              isplitl [HS1]
              · unfold owns; iexists _; isplitr
                swap; · iexact HS1
                ipureintro; exact View.read_writes_of_cover _ _ _ _ _ (coverA_s1 V c t h0 h2)
              unfold owns; iexists _; isplitr
              swap; · iexact HS2
              ipureintro; exact View.read_writes_of_cover _ _ _ _ _ (coverA_s2 V c t h0 h2)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverA_3 V c t h0 h2)
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩⟩
        iapply ((ptA V c t h0 h2).2.2.2.2 Set.univ _)
        isplitl [H0]; · iexact H0
        isplitl [H1]; · iexact H1
        isplitl [H2]; · iexact H2
        isplitl [H3]; · iexists _; iexact H3
        isplitl [HS0]; · iexists _; iexact HS0
        isplitl [HS1]; · iexists _; iexact HS1
        isplitl [HS2]; · iexists _; iexact HS2
        iintro ⟨H0, H1, H2, ⟨%e3, H3⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (coverA_s0 V c t h0 h2)
              isplitl [HS1]
              · unfold owns; iexists _; isplitr
                swap; · iexact HS1
                ipureintro; exact View.read_writes_of_cover _ _ _ _ _ (coverA_s1 V c t h0 h2)
              unfold owns; iexists _; isplitr
              swap; · iexact HS2
              ipureintro; exact View.read_writes_of_cover _ _ _ _ _ (coverA_s2 V c t h0 h2)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverA_3 V c t h0 h2)
    · -- the first key tile of a later query tile
      have hz : t.val ≠ 0 := fun hz => h2 (by rw [hz])
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h2 ((hcond1_2 t).mp h))) (noFlush1_3 t (by omega))]
      rw [outsAt1_B V c t h0 h2]
      unfold stB; (try dsimp only)
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply ((ptB V c t h0 h2).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (coverB_s0 V c t h0 h2)
            isplitl [HS1]
            · unfold owns; iexists _; isplitr
              swap; · iexact HS1
              ipureintro; exact View.read_writes_of_cover _ _ _ _ _ (coverB_s1 V c t h0 h2)
            unfold owns; iexists _; isplitr
            swap; · iexact HS2
            ipureintro; exact View.read_writes_of_cover _ _ _ _ _ (coverB_s2 V c t h0 h2)
          iexact Hr
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 ≤ t.val / 4 % 4
    · by_cases h2 : t.val % 4 = t.val / 4 % 4
      · -- the diagonal key tile of a later query tile
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h2]
        unfold stD; (try dsimp only)
        rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩⟩
        iapply ((ptD V c t h0 h2 (prev1 V c t)).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (coverD_s0 V c t h0 h2 _)
              isplitl [HS1]
              · unfold owns; iexists _; isplitr
                swap; · iexact HS1
                ipureintro; exact View.read_writes_of_cover _ _ _ _ _ (coverD_s1 V c t h0 h2 _)
              unfold owns; iexists _; isplitr
              swap; · iexact HS2
              ipureintro; exact View.read_writes_of_cover _ _ _ _ _ (coverD_s2 V c t h0 h2 _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_3 V c t h0 h2 _)
      · -- a key tile strictly before the diagonal
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h2 ((hcond1_2 t).mp h))) (noFlush1_3 t (by omega))]
        rw [outsAt1_C V c t h0 h1 h2]
        unfold stC; (try dsimp only)
        rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩⟩
        iapply ((ptC V c t h0 h1 h2 (prev1 V c t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (coverC_s0 V c t h0 h1 h2 _)
              isplitl [HS1]
              · unfold owns; iexists _; isplitr
                swap; · iexact HS1
                ipureintro; exact View.read_writes_of_cover _ _ _ _ _ (coverC_s1 V c t h0 h1 h2 _)
              unfold owns; iexists _; isplitr
              swap; · iexact HS2
              ipureintro; exact View.read_writes_of_cover _ _ _ _ _ (coverC_s2 V c t h0 h1 h2 _)
            iexact Hr
          iexact Hg
        isplitl [Ho]; · iexact Ho
        isplitl [H0]; · iexact H0
        isplitl [H1]; · iexact H1
        isplitl [H2]; · iexact H2
        iexists _; iexact H3
    · -- a masked key tile: nothing is touched
      have h2 : ¬t.val % 4 = t.val / 4 % 4 := fun h => h1 (le_of_eq h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [outsAt1_E V c t h1]
      rw [PhiS1_castSucc V c t, PhiS1_pos V c _ _ hz]
      by_cases hf : t.val % 4 = 3
      · -- the group's last point: the tile is written back, as the diagonal point left it
        rw [show (dat1 V c).leavesExact 3 t = owns (c : Thread nD τ) (ms1_3 t) fullShare ((dat1 V c).after 3 t) from by
          unfold Dat.leavesExact; rw [idleAt1_3 t (fun h => h2 ((hcond1_2 t).mp h)), (flushAt1_3 t).mpr hf], after1_3, outsAt1_E V c t h1]
        iintro ⟨⟨⟨⟨HS0, HS1, HS2⟩, Hr⟩, Hg⟩, Ho, ⟨%d0, H0⟩, ⟨%d1, H1⟩, ⟨%d2, H2⟩, ⟨%d3, H3⟩⟩
        rw [show (dat1 V c).before 3 t d3 = (prev1 V c t).1 from before1_3_masked V c t.val t.isLt h1 d3]
        iapply (kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hr Hg]
        · isplitl [HS0 HS1 HS2 Hr]
          · isplitl [HS0 HS1 HS2]
            · isplitl [HS0]; · iexact HS0
              isplitl [HS1]; · iexact HS1
              iexact HS2
            iexact Hr
          iexact Hg
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t hf)]
        iintro ⟨⟨⟨⟨HS0, HS1, HS2⟩, Hr⟩, Hg⟩, Ho, ⟨%d0, H0⟩, ⟨%d1, H1⟩, ⟨%d2, H2⟩, ⟨%d3, H3⟩⟩
        iapply (kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hr Hg]
        · isplitl [HS0 HS1 HS2 Hr]
          · isplitl [HS0 HS1 HS2]
            · isplitl [HS0]; · iexact HS0
              isplitl [HS1]; · iexact HS1
              iexact HS2
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 384 := N_1; omega)

end Cert.KernelIdeal.Hand

end
-- ==== Proof.KI.Run.lean ====
/-
  The whole program as a run: @main's nine items — a host stretch, the projection call, the head split, the attention
  call, the head merge, the three fused matmul calls, the final reshape — chained through the contents of every
  unscoped buffer at each boundary. Every weakly fair execution terminates with each unscoped buffer at the last
  boundary's contents; the argument arrays, which no item writes, end as launched.
-/
import proofs.«151460_j71262097375467_2_alg».proof.Proof.KI.Reg0
import proofs.«151460_j71262097375467_2_alg».proof.Proof.KI.Reg2
import proofs.«151460_j71262097375467_2_alg».proof.Proof.KI.Reg3
import proofs.«151460_j71262097375467_2_alg».proof.Proof.KI.Reg4
import proofs.«151460_j71262097375467_2_alg».proof.Proof.KI.Attn.Frame
import proofs.«151460_j71262097375467_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (V1 m ρ) c).arrAt w cfg0.N = W2 m ρ c (Proc.devRef .tc (Pipeline.arrRef spec0 w)) :=
  (W2_arr m ρ c w).symm
theorem hrest0 (c : Dev nD) : ∀ b, b ∉ Finset.univ.image (Pipeline.arrRef spec0) → W2 m ρ c (Proc.devRef .tc b) = V1 m ρ c b :=
  fun b hb => W2_of_ne m ρ c b fun w e => hb (Finset.mem_image.mpr ⟨w, Finset.mem_univ _, e⟩)
/-- Region 0 changes only its result array `main_v2`: an input window's array ends as entered. -/
theorem W2_keep (c : Dev nD) (b : Ref sig .tc) (hb : b ≠ main_v2) : W2 m ρ c (Proc.devRef .tc b) = W1 m ρ c (Proc.devRef .tc b) := by
  by_cases h : ∃ w, Pipeline.arrRef spec0 w = b
  · obtain ⟨w, rfl⟩ := h
    rw [W2_arr]
    have hin : (cfg0.win w).isOut = false := by
      revert hb; revert w; decide
    exact ((dat0 (V1 m ρ) c).arrAt_in w hin _).trans (A_eq0 (V1 m ρ) c w)
  · exact W2_of_ne m ρ c b (fun w e => h ⟨w, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = W4 m ρ c (Proc.devRef .tc (Pipeline.arrRef spec1 w)) :=
  (W4_arr m ρ c w).symm
theorem hrest1 (c : Dev nD) : ∀ b, b ∉ Finset.univ.image (Pipeline.arrRef spec1) → W4 m ρ c (Proc.devRef .tc b) = V3 m ρ c b :=
  fun b hb => W4_of_ne m ρ c b fun w e => hb (Finset.mem_image.mpr ⟨w, Finset.mem_univ _, e⟩)
/-- Region 1 changes only its result array `main_v15`: an input window's array ends as entered. -/
theorem W4_keep (c : Dev nD) (b : Ref sig .tc) (hb : b ≠ main_v15) : W4 m ρ c (Proc.devRef .tc b) = W3 m ρ c (Proc.devRef .tc b) := by
  by_cases h : ∃ w, Pipeline.arrRef spec1 w = b
  · obtain ⟨w, rfl⟩ := h
    rw [W4_arr]
    have hin : (cfg1.win w).isOut = false := by
      revert hb; revert w; decide
    exact ((dat1 (V3 m ρ) c).arrAt_in w hin _).trans (A_eq1 (V3 m ρ) c w)
  · exact W4_of_ne m ρ c b (fun w e => h ⟨w, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (dat2 (V5 m ρ) c).arrAt w cfg2.N = W6 m ρ c (Proc.devRef .tc (Pipeline.arrRef spec2 w)) :=
  (W6_arr m ρ c w).symm
theorem hrest2 (c : Dev nD) : ∀ b, b ∉ Finset.univ.image (Pipeline.arrRef spec2) → W6 m ρ c (Proc.devRef .tc b) = V5 m ρ c b :=
  fun b hb => W6_of_ne m ρ c b fun w e => hb (Finset.mem_image.mpr ⟨w, Finset.mem_univ _, e⟩)
/-- Region 2 changes only its result array `main_v19`: an input window's array ends as entered. -/
theorem W6_keep (c : Dev nD) (b : Ref sig .tc) (hb : b ≠ main_v19) : W6 m ρ c (Proc.devRef .tc b) = W5 m ρ c (Proc.devRef .tc b) := by
  by_cases h : ∃ w, Pipeline.arrRef spec2 w = b
  · obtain ⟨w, rfl⟩ := h
    rw [W6_arr]
    have hin : (cfg2.win w).isOut = false := by
      revert hb; revert w; decide
    exact ((dat2 (V5 m ρ) c).arrAt_in w hin _).trans (A_eq2 (V5 m ρ) c w)
  · exact W6_of_ne m ρ c b (fun w e => h ⟨w, e⟩)

abbrev V6 : (c : Dev nD) → (b : Ref sig .tc) → Buf (Elt F) ((c : Thread nD τ).loc b) := fun c b => W6 m ρ c b

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
theorem hF3 (c : Dev nD) (w : Fin cfg3.W) : (dat3 (V6 m ρ) c).arrAt w cfg3.N = W7 m ρ c (Proc.devRef .tc (Pipeline.arrRef spec3 w)) :=
  (W7_arr m ρ c w).symm
theorem hrest3 (c : Dev nD) : ∀ b, b ∉ Finset.univ.image (Pipeline.arrRef spec3) → W7 m ρ c (Proc.devRef .tc b) = V6 m ρ c b :=
  fun b hb => W7_of_ne m ρ c b fun w e => hb (Finset.mem_image.mpr ⟨w, Finset.mem_univ _, e⟩)
/-- Region 3 changes only its result array `main_v20`: an input window's array ends as entered. -/
theorem W7_keep (c : Dev nD) (b : Ref sig .tc) (hb : b ≠ main_v20) : W7 m ρ c (Proc.devRef .tc b) = W6 m ρ c (Proc.devRef .tc b) := by
  by_cases h : ∃ w, Pipeline.arrRef spec3 w = b
  · obtain ⟨w, rfl⟩ := h
    rw [W7_arr]
    have hin : (cfg3.win w).isOut = false := by
      revert hb; revert w; decide
    exact ((dat3 (V6 m ρ) c).arrAt_in w hin _).trans (A_eq3 (V6 m ρ) c w)
  · exact W7_of_ne m ρ c b (fun w e => h ⟨w, e⟩)

abbrev V7 : (c : Dev nD) → (b : Ref sig .tc) → Buf (Elt F) ((c : Thread nD τ).loc b) := fun c b => W7 m ρ c b

/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
theorem hF4 (c : Dev nD) (w : Fin cfg4.W) : (dat4 (V7 m ρ) c).arrAt w cfg4.N = W8 m ρ c (Proc.devRef .tc (Pipeline.arrRef spec4 w)) :=
  (W8_arr m ρ c w).symm
theorem hrest4 (c : Dev nD) : ∀ b, b ∉ Finset.univ.image (Pipeline.arrRef spec4) → W8 m ρ c (Proc.devRef .tc b) = V7 m ρ c b :=
  fun b hb => W8_of_ne m ρ c b fun w e => hb (Finset.mem_image.mpr ⟨w, Finset.mem_univ _, e⟩)
/-- Region 4 changes only its result array `main_v21`: an input window's array ends as entered. -/
theorem W8_keep (c : Dev nD) (b : Ref sig .tc) (hb : b ≠ main_v21) : W8 m ρ c (Proc.devRef .tc b) = W7 m ρ c (Proc.devRef .tc b) := by
  by_cases h : ∃ w, Pipeline.arrRef spec4 w = b
  · obtain ⟨w, rfl⟩ := h
    rw [W8_arr]
    have hin : (cfg4.win w).isOut = false := by
      revert hb; revert w; decide
    exact ((dat4 (V7 m ρ) c).arrAt_in w hin _).trans (A_eq4 (V7 m ρ) c w)
  · exact W8_of_ne m ρ c b (fun w e => h ⟨w, e⟩)

abbrev W9 : Dev nD → Valuation τ sig (Elt F) := fun c => StableHlo.after hostOps5 (W8 m ρ c)

/-- A buffer no item writes reaches the end as launched. -/
theorem W9_keep (c : Dev nD) (r : Ref sig .tc) (h0 : r ∉ (hostOps0_W : List (Ref sig .tc))) (h1 : r ∉ (hostOps1_W : List (Ref sig .tc)))
    (h2 : r ∉ (hostOps2_W : List (Ref sig .tc))) (h5 : r ∉ (hostOps5_W : List (Ref sig .tc)))
    (n2 : r ≠ main_v2) (n15 : r ≠ main_v15) (n19 : r ≠ main_v19) (n20 : r ≠ main_v20) (n21 : r ≠ main_v21) :
    W9 m ρ c (Proc.devRef .tc r) = m ((c : Thread nD τ).loc r) :=
  calc W9 m ρ c (Proc.devRef .tc r)
    _ = W8 m ρ c (Proc.devRef .tc r) := StableHlo.after_of_writes_sub hostOps5 _ hostOps5_writes h5
    _ = W7 m ρ c (Proc.devRef .tc r) := W8_keep m ρ c r n21
    _ = W6 m ρ c (Proc.devRef .tc r) := W7_keep m ρ c r n20
    _ = W5 m ρ c (Proc.devRef .tc r) := W6_keep m ρ c r n19
    _ = W4 m ρ c (Proc.devRef .tc r) := StableHlo.after_of_writes_sub hostOps2 _ hostOps2_writes h2
    _ = W3 m ρ c (Proc.devRef .tc r) := W4_keep m ρ c r n15
    _ = W2 m ρ c (Proc.devRef .tc r) := StableHlo.after_of_writes_sub hostOps1 _ hostOps1_writes h1
    _ = W1 m ρ c (Proc.devRef .tc r) := W2_keep m ρ c r n2
    _ = W0 m ρ c (Proc.devRef .tc r) := StableHlo.after_of_writes_sub hostOps0 _ hostOps0_writes h0
    _ = m ((c : Thread nD τ).loc r) := rfl

/-! ## The proof data family and the thread state -/

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V7 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as items -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (fun b => W2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (fun b => W4 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (fun b => W6 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (fun b => W7 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (fun b => W8 m ρ c b) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .region (reg4 m ρ),
    .host (hseg hostOps5 hostOps5_sub hostOps5_fresh (W8 m ρ)) ]

set_option backward.isDefEq.respectTransparency.types false in
/-- THE RUN. From any memory with zero counters every weakly fair execution of @main terminates, nothing faulting,
    and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Hand

end
-- ==== Proof.K.Reg0.lean ====
/- REGION 0 of @main (custom_call 0, the kernel cc0_kernel: a matrix product plus a bias row, rounded to bf16),
   at a PARAMETER V, the TensorCore's buffer contents when the region is entered.

   The kernel body loads its three input windows whole, loads the output window once (a value nothing reads),
   and stores ONE payload, k0_pay1 of the three loaded blocks, over the whole output window. So after the body at a
   point each input's staging buffer still holds its block and the output's holds that payload of the three blocks:
   this is the proof data dat0, and body_obligation0 is the pipeline's obligation for it, at any float
   instance F (payloads are never opened). -/
import proofs.«151460_j71262097375467_2_alg».proof.Proof.Gen.Kernel.Launch
import proofs.«151460_j71262097375467_2_alg».proof.Proof.Gen.Kernel.Skeleton
import proofs.«151460_j71262097375467_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activations' row block, fetched at every point): its current staging buffer holds its block
    at every point, for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the weight matrix, one block for the whole grid, fetched at the first point only): at a later
    point the block index has not moved, so the buffer still holds the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the bias row, one block for the whole grid, fetched at the first point only): likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window whole -/

abbrev r0_x : Rect S512x768 := Rect.unit (s := S512x768) ![0, 0] S512x768.size inb_S512x768_S512x768_0_0
abbrev r0_w : Rect S768x2304 := Rect.unit (s := S768x2304) ![0, 0] S768x2304.size inb_S768x2304_S768x2304_0_0
abbrev r0_b : Rect S2304 := Rect.unit (s := S2304) ![0] S2304.size inb_S2304_S2304_0
abbrev r0_o : Rect S512x2304 := Rect.unit (s := S512x2304) ![0, 0] S512x2304.size inb_S512x2304_S512x2304_0_0

/-! ## What the body leaves in the output window's buffer -/

/-- The output window's staging buffer after the body, from the input windows' blocks: its one store, the payload
    of the three whole loads, over the whole window. -/
def out0 (x0 : Vec F S512x768 .f32) (x1 : Vec F S768x2304 .f32) (x2 : Vec F S2304 .f32) : Vec F S512x2304 .bf16 :=
  View.canon [⟨r0_o, k0_pay1 (View.ld x0 r0_x) (View.ld x1 r0_w) (View.ld x2 r0_b)⟩]

/-- The one store is the whole window, so it covers it. -/
theorem cover0 (p0 : Vec F S512x2304 .bf16) (y : S512x2304.Idx) :
    ∃ pc ∈ ([⟨r0_o, p0⟩] : List (View.Piece (Elt F) S512x2304 .bf16)), y ∈ pc.1.set :=
  View.cover_of_tiled [⟨r0_o, p0⟩] S512x2304.size (by rfl) y

/-! ## The body's triple -/

set_option maxHeartbeats 1000000 in
/-- The kernel body on whole staging memrefs, the inputs' at read contents x0, x1, x2 and the output's at anything,
    runs to the continuation holding the inputs' as they were and the output's at out0 of the inputs'. -/
theorem sound_kernel0 (c : Dev nD) (E : Set ℕ) (i : grid0.Coords)
    (arg0 : Memref sig .tc .vmem S512x768 .f32) (harg0 : arg0.IsWhole) (arg1 : Memref sig .tc .vmem S768x2304 .f32) (harg1 : arg1.IsWhole)
    (arg2 : Memref sig .tc .vmem S2304 .f32) (harg2 : arg2.IsWhole) (arg3 : Memref sig .tc .vmem S512x2304 .bf16) (harg3 : arg3.IsWhole)
    (x0 : Vec F S512x768 .f32) (x1 : Vec F S768x2304 .f32) (x2 : Vec F S2304 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0 x0 x1 x2)) -∗ K ⟨⟩))
      ⊢ wp frame (wpE (defs₀ (F := F)) Variants.none c none) E (cc0_kernel i arg0 harg0 arg1 harg1 arg2 harg2 arg3 harg3) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover0 _)

/-! ## The pipeline's proof data -/

/-- The proof data of pipeline 0 on core c: the arrays as the region finds them (V); after the body at point t
    each input's buffer at its block and the output's at out0 of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so sound_kernel0 applies; the invariant and the
    core's owed counts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg2.lean ====
/- REGION 2 of @main (custom_call 2, the kernel cc2_kernel: a matrix product plus a bias row, added to the residual, then normalised along each row and scaled and shifted),
   at a PARAMETER V, the TensorCore's buffer contents when the region is entered.

   The kernel body loads its six input windows whole, loads the output window once (a value nothing reads),
   and stores ONE payload, k2_pay1 of the six loaded blocks, over the whole output window. So after the body at a
   point each input's staging buffer still holds its block and the output's holds that payload of the six blocks:
   this is the proof data dat2, and body_obligation2 is the pipeline's obligation for it, at any float
   instance F (payloads are never opened). -/
import proofs.«151460_j71262097375467_2_alg».proof.Proof.Gen.Kernel.Launch
import proofs.«151460_j71262097375467_2_alg».proof.Proof.Gen.Kernel.Skeleton
import proofs.«151460_j71262097375467_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 (the residual's row block, fetched at every point): its current staging buffer holds its block at every
    point, fetched there or not (unfetched, the block index has not moved), for any proof data whose array is V's and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 (the activations' row block, fetched at every point): its current staging buffer holds its block at every
    point, fetched there or not (unfetched, the block index has not moved), for any proof data whose array is V's and
    whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 (the weight matrix, one block for the whole grid, fetched at the first point only): its current staging buffer holds its block at every
    point, fetched there or not (unfetched, the block index has not moved), for any proof data whose array is V's and
    whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 (the bias row, one block for the whole grid, fetched at the first point only): its current staging buffer holds its block at every
    point, fetched there or not (unfetched, the block index has not moved), for any proof data whose array is V's and
    whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 (the normalisation's scale row, one block for the whole grid, fetched at the first point only): its current staging buffer holds its block at every
    point, fetched there or not (unfetched, the block index has not moved), for any proof data whose array is V's and
    whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 (the normalisation's shift row, one block for the whole grid, fetched at the first point only): its current staging buffer holds its block at every
    point, fetched there or not (unfetched, the block index has not moved), for any proof data whose array is V's and
    whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each window whole -/

abbrev r2_0 : Rect S512x768 := Rect.unit (s := S512x768) ![0, 0] S512x768.size inb_S512x768_S512x768_0_0
abbrev r2_1 : Rect S512x768 := Rect.unit (s := S512x768) ![0, 0] S512x768.size inb_S512x768_S512x768_0_0
abbrev r2_2 : Rect S768x768 := Rect.unit (s := S768x768) ![0, 0] S768x768.size inb_S768x768_S768x768_0_0
abbrev r2_3 : Rect S768 := Rect.unit (s := S768) ![0] S768.size inb_S768_S768_0
abbrev r2_4 : Rect S768 := Rect.unit (s := S768) ![0] S768.size inb_S768_S768_0
abbrev r2_5 : Rect S768 := Rect.unit (s := S768) ![0] S768.size inb_S768_S768_0
abbrev r2_o : Rect S512x768 := Rect.unit (s := S512x768) ![0, 0] S512x768.size inb_S512x768_S512x768_0_0

/-! ## What the body leaves in the output window's buffer -/

/-- The output window's staging buffer after the body, from the input windows' blocks (in window order): its one
    store, the payload of the six whole loads (in the order the body reads them), over the whole window. -/
def out2 (x0 : Vec F S512x768 .f32) (x1 : Vec F S512x768 .bf16) (x2 : Vec F S768x768 .f32) (x3 : Vec F S768 .f32) (x4 : Vec F S768 .f32) (x5 : Vec F S768 .f32) : Vec F S512x768 .f32 :=
  View.canon [⟨r2_o, k2_pay1 (View.ld x1 r2_1) (View.ld x2 r2_2) (View.ld x3 r2_3) (View.ld x0 r2_0) (View.ld x4 r2_4) (View.ld x5 r2_5)⟩]

/-- The one store is the whole window, so it covers it. -/
theorem cover2 (p0 : Vec F S512x768 .f32) (y : S512x768.Idx) :
    ∃ pc ∈ ([⟨r2_o, p0⟩] : List (View.Piece (Elt F) S512x768 .f32)), y ∈ pc.1.set :=
  View.cover_of_tiled [⟨r2_o, p0⟩] S512x768.size (by rfl) y

/-! ## The body's triple -/

set_option maxHeartbeats 1000000 in
/-- The kernel body on whole staging memrefs, the inputs' at read contents x0 … x5 and the output's at anything,
    runs to the continuation holding the inputs' as they were and the output's at out2 of the inputs'. -/
theorem sound_kernel2 (c : Dev nD) (E : Set ℕ) (i : grid2.Coords)
    (arg0 : Memref sig .tc .vmem S512x768 .f32) (harg0 : arg0.IsWhole) (arg1 : Memref sig .tc .vmem S512x768 .bf16) (harg1 : arg1.IsWhole) (arg2 : Memref sig .tc .vmem S768x768 .f32) (harg2 : arg2.IsWhole) (arg3 : Memref sig .tc .vmem S768 .f32) (harg3 : arg3.IsWhole) (arg4 : Memref sig .tc .vmem S768 .f32) (harg4 : arg4.IsWhole) (arg5 : Memref sig .tc .vmem S768 .f32) (harg5 : arg5.IsWhole) (arg6 : Memref sig .tc .vmem S512x768 .f32) (harg6 : arg6.IsWhole)
    (x0 : Vec F S512x768 .f32) (x1 : Vec F S512x768 .bf16) (x2 : Vec F S768x768 .f32) (x3 : Vec F S768 .f32) (x4 : Vec F S768 .f32) (x5 : Vec F S768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out2 x0 x1 x2 x3 x4 x5)) -∗ K ⟨⟩))
      ⊢ wp frame (wpE (defs₀ (F := F)) Variants.none c none) E (cc2_kernel i arg0 harg0 arg1 harg1 arg2 harg2 arg3 harg3 arg4 harg4 arg5 harg5 arg6 harg6) K := by
  simp only [cc2_kernel_eq_skeleton]; unfold cc2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover2 _)

/-! ## The pipeline's proof data -/

/-- The proof data of pipeline 2 on core c: the arrays as the region finds them (V); after the body at point t
    each input's buffer at its block and the output's at out2 of the input blocks; the invariant the scoped rest
    and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) :
    (dat2 V c).after 6 t = out2 (iblk2 V c 0 t) (iblk2 V c 1 t) (iblk2 V c 2 t) (iblk2 V c 3 t) (iblk2 V c 4 t) (iblk2 V c 5 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so sound_kernel2 applies; the invariant and the
    core's owed counts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/- REGION 3 of @main (custom_call 3, the kernel cc3_kernel: a matrix product plus a bias row, then the maximum with zero, rounded to bf16),
   at a PARAMETER V, the TensorCore's buffer contents when the region is entered.

   The kernel body loads its three input windows whole, loads the output window once (a value nothing reads),
   and stores ONE payload, k3_pay1 of the three loaded blocks, over the whole output window. So after the body at a
   point each input's staging buffer still holds its block and the output's holds that payload of the three blocks:
   this is the proof data dat3, and body_obligation3 is the pipeline's obligation for it, at any float
   instance F (payloads are never opened). -/
import proofs.«151460_j71262097375467_2_alg».proof.Proof.Gen.Kernel.Launch
import proofs.«151460_j71262097375467_2_alg».proof.Proof.Gen.Kernel.Skeleton
import proofs.«151460_j71262097375467_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 (the activations' row block, fetched at every point): its current staging buffer holds its block
    at every point, for any proof data whose array is V's and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 (the weight matrix, one block for the whole grid, fetched at the first point only): at a later
    point the block index has not moved, so the buffer still holds the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2 (the bias row, one block for the whole grid, fetched at the first point only): likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each window whole -/

abbrev r3_x : Rect S512x768 := Rect.unit (s := S512x768) ![0, 0] S512x768.size inb_S512x768_S512x768_0_0
abbrev r3_w : Rect S768x3072 := Rect.unit (s := S768x3072) ![0, 0] S768x3072.size inb_S768x3072_S768x3072_0_0
abbrev r3_b : Rect S3072 := Rect.unit (s := S3072) ![0] S3072.size inb_S3072_S3072_0
abbrev r3_o : Rect S512x3072 := Rect.unit (s := S512x3072) ![0, 0] S512x3072.size inb_S512x3072_S512x3072_0_0

/-! ## What the body leaves in the output window's buffer -/

/-- The output window's staging buffer after the body, from the input windows' blocks: its one store, the payload
    of the three whole loads, over the whole window. -/
def out3 (x0 : Vec F S512x768 .f32) (x1 : Vec F S768x3072 .f32) (x2 : Vec F S3072 .f32) : Vec F S512x3072 .bf16 :=
  View.canon [⟨r3_o, k3_pay1 (View.ld x0 r3_x) (View.ld x1 r3_w) (View.ld x2 r3_b)⟩]

/-- The one store is the whole window, so it covers it. -/
theorem cover3 (p0 : Vec F S512x3072 .bf16) (y : S512x3072.Idx) :
    ∃ pc ∈ ([⟨r3_o, p0⟩] : List (View.Piece (Elt F) S512x3072 .bf16)), y ∈ pc.1.set :=
  View.cover_of_tiled [⟨r3_o, p0⟩] S512x3072.size (by rfl) y

/-! ## The body's triple -/

set_option maxHeartbeats 1000000 in
/-- The kernel body on whole staging memrefs, the inputs' at read contents x0, x1, x2 and the output's at anything,
    runs to the continuation holding the inputs' as they were and the output's at out3 of the inputs'. -/
theorem sound_kernel3 (c : Dev nD) (E : Set ℕ) (i : grid3.Coords)
    (arg0 : Memref sig .tc .vmem S512x768 .f32) (harg0 : arg0.IsWhole) (arg1 : Memref sig .tc .vmem S768x3072 .f32) (harg1 : arg1.IsWhole)
    (arg2 : Memref sig .tc .vmem S3072 .f32) (harg2 : arg2.IsWhole) (arg3 : Memref sig .tc .vmem S512x3072 .bf16) (harg3 : arg3.IsWhole)
    (x0 : Vec F S512x768 .f32) (x1 : Vec F S768x3072 .f32) (x2 : Vec F S3072 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out3 x0 x1 x2)) -∗ K ⟨⟩))
      ⊢ wp frame (wpE (defs₀ (F := F)) Variants.none c none) E (cc3_kernel i arg0 harg0 arg1 harg1 arg2 harg2 arg3 harg3) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover3 _)

/-! ## The pipeline's proof data -/

/-- The proof data of pipeline 3 on core c: the arrays as the region finds them (V); after the body at point t
    each input's buffer at its block and the output's at out3 of the input blocks; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks, so sound_kernel3 applies; the invariant and the
    core's owed counts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/- REGION 4 of @main (custom_call 4, the kernel cc4_kernel: a matrix product plus a bias row, added to the residual, then normalised along each row and scaled and shifted),
   at a PARAMETER V, the TensorCore's buffer contents when the region is entered.

   The kernel body loads its six input windows whole, loads the output window once (a value nothing reads),
   and stores ONE payload, k4_pay1 of the six loaded blocks, over the whole output window. So after the body at a
   point each input's staging buffer still holds its block and the output's holds that payload of the six blocks:
   this is the proof data dat4, and body_obligation4 is the pipeline's obligation for it, at any float
   instance F (payloads are never opened). -/
import proofs.«151460_j71262097375467_2_alg».proof.Proof.Gen.Kernel.Launch
import proofs.«151460_j71262097375467_2_alg».proof.Proof.Gen.Kernel.Skeleton
import proofs.«151460_j71262097375467_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it (V). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 (the residual's row block, fetched at every point): its current staging buffer holds its block at every
    point, fetched there or not (unfetched, the block index has not moved), for any proof data whose array is V's and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1 (the activations' row block, fetched at every point): its current staging buffer holds its block at every
    point, fetched there or not (unfetched, the block index has not moved), for any proof data whose array is V's and
    whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2 (the weight matrix, one block for the whole grid, fetched at the first point only): its current staging buffer holds its block at every
    point, fetched there or not (unfetched, the block index has not moved), for any proof data whose array is V's and
    whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3 (the bias row, one block for the whole grid, fetched at the first point only): its current staging buffer holds its block at every
    point, fetched there or not (unfetched, the block index has not moved), for any proof data whose array is V's and
    whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4 (the normalisation's scale row, one block for the whole grid, fetched at the first point only): its current staging buffer holds its block at every
    point, fetched there or not (unfetched, the block index has not moved), for any proof data whose array is V's and
    whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5 (the normalisation's shift row, one block for the whole grid, fetched at the first point only): its current staging buffer holds its block at every
    point, fetched there or not (unfetched, the block index has not moved), for any proof data whose array is V's and
    whose body leaves the block in place. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each window whole -/

abbrev r4_0 : Rect S512x768 := Rect.unit (s := S512x768) ![0, 0] S512x768.size inb_S512x768_S512x768_0_0
abbrev r4_1 : Rect S512x3072 := Rect.unit (s := S512x3072) ![0, 0] S512x3072.size inb_S512x3072_S512x3072_0_0
abbrev r4_2 : Rect S3072x768 := Rect.unit (s := S3072x768) ![0, 0] S3072x768.size inb_S3072x768_S3072x768_0_0
abbrev r4_3 : Rect S768 := Rect.unit (s := S768) ![0] S768.size inb_S768_S768_0
abbrev r4_4 : Rect S768 := Rect.unit (s := S768) ![0] S768.size inb_S768_S768_0
abbrev r4_5 : Rect S768 := Rect.unit (s := S768) ![0] S768.size inb_S768_S768_0
abbrev r4_o : Rect S512x768 := Rect.unit (s := S512x768) ![0, 0] S512x768.size inb_S512x768_S512x768_0_0

/-! ## What the body leaves in the output window's buffer -/

/-- The output window's staging buffer after the body, from the input windows' blocks (in window order): its one
    store, the payload of the six whole loads (in the order the body reads them), over the whole window. -/
def out4 (x0 : Vec F S512x768 .f32) (x1 : Vec F S512x3072 .bf16) (x2 : Vec F S3072x768 .f32) (x3 : Vec F S768 .f32) (x4 : Vec F S768 .f32) (x5 : Vec F S768 .f32) : Vec F S512x768 .f32 :=
  View.canon [⟨r4_o, k4_pay1 (View.ld x1 r4_1) (View.ld x2 r4_2) (View.ld x3 r4_3) (View.ld x0 r4_0) (View.ld x4 r4_4) (View.ld x5 r4_5)⟩]

/-- The one store is the whole window, so it covers it. -/
theorem cover4 (p0 : Vec F S512x768 .f32) (y : S512x768.Idx) :
    ∃ pc ∈ ([⟨r4_o, p0⟩] : List (View.Piece (Elt F) S512x768 .f32)), y ∈ pc.1.set :=
  View.cover_of_tiled [⟨r4_o, p0⟩] S512x768.size (by rfl) y

/-! ## The body's triple -/

set_option maxHeartbeats 1000000 in
/-- The kernel body on whole staging memrefs, the inputs' at read contents x0 … x5 and the output's at anything,
    runs to the continuation holding the inputs' as they were and the output's at out4 of the inputs'. -/
theorem sound_kernel4 (c : Dev nD) (E : Set ℕ) (i : grid4.Coords)
    (arg0 : Memref sig .tc .vmem S512x768 .f32) (harg0 : arg0.IsWhole) (arg1 : Memref sig .tc .vmem S512x3072 .bf16) (harg1 : arg1.IsWhole) (arg2 : Memref sig .tc .vmem S3072x768 .f32) (harg2 : arg2.IsWhole) (arg3 : Memref sig .tc .vmem S768 .f32) (harg3 : arg3.IsWhole) (arg4 : Memref sig .tc .vmem S768 .f32) (harg4 : arg4.IsWhole) (arg5 : Memref sig .tc .vmem S768 .f32) (harg5 : arg5.IsWhole) (arg6 : Memref sig .tc .vmem S512x768 .f32) (harg6 : arg6.IsWhole)
    (x0 : Vec F S512x768 .f32) (x1 : Vec F S512x3072 .bf16) (x2 : Vec F S3072x768 .f32) (x3 : Vec F S768 .f32) (x4 : Vec F S768 .f32) (x5 : Vec F S768 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ owns (c : Thread nD τ) arg6 fullShare (out4 x0 x1 x2 x3 x4 x5)) -∗ K ⟨⟩))
      ⊢ wp frame (wpE (defs₀ (F := F)) Variants.none c none) E (cc4_kernel i arg0 harg0 arg1 harg1 arg2 harg2 arg3 harg3 arg4 harg4 arg5 harg5 arg6 harg6) K := by
  simp only [cc4_kernel_eq_skeleton]; unfold cc4_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover4 _)

/-! ## The pipeline's proof data -/

/-- The proof data of pipeline 4 on core c: the arrays as the region finds them (V); after the body at point t
    each input's buffer at its block and the output's at out4 of the input blocks; the invariant the scoped rest
    and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4 (iblk4 V c 0 t) (iblk4 V c 1 t) (iblk4 V c 2 t) (iblk4 V c 3 t) (iblk4 V c 4 t) (iblk4 V c 5 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4 (iblk4 V c 0 t) (iblk4 V c 1 t) (iblk4 V c 2 t) (iblk4 V c 3 t) (iblk4 V c 4 t) (iblk4 V c 5 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' memrefs hold their blocks, so sound_kernel4 applies; the invariant and the
    core's owed counts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Attn.Runs.lean ====
/-
  Causal attention, one (batch·head, query tile) group of four key-tile points at a time: what the tile-by-tile
  body shares across its five control cases. The three conditionals read only the grid coordinates — key tile 0
  (reset the running maximum, the denominator and the numerator), key tile ≤ query tile (one online-softmax step),
  key tile = query tile (divide and store the output tile) — so each is decided over the grid in closed form.
-/
import proofs.«151460_j71262097375467_2_alg».proof.Proof.Gen.Kernel.Launch
import proofs.«151460_j71262097375467_2_alg».proof.Proof.Gen.Kernel.Skeleton
import proofs.«151460_j71262097375467_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The three conditions, decided over the grid (point t = (bh·4 + qi)·4 + ki) -/

/-- Key tile 0: the accumulators are reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- Key tile at or before the query tile: one step of the running softmax. -/
abbrev cond1_1 (i : grid1.Coords) : Prop := (Scalar.cmpi .ne (Scalar.extui (Scalar.cmpi .sle (BitVec.ofNat 32 (i 2).val) (BitVec.ofNat 32 (i 1).val))) 0#32) = 1#1
theorem hcond1_1 : ∀ t : Fin cfg1.N, cond1_1 (grid1.coords t) ↔ t.val % 4 ≤ t.val / 4 % 4 :=
  (by decide +kernel : ∀ t : Fin grid1.N, cond1_1 (grid1.coords t) ↔ t.val % 4 ≤ t.val / 4 % 4)
/-- Key tile = query tile (the diagonal, the last tile that contributes): the output tile is stored. -/
abbrev cond1_2 (i : grid1.Coords) : Prop := k1_cond3 i = 1#1
theorem hcond1_2 : ∀ t : Fin cfg1.N, cond1_2 (grid1.coords t) ↔ t.val % 4 = t.val / 4 % 4 :=
  (by decide +kernel : ∀ t : Fin grid1.N, cond1_2 (grid1.coords t) ↔ t.val % 4 = t.val / 4 % 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- The output tile is stored exactly on the diagonal. -/
theorem idleAt1_3 : ∀ t : Fin cfg1.N, ¬cond1_2 (grid1.coords t) → cfg1.idle 3 (grid1.coords t) = true := by decide +kernel
theorem liveAt1_3 : ∀ t : Fin cfg1.N, cond1_2 (grid1.coords t) → cfg1.idle 3 (grid1.coords t) = false := by decide +kernel
/-- It is written back after the group's last point. -/
theorem flushAt1_3 : ∀ t : Fin cfg1.N, (cfg1.win 3).flush t = true ↔ t.val % 4 = 3 := flush1_3
theorem noFlush1_3 (t : Fin cfg1.N) (h : ¬ t.val % 4 = 3) : (cfg1.win 3).flush t = false := by
  cases hf : (cfg1.win 3).flush t with
  | false => rfl
  | true => exact absurd ((flushAt1_3 t).mp hf) h

/-! ## The memrefs the body is called with -/

abbrev VO1_3 : View sig .tc .vmem S1x512x64 .bf16 := (Memref.whole cc1_stg3_0 : Memref sig .tc .vmem S1x512x64 .bf16).view
abbrev ms1_0 (t : Fin cfg1.N) : Memref sig .tc .vmem S1x512x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x64 .bf16 := win1_3.stage (cfg1.slots t 3)
abbrev hs1_3 (t : Fin cfg1.N) : (ms1_3 t).IsWhole := hstage1_3 ((cfg1.slots t 3).cast nbuf1_3)
/-- The running maximum, the denominator and the numerator: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x64 .f32 := Memref.whole cc1_scratch2
abbrev VS1_0 : View sig .tc .vmem S512x1 .f32 := scM1_0.view
abbrev VS1_1 : View sig .tc .vmem S512x1 .f32 := scM1_1.view
abbrev VS1_2 : View sig .tc .vmem S512x64 .f32 := scM1_2.view

/-- What is left of the scoped buffers once the three accumulators are taken out. -/
abbrev restBut1 (c : Dev nD) : sProp 𝕄 :=
  Pipeline.scopedRestBut (Ix := Unit) (Name := ℕ) (U := UR sig nD τ) (Lvl := ℕ) (Val := Elt F) spec1 c [cc1_scratch0, cc1_scratch1, cc1_scratch2]

/-- The class invariant with the three accumulators as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ restBut1 (F := F) c) ∗ (∃ r, prngReg c r)) := by
  unfold Pipeline.ΦA; rw [scopedRest1_split]; simp only [scM1_0, scM1_1, scM1_2, owns_whole]; try rfl

end Cert.Kernel.Hand

end
-- ==== Proof.K.Attn.RunA.lean ====
import proofs.«151460_j71262097375467_2_alg».proof.Proof.K.Attn.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first key tile of the first query tile (reset, one step, output stored): the pieces the stores leave in
    the output tile and in the three accumulators, with the body's triple — the accumulators and the output tile
    at anything on entry. -/
noncomputable def kernelRun1_A (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : cond1_2 i)
    (x0 x1 x2 : Vec F S1x512x64 .bf16) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; iexact HS0
    isplitl [HS1]
    · iexists _; iexact HS1
    iexists _; iexact HS2

end Cert.Kernel.Hand

end
-- ==== Proof.K.Attn.RunB.lean ====
import proofs.«151460_j71262097375467_2_alg».proof.Proof.K.Attn.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first key tile of a later query tile (reset, one step, no output store): the pieces left in the three
    accumulators, the output tile handed back untouched. -/
noncomputable def kernelRun1_B (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : cond1_0 i) (hc1 : cond1_1 i) (hc2 : ¬cond1_2 i)
    (x0 x1 x2 : Vec F S1x512x64 .bf16) :
    Σ' (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.Kernel.Hand

end
-- ==== Proof.K.Attn.RunC.lean ====
import proofs.«151460_j71262097375467_2_alg».proof.Proof.K.Attn.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A key tile strictly between the first and the diagonal (no reset, one step, no output store): what the step's
    three stores leave in the running maximum, the denominator and the numerator, as pieces, with the body's triple
    on whole memrefs — the inputs at their blocks, the output tile handed back untouched, the accumulators at what
    the point before left. -/
noncomputable def kernelRun1_C (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : ¬cond1_2 i)
    (x0 x1 x2 : Vec F S1x512x64 .bf16) (xs0 xs1 : Vec F S512x1 .f32) (xs2 : Vec F S512x64 .f32) :
    Σ' (LS0 : List (View.Piece (Elt F) S512x1 .f32)) (LS1 : List (View.Piece (Elt F) S512x1 .f32)), { LS2 : List (View.Piece (Elt F) S512x64 .f32) //
      ∀ (xi3 : Vec F S1x512x64 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

end Cert.Kernel.Hand

end
-- ==== Proof.K.Attn.RunD.lean ====
import proofs.«151460_j71262097375467_2_alg».proof.Proof.K.Attn.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The diagonal key tile of a later query tile (no reset, one step, output stored): the pieces left in the output
    tile and the three accumulators, from what the point before left in the accumulators. -/
noncomputable def kernelRun1_D (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : cond1_1 i) (hc2 : cond1_2 i)
    (x0 x1 x2 : Vec F S1x512x64 .bf16) (xs0 xs1 : Vec F S512x1 .f32) (xs2 : Vec F S512x64 .f32) :
    Σ' (L3 : List (View.Piece (Elt F) S1x512x64 .bf16)) (LS0 : List (View.Piece (Elt F) S512x1 .f32)) (LS1 : List (View.Piece (Elt F) S512x1 .f32)), { LS2 : List (View.Piece (Elt F) S512x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; iexact HS0
    isplitl [HS1]
    · iexists _; iexact HS1
    iexists _; iexact HS2

end Cert.Kernel.Hand

end
-- ==== Proof.K.Attn.RunE.lean ====
import proofs.«151460_j71262097375467_2_alg».proof.Proof.K.Attn.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A key tile past the diagonal (every entry masked): the body does nothing; every memref is handed back as found. -/
theorem kernelRun1_E (c : Dev nD) (i : grid1.Coords) (arg3 : Memref sig .tc .vmem S1x512x64 .bf16) (harg3 : arg3.IsWhole) (arg4 : Memref sig .tc .vmem S1x512x64 .bf16) (harg4 : arg4.IsWhole) (arg5 : Memref sig .tc .vmem S1x512x64 .bf16) (harg5 : arg5.IsWhole) (arg6 : Memref sig .tc .vmem S1x512x64 .bf16) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .f32) (harg9 : arg9.IsWhole) (hc0 : ¬cond1_0 i) (hc1 : ¬cond1_1 i) (hc2 : ¬cond1_2 i)
    (x0 x1 x2 : Vec F S1x512x64 .bf16) (xs0 xs1 : Vec F S512x1 .f32) (xs2 : Vec F S512x64 .f32)
    (xi3 : Vec F S1x512x64 .bf16) (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1_kernel i arg3 harg3 arg4 harg4 arg5 harg5 arg6 harg6 arg7 harg7 arg8 harg8 arg9 harg9) K := by
    simp only [cc1_kernel_eq_skeleton]; unfold cc1_kernel_skel
    unfold owns
    iintro ⟨H0, H1, H2, H3, HS0, HS1, HS2, Hk⟩
    sl_exec (disch := first | exact hc0 | exact hc1 | exact hc2)
    sl_step
    iapply Hk
    isplitl [H0]; · iexact H0
    isplitl [H1]; · iexact H1
    isplitl [H2]; · iexact H2
    isplitl [H3]; · iexact H3
    isplitl [HS0]; · iexact HS0
    isplitl [HS1]; · iexact HS1
    iexact HS2

end Cert.Kernel.Hand

end
-- ==== Proof.K.Attn.Frame.lean ====
/-
  Causal attention, the region's proof data. After each grid point the running maximum, the denominator and the
  numerator hold one more online-softmax step over the key tiles 0 … min(ki, qi) of the point's (batch·head, query
  tile) group; the output tile holds numerator / denominator from the diagonal point on, and is carried unchanged
  through the masked points after it until the group's last point writes it back.
-/
import proofs.«151460_j71262097375467_2_alg».proof.Proof.K.Attn.RunA
import proofs.«151460_j71262097375467_2_alg».proof.Proof.K.Attn.RunB
import proofs.«151460_j71262097375467_2_alg».proof.Proof.K.Attn.RunC
import proofs.«151460_j71262097375467_2_alg».proof.Proof.K.Attn.RunD
import proofs.«151460_j71262097375467_2_alg».proof.Proof.K.Attn.RunE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The output tile and the three accumulators. -/
abbrev St1 (F : FTy → Type) [FloatOps F] : Type := Vec F S1x512x64 .bf16 × Vec F S512x1 .f32 × Vec F S512x1 .f32 × Vec F S512x64 .f32

/-! ## The five cases at a point of the grid -/

def ptA (c : Dev nD) (t : Fin cfg1.N) (h0 : t.val % 4 = 0) (h2 : t.val % 4 = t.val / 4 % 4) :=
  kernelRun1_A (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (le_of_eq h2)) ((hcond1_2 t).mpr h2) (iblk1 V c 0 t) (iblk1 V c 1 t) (iblk1 V c 2 t)
def ptB (c : Dev nD) (t : Fin cfg1.N) (h0 : t.val % 4 = 0) (h2 : ¬t.val % 4 = t.val / 4 % 4) :=
  kernelRun1_B (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr (by omega)) (fun h => h2 ((hcond1_2 t).mp h)) (iblk1 V c 0 t) (iblk1 V c 1 t) (iblk1 V c 2 t)
def ptC (c : Dev nD) (t : Fin cfg1.N) (h0 : ¬t.val % 4 = 0) (h1 : t.val % 4 ≤ t.val / 4 % 4) (h2 : ¬t.val % 4 = t.val / 4 % 4) (s : St1 F) :=
  kernelRun1_C (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) s.2.1 s.2.2.1 s.2.2.2
def ptD (c : Dev nD) (t : Fin cfg1.N) (h0 : ¬t.val % 4 = 0) (h2 : t.val % 4 = t.val / 4 % 4) (s : St1 F) :=
  kernelRun1_D (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr (le_of_eq h2)) ((hcond1_2 t).mpr h2) (iblk1 V c 0 t) (iblk1 V c 1 t) (iblk1 V c 2 t) s.2.1 s.2.2.1 s.2.2.2

/-- What a list of pieces leaves in a buffer, read back. -/
abbrev rdO (L : List (View.Piece (Elt F) S1x512x64 .bf16)) : Vec F S1x512x64 .bf16 := VO1_3.read (Elt F) (VO1_3.writes (Elt F) VO1_3.junk L)
abbrev rdM (L : List (View.Piece (Elt F) S512x1 .f32)) : Vec F S512x1 .f32 := VS1_0.read (Elt F) (VS1_0.writes (Elt F) VS1_0.junk L)
abbrev rdL (L : List (View.Piece (Elt F) S512x1 .f32)) : Vec F S512x1 .f32 := VS1_1.read (Elt F) (VS1_1.writes (Elt F) VS1_1.junk L)
abbrev rdA (L : List (View.Piece (Elt F) S512x64 .f32)) : Vec F S512x64 .f32 := VS1_2.read (Elt F) (VS1_2.writes (Elt F) VS1_2.junk L)

def stA (c : Dev nD) (t : Fin cfg1.N) (h0 : t.val % 4 = 0) (h2 : t.val % 4 = t.val / 4 % 4) : St1 F :=
  (rdO (ptA V c t h0 h2).1, rdM (ptA V c t h0 h2).2.1, rdL (ptA V c t h0 h2).2.2.1, rdA (ptA V c t h0 h2).2.2.2.1)
def stB (c : Dev nD) (t : Fin cfg1.N) (h0 : t.val % 4 = 0) (h2 : ¬t.val % 4 = t.val / 4 % 4) (s : St1 F) : St1 F :=
  (s.1, rdM (ptB V c t h0 h2).1, rdL (ptB V c t h0 h2).2.1, rdA (ptB V c t h0 h2).2.2.1)
def stC (c : Dev nD) (t : Fin cfg1.N) (h0 : ¬t.val % 4 = 0) (h1 : t.val % 4 ≤ t.val / 4 % 4) (h2 : ¬t.val % 4 = t.val / 4 % 4) (s : St1 F) : St1 F :=
  (s.1, rdM (ptC V c t h0 h1 h2 s).1, rdL (ptC V c t h0 h1 h2 s).2.1, rdA (ptC V c t h0 h1 h2 s).2.2.1)
def stD (c : Dev nD) (t : Fin cfg1.N) (h0 : ¬t.val % 4 = 0) (h2 : t.val % 4 = t.val / 4 % 4) (s : St1 F) : St1 F :=
  (rdO (ptD V c t h0 h2 s).1, rdM (ptD V c t h0 h2 s).2.1, rdL (ptD V c t h0 h2 s).2.2.1, rdA (ptD V c t h0 h2 s).2.2.2.1)

/-! ## The pieces tile their buffers -/

theorem coverA_3 (c : Dev nD) (t : Fin cfg1.N) (h0) (h2) (y : S1x512x64.Idx) : ∃ pc ∈ (ptA (F := F) V c t h0 h2).1, y ∈ pc.1.set :=
  View.cover_of_tiledL (ptA V c t h0 h2).1 S1x512x64.size (by unfold ptA; sl_kernel_rfl) y
theorem coverA_s0 (c : Dev nD) (t : Fin cfg1.N) (h0) (h2) (y : S512x1.Idx) : ∃ pc ∈ (ptA (F := F) V c t h0 h2).2.1, y ∈ pc.1.set :=
  View.cover_of_tiledL (ptA V c t h0 h2).2.1 S512x1.size (by unfold ptA; sl_kernel_rfl) y
theorem coverA_s1 (c : Dev nD) (t : Fin cfg1.N) (h0) (h2) (y : S512x1.Idx) : ∃ pc ∈ (ptA (F := F) V c t h0 h2).2.2.1, y ∈ pc.1.set :=
  View.cover_of_tiledL (ptA V c t h0 h2).2.2.1 S512x1.size (by unfold ptA; sl_kernel_rfl) y
theorem coverA_s2 (c : Dev nD) (t : Fin cfg1.N) (h0) (h2) (y : S512x64.Idx) : ∃ pc ∈ (ptA (F := F) V c t h0 h2).2.2.2.1, y ∈ pc.1.set :=
  View.cover_of_tiledL (ptA V c t h0 h2).2.2.2.1 S512x64.size (by unfold ptA; sl_kernel_rfl) y
theorem coverB_s0 (c : Dev nD) (t : Fin cfg1.N) (h0) (h2) (y : S512x1.Idx) : ∃ pc ∈ (ptB (F := F) V c t h0 h2).1, y ∈ pc.1.set :=
  View.cover_of_tiledL (ptB V c t h0 h2).1 S512x1.size (by unfold ptB; sl_kernel_rfl) y
theorem coverB_s1 (c : Dev nD) (t : Fin cfg1.N) (h0) (h2) (y : S512x1.Idx) : ∃ pc ∈ (ptB (F := F) V c t h0 h2).2.1, y ∈ pc.1.set :=
  View.cover_of_tiledL (ptB V c t h0 h2).2.1 S512x1.size (by unfold ptB; sl_kernel_rfl) y
theorem coverB_s2 (c : Dev nD) (t : Fin cfg1.N) (h0) (h2) (y : S512x64.Idx) : ∃ pc ∈ (ptB (F := F) V c t h0 h2).2.2.1, y ∈ pc.1.set :=
  View.cover_of_tiledL (ptB V c t h0 h2).2.2.1 S512x64.size (by unfold ptB; sl_kernel_rfl) y
theorem coverC_s0 (c : Dev nD) (t : Fin cfg1.N) (h0) (h1) (h2) (s : St1 F) (y : S512x1.Idx) : ∃ pc ∈ (ptC (F := F) V c t h0 h1 h2 s).1, y ∈ pc.1.set :=
  View.cover_of_tiledL (ptC V c t h0 h1 h2 s).1 S512x1.size (by unfold ptC; sl_kernel_rfl) y
theorem coverC_s1 (c : Dev nD) (t : Fin cfg1.N) (h0) (h1) (h2) (s : St1 F) (y : S512x1.Idx) : ∃ pc ∈ (ptC (F := F) V c t h0 h1 h2 s).2.1, y ∈ pc.1.set :=
  View.cover_of_tiledL (ptC V c t h0 h1 h2 s).2.1 S512x1.size (by unfold ptC; sl_kernel_rfl) y
theorem coverC_s2 (c : Dev nD) (t : Fin cfg1.N) (h0) (h1) (h2) (s : St1 F) (y : S512x64.Idx) : ∃ pc ∈ (ptC (F := F) V c t h0 h1 h2 s).2.2.1, y ∈ pc.1.set :=
  View.cover_of_tiledL (ptC V c t h0 h1 h2 s).2.2.1 S512x64.size (by unfold ptC; sl_kernel_rfl) y
theorem coverD_3 (c : Dev nD) (t : Fin cfg1.N) (h0) (h2) (s : St1 F) (y : S1x512x64.Idx) : ∃ pc ∈ (ptD (F := F) V c t h0 h2 s).1, y ∈ pc.1.set :=
  View.cover_of_tiledL (ptD V c t h0 h2 s).1 S1x512x64.size (by unfold ptD; sl_kernel_rfl) y
theorem coverD_s0 (c : Dev nD) (t : Fin cfg1.N) (h0) (h2) (s : St1 F) (y : S512x1.Idx) : ∃ pc ∈ (ptD (F := F) V c t h0 h2 s).2.1, y ∈ pc.1.set :=
  View.cover_of_tiledL (ptD V c t h0 h2 s).2.1 S512x1.size (by unfold ptD; sl_kernel_rfl) y
theorem coverD_s1 (c : Dev nD) (t : Fin cfg1.N) (h0) (h2) (s : St1 F) (y : S512x1.Idx) : ∃ pc ∈ (ptD (F := F) V c t h0 h2 s).2.2.1, y ∈ pc.1.set :=
  View.cover_of_tiledL (ptD V c t h0 h2 s).2.2.1 S512x1.size (by unfold ptD; sl_kernel_rfl) y
theorem coverD_s2 (c : Dev nD) (t : Fin cfg1.N) (h0) (h2) (s : St1 F) (y : S512x64.Idx) : ∃ pc ∈ (ptD (F := F) V c t h0 h2 s).2.2.2.1, y ∈ pc.1.set :=
  View.cover_of_tiledL (ptD V c t h0 h2 s).2.2.2.1 S512x64.size (by unfold ptD; sl_kernel_rfl) y

/-! ## The state after each point -/

/-- The output tile and the accumulators after the body at position `n`: by the point's case, over what the
    point before left; a masked point changes nothing. -/
def outsAt1 (c : Dev nD) : (n : ℕ) → n < cfg1.N → St1 F
  | 0, hn => stA V c ⟨0, hn⟩ (Nat.zero_mod _) (by show 0 % 4 = 0 / 4 % 4; rfl)
  | n + 1, hn =>
    if h0 : (n + 1) % 4 = 0 then
      if h2 : (n + 1) % 4 = (n + 1) / 4 % 4 then stA V c ⟨n + 1, hn⟩ h0 h2
      else stB V c ⟨n + 1, hn⟩ h0 h2 (outsAt1 c n (Nat.lt_of_succ_lt hn))
    else if h1 : (n + 1) % 4 ≤ (n + 1) / 4 % 4 then
      if h2 : (n + 1) % 4 = (n + 1) / 4 % 4 then stD V c ⟨n + 1, hn⟩ h0 h2 (outsAt1 c n (Nat.lt_of_succ_lt hn))
      else stC V c ⟨n + 1, hn⟩ h0 h1 h2 (outsAt1 c n (Nat.lt_of_succ_lt hn))
    else outsAt1 c n (Nat.lt_of_succ_lt hn)

/-- The state the point before left (anything at the first point: never consulted there). -/
abbrev prev1 (c : Dev nD) (t : Fin cfg1.N) : St1 F := outsAt1 V c (t.val - 1) (Nat.lt_of_le_of_lt (Nat.sub_le _ _) t.isLt)

theorem outsAt1_A (c : Dev nD) (t : Fin cfg1.N) (h0 : t.val % 4 = 0) (h2 : t.val % 4 = t.val / 4 % 4) :
    outsAt1 V c t.val t.isLt = stA V c t h0 h2 := by
  obtain ⟨n, hn⟩ := t
  cases n with
  | zero => rfl
  | succ n => exact (dif_pos h0).trans (dif_pos h2)
theorem outsAt1_B (c : Dev nD) (t : Fin cfg1.N) (h0 : t.val % 4 = 0) (h2 : ¬t.val % 4 = t.val / 4 % 4) :
    outsAt1 V c t.val t.isLt = stB V c t h0 h2 (prev1 V c t) := by
  obtain ⟨n, hn⟩ := t
  cases n with
  | zero => exact absurd (by show 0 % 4 = 0 / 4 % 4; rfl) h2
  | succ n => exact (dif_pos h0).trans (dif_neg h2)
theorem outsAt1_C (c : Dev nD) (t : Fin cfg1.N) (h0 : ¬t.val % 4 = 0) (h1 : t.val % 4 ≤ t.val / 4 % 4) (h2 : ¬t.val % 4 = t.val / 4 % 4) :
    outsAt1 V c t.val t.isLt = stC V c t h0 h1 h2 (prev1 V c t) := by
  obtain ⟨n, hn⟩ := t
  cases n with
  | zero => exact absurd (Nat.zero_mod _) h0
  | succ n => exact (dif_neg h0).trans ((dif_pos h1).trans (dif_neg h2))
theorem outsAt1_D (c : Dev nD) (t : Fin cfg1.N) (h0 : ¬t.val % 4 = 0) (h2 : t.val % 4 = t.val / 4 % 4) :
    outsAt1 V c t.val t.isLt = stD V c t h0 h2 (prev1 V c t) := by
  obtain ⟨n, hn⟩ := t
  cases n with
  | zero => exact absurd (Nat.zero_mod _) h0
  | succ n => exact (dif_neg h0).trans ((dif_pos (le_of_eq h2)).trans (dif_pos h2))
theorem outsAt1_E (c : Dev nD) (t : Fin cfg1.N) (h1 : ¬t.val % 4 ≤ t.val / 4 % 4) :
    outsAt1 V c t.val t.isLt = prev1 V c t := by
  obtain ⟨n, hn⟩ := t
  cases n with
  | zero => exact absurd (Nat.zero_le _) h1
  | succ n => exact (dif_neg (fun h0 => h1 (by rw [h0]; exact Nat.zero_le _))).trans (dif_neg h1)

/-! ## The region invariant and the proof data -/

/-- Before the first point the class invariant (every scoped buffer at anything); afterwards the three accumulators
    at what the point before left, the other scoped buffers at anything, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2)
      ∗ restBut1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2)
      ∗ restBut1 (F := F) c) ∗ (∃ r, prngReg c r)) := rfl
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2)
      ∗ restBut1 (F := F) c) ∗ (∃ r, prngReg c r)) := by
  cases n with
  | zero => exact absurd rfl hz
  | succ n => rfl

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The output tile through the masked points -/

/-- At a masked point (key tile past the diagonal) the output window's staging buffer holds what the point before
    left: the diagonal point's tile, carried through the masked points between (none of them writes it back). -/
theorem before1_3_masked (c : Dev nD) : ∀ (n : ℕ) (hn : n < cfg1.N), ¬n % 4 ≤ n / 4 % 4 → ∀ d,
    (dat1 V c).before 3 ⟨n, hn⟩ d = (outsAt1 V c (n - 1) (Nat.lt_of_le_of_lt (Nat.sub_le _ _) hn)).1 := by
  intro n
  induction n with
  | zero => intro hn h; exact absurd (Nat.zero_le _) h
  | succ n ih =>
    intro hn h1 d
    have hn' : n < cfg1.N := Nat.lt_of_succ_lt hn
    rw [Dat.before_of_pos (dat1 V c) 3 ⟨n + 1, hn⟩ (Nat.succ_ne_zero n) ((cfg1.win 3).fetch_out rfl _) d]
    rw [show (⟨(⟨n + 1, hn⟩ : Fin cfg1.N).val - 1, Nat.lt_of_le_of_lt (Nat.sub_le _ _) (⟨n + 1, hn⟩ : Fin cfg1.N).isLt⟩ : Fin cfg1.N) = ⟨n, hn'⟩ from rfl]
    rw [noFlush1_3 ⟨n, hn'⟩ (by show ¬ n % 4 = 3; omega), if_neg Bool.false_ne_true]
    show (dat1 V c).left 3 ⟨n, hn'⟩ d = (outsAt1 V c n hn').1
    unfold Dat.left
    by_cases hl : n % 4 = n / 4 % 4
    · rw [liveAt1_3 ⟨n, hn'⟩ ((hcond1_2 ⟨n, hn'⟩).mpr hl)]
      show (dat1 V c).kept 3 ⟨n, hn'⟩ d = _
      unfold Dat.kept
      rw [Pipeline.fill_of_clip_none 3 _ (fun _ => rfl) d ((dat1 V c).after 3 ⟨n, hn'⟩) _, Window.fill_cut, after1_3]
    · rw [idleAt1_3 ⟨n, hn'⟩ (fun h => hl ((hcond1_2 ⟨n, hn'⟩).mp h))]
      show (dat1 V c).before 3 ⟨n, hn'⟩ d = _
      have hm : ¬n % 4 ≤ n / 4 % 4 := by omega
      rw [ih hn' hm d]
      exact (congrArg Prod.fst (outsAt1_E V c ⟨n, hn'⟩ hm)).symm

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the closed forms say which of the five cases the point is in; that case's run applies,
    the invariant handing it the accumulators at what the point before left (at anything at the first point) and
    taking them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 384 := lt_of_lt_of_eq t.isLt (show cfg1.N = 384 from N_1)
  by_cases h0 : t.val % 4 = 0
  · by_cases h2 : t.val % 4 = t.val / 4 % 4
    · -- the first key tile of the first query tile
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_2 t).mpr h2)], after1_3]
      rw [outsAt1_A V c t h0 h2]
      unfold stA; (try dsimp only)
      by_cases hz : t.val = 0
      · rw [PhiS1_castSucc V c t, PhiS1_zero V c _ _ hz, PhiA1_eq]
        iintro ⟨⟨⟨⟨HS0, HS1, HS2⟩, Hr⟩, Hg⟩, Ho, ⟨%d0, H0⟩, ⟨%d1, H1⟩, ⟨%d2, H2⟩, ⟨%d3, H3⟩⟩
        iapply ((ptA V c t h0 h2).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (coverA_s0 V c t h0 h2)
              isplitl [HS1]
              · unfold owns; iexists _; isplitr
                swap; · iexact HS1
                ipureintro; exact View.read_writes_of_cover _ _ _ _ _ (coverA_s1 V c t h0 h2)
              unfold owns; iexists _; isplitr
              swap; · iexact HS2
              ipureintro; exact View.read_writes_of_cover _ _ _ _ _ (coverA_s2 V c t h0 h2)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverA_3 V c t h0 h2)
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩⟩
        iapply ((ptA V c t h0 h2).2.2.2.2 Set.univ _)
        isplitl [H0]; · iexact H0
        isplitl [H1]; · iexact H1
        isplitl [H2]; · iexact H2
        isplitl [H3]; · iexists _; iexact H3
        isplitl [HS0]; · iexists _; iexact HS0
        isplitl [HS1]; · iexists _; iexact HS1
        isplitl [HS2]; · iexists _; iexact HS2
        iintro ⟨H0, H1, H2, ⟨%e3, H3⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (coverA_s0 V c t h0 h2)
              isplitl [HS1]
              · unfold owns; iexists _; isplitr
                swap; · iexact HS1
                ipureintro; exact View.read_writes_of_cover _ _ _ _ _ (coverA_s1 V c t h0 h2)
              unfold owns; iexists _; isplitr
              swap; · iexact HS2
              ipureintro; exact View.read_writes_of_cover _ _ _ _ _ (coverA_s2 V c t h0 h2)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverA_3 V c t h0 h2)
    · -- the first key tile of a later query tile
      have hz : t.val ≠ 0 := fun hz => h2 (by rw [hz])
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h2 ((hcond1_2 t).mp h))) (noFlush1_3 t (by omega))]
      rw [outsAt1_B V c t h0 h2]
      unfold stB; (try dsimp only)
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩⟩
      iapply ((ptB V c t h0 h2).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (coverB_s0 V c t h0 h2)
            isplitl [HS1]
            · unfold owns; iexists _; isplitr
              swap; · iexact HS1
              ipureintro; exact View.read_writes_of_cover _ _ _ _ _ (coverB_s1 V c t h0 h2)
            unfold owns; iexists _; isplitr
            swap; · iexact HS2
            ipureintro; exact View.read_writes_of_cover _ _ _ _ _ (coverB_s2 V c t h0 h2)
          iexact Hr
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    by_cases h1 : t.val % 4 ≤ t.val / 4 % 4
    · by_cases h2 : t.val % 4 = t.val / 4 % 4
      · -- the diagonal key tile of a later query tile
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [show (dat1 V c).leavesExact 3 t = owns (c : Thread nD τ) (ms1_3 t) fullShare ((dat1 V c).after 3 t) from by
          unfold Dat.leavesExact; rw [liveAt1_3 t ((hcond1_2 t).mpr h2)], after1_3]
        rw [outsAt1_D V c t h0 h2]
        unfold stD; (try dsimp only)
        rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩⟩
        iapply ((ptD V c t h0 h2 (prev1 V c t)).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (coverD_s0 V c t h0 h2 _)
              isplitl [HS1]
              · unfold owns; iexists _; isplitr
                swap; · iexact HS1
                ipureintro; exact View.read_writes_of_cover _ _ _ _ _ (coverD_s1 V c t h0 h2 _)
              unfold owns; iexists _; isplitr
              swap; · iexact HS2
              ipureintro; exact View.read_writes_of_cover _ _ _ _ _ (coverD_s2 V c t h0 h2 _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (coverD_3 V c t h0 h2 _)
      · -- a key tile strictly before the diagonal
        rw [show (dat1 V c).leavesExact 0 t = owns (c : Thread nD τ) (ms1_0 t) fullShare ((dat1 V c).after 0 t) from by
          unfold Dat.leavesExact; rw [liveAt1_0 t], after1_0]
        rw [show (dat1 V c).leavesExact 1 t = owns (c : Thread nD τ) (ms1_1 t) fullShare ((dat1 V c).after 1 t) from by
          unfold Dat.leavesExact; rw [liveAt1_1 t], after1_1]
        rw [show (dat1 V c).leavesExact 2 t = owns (c : Thread nD τ) (ms1_2 t) fullShare ((dat1 V c).after 2 t) from by
          unfold Dat.leavesExact; rw [liveAt1_2 t], after1_2]
        rw [Dat.leavesExact_idle (dat1 V c) 3 t (idleAt1_3 t (fun h => h2 ((hcond1_2 t).mp h))) (noFlush1_3 t (by omega))]
        rw [outsAt1_C V c t h0 h1 h2]
        unfold stC; (try dsimp only)
        rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩⟩
        iapply ((ptC V c t h0 h1 h2 (prev1 V c t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (coverC_s0 V c t h0 h1 h2 _)
              isplitl [HS1]
              · unfold owns; iexists _; isplitr
                swap; · iexact HS1
                ipureintro; exact View.read_writes_of_cover _ _ _ _ _ (coverC_s1 V c t h0 h1 h2 _)
              unfold owns; iexists _; isplitr
              swap; · iexact HS2
              ipureintro; exact View.read_writes_of_cover _ _ _ _ _ (coverC_s2 V c t h0 h1 h2 _)
            iexact Hr
          iexact Hg
        isplitl [Ho]; · iexact Ho
        isplitl [H0]; · iexact H0
        isplitl [H1]; · iexact H1
        isplitl [H2]; · iexact H2
        iexists _; iexact H3
    · -- a masked key tile: nothing is touched
      have h2 : ¬t.val % 4 = t.val / 4 % 4 := fun h => h1 (le_of_eq h)
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [outsAt1_E V c t h1]
      rw [PhiS1_castSucc V c t, PhiS1_pos V c _ _ hz]
      by_cases hf : t.val % 4 = 3
      · -- the group's last point: the tile is written back, as the diagonal point left it
        rw [show (dat1 V c).leavesExact 3 t = owns (c : Thread nD τ) (ms1_3 t) fullShare ((dat1 V c).after 3 t) from by
          unfold Dat.leavesExact; rw [idleAt1_3 t (fun h => h2 ((hcond1_2 t).mp h)), (flushAt1_3 t).mpr hf], after1_3, outsAt1_E V c t h1]
        iintro ⟨⟨⟨⟨HS0, HS1, HS2⟩, Hr⟩, Hg⟩, Ho, ⟨%d0, H0⟩, ⟨%d1, H1⟩, ⟨%d2, H2⟩, ⟨%d3, H3⟩⟩
        rw [show (dat1 V c).before 3 t d3 = (prev1 V c t).1 from before1_3_masked V c t.val t.isLt h1 d3]
        iapply (kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hr Hg]
        · isplitl [HS0 HS1 HS2 Hr]
          · isplitl [HS0 HS1 HS2]
            · isplitl [HS0]; · iexact HS0
              isplitl [HS1]; · iexact HS1
              iexact HS2
            iexact Hr
          iexact Hg
        isplitl [Ho]; · iexact Ho
        isplitl [H0]; · iexact H0
        isplitl [H1]; · iexact H1
        isplitl [H2]; · iexact H2
        iexact H3
      · rw [Dat.leavesExact_idle (dat1 V c) 3 t (idleAt1_3 t (fun h => h2 ((hcond1_2 t).mp h))) (noFlush1_3 t hf)]
        iintro ⟨⟨⟨⟨HS0, HS1, HS2⟩, Hr⟩, Hg⟩, Ho, ⟨%d0, H0⟩, ⟨%d1, H1⟩, ⟨%d2, H2⟩, ⟨%d3, H3⟩⟩
        iapply (kernelRun1_E (F := F) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (fun h => h2 ((hcond1_2 t).mp h)) (iblk1 V c 0 t) (iblk1 V c 1 t) (iblk1 V c 2 t) _ _ _ _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, HS0, HS1, HS2⟩
        isplitl [HS0 HS1 HS2 Hr Hg]
        · isplitl [HS0 HS1 HS2 Hr]
          · isplitl [HS0 HS1 HS2]
            · isplitl [HS0]; · iexact HS0
              isplitl [HS1]; · iexact HS1
              iexact HS2
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulators' contents are
    forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 384 := N_1; omega)

end Cert.Kernel.Hand

end
-- ==== Proof.K.Run.lean ====
/-
  The whole program as a run: @main's nine items — a host stretch, the projection call, the head split, the attention
  call, the head merge, the three fused matmul calls, the final reshape — chained through the contents of every
  unscoped buffer at each boundary. Every weakly fair execution terminates with each unscoped buffer at the last
  boundary's contents; the argument arrays, which no item writes, end as launched.
-/
import proofs.«151460_j71262097375467_2_alg».proof.Proof.K.Reg0
import proofs.«151460_j71262097375467_2_alg».proof.Proof.K.Reg2
import proofs.«151460_j71262097375467_2_alg».proof.Proof.K.Reg3
import proofs.«151460_j71262097375467_2_alg».proof.Proof.K.Reg4
import proofs.«151460_j71262097375467_2_alg».proof.Proof.K.Attn.Frame
import proofs.«151460_j71262097375467_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem hF0 (c : Dev nD) (w : Fin cfg0.W) : (dat0 (V1 m ρ) c).arrAt w cfg0.N = W2 m ρ c (Proc.devRef .tc (Pipeline.arrRef spec0 w)) :=
  (W2_arr m ρ c w).symm
theorem hrest0 (c : Dev nD) : ∀ b, b ∉ Finset.univ.image (Pipeline.arrRef spec0) → W2 m ρ c (Proc.devRef .tc b) = V1 m ρ c b :=
  fun b hb => W2_of_ne m ρ c b fun w e => hb (Finset.mem_image.mpr ⟨w, Finset.mem_univ _, e⟩)
/-- Region 0 changes only its result array `main_v2`: an input window's array ends as entered. -/
theorem W2_keep (c : Dev nD) (b : Ref sig .tc) (hb : b ≠ main_v2) : W2 m ρ c (Proc.devRef .tc b) = W1 m ρ c (Proc.devRef .tc b) := by
  by_cases h : ∃ w, Pipeline.arrRef spec0 w = b
  · obtain ⟨w, rfl⟩ := h
    rw [W2_arr]
    have hin : (cfg0.win w).isOut = false := by
      revert hb; revert w; decide
    exact ((dat0 (V1 m ρ) c).arrAt_in w hin _).trans (A_eq0 (V1 m ρ) c w)
  · exact W2_of_ne m ρ c b (fun w e => h ⟨w, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem hF1 (c : Dev nD) (w : Fin cfg1.W) : (dat1 (V3 m ρ) c).arrAt w cfg1.N = W4 m ρ c (Proc.devRef .tc (Pipeline.arrRef spec1 w)) :=
  (W4_arr m ρ c w).symm
theorem hrest1 (c : Dev nD) : ∀ b, b ∉ Finset.univ.image (Pipeline.arrRef spec1) → W4 m ρ c (Proc.devRef .tc b) = V3 m ρ c b :=
  fun b hb => W4_of_ne m ρ c b fun w e => hb (Finset.mem_image.mpr ⟨w, Finset.mem_univ _, e⟩)
/-- Region 1 changes only its result array `main_v15`: an input window's array ends as entered. -/
theorem W4_keep (c : Dev nD) (b : Ref sig .tc) (hb : b ≠ main_v15) : W4 m ρ c (Proc.devRef .tc b) = W3 m ρ c (Proc.devRef .tc b) := by
  by_cases h : ∃ w, Pipeline.arrRef spec1 w = b
  · obtain ⟨w, rfl⟩ := h
    rw [W4_arr]
    have hin : (cfg1.win w).isOut = false := by
      revert hb; revert w; decide
    exact ((dat1 (V3 m ρ) c).arrAt_in w hin _).trans (A_eq1 (V3 m ρ) c w)
  · exact W4_of_ne m ρ c b (fun w e => h ⟨w, e⟩)

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem hF2 (c : Dev nD) (w : Fin cfg2.W) : (dat2 (V5 m ρ) c).arrAt w cfg2.N = W6 m ρ c (Proc.devRef .tc (Pipeline.arrRef spec2 w)) :=
  (W6_arr m ρ c w).symm
theorem hrest2 (c : Dev nD) : ∀ b, b ∉ Finset.univ.image (Pipeline.arrRef spec2) → W6 m ρ c (Proc.devRef .tc b) = V5 m ρ c b :=
  fun b hb => W6_of_ne m ρ c b fun w e => hb (Finset.mem_image.mpr ⟨w, Finset.mem_univ _, e⟩)
/-- Region 2 changes only its result array `main_v19`: an input window's array ends as entered. -/
theorem W6_keep (c : Dev nD) (b : Ref sig .tc) (hb : b ≠ main_v19) : W6 m ρ c (Proc.devRef .tc b) = W5 m ρ c (Proc.devRef .tc b) := by
  by_cases h : ∃ w, Pipeline.arrRef spec2 w = b
  · obtain ⟨w, rfl⟩ := h
    rw [W6_arr]
    have hin : (cfg2.win w).isOut = false := by
      revert hb; revert w; decide
    exact ((dat2 (V5 m ρ) c).arrAt_in w hin _).trans (A_eq2 (V5 m ρ) c w)
  · exact W6_of_ne m ρ c b (fun w e => h ⟨w, e⟩)

abbrev V6 : (c : Dev nD) → (b : Ref sig .tc) → Buf (Elt F) ((c : Thread nD τ).loc b) := fun c b => W6 m ρ c b

/-- At region 3's exit: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
theorem hF3 (c : Dev nD) (w : Fin cfg3.W) : (dat3 (V6 m ρ) c).arrAt w cfg3.N = W7 m ρ c (Proc.devRef .tc (Pipeline.arrRef spec3 w)) :=
  (W7_arr m ρ c w).symm
theorem hrest3 (c : Dev nD) : ∀ b, b ∉ Finset.univ.image (Pipeline.arrRef spec3) → W7 m ρ c (Proc.devRef .tc b) = V6 m ρ c b :=
  fun b hb => W7_of_ne m ρ c b fun w e => hb (Finset.mem_image.mpr ⟨w, Finset.mem_univ _, e⟩)
/-- Region 3 changes only its result array `main_v20`: an input window's array ends as entered. -/
theorem W7_keep (c : Dev nD) (b : Ref sig .tc) (hb : b ≠ main_v20) : W7 m ρ c (Proc.devRef .tc b) = W6 m ρ c (Proc.devRef .tc b) := by
  by_cases h : ∃ w, Pipeline.arrRef spec3 w = b
  · obtain ⟨w, rfl⟩ := h
    rw [W7_arr]
    have hin : (cfg3.win w).isOut = false := by
      revert hb; revert w; decide
    exact ((dat3 (V6 m ρ) c).arrAt_in w hin _).trans (A_eq3 (V6 m ρ) c w)
  · exact W7_of_ne m ρ c b (fun w e => h ⟨w, e⟩)

abbrev V7 : (c : Dev nD) → (b : Ref sig .tc) → Buf (Elt F) ((c : Thread nD τ).loc b) := fun c b => W7 m ρ c b

/-- At region 4's exit: its arrays at what the pipeline leaves, every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
theorem hF4 (c : Dev nD) (w : Fin cfg4.W) : (dat4 (V7 m ρ) c).arrAt w cfg4.N = W8 m ρ c (Proc.devRef .tc (Pipeline.arrRef spec4 w)) :=
  (W8_arr m ρ c w).symm
theorem hrest4 (c : Dev nD) : ∀ b, b ∉ Finset.univ.image (Pipeline.arrRef spec4) → W8 m ρ c (Proc.devRef .tc b) = V7 m ρ c b :=
  fun b hb => W8_of_ne m ρ c b fun w e => hb (Finset.mem_image.mpr ⟨w, Finset.mem_univ _, e⟩)
/-- Region 4 changes only its result array `main_v21`: an input window's array ends as entered. -/
theorem W8_keep (c : Dev nD) (b : Ref sig .tc) (hb : b ≠ main_v21) : W8 m ρ c (Proc.devRef .tc b) = W7 m ρ c (Proc.devRef .tc b) := by
  by_cases h : ∃ w, Pipeline.arrRef spec4 w = b
  · obtain ⟨w, rfl⟩ := h
    rw [W8_arr]
    have hin : (cfg4.win w).isOut = false := by
      revert hb; revert w; decide
    exact ((dat4 (V7 m ρ) c).arrAt_in w hin _).trans (A_eq4 (V7 m ρ) c w)
  · exact W8_of_ne m ρ c b (fun w e => h ⟨w, e⟩)

abbrev W9 : Dev nD → Valuation τ sig (Elt F) := fun c => StableHlo.after hostOps5 (W8 m ρ c)

/-- A buffer no item writes reaches the end as launched. -/
theorem W9_keep (c : Dev nD) (r : Ref sig .tc) (h0 : r ∉ (hostOps0_W : List (Ref sig .tc))) (h1 : r ∉ (hostOps1_W : List (Ref sig .tc)))
    (h2 : r ∉ (hostOps2_W : List (Ref sig .tc))) (h5 : r ∉ (hostOps5_W : List (Ref sig .tc)))
    (n2 : r ≠ main_v2) (n15 : r ≠ main_v15) (n19 : r ≠ main_v19) (n20 : r ≠ main_v20) (n21 : r ≠ main_v21) :
    W9 m ρ c (Proc.devRef .tc r) = m ((c : Thread nD τ).loc r) :=
  calc W9 m ρ c (Proc.devRef .tc r)
    _ = W8 m ρ c (Proc.devRef .tc r) := StableHlo.after_of_writes_sub hostOps5 _ hostOps5_writes h5
    _ = W7 m ρ c (Proc.devRef .tc r) := W8_keep m ρ c r n21
    _ = W6 m ρ c (Proc.devRef .tc r) := W7_keep m ρ c r n20
    _ = W5 m ρ c (Proc.devRef .tc r) := W6_keep m ρ c r n19
    _ = W4 m ρ c (Proc.devRef .tc r) := StableHlo.after_of_writes_sub hostOps2 _ hostOps2_writes h2
    _ = W3 m ρ c (Proc.devRef .tc r) := W4_keep m ρ c r n15
    _ = W2 m ρ c (Proc.devRef .tc r) := StableHlo.after_of_writes_sub hostOps1 _ hostOps1_writes h1
    _ = W1 m ρ c (Proc.devRef .tc r) := W2_keep m ρ c r n2
    _ = W0 m ρ c (Proc.devRef .tc r) := StableHlo.after_of_writes_sub hostOps0 _ hostOps0_writes h0
    _ = m ((c : Thread nD τ).loc r) := rfl

/-! ## The proof data family and the thread state -/

def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
  | ⟨4, _⟩ => fun c => dat4 (V7 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as items -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (fun b => W2 m ρ c b) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (hin1 (V3 m ρ) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (fun b => W4 m ρ c b) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (fun b => W6 m ρ c b) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (fun b => W7 m ρ c b) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (fun b => W8 m ρ c b) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .region (reg4 m ρ),
    .host (hseg hostOps5 hostOps5_sub hostOps5_fresh (W8 m ρ)) ]

set_option backward.isDefEq.respectTransparency.types false in
/-- THE RUN. From any memory with zero counters every weakly fair execution of @main terminates, nothing faulting,
    and every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          Prog.lift (.customCall (Pipeline.entry 3) ()),
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c) ∗ R c) : sProp 𝕄) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Hand

end
-- ==== Proof.Spec.lean ====
/-
  The transformer block as a function of its twelve argument arrays, over the extended reals, with no program in
  sight. Arrays are flat: a row index r = b·2048 + s (batch b, position s) and a column index; the attention stage
  also names its coordinates (head h, depth d) and comes in both forms. Every stage is an index-by-index function
  of the stage before it, with sums over literal finite index types, so a program's value can be compared with it
  one stage at a time:

    qkv  = x · Wqkv                                               [4096, 2304]
    ctx  = softmax over j ≤ s of (q·k / 8), applied to v          [4096, 768]
    hmid = LayerNorm (x + (ctx · Wout + bout)) g1 be1             [4096, 768]
    ff1  = max (hmid · W1 + b1) 0                                 [4096, 3072]
    out  = LayerNorm (hmid + (ff1 · W2 + b2)) g2 be2              [4096, 768]

  Each operation is the ideal instance's: division is Ideal.div, the square root Ideal.sqrt, the exponential
  Ideal.exp; the three float constants (8, 768 and the LayerNorm's ε) are the extended reals their f32 words denote.
  No finiteness is assumed anywhere: a masked score is ⊥, and the row maximum is a supremum in the extended reals.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Flat coordinates -/

/-- Row b·2048 + s of a flat [4096, ·] array: batch b, position s. -/
def row (b : Fin 2) (s : Fin 2048) : Fin 4096 :=
  ⟨b.val * 2048 + s.val, by have := b.isLt; have := s.isLt; omega⟩
/-- Column part·768 + h·64 + d of the [4096, 2304] projection: part 0 the queries, 1 the keys, 2 the values;
    head h, depth d. -/
def col (part : Fin 3) (h : Fin 12) (d : Fin 64) : Fin 2304 :=
  ⟨part.val * 768 + h.val * 64 + d.val, by have := part.isLt; have := h.isLt; have := d.isLt; omega⟩
/-- Column h·64 + d of a [4096, 768] array: head h, depth d. -/
def ecol (h : Fin 12) (d : Fin 64) : Fin 768 :=
  ⟨h.val * 64 + d.val, by have := h.isLt; have := d.isLt; omega⟩
/-- The batch of a row. -/
def rowB (r : Fin 4096) : Fin 2 := ⟨r.val / 2048, by have := r.isLt; omega⟩
/-- The position of a row. -/
def rowS (r : Fin 4096) : Fin 2048 := ⟨r.val % 2048, by omega⟩
/-- The head of a [4096, 768] column. -/
def colH (e : Fin 768) : Fin 12 := ⟨e.val / 64, by have := e.isLt; omega⟩
/-- The depth of a [4096, 768] column. -/
def colD (e : Fin 768) : Fin 64 := ⟨e.val % 64, by omega⟩

theorem rowB_row (b : Fin 2) (s : Fin 2048) : rowB (row b s) = b :=
  Fin.ext (by have := b.isLt; have := s.isLt; show (b.val * 2048 + s.val) / 2048 = b.val; omega)
theorem rowS_row (b : Fin 2) (s : Fin 2048) : rowS (row b s) = s :=
  Fin.ext (by have := b.isLt; have := s.isLt; show (b.val * 2048 + s.val) % 2048 = s.val; omega)
theorem row_rowB_rowS (r : Fin 4096) : row (rowB r) (rowS r) = r :=
  Fin.ext (by show r.val / 2048 * 2048 + r.val % 2048 = r.val; omega)
theorem colH_ecol (h : Fin 12) (d : Fin 64) : colH (ecol h d) = h :=
  Fin.ext (by have := h.isLt; have := d.isLt; show (h.val * 64 + d.val) / 64 = h.val; omega)
theorem colD_ecol (h : Fin 12) (d : Fin 64) : colD (ecol h d) = d :=
  Fin.ext (by have := h.isLt; have := d.isLt; show (h.val * 64 + d.val) % 64 = d.val; omega)
theorem ecol_colH_colD (e : Fin 768) : ecol (colH e) (colD e) = e :=
  Fin.ext (by show e.val / 64 * 64 + e.val % 64 = e.val; omega)

/-! ## The stages -/

/-- The fused projection: row r of x against column j of Wqkv. -/
def qkv (x : Fin 4096 → Fin 768 → EReal) (Wqkv : Fin 768 → Fin 2304 → EReal) (r : Fin 4096) (j : Fin 2304) : EReal :=
  ∑ k : Fin 768, x r k * Wqkv k j

/-- The masked score of query position s against key position j in batch b, head h: the dot product over the depth
    divided by 8 (the f32 word of 8.0) where j ≤ s, and ⊥ elsewhere. -/
def score (Q : Fin 4096 → Fin 2304 → EReal) (b : Fin 2) (h : Fin 12) (s j : Fin 2048) : EReal :=
  if j ≤ s then
    Ideal.div (∑ d : Fin 64, Q (row b s) (col 0 h d) * Q (row b j) (col 1 h d)) (Ideal.ofBits .f32 0x41000000#32)
  else ⊥

/-- A row's maximum score: the supremum over the key positions. -/
def rowmax (Q : Fin 4096 → Fin 2304 → EReal) (b : Fin 2) (h : Fin 12) (s : Fin 2048) : EReal :=
  Finset.univ.sup fun j : Fin 2048 => score Q b h s j

/-- The unnormalised softmax weight exp (score − row maximum). -/
def expw (Q : Fin 4096 → Fin 2304 → EReal) (b : Fin 2) (h : Fin 12) (s j : Fin 2048) : EReal :=
  Ideal.exp (score Q b h s j - rowmax Q b h s)

/-- The softmax's denominator: the row's sum of weights. -/
def denom (Q : Fin 4096 → Fin 2304 → EReal) (b : Fin 2) (h : Fin 12) (s : Fin 2048) : EReal :=
  ∑ j : Fin 2048, expw Q b h s j

/-- The attention probability of key position j for query position s. -/
def attn (Q : Fin 4096 → Fin 2304 → EReal) (b : Fin 2) (h : Fin 12) (s j : Fin 2048) : EReal :=
  Ideal.div (expw Q b h s j) (denom Q b h s)

/-- The attention output by coordinates: the probabilities against the values. -/
def ctxh (Q : Fin 4096 → Fin 2304 → EReal) (b : Fin 2) (h : Fin 12) (s : Fin 2048) (d : Fin 64) : EReal :=
  ∑ j : Fin 2048, attn Q b h s j * Q (row b j) (col 2 h d)

/-- The attention output as a flat [4096, 768] array: row b·2048 + s, column h·64 + d. -/
def ctx (Q : Fin 4096 → Fin 2304 → EReal) (r : Fin 4096) (e : Fin 768) : EReal :=
  ctxh Q (rowB r) (colH e) (rowS r) (colD e)

theorem ctx_row_ecol (Q : Fin 4096 → Fin 2304 → EReal) (b : Fin 2) (h : Fin 12) (s : Fin 2048) (d : Fin 64) :
    ctx Q (row b s) (ecol h d) = ctxh Q b h s d := by
  unfold ctx; rw [rowB_row, rowS_row, colH_ecol, colD_ecol]

/-- A row's mean over its 768 columns (the divisor is the f32 word of 768.0). -/
def mean (z : Fin 4096 → Fin 768 → EReal) (r : Fin 4096) : EReal :=
  Ideal.div (∑ e : Fin 768, z r e) (Ideal.ofBits .f32 0x44400000#32)

/-- A row's (biased) variance: the mean of the squared deviations. -/
def var (z : Fin 4096 → Fin 768 → EReal) (r : Fin 4096) : EReal :=
  Ideal.div (∑ e : Fin 768, (z r e - mean z r) * (z r e - mean z r)) (Ideal.ofBits .f32 0x44400000#32)

/-- Layer normalisation of each row: gain · (z − mean) / √(variance + ε) + bias, ε the f32 word 0x3727C5AC. -/
def ln (z : Fin 4096 → Fin 768 → EReal) (g b : Fin 768 → EReal) (r : Fin 4096) (e : Fin 768) : EReal :=
  Ideal.div (g e * (z r e - mean z r)) (Ideal.sqrt (var z r + Ideal.ofBits .f32 0x3727C5AC#32)) + b e

/-- The first half: the attention output projected, the residual x added, normalised. -/
def hmid (x C : Fin 4096 → Fin 768 → EReal) (Wout : Fin 768 → Fin 768 → EReal) (bout g1 be1 : Fin 768 → EReal) :
    Fin 4096 → Fin 768 → EReal :=
  ln (fun r e => x r e + (∑ k : Fin 768, C r k * Wout k e + bout e)) g1 be1

/-- The feed-forward's hidden layer: relu of the affine map. -/
def ff1 (Hm : Fin 4096 → Fin 768 → EReal) (W1 : Fin 768 → Fin 3072 → EReal) (b1 : Fin 3072 → EReal)
    (r : Fin 4096) (f : Fin 3072) : EReal :=
  max (∑ k : Fin 768, Hm r k * W1 k f + b1 f) 0

/-- The second half: the hidden layer projected back, the residual hmid added, normalised. -/
def out (Hm : Fin 4096 → Fin 768 → EReal) (F : Fin 4096 → Fin 3072 → EReal) (W2 : Fin 3072 → Fin 768 → EReal)
    (b2 g2 be2 : Fin 768 → EReal) : Fin 4096 → Fin 768 → EReal :=
  ln (fun r e => Hm r e + (∑ f : Fin 3072, F r f * W2 f e + b2 e)) g2 be2

/-- The whole block over flat arrays. -/
def block (x : Fin 4096 → Fin 768 → EReal) (Wqkv : Fin 768 → Fin 2304 → EReal) (Wout : Fin 768 → Fin 768 → EReal)
    (bout : Fin 768 → EReal) (W1 : Fin 768 → Fin 3072 → EReal) (b1 : Fin 3072 → EReal)
    (W2 : Fin 3072 → Fin 768 → EReal) (b2 g1 be1 g2 be2 : Fin 768 → EReal) : Fin 4096 → Fin 768 → EReal :=
  out (hmid x (ctx (qkv x Wqkv)) Wout bout g1 be1) (ff1 (hmid x (ctx (qkv x Wqkv)) Wout bout g1 be1) W1 b1)
    W2 b2 g2 be2

/-! ## The array form -/

/-- A [2, 2048, n] array as a flat [4096, n] one. -/
def flat3 {n : Nat} (x : FVec Ideal ⟨3, ![2, 2048, n]⟩ .f32) (r : Fin 4096) (k : Fin n) : EReal :=
  x (ix3 (rowB r) (rowS r) k)
/-- A rank-2 array as a function of its two coordinates. -/
def mat {m n : Nat} (W : FVec Ideal ⟨2, ![m, n]⟩ .f32) (k : Fin m) (j : Fin n) : EReal := W (ix2 k j)
/-- A rank-1 array as a function of its coordinate. -/
def vec {n : Nat} (v : FVec Ideal ⟨1, ![n]⟩ .f32) (e : Fin n) : EReal := v (ix1 e)

theorem flat3_row {n : Nat} (x : FVec Ideal ⟨3, ![2, 2048, n]⟩ .f32) (b : Fin 2) (s : Fin 2048) (k : Fin n) :
    flat3 x (row b s) k = x (ix3 b s k) := by
  unfold flat3; rw [rowB_row, rowS_row]

/-- The block's result array of the twelve argument arrays. -/
def result (x : FVec Ideal ⟨3, ![2, 2048, 768]⟩ .f32) (Wqkv : FVec Ideal ⟨2, ![768, 2304]⟩ .f32)
    (Wout : FVec Ideal ⟨2, ![768, 768]⟩ .f32) (bout : FVec Ideal ⟨1, ![768]⟩ .f32)
    (W1 : FVec Ideal ⟨2, ![768, 3072]⟩ .f32) (b1 : FVec Ideal ⟨1, ![3072]⟩ .f32)
    (W2 : FVec Ideal ⟨2, ![3072, 768]⟩ .f32) (b2 g1 be1 g2 be2 : FVec Ideal ⟨1, ![768]⟩ .f32) :
    FVec Ideal ⟨3, ![2, 2048, 768]⟩ .f32 :=
  fun i => block (flat3 x) (mat Wqkv) (mat Wout) (vec bout) (mat W1) (vec b1) (mat W2) (vec b2) (vec g1) (vec be1)
    (vec g2) (vec be2) (row (i 0) (i 1)) (i 2)

theorem result_apply (x : FVec Ideal ⟨3, ![2, 2048, 768]⟩ .f32) (Wqkv : FVec Ideal ⟨2, ![768, 2304]⟩ .f32)
    (Wout : FVec Ideal ⟨2, ![768, 768]⟩ .f32) (bout : FVec Ideal ⟨1, ![768]⟩ .f32)
    (W1 : FVec Ideal ⟨2, ![768, 3072]⟩ .f32) (b1 : FVec Ideal ⟨1, ![3072]⟩ .f32)
    (W2 : FVec Ideal ⟨2, ![3072, 768]⟩ .f32) (b2 g1 be1 g2 be2 : FVec Ideal ⟨1, ![768]⟩ .f32)
    (b : Fin 2) (s : Fin 2048) (e : Fin 768) :
    result x Wqkv Wout bout W1 b1 W2 b2 g1 be1 g2 be2 (ix3 b s e)
      = block (flat3 x) (mat Wqkv) (mat Wout) (vec bout) (mat W1) (vec b1) (mat W2) (vec b2) (vec g1) (vec be1)
          (vec g2) (vec be2) (row b s) e := rfl

/-! ## The constants, and the row maximum as a fold -/

/-- The f32 word of −∞ denotes ⊥. -/
theorem ofBits_neg_inf : Ideal.ofBits .f32 0xFF800000#32 = ⊥ := by
  simp [Ideal.ofBits, Ideal.ieee]

/-- The f32 word of 8.0 denotes the real 8. -/
theorem ofBits_8 : Ideal.ofBits .f32 0x41000000#32 = ((8 : ℝ) : EReal) := by
  simp [Ideal.ofBits, Ideal.ieee, -EReal.coe_mul]; norm_num

/-- The f32 word of 768.0 denotes the real 768. -/
theorem ofBits_768 : Ideal.ofBits .f32 0x44400000#32 = ((768 : ℝ) : EReal) := by
  simp [Ideal.ofBits, Ideal.ieee, -EReal.coe_mul]; norm_num

/-- The score's division is the product with the real 1/8, on every extended real. -/
theorem div_8 (x : EReal) : Ideal.div x (Ideal.ofBits .f32 0x41000000#32) = x * ((1 / 8 : ℝ) : EReal) := by
  rw [ofBits_8]; exact Ideal.div_coe (by norm_num) x

/-- The mean's division is the product with the real 1/768, on every extended real. -/
theorem div_768 (x : EReal) : Ideal.div x (Ideal.ofBits .f32 0x44400000#32) = x * ((1 / 768 : ℝ) : EReal) := by
  rw [ofBits_768]; exact Ideal.div_coe (by norm_num) x

/-- A fold of max from ⊥ over a whole finite index type is the supremum. -/
theorem fold_max_bot_eq_sup {ι : Type*} [Fintype ι] (f : ι → EReal) :
    (Finset.univ : Finset ι).fold max ⊥ f = Finset.univ.sup f := by
  classical
  refine Finset.induction_on (Finset.univ : Finset ι) (by simp) ?_
  intro a s ha ih
  rw [Finset.fold_insert ha, Finset.sup_insert, ih]

end Cert.Spec

end
-- ==== Proof.Ref.Heads.lean ====
/-
  The reference's projection and its three head arrays, read at an index.
  The fused projection at (b, s, j) is the specification's qkv at row b·2048 + s, column j. The queries, keys and values
  are its three column blocks, cut into 12 heads of depth 64 and transposed to [2, 12, 2048, 64]: at (b, h, s, d) each
  is the projection at row b·2048 + s, column part·768 + h·64 + d (part 0, 1, 2).
-/
import proofs.«151460_j71262097375467_2_alg».proof.Proof.Ref.ReadP
import proofs.«151460_j71262097375467_2_alg».proof.Proof.Spec

noncomputable section

open scoped BigOperators

namespace Cert.ReferenceIdeal.RefValue

open Cert.ReferenceIdeal Cert.ReferenceIdeal.Read Idealize.ShloMosaic Idealize.ShloMosaic.ValueIdx

variable (x0 : (⟨S2x2048x768, .f32⟩ : BufTy).Contents (Elt Ideal)) (x1 : (⟨S768x2304, .f32⟩ : BufTy).Contents (Elt Ideal))

/-! ## The projection -/

theorem lidx_v0 (b : Fin 2) (s : Fin 2048) (j : Fin 2304) (k : Fin 768) : lidx_main_v0 (ix3 b s j) k = ix3 b s k :=
  funext fun a => by match a with | ⟨0, _⟩ => rfl | ⟨1, _⟩ => rfl | ⟨2, _⟩ => rfl

theorem ridx_v0 (b : Fin 2) (s : Fin 2048) (j : Fin 2304) (k : Fin 768) : ridx_main_v0 (ix3 b s j) k = ix2 k j :=
  funext fun a => by match a with | ⟨0, _⟩ => rfl | ⟨1, _⟩ => rfl

/-- The projection at (b, s, j). -/
theorem v0_at (b : Fin 2) (s : Fin 2048) (j : Fin 2304) :
    val_main_v0 (F := Ideal) x0 x1 (ix3 b s j) = Cert.Spec.qkv (Cert.Spec.flat3 x0) (Cert.Spec.mat x1) (Cert.Spec.row b s) j := by
  rw [val_main_v0_apply]
  unfold Cert.Spec.qkv
  refine Finset.sum_congr rfl fun k _ => ?_
  rw [lidx_v0, ridx_v0, Cert.Spec.flat3_row]
  rfl

/-! ## The heads -/

/-- Through the transposition, the cut into heads and the first column block, (b, h, s, d) reads the projection at
    (b, s, h·64 + d). -/
theorem idx_q (b : Fin 2) (h : Fin 12) (s : Fin 2048) (d : Fin 64) :
    idx_main_v1 (idx_main_v4 (idx_main_v5 (ix4 b h s d))) = ix3 b s (Cert.Spec.col 0 h d) :=
  funext fun a => Fin.ext (by
    have := b.isLt; have := h.isLt; have := s.isLt; have := d.isLt
    match a with
    | ⟨0, _⟩ => show (((b.val * 2048 + s.val) * 12 + h.val) * 64 + d.val) / 1572864 = b.val; omega
    | ⟨1, _⟩ => show (((b.val * 2048 + s.val) * 12 + h.val) * 64 + d.val) / 768 % 2048 = s.val; omega
    | ⟨2, _⟩ => show (((b.val * 2048 + s.val) * 12 + h.val) * 64 + d.val) % 768 = 0 * 768 + h.val * 64 + d.val; omega)

/-- The same through the second column block: column 768 + h·64 + d. -/
theorem idx_k (b : Fin 2) (h : Fin 12) (s : Fin 2048) (d : Fin 64) :
    idx_main_v2 (idx_main_v6 (idx_main_v7 (ix4 b h s d))) = ix3 b s (Cert.Spec.col 1 h d) :=
  funext fun a => Fin.ext (by
    have := b.isLt; have := h.isLt; have := s.isLt; have := d.isLt
    match a with
    | ⟨0, _⟩ => show (((b.val * 2048 + s.val) * 12 + h.val) * 64 + d.val) / 1572864 = b.val; omega
    | ⟨1, _⟩ => show (((b.val * 2048 + s.val) * 12 + h.val) * 64 + d.val) / 768 % 2048 = s.val; omega
    | ⟨2, _⟩ => show 768 + (((b.val * 2048 + s.val) * 12 + h.val) * 64 + d.val) % 768 = 1 * 768 + h.val * 64 + d.val; omega)

/-- The same through the third column block: column 1536 + h·64 + d. -/
theorem idx_v (b : Fin 2) (h : Fin 12) (s : Fin 2048) (d : Fin 64) :
    idx_main_v3 (idx_main_v8 (idx_main_v9 (ix4 b h s d))) = ix3 b s (Cert.Spec.col 2 h d) :=
  funext fun a => Fin.ext (by
    have := b.isLt; have := h.isLt; have := s.isLt; have := d.isLt
    match a with
    | ⟨0, _⟩ => show (((b.val * 2048 + s.val) * 12 + h.val) * 64 + d.val) / 1572864 = b.val; omega
    | ⟨1, _⟩ => show (((b.val * 2048 + s.val) * 12 + h.val) * 64 + d.val) / 768 % 2048 = s.val; omega
    | ⟨2, _⟩ => show 1536 + (((b.val * 2048 + s.val) * 12 + h.val) * 64 + d.val) % 768 = 2 * 768 + h.val * 64 + d.val; omega)

/-- The queries at (b, h, s, d). -/
theorem q_at (b : Fin 2) (h : Fin 12) (s : Fin 2048) (d : Fin 64) :
    val_main_v5 (F := Ideal) x0 x1 (ix4 b h s d)
      = Cert.Spec.qkv (Cert.Spec.flat3 x0) (Cert.Spec.mat x1) (Cert.Spec.row b s) (Cert.Spec.col 0 h d) := by
  rw [val_main_v5_apply, val_main_v4_apply, val_main_v1_apply, idx_q, v0_at]

/-- The keys at (b, h, s, d). -/
theorem k_at (b : Fin 2) (h : Fin 12) (s : Fin 2048) (d : Fin 64) :
    val_main_v7 (F := Ideal) x0 x1 (ix4 b h s d)
      = Cert.Spec.qkv (Cert.Spec.flat3 x0) (Cert.Spec.mat x1) (Cert.Spec.row b s) (Cert.Spec.col 1 h d) := by
  rw [val_main_v7_apply, val_main_v6_apply, val_main_v2_apply, idx_k, v0_at]

/-- The values at (b, h, s, d). -/
theorem v_at (b : Fin 2) (h : Fin 12) (s : Fin 2048) (d : Fin 64) :
    val_main_v9 (F := Ideal) x0 x1 (ix4 b h s d)
      = Cert.Spec.qkv (Cert.Spec.flat3 x0) (Cert.Spec.mat x1) (Cert.Spec.row b s) (Cert.Spec.col 2 h d) := by
  rw [val_main_v9_apply, val_main_v8_apply, val_main_v3_apply, idx_v, v0_at]

end Cert.ReferenceIdeal.RefValue

end
-- ==== Proof.Ref.Mask.lean ====
/-
  Two facts below the arrays, used where the reference's causal mask and its row maximum are read at an index.
  The mask: for positions s, j below 2048 the signed comparison "s + 0 ≥ j" of their 32-bit words is the bit of j ≤ s,
  so a select on it (the lower-triangular table, then the choice between the score and −∞) is the if on j ≤ s.
  The maximum: the host's reduce with a maximum body over the last axis of a [2, 12, 2048, 2048] array, from −∞, is at
  (b, h, s) the supremum over the last coordinate.
-/
import Idealize.ShloMosaic.PureOps.Ideal
import Idealize.ShloMosaic.PureOps.Ideal.Laws
import Idealize.ShloMosaic.PureOps.Reduce
import Idealize.ShloMosaic.Lib.ValueIdx
import proofs.«151460_j71262097375467_2_alg».proof.Proof.Spec

noncomputable section

namespace Cert.ReferenceIdeal.RefValue

open Idealize.ShloMosaic Idealize.ShloMosaic.ValueIdx

/-- A 32-bit word of a number below 2048 reads, signed, as that number. -/
theorem toInt_ofNat_small (n : Nat) (h : n < 2048) : (BitVec.ofNat 32 n).toInt = (n : Int) := by
  rw [BitVec.toInt_eq_toNat_of_lt (by rw [BitVec.toNat_ofNat]; omega), BitVec.toNat_ofNat]
  omega

/-- The mask's bit: "s + 0 ≥ j", signed, on the 32-bit words of positions below 2048. -/
theorem tril_bit (s j : Nat) (hs : s < 2048) (hj : j < 2048) :
    IntOp.cmpi .sge (IntOp.addi (BitVec.ofNat 32 s) 0#32) (BitVec.ofNat 32 j) = if j ≤ s then 1#1 else 0#1 := by
  unfold IntOp.cmpi IntOp.addi
  rw [BitVec.add_zero]
  show BitVec.ofBool ((BitVec.ofNat 32 j).sle (BitVec.ofNat 32 s)) = _
  rw [BitVec.sle_eq_decide, toInt_ofNat_small s hs, toInt_ofNat_small j hj]
  by_cases h : j ≤ s
  · rw [if_pos h, decide_eq_true (by omega)]; rfl
  · rw [if_neg h, decide_eq_false (by omega)]; rfl

/-- A select on the lower-triangular table's entry (itself a select of the constants true and false on the mask's bit)
    is the if on j ≤ s. -/
theorem select_tril {α : Type} (s j : Fin 2048) (A B : α) :
    Scalar.select (Scalar.select (IntOp.cmpi .sge (IntOp.addi (BitVec.ofNat 32 s.val) 0#32) (BitVec.ofNat 32 j.val)) 1#1 0#1) A B
      = if j ≤ s then A else B := by
  rw [tril_bit s.val j.val s.isLt j.isLt]
  by_cases h : j ≤ s
  · rw [if_pos h, if_pos (show j.val ≤ s.val from h), select_one, select_one]
  · rw [if_neg h, if_neg (show ¬ j.val ≤ s.val from h), select_zero, select_zero]

/-- The reduced index (b, h, s) with the last coordinate k put back is (b, h, s, k). -/
theorem lift_ix4 (hred : (⟨4, ![2, 12, 2048, 2048]⟩ : Shape).Reduces [3] ⟨3, ![2, 12, 2048]⟩) (b : Fin 2) (h : Fin 12)
    (s k : Fin 2048) : hred.lift (ix3 b h s) k = ix4 b h s k := by
  funext a
  apply Fin.ext
  match a with
  | ⟨0, _⟩ => rfl
  | ⟨1, _⟩ => rfl
  | ⟨2, _⟩ => rfl
  | ⟨3, _⟩ => rfl

/-- From −∞ the host's reduce with a maximum body over the last axis is, at (b, h, s), the supremum over that axis. -/
theorem hostReduce_max_last (y : FVec Ideal ⟨4, ![2, 12, 2048, 2048]⟩ .f32)
    (h' : (⟨4, ![2, 12, 2048, 2048]⟩ : Shape).ReducesTo [3] ⟨3, ![2, 12, 2048]⟩) (hu : 0 < (⟨0, ![]⟩ : Shape).numel)
    (b : Fin 2) (h : Fin 12) (s : Fin 2048) :
    Host.reduce FloatOps.maximumf y (constant (⟨0, ![]⟩ : Shape) .f32 0xFF800000#32) h' hu (ix3 b h s)
      = Finset.univ.sup fun k : Fin 2048 => y (ix4 b h s k) := by
  have hred : (⟨4, ![2, 12, 2048, 2048]⟩ : Shape).Reduces [3] ⟨3, ![2, 12, 2048]⟩ := by decide
  rw [Host.reduce_eq_fold_single FloatOps.maximumf y _ h' hred hu]
  have hf : (y ∘ hred.lift (ix3 b h s)) = fun k : Fin 2048 => y (ix4 b h s k) :=
    funext fun k => congrArg y (lift_ix4 hred b h s k)
  refine Eq.trans (congrArg (fun f => Finset.fold max (Ideal.ofBits .f32 0xFF800000#32) f (Finset.univ : Finset (Fin 2048))) hf) ?_
  rw [Cert.Spec.ofBits_neg_inf]
  exact Cert.Spec.fold_max_bot_eq_sup _

end Cert.ReferenceIdeal.RefValue

end
-- ==== Proof.Ref.Softmax.lean ====
/-
  The reference's attention, read at an index, stage by stage against the specification.
  With Q the projection as a flat array: the masked scores at (b, h, s, j) are the specification's score; their
  reduce with a maximum body over j, from −∞, is its row maximum (and the further maximum with −∞ changes nothing);
  the exponentials of the differences are its weights, their sum over j (from the zero word) its denominator, the
  quotients its probabilities; the contraction of the probabilities with the values over j is its context by
  coordinates, and transposed back and flattened to [2, 2048, 768] it is the flat context at row b·2048 + s.
-/
import proofs.«151460_j71262097375467_2_alg».proof.Proof.Ref.ReadP
import proofs.«151460_j71262097375467_2_alg».proof.Proof.Spec
import proofs.«151460_j71262097375467_2_alg».proof.Proof.Ref.Heads
import proofs.«151460_j71262097375467_2_alg».proof.Proof.Ref.Mask

noncomputable section

open scoped BigOperators

namespace Cert.ReferenceIdeal.RefValue

open Cert.ReferenceIdeal Cert.ReferenceIdeal.Read Idealize.ShloMosaic Idealize.ShloMosaic.ValueIdx

variable (x0 : (⟨S2x2048x768, .f32⟩ : BufTy).Contents (Elt Ideal)) (x1 : (⟨S768x2304, .f32⟩ : BufTy).Contents (Elt Ideal))

local notation "Q" => Cert.Spec.qkv (Cert.Spec.flat3 x0) (Cert.Spec.mat x1)

/-! ## The masked scores -/

theorem idx_mask (b : Fin 2) (h : Fin 12) (s j : Fin 2048) : idx_main_call1_v1 (ix4 b h s j) = ix2 s j :=
  funext fun a => by match a with | ⟨0, _⟩ => rfl | ⟨1, _⟩ => rfl

theorem lidx_v10 (b : Fin 2) (h : Fin 12) (s j : Fin 2048) (k : Fin 64) : lidx_main_v10 (ix4 b h s j) k = ix4 b h s k :=
  funext fun a => by match a with | ⟨0, _⟩ => rfl | ⟨1, _⟩ => rfl | ⟨2, _⟩ => rfl | ⟨3, _⟩ => rfl

theorem ridx_v10 (b : Fin 2) (h : Fin 12) (s j : Fin 2048) (k : Fin 64) : ridx_main_v10 (ix4 b h s j) k = ix4 b h j k :=
  funext fun a => by match a with | ⟨0, _⟩ => rfl | ⟨1, _⟩ => rfl | ⟨2, _⟩ => rfl | ⟨3, _⟩ => rfl

/-- A select on the lower-triangular table at (s, j) is the if on j ≤ s. -/
theorem mask_at {α : Type} (s j : Fin 2048) (A B : α) :
    Scalar.select (val_main_v14 (F := Ideal) (ix2 s j)) A B = if j ≤ s then A else B := by
  rw [val_main_v14_apply, val_main_call0_v4_apply, val_main_call0_v2_apply, val_main_call0_v0_apply,
    val_main_call0_v1_apply, val_main_call0_c_apply, val_main_call0_v3_apply, val_main_v13_apply, val_main_c_apply,
    val_main_call0_v5_apply, val_main_call0_c_0_apply]
  exact select_tril s j A B

/-- The masked scores at (b, h, s, j). -/
theorem score_at (b : Fin 2) (h : Fin 12) (s j : Fin 2048) :
    val_main_v15 (F := Ideal) x0 x1 (ix4 b h s j) = Cert.Spec.score Q b h s j := by
  rw [val_main_v15_apply, val_main_call1_v1_apply, idx_mask, mask_at, val_main_v12_apply, val_main_v11_apply,
    val_main_cst_apply, val_main_call1_v2_apply, val_main_call1_v0_apply, val_main_cst_0_apply, val_main_v10_apply]
  unfold Cert.Spec.score
  simp only [lidx_v10, ridx_v10, q_at, k_at, Ideal.ofBits_def, Ideal.hostDivf_def, Cert.Spec.ofBits_neg_inf]

/-! ## The row maximum, the weights, the denominator, the probabilities -/

/-- The row maximum at (b, h, s). -/
theorem rowmax_at (b : Fin 2) (h : Fin 12) (s : Fin 2048) :
    val_main_v16 (F := Ideal) x0 x1 (ix3 b h s) = Cert.Spec.rowmax Q b h s := by
  unfold val_main_v16 val_main_cst_1
  rw [hostReduce_max_last (val_main_v15 (F := Ideal) x0 x1) _ _ b h s]
  unfold Cert.Spec.rowmax
  simp only [score_at]

theorem idx_v19v20 (b : Fin 2) (h : Fin 12) (s j : Fin 2048) : idx_main_v19 (idx_main_v20 (ix4 b h s j)) = ix3 b h s :=
  funext fun a => by match a with | ⟨0, _⟩ => rfl | ⟨1, _⟩ => rfl | ⟨2, _⟩ => rfl

/-- The weights at (b, h, s, j). -/
theorem expw_at (b : Fin 2) (h : Fin 12) (s j : Fin 2048) :
    val_main_v22 (F := Ideal) x0 x1 (ix4 b h s j) = Cert.Spec.expw Q b h s j := by
  rw [val_main_v22_apply, val_main_v21_apply, val_main_v20_apply, val_main_v19_apply, idx_v19v20, val_main_v18_apply,
    val_main_v17_apply, val_main_cst_2_apply, score_at, rowmax_at]
  unfold Cert.Spec.expw
  simp only [Ideal.ofBits_def, Ideal.hostUnary_exp_def, Ideal.subf_def, Ideal.maximumf_def, Cert.Spec.ofBits_neg_inf,
    max_bot_left]

theorem idx_v23 (b : Fin 2) (h : Fin 12) (s : Fin 2048) (k : Fin 2048) : idx_main_v23 (ix3 b h s) k = ix4 b h s k :=
  funext fun a => by match a with | ⟨0, _⟩ => rfl | ⟨1, _⟩ => rfl | ⟨2, _⟩ => rfl | ⟨3, _⟩ => rfl

/-- The denominator at (b, h, s). -/
theorem denom_at (b : Fin 2) (h : Fin 12) (s : Fin 2048) :
    val_main_v23 (F := Ideal) x0 x1 (ix3 b h s) = Cert.Spec.denom Q b h s := by
  rw [val_main_v23_apply, val_main_cst_3_apply]
  unfold Cert.Spec.denom
  simp only [idx_v23, expw_at, Ideal.ofBits_def, Ideal.ofBits_zero_f32, zero_add]

theorem idx_v24v25 (b : Fin 2) (h : Fin 12) (s j : Fin 2048) : idx_main_v24 (idx_main_v25 (ix4 b h s j)) = ix3 b h s :=
  funext fun a => by match a with | ⟨0, _⟩ => rfl | ⟨1, _⟩ => rfl | ⟨2, _⟩ => rfl

/-- The probabilities at (b, h, s, j). -/
theorem attn_at (b : Fin 2) (h : Fin 12) (s j : Fin 2048) :
    val_main_v26 (F := Ideal) x0 x1 (ix4 b h s j) = Cert.Spec.attn Q b h s j := by
  rw [val_main_v26_apply, val_main_v25_apply, val_main_v24_apply, idx_v24v25, expw_at, denom_at]
  rfl

/-! ## The context -/

theorem lidx_v27 (b : Fin 2) (h : Fin 12) (s : Fin 2048) (d : Fin 64) (k : Fin 2048) :
    lidx_main_v27 (ix4 b h s d) k = ix4 b h s k :=
  funext fun a => by match a with | ⟨0, _⟩ => rfl | ⟨1, _⟩ => rfl | ⟨2, _⟩ => rfl | ⟨3, _⟩ => rfl

theorem ridx_v27 (b : Fin 2) (h : Fin 12) (s : Fin 2048) (d : Fin 64) (k : Fin 2048) :
    ridx_main_v27 (ix4 b h s d) k = ix4 b h k d :=
  funext fun a => by match a with | ⟨0, _⟩ => rfl | ⟨1, _⟩ => rfl | ⟨2, _⟩ => rfl | ⟨3, _⟩ => rfl

/-- The context by coordinates at (b, h, s, d). -/
theorem ctxh_at (b : Fin 2) (h : Fin 12) (s : Fin 2048) (d : Fin 64) :
    val_main_v27 (F := Ideal) x0 x1 (ix4 b h s d) = Cert.Spec.ctxh Q b h s d := by
  rw [val_main_v27_apply]
  unfold Cert.Spec.ctxh
  simp only [lidx_v27, ridx_v27, attn_at, v_at]

/-- Through the flattening and the transposition back, (b, s, e) reads the context at (b, e / 64, s, e % 64). -/
theorem idx_ctx (b : Fin 2) (s : Fin 2048) (e : Fin 768) :
    idx_main_v28 (idx_main_v29 (ix3 b s e)) = ix4 b (Cert.Spec.colH e) s (Cert.Spec.colD e) :=
  funext fun a => Fin.ext (by
    have := b.isLt; have := s.isLt; have := e.isLt
    match a with
    | ⟨0, _⟩ => show ((b.val * 2048 + s.val) * 768 + e.val) / 1572864 = b.val; omega
    | ⟨1, _⟩ => show ((b.val * 2048 + s.val) * 768 + e.val) / 64 % 12 = e.val / 64; omega
    | ⟨2, _⟩ => show ((b.val * 2048 + s.val) * 768 + e.val) / 768 % 2048 = s.val; omega
    | ⟨3, _⟩ => show ((b.val * 2048 + s.val) * 768 + e.val) % 64 = e.val % 64; omega)

/-- The flat context at (b, s, e). -/
theorem ctx_at (b : Fin 2) (s : Fin 2048) (e : Fin 768) :
    val_main_v29 (F := Ideal) x0 x1 (ix3 b s e) = Cert.Spec.ctx Q (Cert.Spec.row b s) e := by
  rw [val_main_v29_apply, val_main_v28_apply, idx_ctx, ctxh_at]
  unfold Cert.Spec.ctx
  rw [Cert.Spec.rowB_row, Cert.Spec.rowS_row]

/-- The flat context as one array. -/
theorem ctx_flat : Cert.Spec.flat3 (val_main_v29 (F := Ideal) x0 x1) = Cert.Spec.ctx Q := by
  funext r e
  obtain ⟨b, s, rfl⟩ : ∃ b s, r = Cert.Spec.row b s := ⟨_, _, (Cert.Spec.row_rowB_rowS r).symm⟩
  rw [Cert.Spec.flat3_row, ctx_at]

end Cert.ReferenceIdeal.RefValue

end
-- ==== Proof.Ref.Ln1.lean ====
/-
  The reference's first half after the attention, read at an index: the output projection with its bias, the residual,
  and the layer normalisation (mean and variance by sums over the 768 columns from the zero word, divided by the word
  of 768; gain times deviation, divided by the square root of variance plus ε, plus bias). As flat arrays it is the
  specification's hmid of x and the flat context.
-/
import proofs.«151460_j71262097375467_2_alg».proof.Proof.Ref.ReadP
import proofs.«151460_j71262097375467_2_alg».proof.Proof.Spec
import proofs.«151460_j71262097375467_2_alg».proof.Proof.Ref.Heads
import proofs.«151460_j71262097375467_2_alg».proof.Proof.Ref.Mask
import proofs.«151460_j71262097375467_2_alg».proof.Proof.Ref.Softmax

noncomputable section

open scoped BigOperators

namespace Cert.ReferenceIdeal.RefValue

open Cert.ReferenceIdeal Cert.ReferenceIdeal.Read Idealize.ShloMosaic Idealize.ShloMosaic.ValueIdx

variable (x0 : (⟨S2x2048x768, .f32⟩ : BufTy).Contents (Elt Ideal)) (x1 : (⟨S768x2304, .f32⟩ : BufTy).Contents (Elt Ideal))

variable (x2 : (⟨S768x768, .f32⟩ : BufTy).Contents (Elt Ideal)) (x3 x8 x9 : (⟨S768, .f32⟩ : BufTy).Contents (Elt Ideal))

local notation "Q" => Cert.Spec.qkv (Cert.Spec.flat3 x0) (Cert.Spec.mat x1)

/-! ## The index equations of the layer normalisation's layout operations -/

theorem idx_v39 (b : Fin 2) (s : Fin 2048) (e : Fin 768) : idx_main_v39 (ix3 b s e) = ix3 b s (0 : Fin 1) :=
  funext fun a => by match a with | ⟨0, _⟩ => rfl | ⟨1, _⟩ => rfl | ⟨2, _⟩ => rfl
theorem idx_v46 (b : Fin 2) (s : Fin 2048) (e : Fin 768) : idx_main_v46 (ix3 b s e) = ix3 b s (0 : Fin 1) :=
  funext fun a => by match a with | ⟨0, _⟩ => rfl | ⟨1, _⟩ => rfl | ⟨2, _⟩ => rfl
theorem idx_v54 (b : Fin 2) (s : Fin 2048) (e : Fin 768) : idx_main_v54 (ix3 b s e) = ix3 b s (0 : Fin 1) :=
  funext fun a => by match a with | ⟨0, _⟩ => rfl | ⟨1, _⟩ => rfl | ⟨2, _⟩ => rfl
theorem idx_v36 (b : Fin 2) (s : Fin 2048) (z : Fin 1) : idx_main_v36 (ix3 b s z) = ix2 b s :=
  funext fun a => by match a with | ⟨0, _⟩ => rfl | ⟨1, _⟩ => rfl
theorem idx_v43 (b : Fin 2) (s : Fin 2048) (z : Fin 1) : idx_main_v43 (ix3 b s z) = ix2 b s :=
  funext fun a => by match a with | ⟨0, _⟩ => rfl | ⟨1, _⟩ => rfl
theorem idx_v35 (b : Fin 2) (s : Fin 2048) (k : Fin 768) : idx_main_v35 (ix2 b s) k = ix3 b s k :=
  funext fun a => by match a with | ⟨0, _⟩ => rfl | ⟨1, _⟩ => rfl | ⟨2, _⟩ => rfl
theorem idx_v42 (b : Fin 2) (s : Fin 2048) (k : Fin 768) : idx_main_v42 (ix2 b s) k = ix3 b s k :=
  funext fun a => by match a with | ⟨0, _⟩ => rfl | ⟨1, _⟩ => rfl | ⟨2, _⟩ => rfl
theorem idx_v49 (b : Fin 2) (s : Fin 2048) (e : Fin 768) : idx_main_v49 (ix3 b s e) = ix3 (0 : Fin 1) (0 : Fin 1) e :=
  funext fun a => by match a with | ⟨0, _⟩ => rfl | ⟨1, _⟩ => rfl | ⟨2, _⟩ => rfl
theorem idx_v57 (b : Fin 2) (s : Fin 2048) (e : Fin 768) : idx_main_v57 (ix3 b s e) = ix3 (0 : Fin 1) (0 : Fin 1) e :=
  funext fun a => by match a with | ⟨0, _⟩ => rfl | ⟨1, _⟩ => rfl | ⟨2, _⟩ => rfl
theorem idx_v48 (z z' : Fin 1) (e : Fin 768) : idx_main_v48 (ix3 z z' e) = ix1 e :=
  funext fun a => by match a with | ⟨0, _⟩ => rfl
theorem idx_v56 (z z' : Fin 1) (e : Fin 768) : idx_main_v56 (ix3 z z' e) = ix1 e :=
  funext fun a => by match a with | ⟨0, _⟩ => rfl

/-! ## The mean, the variance, the normalised row -/

/-- The row mean, at (b, s, 0) of its [2, 2048, 1] array. -/
theorem mean1_at (b : Fin 2) (s : Fin 2048) (z : Fin 1) :
    val_main_v38 (F := Ideal) x0 x1 x2 x3 (ix3 b s z) = Cert.Spec.mean (Cert.Spec.flat3 (val_main_v34 (F := Ideal) x0 x1 x2 x3)) (Cert.Spec.row b s) := by
  rw [val_main_v38_apply, val_main_v36_apply, idx_v36, val_main_v35_apply, val_main_cst_4_apply,
    val_main_v37_apply, val_main_cst_5_apply]
  unfold Cert.Spec.mean
  simp only [idx_v35, Cert.Spec.flat3_row, Ideal.ofBits_def, Ideal.hostDivf_def, Ideal.ofBits_zero_f32, zero_add]

/-- The deviation from the mean at (b, s, e). -/
theorem dev1_at (b : Fin 2) (s : Fin 2048) (e : Fin 768) :
    val_main_v40 (F := Ideal) x0 x1 x2 x3 (ix3 b s e)
      = val_main_v34 (F := Ideal) x0 x1 x2 x3 (ix3 b s e) - Cert.Spec.mean (Cert.Spec.flat3 (val_main_v34 (F := Ideal) x0 x1 x2 x3)) (Cert.Spec.row b s) := by
  rw [val_main_v40_apply, val_main_v39_apply, idx_v39, mean1_at]
  rfl

/-- The row variance, at (b, s, 0) of its [2, 2048, 1] array. -/
theorem var1_at (b : Fin 2) (s : Fin 2048) (z : Fin 1) :
    val_main_v45 (F := Ideal) x0 x1 x2 x3 (ix3 b s z) = Cert.Spec.var (Cert.Spec.flat3 (val_main_v34 (F := Ideal) x0 x1 x2 x3)) (Cert.Spec.row b s) := by
  rw [val_main_v45_apply, val_main_v43_apply, idx_v43, val_main_v42_apply, val_main_cst_6_apply,
    val_main_v44_apply, val_main_cst_7_apply]
  unfold Cert.Spec.var
  simp only [idx_v42, val_main_v41_apply, dev1_at, Cert.Spec.flat3_row, Ideal.ofBits_def, Ideal.hostDivf_def,
    Ideal.mulf_def, Ideal.ofBits_zero_f32, zero_add]

/-- The normalised array at (b, s, e). -/
theorem ln1_at (b : Fin 2) (s : Fin 2048) (e : Fin 768) :
    val_main_v58 (F := Ideal) x0 x1 x2 x3 x8 x9 (ix3 b s e)
      = Cert.Spec.ln (Cert.Spec.flat3 (val_main_v34 (F := Ideal) x0 x1 x2 x3)) (Cert.Spec.vec x8) (Cert.Spec.vec x9) (Cert.Spec.row b s) e := by
  rw [val_main_v58_apply, val_main_v55_apply, val_main_v50_apply, val_main_v49_apply, idx_v49,
    val_main_v48_apply, idx_v48, val_main_v47_apply, val_main_v46_apply, idx_v46, mean1_at,
    val_main_v54_apply, idx_v54, val_main_v53_apply, val_main_v52_apply, var1_at, val_main_v51_apply,
    val_main_cst_8_apply, val_main_v57_apply, idx_v57, val_main_v56_apply, idx_v56]
  unfold Cert.Spec.ln
  simp only [Cert.Spec.flat3_row, Cert.Spec.vec, Ideal.ofBits_def, Ideal.hostDivf_def, Ideal.mulf_def, Ideal.subf_def,
    Ideal.addf_def, Ideal.hostUnary_sqrt_def]

/-! ## The residual sum going in, and the stage as a flat array -/

theorem lidx_v30 (b : Fin 2) (s : Fin 2048) (e k : Fin 768) : lidx_main_v30 (ix3 b s e) k = ix3 b s k :=
  funext fun a => by match a with | ⟨0, _⟩ => rfl | ⟨1, _⟩ => rfl | ⟨2, _⟩ => rfl
theorem ridx_v30 (b : Fin 2) (s : Fin 2048) (e k : Fin 768) : ridx_main_v30 (ix3 b s e) k = ix2 k e :=
  funext fun a => by match a with | ⟨0, _⟩ => rfl | ⟨1, _⟩ => rfl
theorem idx_v32 (b : Fin 2) (s : Fin 2048) (e : Fin 768) : idx_main_v32 (ix3 b s e) = ix3 (0 : Fin 1) (0 : Fin 1) e :=
  funext fun a => by match a with | ⟨0, _⟩ => rfl | ⟨1, _⟩ => rfl | ⟨2, _⟩ => rfl
theorem idx_v31 (z z' : Fin 1) (e : Fin 768) : idx_main_v31 (ix3 z z' e) = ix1 e :=
  funext fun a => by match a with | ⟨0, _⟩ => rfl

/-- What is normalised: x plus the projected context plus the bias, as a flat array. -/
theorem z1_flat :
    Cert.Spec.flat3 (val_main_v34 (F := Ideal) x0 x1 x2 x3)
      = fun r e => Cert.Spec.flat3 x0 r e + (∑ k : Fin 768, Cert.Spec.ctx Q r k * Cert.Spec.mat x2 k e + Cert.Spec.vec x3 e) := by
  funext r e
  obtain ⟨b, s, rfl⟩ : ∃ b s, r = Cert.Spec.row b s := ⟨_, _, (Cert.Spec.row_rowB_rowS r).symm⟩
  rw [Cert.Spec.flat3_row, Cert.Spec.flat3_row, val_main_v34_apply, val_main_v33_apply, val_main_v30_apply,
    val_main_v32_apply, idx_v32, val_main_v31_apply, idx_v31]
  simp only [lidx_v30, ridx_v30, ctx_at, Cert.Spec.mat, Cert.Spec.vec, Ideal.addf_def]

/-- The first half as a flat array is the specification's hmid. -/
theorem hmid_flat :
    Cert.Spec.flat3 (val_main_v58 (F := Ideal) x0 x1 x2 x3 x8 x9)
      = Cert.Spec.hmid (Cert.Spec.flat3 x0) (Cert.Spec.ctx Q) (Cert.Spec.mat x2) (Cert.Spec.vec x3) (Cert.Spec.vec x8)
          (Cert.Spec.vec x9) := by
  funext r e
  obtain ⟨b, s, rfl⟩ : ∃ b s, r = Cert.Spec.row b s := ⟨_, _, (Cert.Spec.row_rowB_rowS r).symm⟩
  rw [Cert.Spec.flat3_row, ln1_at, z1_flat]
  rfl

end Cert.ReferenceIdeal.RefValue

end
-- ==== Proof.Ref.Ffn.lean ====
/-
  The reference's hidden layer, read at an index: the first half against W1, plus b1, and the maximum with the zero
  word. As a flat [4096, 3072] array it is the specification's ff1 of the first half.
-/
import proofs.«151460_j71262097375467_2_alg».proof.Proof.Ref.ReadP
import proofs.«151460_j71262097375467_2_alg».proof.Proof.Spec
import proofs.«151460_j71262097375467_2_alg».proof.Proof.Ref.Heads
import proofs.«151460_j71262097375467_2_alg».proof.Proof.Ref.Mask
import proofs.«151460_j71262097375467_2_alg».proof.Proof.Ref.Softmax
import proofs.«151460_j71262097375467_2_alg».proof.Proof.Ref.Ln1

noncomputable section

open scoped BigOperators

namespace Cert.ReferenceIdeal.RefValue

open Cert.ReferenceIdeal Cert.ReferenceIdeal.Read Idealize.ShloMosaic Idealize.ShloMosaic.ValueIdx

variable (x0 : (⟨S2x2048x768, .f32⟩ : BufTy).Contents (Elt Ideal)) (x1 : (⟨S768x2304, .f32⟩ : BufTy).Contents (Elt Ideal))

variable (x2 : (⟨S768x768, .f32⟩ : BufTy).Contents (Elt Ideal)) (x3 x8 x9 : (⟨S768, .f32⟩ : BufTy).Contents (Elt Ideal))
variable (x4 : (⟨S768x3072, .f32⟩ : BufTy).Contents (Elt Ideal)) (x5 : (⟨S3072, .f32⟩ : BufTy).Contents (Elt Ideal))

theorem lidx_v59 (b : Fin 2) (s : Fin 2048) (f : Fin 3072) (k : Fin 768) : lidx_main_v59 (ix3 b s f) k = ix3 b s k :=
  funext fun a => by match a with | ⟨0, _⟩ => rfl | ⟨1, _⟩ => rfl | ⟨2, _⟩ => rfl
theorem ridx_v59 (b : Fin 2) (s : Fin 2048) (f : Fin 3072) (k : Fin 768) : ridx_main_v59 (ix3 b s f) k = ix2 k f :=
  funext fun a => by match a with | ⟨0, _⟩ => rfl | ⟨1, _⟩ => rfl
theorem idx_v61 (b : Fin 2) (s : Fin 2048) (f : Fin 3072) : idx_main_v61 (ix3 b s f) = ix3 (0 : Fin 1) (0 : Fin 1) f :=
  funext fun a => by match a with | ⟨0, _⟩ => rfl | ⟨1, _⟩ => rfl | ⟨2, _⟩ => rfl
theorem idx_v60 (z z' : Fin 1) (f : Fin 3072) : idx_main_v60 (ix3 z z' f) = ix1 f :=
  funext fun a => by match a with | ⟨0, _⟩ => rfl

/-- The hidden layer at (b, s, f). -/
theorem ff1_at (b : Fin 2) (s : Fin 2048) (f : Fin 3072) :
    val_main_v63 (F := Ideal) x0 x1 x2 x3 x4 x5 x8 x9 (ix3 b s f)
      = Cert.Spec.ff1 (Cert.Spec.flat3 (val_main_v58 (F := Ideal) x0 x1 x2 x3 x8 x9)) (Cert.Spec.mat x4) (Cert.Spec.vec x5)
          (Cert.Spec.row b s) f := by
  rw [val_main_v63_apply, val_main_v62_apply, val_main_v59_apply, val_main_v61_apply, idx_v61, val_main_v60_apply, idx_v60,
    val_main_call2_v0_apply, val_main_call2_cst_apply]
  unfold Cert.Spec.ff1
  simp only [lidx_v59, ridx_v59, Cert.Spec.flat3_row, Cert.Spec.mat, Cert.Spec.vec, Ideal.ofBits_def, Ideal.ofBits_zero_f32,
    Ideal.addf_def, Ideal.maximumf_def]

/-- The hidden layer as a flat array. -/
theorem ff1_flat :
    Cert.Spec.flat3 (val_main_v63 (F := Ideal) x0 x1 x2 x3 x4 x5 x8 x9)
      = Cert.Spec.ff1 (Cert.Spec.flat3 (val_main_v58 (F := Ideal) x0 x1 x2 x3 x8 x9)) (Cert.Spec.mat x4) (Cert.Spec.vec x5) := by
  funext r f
  obtain ⟨b, s, rfl⟩ : ∃ b s, r = Cert.Spec.row b s := ⟨_, _, (Cert.Spec.row_rowB_rowS r).symm⟩
  rw [Cert.Spec.flat3_row, ff1_at]

end Cert.ReferenceIdeal.RefValue

end
-- ==== Proof.Ref.Ln2.lean ====
/-
  The reference's second half, read at an index: the hidden layer against W2, plus b2, the residual with the first
  half, and the second layer normalisation, operation for operation as the first. As a flat array it is the
  specification's out of the first half and the hidden layer.
-/
import proofs.«151460_j71262097375467_2_alg».proof.Proof.Ref.ReadP
import proofs.«151460_j71262097375467_2_alg».proof.Proof.Spec
import proofs.«151460_j71262097375467_2_alg».proof.Proof.Ref.Heads
import proofs.«151460_j71262097375467_2_alg».proof.Proof.Ref.Mask
import proofs.«151460_j71262097375467_2_alg».proof.Proof.Ref.Softmax
import proofs.«151460_j71262097375467_2_alg».proof.Proof.Ref.Ln1
import proofs.«151460_j71262097375467_2_alg».proof.Proof.Ref.Ffn

noncomputable section

open scoped BigOperators

namespace Cert.ReferenceIdeal.RefValue

open Cert.ReferenceIdeal Cert.ReferenceIdeal.Read Idealize.ShloMosaic Idealize.ShloMosaic.ValueIdx

variable (x0 : (⟨S2x2048x768, .f32⟩ : BufTy).Contents (Elt Ideal)) (x1 : (⟨S768x2304, .f32⟩ : BufTy).Contents (Elt Ideal))

variable (x2 : (⟨S768x768, .f32⟩ : BufTy).Contents (Elt Ideal)) (x3 x8 x9 : (⟨S768, .f32⟩ : BufTy).Contents (Elt Ideal))
variable (x4 : (⟨S768x3072, .f32⟩ : BufTy).Contents (Elt Ideal)) (x5 : (⟨S3072, .f32⟩ : BufTy).Contents (Elt Ideal))
variable (x6 : (⟨S3072x768, .f32⟩ : BufTy).Contents (Elt Ideal)) (x7 x10 x11 : (⟨S768, .f32⟩ : BufTy).Contents (Elt Ideal))

/-! ## The index equations of the layer normalisation's layout operations -/

theorem idx_v73 (b : Fin 2) (s : Fin 2048) (e : Fin 768) : idx_main_v73 (ix3 b s e) = ix3 b s (0 : Fin 1) :=
  funext fun a => by match a with | ⟨0, _⟩ => rfl | ⟨1, _⟩ => rfl | ⟨2, _⟩ => rfl
theorem idx_v80 (b : Fin 2) (s : Fin 2048) (e : Fin 768) : idx_main_v80 (ix3 b s e) = ix3 b s (0 : Fin 1) :=
  funext fun a => by match a with | ⟨0, _⟩ => rfl | ⟨1, _⟩ => rfl | ⟨2, _⟩ => rfl
theorem idx_v88 (b : Fin 2) (s : Fin 2048) (e : Fin 768) : idx_main_v88 (ix3 b s e) = ix3 b s (0 : Fin 1) :=
  funext fun a => by match a with | ⟨0, _⟩ => rfl | ⟨1, _⟩ => rfl | ⟨2, _⟩ => rfl
theorem idx_v70 (b : Fin 2) (s : Fin 2048) (z : Fin 1) : idx_main_v70 (ix3 b s z) = ix2 b s :=
  funext fun a => by match a with | ⟨0, _⟩ => rfl | ⟨1, _⟩ => rfl
theorem idx_v77 (b : Fin 2) (s : Fin 2048) (z : Fin 1) : idx_main_v77 (ix3 b s z) = ix2 b s :=
  funext fun a => by match a with | ⟨0, _⟩ => rfl | ⟨1, _⟩ => rfl
theorem idx_v69 (b : Fin 2) (s : Fin 2048) (k : Fin 768) : idx_main_v69 (ix2 b s) k = ix3 b s k :=
  funext fun a => by match a with | ⟨0, _⟩ => rfl | ⟨1, _⟩ => rfl | ⟨2, _⟩ => rfl
theorem idx_v76 (b : Fin 2) (s : Fin 2048) (k : Fin 768) : idx_main_v76 (ix2 b s) k = ix3 b s k :=
  funext fun a => by match a with | ⟨0, _⟩ => rfl | ⟨1, _⟩ => rfl | ⟨2, _⟩ => rfl
theorem idx_v83 (b : Fin 2) (s : Fin 2048) (e : Fin 768) : idx_main_v83 (ix3 b s e) = ix3 (0 : Fin 1) (0 : Fin 1) e :=
  funext fun a => by match a with | ⟨0, _⟩ => rfl | ⟨1, _⟩ => rfl | ⟨2, _⟩ => rfl
theorem idx_v91 (b : Fin 2) (s : Fin 2048) (e : Fin 768) : idx_main_v91 (ix3 b s e) = ix3 (0 : Fin 1) (0 : Fin 1) e :=
  funext fun a => by match a with | ⟨0, _⟩ => rfl | ⟨1, _⟩ => rfl | ⟨2, _⟩ => rfl
theorem idx_v82 (z z' : Fin 1) (e : Fin 768) : idx_main_v82 (ix3 z z' e) = ix1 e :=
  funext fun a => by match a with | ⟨0, _⟩ => rfl
theorem idx_v90 (z z' : Fin 1) (e : Fin 768) : idx_main_v90 (ix3 z z' e) = ix1 e :=
  funext fun a => by match a with | ⟨0, _⟩ => rfl

/-! ## The mean, the variance, the normalised row -/

/-- The row mean, at (b, s, 0) of its [2, 2048, 1] array. -/
theorem mean2_at (b : Fin 2) (s : Fin 2048) (z : Fin 1) :
    val_main_v72 (F := Ideal) x0 x1 x2 x3 x4 x5 x6 x7 x8 x9 (ix3 b s z) = Cert.Spec.mean (Cert.Spec.flat3 (val_main_v68 (F := Ideal) x0 x1 x2 x3 x4 x5 x6 x7 x8 x9)) (Cert.Spec.row b s) := by
  rw [val_main_v72_apply, val_main_v70_apply, idx_v70, val_main_v69_apply, val_main_cst_9_apply,
    val_main_v71_apply, val_main_cst_10_apply]
  unfold Cert.Spec.mean
  simp only [idx_v69, Cert.Spec.flat3_row, Ideal.ofBits_def, Ideal.hostDivf_def, Ideal.ofBits_zero_f32, zero_add]

/-- The deviation from the mean at (b, s, e). -/
theorem dev2_at (b : Fin 2) (s : Fin 2048) (e : Fin 768) :
    val_main_v74 (F := Ideal) x0 x1 x2 x3 x4 x5 x6 x7 x8 x9 (ix3 b s e)
      = val_main_v68 (F := Ideal) x0 x1 x2 x3 x4 x5 x6 x7 x8 x9 (ix3 b s e) - Cert.Spec.mean (Cert.Spec.flat3 (val_main_v68 (F := Ideal) x0 x1 x2 x3 x4 x5 x6 x7 x8 x9)) (Cert.Spec.row b s) := by
  rw [val_main_v74_apply, val_main_v73_apply, idx_v73, mean2_at]
  rfl

/-- The row variance, at (b, s, 0) of its [2, 2048, 1] array. -/
theorem var2_at (b : Fin 2) (s : Fin 2048) (z : Fin 1) :
    val_main_v79 (F := Ideal) x0 x1 x2 x3 x4 x5 x6 x7 x8 x9 (ix3 b s z) = Cert.Spec.var (Cert.Spec.flat3 (val_main_v68 (F := Ideal) x0 x1 x2 x3 x4 x5 x6 x7 x8 x9)) (Cert.Spec.row b s) := by
  rw [val_main_v79_apply, val_main_v77_apply, idx_v77, val_main_v76_apply, val_main_cst_11_apply,
    val_main_v78_apply, val_main_cst_12_apply]
  unfold Cert.Spec.var
  simp only [idx_v76, val_main_v75_apply, dev2_at, Cert.Spec.flat3_row, Ideal.ofBits_def, Ideal.hostDivf_def,
    Ideal.mulf_def, Ideal.ofBits_zero_f32, zero_add]

/-- The normalised array at (b, s, e). -/
theorem ln2_at (b : Fin 2) (s : Fin 2048) (e : Fin 768) :
    val_main_v92 (F := Ideal) x0 x1 x2 x3 x4 x5 x6 x7 x8 x9 x10 x11 (ix3 b s e)
      = Cert.Spec.ln (Cert.Spec.flat3 (val_main_v68 (F := Ideal) x0 x1 x2 x3 x4 x5 x6 x7 x8 x9)) (Cert.Spec.vec x10) (Cert.Spec.vec x11) (Cert.Spec.row b s) e := by
  rw [val_main_v92_apply, val_main_v89_apply, val_main_v84_apply, val_main_v83_apply, idx_v83,
    val_main_v82_apply, idx_v82, val_main_v81_apply, val_main_v80_apply, idx_v80, mean2_at,
    val_main_v88_apply, idx_v88, val_main_v87_apply, val_main_v86_apply, var2_at, val_main_v85_apply,
    val_main_cst_13_apply, val_main_v91_apply, idx_v91, val_main_v90_apply, idx_v90]
  unfold Cert.Spec.ln
  simp only [Cert.Spec.flat3_row, Cert.Spec.vec, Ideal.ofBits_def, Ideal.hostDivf_def, Ideal.mulf_def, Ideal.subf_def,
    Ideal.addf_def, Ideal.hostUnary_sqrt_def]

/-! ## The residual sum going in, and the stage as a flat array -/

theorem lidx_v64 (b : Fin 2) (s : Fin 2048) (e : Fin 768) (k : Fin 3072) : lidx_main_v64 (ix3 b s e) k = ix3 b s k :=
  funext fun a => by match a with | ⟨0, _⟩ => rfl | ⟨1, _⟩ => rfl | ⟨2, _⟩ => rfl
theorem ridx_v64 (b : Fin 2) (s : Fin 2048) (e : Fin 768) (k : Fin 3072) : ridx_main_v64 (ix3 b s e) k = ix2 k e :=
  funext fun a => by match a with | ⟨0, _⟩ => rfl | ⟨1, _⟩ => rfl
theorem idx_v66 (b : Fin 2) (s : Fin 2048) (e : Fin 768) : idx_main_v66 (ix3 b s e) = ix3 (0 : Fin 1) (0 : Fin 1) e :=
  funext fun a => by match a with | ⟨0, _⟩ => rfl | ⟨1, _⟩ => rfl | ⟨2, _⟩ => rfl
theorem idx_v65 (z z' : Fin 1) (e : Fin 768) : idx_main_v65 (ix3 z z' e) = ix1 e :=
  funext fun a => by match a with | ⟨0, _⟩ => rfl

/-- What is normalised: the first half plus the projected hidden layer plus the bias, as a flat array. -/
theorem z2_flat :
    Cert.Spec.flat3 (val_main_v68 (F := Ideal) x0 x1 x2 x3 x4 x5 x6 x7 x8 x9)
      = fun r e => Cert.Spec.flat3 (val_main_v58 (F := Ideal) x0 x1 x2 x3 x8 x9) r e
          + (∑ f : Fin 3072, Cert.Spec.flat3 (val_main_v63 (F := Ideal) x0 x1 x2 x3 x4 x5 x8 x9) r f * Cert.Spec.mat x6 f e
              + Cert.Spec.vec x7 e) := by
  funext r e
  obtain ⟨b, s, rfl⟩ : ∃ b s, r = Cert.Spec.row b s := ⟨_, _, (Cert.Spec.row_rowB_rowS r).symm⟩
  rw [Cert.Spec.flat3_row, Cert.Spec.flat3_row, val_main_v68_apply, val_main_v67_apply, val_main_v64_apply,
    val_main_v66_apply, idx_v66, val_main_v65_apply, idx_v65]
  simp only [lidx_v64, ridx_v64, Cert.Spec.flat3_row, Cert.Spec.mat, Cert.Spec.vec, Ideal.addf_def]

/-- The second half as a flat array is the specification's out. -/
theorem out_flat :
    Cert.Spec.flat3 (val_main_v92 (F := Ideal) x0 x1 x2 x3 x4 x5 x6 x7 x8 x9 x10 x11)
      = Cert.Spec.out (Cert.Spec.flat3 (val_main_v58 (F := Ideal) x0 x1 x2 x3 x8 x9))
          (Cert.Spec.flat3 (val_main_v63 (F := Ideal) x0 x1 x2 x3 x4 x5 x8 x9)) (Cert.Spec.mat x6) (Cert.Spec.vec x7)
          (Cert.Spec.vec x10) (Cert.Spec.vec x11) := by
  funext r e
  obtain ⟨b, s, rfl⟩ : ∃ b s, r = Cert.Spec.row b s := ⟨_, _, (Cert.Spec.row_rowB_rowS r).symm⟩
  rw [Cert.Spec.flat3_row, ln2_at, z2_flat]
  rfl

end Cert.ReferenceIdeal.RefValue

end
-- ==== Proof.Ref.RefIsSpec.lean ====
/-
  The reference is the specification.
  The reference's result stage, as a function of the twelve argument arrays, is the specification's result array
  (index by index: the second half of the first half and the hidden layer, each of which is the specification's stage
  of the stages before it); so every weakly fair execution of the idealized reference ends with its result buffer at the
  specification of the argument arrays, the arguments unchanged.
-/
import proofs.«151460_j71262097375467_2_alg».proof.Proof.Ref.ReadP
import proofs.«151460_j71262097375467_2_alg».proof.Proof.Spec
import proofs.«151460_j71262097375467_2_alg».proof.Proof.Ref.Heads
import proofs.«151460_j71262097375467_2_alg».proof.Proof.Ref.Mask
import proofs.«151460_j71262097375467_2_alg».proof.Proof.Ref.Softmax
import proofs.«151460_j71262097375467_2_alg».proof.Proof.Ref.Ln1
import proofs.«151460_j71262097375467_2_alg».proof.Proof.Ref.Ffn
import proofs.«151460_j71262097375467_2_alg».proof.Proof.Ref.Ln2

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S2x2048x768, .f32⟩ : BufTy).Contents (Elt Ideal)) (x1 : (⟨S768x2304, .f32⟩ : BufTy).Contents (Elt Ideal))

variable (x2 : (⟨S768x768, .f32⟩ : BufTy).Contents (Elt Ideal)) (x3 x8 x9 : (⟨S768, .f32⟩ : BufTy).Contents (Elt Ideal))
variable (x4 : (⟨S768x3072, .f32⟩ : BufTy).Contents (Elt Ideal)) (x5 : (⟨S3072, .f32⟩ : BufTy).Contents (Elt Ideal))
variable (x6 : (⟨S3072x768, .f32⟩ : BufTy).Contents (Elt Ideal)) (x7 x10 x11 : (⟨S768, .f32⟩ : BufTy).Contents (Elt Ideal))

/-- The reference's last stage is the specification's result array of the arguments. -/
theorem val_result_eq :
    val_main_v92 (F := Ideal) x0 x1 x2 x3 x4 x5 x6 x7 x8 x9 x10 x11 = Cert.Spec.result x0 x1 x2 x3 x4 x5 x6 x7 x8 x9 x10 x11 := by
  funext i
  obtain ⟨b, s, e, rfl⟩ : ∃ (b : Fin 2) (s : Fin 2048) (e : Fin 768), i = ix3 b s e := ⟨i 0, i 1, i 2, eq_ix3 i⟩
  rw [Cert.Spec.result_apply]
  refine (Cert.Spec.flat3_row (val_main_v92 (F := Ideal) x0 x1 x2 x3 x4 x5 x6 x7 x8 x9 x10 x11) b s e).symm.trans ?_
  rw [out_flat, ff1_flat, hmid_flat]
  rfl

/-- The run's composed result term is the specification's result array of the arguments' launch contents. -/
theorem result_eq (m : (ℓ : Loc nD τ sig) → Buf (Elt Ideal) ℓ) (c : Dev nD) :
    Cert.ReferenceIdeal.Value.res_main_v92 (F := Ideal) m c
      = Cert.Spec.result
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11)) :=
  (val_main_v92_eq (F := Ideal) m c).trans (val_result_eq _ _ _ _ _ _ _ _ _ _ _ _)

/-- Every weakly fair execution of the idealized reference terminates with its result buffer at the specification of the
    argument arrays, and the argument buffers unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v92)
        = Cert.Spec.result
        (m' ((c.tc : Thread nD τ).loc main_arg0))
        (m' ((c.tc : Thread nD τ).loc main_arg1))
        (m' ((c.tc : Thread nD τ).loc main_arg2))
        (m' ((c.tc : Thread nD τ).loc main_arg3))
        (m' ((c.tc : Thread nD τ).loc main_arg4))
        (m' ((c.tc : Thread nD τ).loc main_arg5))
        (m' ((c.tc : Thread nD τ).loc main_arg6))
        (m' ((c.tc : Thread nD τ).loc main_arg7))
        (m' ((c.tc : Thread nD τ).loc main_arg8))
        (m' ((c.tc : Thread nD τ).loc main_arg9))
        (m' ((c.tc : Thread nD τ).loc main_arg10))
        (m' ((c.tc : Thread nD τ).loc main_arg11))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)) :=
  (θ_run (defs (F := Ideal)) _ _).mono (fun _ h c => ⟨(h c).1.trans (result_eq m' c), (h c).2⟩)
    (Cert.ReferenceIdeal.Value.run (F := Ideal) m' ρ')

end Cert.ReferenceIdeal.RefValue

end
-- ==== Proof.Frames.lean ====
/-
  The three frames and the ideal pass's ledger. Each kernel program's frame is its whole run read at the argument
  arrays, which no item of @main writes; the reference's is its run with the result dropped; the ledger's two entries
  name the same mask fill, the finite stand-in for −∞, as ⊥.
-/
import proofs.«151460_j71262097375467_2_alg».proof.Defs
import proofs.«151460_j71262097375467_2_alg».proof.Proof.KI.Run
import proofs.«151460_j71262097375467_2_alg».proof.Proof.K.Run
import proofs.«151460_j71262097375467_2_alg».proof.Proof.Ref.RefIsSpec
import proofs.«151460_j71262097375467_2_alg».proof.Proof.Gen.Kernel
import proofs.«151460_j71262097375467_2_alg».proof.Proof.Gen.KernelIdeal
import proofs.«151460_j71262097375467_2_alg».proof.Proof.Gen.ReferenceIdeal
import proofs.«151460_j71262097375467_2_alg».proof.Proof.Gen.Pre_finite_inputs

noncomputable section

namespace Cert.Proof.Claims

open Idealize.ShloMosaic Idealize.ShloMosaic.TcCoe Idealize.SL.Sem

theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W9_keep m ρ c Cert.Kernel.main_arg0 (by decide) (by decide) (by decide) (by decide) (by decide) (by decide) (by decide) (by decide) (by decide)),
      (h c _ (Cert.Kernel.Hand.mem_uc Cert.Kernel.main_arg1 (by decide))).trans (Cert.Kernel.Hand.W9_keep m ρ c Cert.Kernel.main_arg1 (by decide) (by decide) (by decide) (by decide) (by decide) (by decide) (by decide) (by decide) (by decide)),
      (h c _ (Cert.Kernel.Hand.mem_uc Cert.Kernel.main_arg2 (by decide))).trans (Cert.Kernel.Hand.W9_keep m ρ c Cert.Kernel.main_arg2 (by decide) (by decide) (by decide) (by decide) (by decide) (by decide) (by decide) (by decide) (by decide)),
      (h c _ (Cert.Kernel.Hand.mem_uc Cert.Kernel.main_arg3 (by decide))).trans (Cert.Kernel.Hand.W9_keep m ρ c Cert.Kernel.main_arg3 (by decide) (by decide) (by decide) (by decide) (by decide) (by decide) (by decide) (by decide) (by decide)),
      (h c _ (Cert.Kernel.Hand.mem_uc Cert.Kernel.main_arg4 (by decide))).trans (Cert.Kernel.Hand.W9_keep m ρ c Cert.Kernel.main_arg4 (by decide) (by decide) (by decide) (by decide) (by decide) (by decide) (by decide) (by decide) (by decide)),
      (h c _ (Cert.Kernel.Hand.mem_uc Cert.Kernel.main_arg5 (by decide))).trans (Cert.Kernel.Hand.W9_keep m ρ c Cert.Kernel.main_arg5 (by decide) (by decide) (by decide) (by decide) (by decide) (by decide) (by decide) (by decide) (by decide)),
      (h c _ (Cert.Kernel.Hand.mem_uc Cert.Kernel.main_arg6 (by decide))).trans (Cert.Kernel.Hand.W9_keep m ρ c Cert.Kernel.main_arg6 (by decide) (by decide) (by decide) (by decide) (by decide) (by decide) (by decide) (by decide) (by decide)),
      (h c _ (Cert.Kernel.Hand.mem_uc Cert.Kernel.main_arg7 (by decide))).trans (Cert.Kernel.Hand.W9_keep m ρ c Cert.Kernel.main_arg7 (by decide) (by decide) (by decide) (by decide) (by decide) (by decide) (by decide) (by decide) (by decide)),
      (h c _ (Cert.Kernel.Hand.mem_uc Cert.Kernel.main_arg8 (by decide))).trans (Cert.Kernel.Hand.W9_keep m ρ c Cert.Kernel.main_arg8 (by decide) (by decide) (by decide) (by decide) (by decide) (by decide) (by decide) (by decide) (by decide)),
      (h c _ (Cert.Kernel.Hand.mem_uc Cert.Kernel.main_arg9 (by decide))).trans (Cert.Kernel.Hand.W9_keep m ρ c Cert.Kernel.main_arg9 (by decide) (by decide) (by decide) (by decide) (by decide) (by decide) (by decide) (by decide) (by decide)),
      (h c _ (Cert.Kernel.Hand.mem_uc Cert.Kernel.main_arg10 (by decide))).trans (Cert.Kernel.Hand.W9_keep m ρ c Cert.Kernel.main_arg10 (by decide) (by decide) (by decide) (by decide) (by decide) (by decide) (by decide) (by decide) (by decide)),
      (h c _ (Cert.Kernel.Hand.mem_uc Cert.Kernel.main_arg11 (by decide))).trans (Cert.Kernel.Hand.W9_keep m ρ c Cert.Kernel.main_arg11 (by decide) (by decide) (by decide) (by decide) (by decide) (by decide) (by decide) (by decide) (by decide))⟩)
    (Cert.Kernel.Hand.run_all (F := Bits) m ρ)

theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W9_keep m ρ c Cert.KernelIdeal.main_arg0 (by decide) (by decide) (by decide) (by decide) (by decide) (by decide) (by decide) (by decide) (by decide)),
      (h c _ (Cert.KernelIdeal.Hand.mem_uc Cert.KernelIdeal.main_arg1 (by decide))).trans (Cert.KernelIdeal.Hand.W9_keep m ρ c Cert.KernelIdeal.main_arg1 (by decide) (by decide) (by decide) (by decide) (by decide) (by decide) (by decide) (by decide) (by decide)),
      (h c _ (Cert.KernelIdeal.Hand.mem_uc Cert.KernelIdeal.main_arg2 (by decide))).trans (Cert.KernelIdeal.Hand.W9_keep m ρ c Cert.KernelIdeal.main_arg2 (by decide) (by decide) (by decide) (by decide) (by decide) (by decide) (by decide) (by decide) (by decide)),
      (h c _ (Cert.KernelIdeal.Hand.mem_uc Cert.KernelIdeal.main_arg3 (by decide))).trans (Cert.KernelIdeal.Hand.W9_keep m ρ c Cert.KernelIdeal.main_arg3 (by decide) (by decide) (by decide) (by decide) (by decide) (by decide) (by decide) (by decide) (by decide)),
      (h c _ (Cert.KernelIdeal.Hand.mem_uc Cert.KernelIdeal.main_arg4 (by decide))).trans (Cert.KernelIdeal.Hand.W9_keep m ρ c Cert.KernelIdeal.main_arg4 (by decide) (by decide) (by decide) (by decide) (by decide) (by decide) (by decide) (by decide) (by decide)),
      (h c _ (Cert.KernelIdeal.Hand.mem_uc Cert.KernelIdeal.main_arg5 (by decide))).trans (Cert.KernelIdeal.Hand.W9_keep m ρ c Cert.KernelIdeal.main_arg5 (by decide) (by decide) (by decide) (by decide) (by decide) (by decide) (by decide) (by decide) (by decide)),
      (h c _ (Cert.KernelIdeal.Hand.mem_uc Cert.KernelIdeal.main_arg6 (by decide))).trans (Cert.KernelIdeal.Hand.W9_keep m ρ c Cert.KernelIdeal.main_arg6 (by decide) (by decide) (by decide) (by decide) (by decide) (by decide) (by decide) (by decide) (by decide)),
      (h c _ (Cert.KernelIdeal.Hand.mem_uc Cert.KernelIdeal.main_arg7 (by decide))).trans (Cert.KernelIdeal.Hand.W9_keep m ρ c Cert.KernelIdeal.main_arg7 (by decide) (by decide) (by decide) (by decide) (by decide) (by decide) (by decide) (by decide) (by decide)),
      (h c _ (Cert.KernelIdeal.Hand.mem_uc Cert.KernelIdeal.main_arg8 (by decide))).trans (Cert.KernelIdeal.Hand.W9_keep m ρ c Cert.KernelIdeal.main_arg8 (by decide) (by decide) (by decide) (by decide) (by decide) (by decide) (by decide) (by decide) (by decide)),
      (h c _ (Cert.KernelIdeal.Hand.mem_uc Cert.KernelIdeal.main_arg9 (by decide))).trans (Cert.KernelIdeal.Hand.W9_keep m ρ c Cert.KernelIdeal.main_arg9 (by decide) (by decide) (by decide) (by decide) (by decide) (by decide) (by decide) (by decide) (by decide)),
      (h c _ (Cert.KernelIdeal.Hand.mem_uc Cert.KernelIdeal.main_arg10 (by decide))).trans (Cert.KernelIdeal.Hand.W9_keep m ρ c Cert.KernelIdeal.main_arg10 (by decide) (by decide) (by decide) (by decide) (by decide) (by decide) (by decide) (by decide) (by decide)),
      (h c _ (Cert.KernelIdeal.Hand.mem_uc Cert.KernelIdeal.main_arg11 (by decide))).trans (Cert.KernelIdeal.Hand.W9_keep m ρ c Cert.KernelIdeal.main_arg11 (by decide) (by decide) (by decide) (by decide) (by decide) (by decide) (by decide) (by decide) (by decide))⟩)
    (Cert.KernelIdeal.Hand.run_all (F := Ideal) m ρ)

theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ledger: the certificate's table gives the mask fill's name the value ⊥, twice (the reset of the running
    maximum and the masked scores). -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

end Cert.Proof.Claims

end
-- ==== Proof.KI.Glue.lean ====
/-
  The host operations between the kernel calls, read at an index: the flattening of the input, the zero bias, the
  cut of the projection into heads and the merge of the heads back, the final unflattening; and the buffers each
  call reads that no operation before it has written.
-/
import proofs.«151460_j71262097375467_2_alg».proof.Proof.KI.Run
import proofs.«151460_j71262097375467_2_alg».proof.Proof.Spec
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg) (c : Dev nD)

/-! ## The layout operations at coordinates -/

section Layout
variable {α : Type}

/-- A [2, 2048, 768] array flattened to [4096, 768]: row r is batch r / 2048, position r % 2048. -/
theorem flatten_apply (x : S2x2048x768.Idx → α) (h : S2x2048x768.ShapeCasts S4096x768) (r : Fin 4096) (k : Fin 768) :
    shapeCast S4096x768 x h (ix2 r k) = x (ix3 (Cert.Spec.rowB r) (Cert.Spec.rowS r) k) := by
  refine shapeCast_apply x h _ _ ?_
  rewrite [Shape.rowMajor_val_three, Shape.rowMajor_val_two]
  have := r.isLt; have := k.isLt
  show (r.val / 2048 * 2048 + r.val % 2048) * 768 + k.val = r.val * 768 + k.val
  omega

/-- A [4096, 768] array unflattened to [2, 2048, 768]: (b, s, e) reads row b·2048 + s. -/
theorem unflatten_apply (x : S4096x768.Idx → α) (h : S4096x768.ShapeCasts S2x2048x768) (b : Fin 2) (s : Fin 2048) (e : Fin 768) :
    shapeCast S2x2048x768 x h (ix3 b s e) = x (ix2 (Cert.Spec.row b s) e) := by
  refine shapeCast_apply x h _ _ ?_
  rewrite [Shape.rowMajor_val_three, Shape.rowMajor_val_two]
  rfl

/-- A column block of the [4096, 2304] projection cut into 12 heads of depth 64, the heads moved before the positions
    and merged with the batch: (b·12 + h, s, d) reads row b·2048 + s, column off + h·64 + d. -/
theorem heads_apply (off : Nat) (y : S4096x2304.Idx → α) (hs : S4096x2304.Slices ![0, off] S4096x768)
    (h1 : S4096x768.ShapeCasts S2x2048x12x64) (ht : S2x2048x12x64.Transposes [0, 2, 1, 3] S2x12x2048x64)
    (h2 : S2x12x2048x64.ShapeCasts S24x2048x64) (g : Fin 24) (b : Fin 2) (h : Fin 12) (s : Fin 2048) (d : Fin 64)
    (hg : g.val = b.val * 12 + h.val) (j : Fin 2304) (hj : j.val = off + h.val * 64 + d.val) :
    shapeCast S24x2048x64 (transpose S2x12x2048x64 [0, 2, 1, 3]
        (shapeCast S2x2048x12x64 (extractStridedSlice S4096x768 ![0, off] y hs) h1) ht) h2 (ix3 g s d)
      = y (ix2 (Cert.Spec.row b s) j) := by
  have := b.isLt; have := h.isLt; have := s.isLt; have := d.isLt
  refine (shapeCast_apply _ h2 _ (ix4 b h s d) ?_).trans ?_
  · rewrite [Shape.rowMajor_val_four, Shape.rowMajor_val_three]
    show ((b.val * 12 + h.val) * 2048 + s.val) * 64 + d.val = (g.val * 2048 + s.val) * 64 + d.val
    rw [hg]
  refine (transpose_apply [0, 2, 1, 3] _ ht _ (ix4 b s h d) (fun a => match a with
    | ⟨0, _⟩ => rfl
    | ⟨1, _⟩ => rfl
    | ⟨2, _⟩ => rfl
    | ⟨3, _⟩ => rfl)).trans ?_
  refine (shapeCast_apply _ h1 _ (ix2 (Cert.Spec.row b s) (Cert.Spec.ecol h d)) ?_).trans ?_
  · rewrite [Shape.rowMajor_val_four, Shape.rowMajor_val_two]
    show (b.val * 2048 + s.val) * 768 + (h.val * 64 + d.val) = ((b.val * 2048 + s.val) * 12 + h.val) * 64 + d.val
    omega
  refine extractStridedSlice_apply ![0, off] y hs _ _ (fun a => match a with
    | ⟨0, _⟩ => by show b.val * 2048 + s.val = 0 + (b.val * 2048 + s.val); omega
    | ⟨1, _⟩ => by show j.val = off + (h.val * 64 + d.val); omega)

/-- The heads of a [24, 2048, 64] array moved back behind the positions and merged with the depth: row b·2048 + s,
    column h·64 + d reads (b·12 + h, s, d). -/
theorem merge_apply (z : S24x2048x64.Idx → α) (h1 : S24x2048x64.ShapeCasts S2x12x2048x64)
    (ht : S2x12x2048x64.Transposes [0, 2, 1, 3] S2x2048x12x64) (h2 : S2x2048x12x64.ShapeCasts S4096x768)
    (g : Fin 24) (b : Fin 2) (h : Fin 12) (s : Fin 2048) (d : Fin 64) (hg : g.val = b.val * 12 + h.val) :
    shapeCast S4096x768 (transpose S2x2048x12x64 [0, 2, 1, 3] (shapeCast S2x12x2048x64 z h1) ht) h2
        (ix2 (Cert.Spec.row b s) (Cert.Spec.ecol h d))
      = z (ix3 g s d) := by
  have := b.isLt; have := h.isLt; have := s.isLt; have := d.isLt
  refine (shapeCast_apply _ h2 _ (ix4 b s h d) ?_).trans ?_
  · rewrite [Shape.rowMajor_val_four, Shape.rowMajor_val_two]
    show ((b.val * 2048 + s.val) * 12 + h.val) * 64 + d.val = (b.val * 2048 + s.val) * 768 + (h.val * 64 + d.val)
    omega
  refine (transpose_apply [0, 2, 1, 3] _ ht _ (ix4 b h s d) (fun a => match a with
    | ⟨0, _⟩ => rfl
    | ⟨1, _⟩ => rfl
    | ⟨2, _⟩ => rfl
    | ⟨3, _⟩ => rfl)).trans ?_
  refine shapeCast_apply z h1 _ _ ?_
  rewrite [Shape.rowMajor_val_four, Shape.rowMajor_val_three]
  show (g.val * 2048 + s.val) * 64 + d.val = ((b.val * 12 + h.val) * 2048 + s.val) * 64 + d.val
  rw [hg]

end Layout

/-! ## The first stretch: the flattened input and the zero bias -/

/-- After the first stretch `%0` holds the input array at the shape [4096, 768]. -/
theorem W1_v0 : (W1 m ρ c (Proc.devRef .tc main_v0) : S4096x768.Idx → EReal)
    = shapeCast S4096x768 (m ((c : Thread nD τ).loc main_arg0) : S2x2048x768.Idx → EReal) shapeCasts_S2x2048x768_S4096x768 := by
  show StableHlo.after hostOps0 (W0 m ρ c) (Proc.devRef .tc main_v0) = _
  after_results
  rfl

/-- `%0` at row r, column k is the input at batch r / 2048, position r % 2048. -/
theorem glue_v0 (r : Fin 4096) (k : Fin 768) :
    (W1 m ρ c (Proc.devRef .tc main_v0) : S4096x768.Idx → EReal) (ix2 r k)
      = Cert.Spec.flat3 (m ((c : Thread nD τ).loc main_arg0)) r k := by
  rw [W1_v0, flatten_apply]
  rfl

/-- After the first stretch `%1` holds the broadcast of the constant 0.0. -/
theorem W1_v1 : (W1 m ρ c (Proc.devRef .tc main_v1) : S2304.Idx → EReal)
    = broadcastInDim S2304 ![] bcast_S_S2304 (constant (F := Ideal) S_ .f32 0x00000000#32) := by
  show StableHlo.after hostOps0 (W0 m ρ c) (Proc.devRef .tc main_v1) = _
  after_results

/-- `%1` is zero everywhere. -/
theorem glue_v1 (j : Fin 2304) : (W1 m ρ c (Proc.devRef .tc main_v1) : S2304.Idx → EReal) (ix1 j) = (0 : EReal) := by
  rw [W1_v1, broadcastInDim_apply (![] : Fin 0 → Fin S2304.rank) bcast_S_S2304 _ (ix1 j) ix0 (fun a => a.elim0),
    constant_apply, Ideal.ofBits_zero_f32]

/-! ## The last stretch: the result unflattened -/

/-- After the last stretch `%22` holds the last call's result at the shape [2, 2048, 768]. -/
theorem W9_v22 : (W9 m ρ c (Proc.devRef .tc main_v22) : S2x2048x768.Idx → EReal)
    = shapeCast S2x2048x768 (W8 m ρ c (Proc.devRef .tc main_v21) : S4096x768.Idx → EReal) shapeCasts_S4096x768_S2x2048x768 := by
  show StableHlo.after hostOps5 (W8 m ρ c) (Proc.devRef .tc main_v22) = _
  after_results
  rfl

/-- `%22` at (b, s, e) is `%21` at row b·2048 + s, column e. -/
theorem glue_out (b : Fin 2) (s : Fin 2048) (e : Fin 768) :
    (W9 m ρ c (Proc.devRef .tc main_v22) : S2x2048x768.Idx → EReal) (ix3 b s e)
      = (W8 m ρ c (Proc.devRef .tc main_v21) : S4096x768.Idx → EReal) (ix2 (Cert.Spec.row b s) e) := by
  rw [W9_v22]
  generalize (W8 m ρ c (Proc.devRef .tc main_v21) : S4096x768.Idx → EReal) = x
  exact unflatten_apply x _ b s e

/-! ## The second stretch: the projection cut into heads -/

/-- After the second stretch `%8` holds the first column block of the projection, cut into heads. -/
theorem W3_v8 : (W3 m ρ c (Proc.devRef .tc main_v8) : S24x2048x64.Idx → EReal)
    = shapeCast S24x2048x64 (transpose S2x12x2048x64 [0, 2, 1, 3]
        (shapeCast S2x2048x12x64 (extractStridedSlice S4096x768 ![0, 0]
          (W2 m ρ c (Proc.devRef .tc main_v2) : S4096x2304.Idx → EReal) slices_S4096x2304_S4096x768_0_0)
          shapeCasts_S4096x768_S2x2048x12x64) transposes_S2x2048x12x64_S2x12x2048x64_0_2_1_3)
        shapeCasts_S2x12x2048x64_S24x2048x64 := by
  show StableHlo.after hostOps1 (W2 m ρ c) (Proc.devRef .tc main_v8) = _
  after_results
  rfl

/-- After the second stretch `%11` holds the second column block of the projection, cut into heads. -/
theorem W3_v11 : (W3 m ρ c (Proc.devRef .tc main_v11) : S24x2048x64.Idx → EReal)
    = shapeCast S24x2048x64 (transpose S2x12x2048x64 [0, 2, 1, 3]
        (shapeCast S2x2048x12x64 (extractStridedSlice S4096x768 ![0, 768]
          (W2 m ρ c (Proc.devRef .tc main_v2) : S4096x2304.Idx → EReal) slices_S4096x2304_S4096x768_0_768)
          shapeCasts_S4096x768_S2x2048x12x64) transposes_S2x2048x12x64_S2x12x2048x64_0_2_1_3)
        shapeCasts_S2x12x2048x64_S24x2048x64 := by
  show StableHlo.after hostOps1 (W2 m ρ c) (Proc.devRef .tc main_v11) = _
  after_results
  rfl

/-- After the second stretch `%14` holds the third column block of the projection, cut into heads. -/
theorem W3_v14 : (W3 m ρ c (Proc.devRef .tc main_v14) : S24x2048x64.Idx → EReal)
    = shapeCast S24x2048x64 (transpose S2x12x2048x64 [0, 2, 1, 3]
        (shapeCast S2x2048x12x64 (extractStridedSlice S4096x768 ![0, 1536]
          (W2 m ρ c (Proc.devRef .tc main_v2) : S4096x2304.Idx → EReal) slices_S4096x2304_S4096x768_0_1536)
          shapeCasts_S4096x768_S2x2048x12x64) transposes_S2x2048x12x64_S2x12x2048x64_0_2_1_3)
        shapeCasts_S2x12x2048x64_S24x2048x64 := by
  show StableHlo.after hostOps1 (W2 m ρ c) (Proc.devRef .tc main_v14) = _
  after_results
  rfl

/-- The queries at (b·12 + h, s, d) are the projection at row b·2048 + s, column h·64 + d. -/
theorem glue_q (b : Fin 2) (h : Fin 12) (s : Fin 2048) (d : Fin 64) :
    (W3 m ρ c (Proc.devRef .tc main_v8) : S24x2048x64.Idx → EReal)
        (ix3 ⟨b.val * 12 + h.val, by have := b.isLt; have := h.isLt; omega⟩ s d)
      = (W2 m ρ c (Proc.devRef .tc main_v2) : S4096x2304.Idx → EReal) (ix2 (Cert.Spec.row b s) (Cert.Spec.col 0 h d)) := by
  rw [W3_v8]
  generalize (W2 m ρ c (Proc.devRef .tc main_v2) : S4096x2304.Idx → EReal) = y
  exact heads_apply 0 y _ _ _ _ _ b h s d rfl _ (by show 0 * 768 + h.val * 64 + d.val = 0 + h.val * 64 + d.val; omega)

/-- The keys at (b·12 + h, s, d) are the projection at row b·2048 + s, column 768 + h·64 + d. -/
theorem glue_k (b : Fin 2) (h : Fin 12) (s : Fin 2048) (d : Fin 64) :
    (W3 m ρ c (Proc.devRef .tc main_v11) : S24x2048x64.Idx → EReal)
        (ix3 ⟨b.val * 12 + h.val, by have := b.isLt; have := h.isLt; omega⟩ s d)
      = (W2 m ρ c (Proc.devRef .tc main_v2) : S4096x2304.Idx → EReal) (ix2 (Cert.Spec.row b s) (Cert.Spec.col 1 h d)) := by
  rw [W3_v11]
  generalize (W2 m ρ c (Proc.devRef .tc main_v2) : S4096x2304.Idx → EReal) = y
  exact heads_apply 768 y _ _ _ _ _ b h s d rfl _ (by show 1 * 768 + h.val * 64 + d.val = 768 + h.val * 64 + d.val; omega)

/-- The values at (b·12 + h, s, d) are the projection at row b·2048 + s, column 1536 + h·64 + d. -/
theorem glue_v (b : Fin 2) (h : Fin 12) (s : Fin 2048) (d : Fin 64) :
    (W3 m ρ c (Proc.devRef .tc main_v14) : S24x2048x64.Idx → EReal)
        (ix3 ⟨b.val * 12 + h.val, by have := b.isLt; have := h.isLt; omega⟩ s d)
      = (W2 m ρ c (Proc.devRef .tc main_v2) : S4096x2304.Idx → EReal) (ix2 (Cert.Spec.row b s) (Cert.Spec.col 2 h d)) := by
  rw [W3_v14]
  generalize (W2 m ρ c (Proc.devRef .tc main_v2) : S4096x2304.Idx → EReal) = y
  exact heads_apply 1536 y _ _ _ _ _ b h s d rfl _ (by show 2 * 768 + h.val * 64 + d.val = 1536 + h.val * 64 + d.val; omega)

/-! ## The third stretch: the heads merged -/

/-- After the third stretch `%18` holds the attention call's result with its heads merged into the columns. -/
theorem W5_v18 : (W5 m ρ c (Proc.devRef .tc main_v18) : S4096x768.Idx → EReal)
    = shapeCast S4096x768 (transpose S2x2048x12x64 [0, 2, 1, 3]
        (shapeCast S2x12x2048x64 (W4 m ρ c (Proc.devRef .tc main_v15) : S24x2048x64.Idx → EReal)
          shapeCasts_S24x2048x64_S2x12x2048x64) transposes_S2x12x2048x64_S2x2048x12x64_0_2_1_3)
        shapeCasts_S2x2048x12x64_S4096x768 := by
  show StableHlo.after hostOps2 (W4 m ρ c) (Proc.devRef .tc main_v18) = _
  after_results
  rfl

/-- `%18` at row b·2048 + s, column h·64 + d is the attention call's result at (b·12 + h, s, d). -/
theorem glue_ctx (b : Fin 2) (h : Fin 12) (s : Fin 2048) (d : Fin 64) :
    (W5 m ρ c (Proc.devRef .tc main_v18) : S4096x768.Idx → EReal) (ix2 (Cert.Spec.row b s) (Cert.Spec.ecol h d))
      = (W4 m ρ c (Proc.devRef .tc main_v15) : S24x2048x64.Idx → EReal)
          (ix3 ⟨b.val * 12 + h.val, by have := b.isLt; have := h.isLt; omega⟩ s d) := by
  rw [W5_v18]
  generalize (W4 m ρ c (Proc.devRef .tc main_v15) : S24x2048x64.Idx → EReal) = z
  exact merge_apply z _ _ _ _ b h s d rfl

/-! ## The same at a merged head index g = b·12 + h given as a variable -/

theorem glue_q_at (g : Fin 24) (b : Fin 2) (h : Fin 12) (s : Fin 2048) (d : Fin 64) (hg : g.val = b.val * 12 + h.val) :
    (W3 m ρ c (Proc.devRef .tc main_v8) : S24x2048x64.Idx → EReal) (ix3 g s d)
      = (W2 m ρ c (Proc.devRef .tc main_v2) : S4096x2304.Idx → EReal) (ix2 (Cert.Spec.row b s) (Cert.Spec.col 0 h d)) := by
  rw [show g = (⟨b.val * 12 + h.val, by have := b.isLt; have := h.isLt; omega⟩ : Fin 24) from Fin.ext hg]
  exact glue_q m ρ c b h s d

theorem glue_k_at (g : Fin 24) (b : Fin 2) (h : Fin 12) (s : Fin 2048) (d : Fin 64) (hg : g.val = b.val * 12 + h.val) :
    (W3 m ρ c (Proc.devRef .tc main_v11) : S24x2048x64.Idx → EReal) (ix3 g s d)
      = (W2 m ρ c (Proc.devRef .tc main_v2) : S4096x2304.Idx → EReal) (ix2 (Cert.Spec.row b s) (Cert.Spec.col 1 h d)) := by
  rw [show g = (⟨b.val * 12 + h.val, by have := b.isLt; have := h.isLt; omega⟩ : Fin 24) from Fin.ext hg]
  exact glue_k m ρ c b h s d

theorem glue_v_at (g : Fin 24) (b : Fin 2) (h : Fin 12) (s : Fin 2048) (d : Fin 64) (hg : g.val = b.val * 12 + h.val) :
    (W3 m ρ c (Proc.devRef .tc main_v14) : S24x2048x64.Idx → EReal) (ix3 g s d)
      = (W2 m ρ c (Proc.devRef .tc main_v2) : S4096x2304.Idx → EReal) (ix2 (Cert.Spec.row b s) (Cert.Spec.col 2 h d)) := by
  rw [show g = (⟨b.val * 12 + h.val, by have := b.isLt; have := h.isLt; omega⟩ : Fin 24) from Fin.ext hg]
  exact glue_v m ρ c b h s d

theorem glue_ctx_at (g : Fin 24) (b : Fin 2) (h : Fin 12) (s : Fin 2048) (d : Fin 64) (hg : g.val = b.val * 12 + h.val) :
    (W5 m ρ c (Proc.devRef .tc main_v18) : S4096x768.Idx → EReal) (ix2 (Cert.Spec.row b s) (Cert.Spec.ecol h d))
      = (W4 m ρ c (Proc.devRef .tc main_v15) : S24x2048x64.Idx → EReal) (ix3 g s d) := by
  rw [show g = (⟨b.val * 12 + h.val, by have := b.isLt; have := h.isLt; omega⟩ : Fin 24) from Fin.ext hg]
  exact glue_ctx m ρ c b h s d

/-! ## The buffers a call reads that nothing before it wrote -/

/-- A buffer the first stretch does not write is as launched when the first call starts. -/
theorem W1_arg (r : Ref sig .tc) (h0 : r ∉ (hostOps0_W : List (Ref sig .tc))) :
    W1 m ρ c (Proc.devRef .tc r) = m ((c : Thread nD τ).loc r) :=
  calc W1 m ρ c (Proc.devRef .tc r)
    _ = W0 m ρ c (Proc.devRef .tc r) := StableHlo.after_of_writes_sub hostOps0 _ hostOps0_writes h0
    _ = m ((c : Thread nD τ).loc r) := rfl

/-- A buffer nothing up to the second stretch writes is as launched when the attention call starts. -/
theorem W3_arg (r : Ref sig .tc) (h0 : r ∉ (hostOps0_W : List (Ref sig .tc))) (h1 : r ∉ (hostOps1_W : List (Ref sig .tc)))
    (n2 : r ≠ main_v2) : W3 m ρ c (Proc.devRef .tc r) = m ((c : Thread nD τ).loc r) :=
  calc W3 m ρ c (Proc.devRef .tc r)
    _ = W2 m ρ c (Proc.devRef .tc r) := StableHlo.after_of_writes_sub hostOps1 _ hostOps1_writes h1
    _ = W1 m ρ c (Proc.devRef .tc r) := W2_keep m ρ c r n2
    _ = m ((c : Thread nD τ).loc r) := W1_arg m ρ c r h0

/-- A buffer nothing up to the third stretch writes is as launched when the third call starts. -/
theorem W5_arg (r : Ref sig .tc) (h0 : r ∉ (hostOps0_W : List (Ref sig .tc))) (h1 : r ∉ (hostOps1_W : List (Ref sig .tc)))
    (h2 : r ∉ (hostOps2_W : List (Ref sig .tc))) (n2 : r ≠ main_v2) (n15 : r ≠ main_v15) :
    W5 m ρ c (Proc.devRef .tc r) = m ((c : Thread nD τ).loc r) :=
  calc W5 m ρ c (Proc.devRef .tc r)
    _ = W4 m ρ c (Proc.devRef .tc r) := StableHlo.after_of_writes_sub hostOps2 _ hostOps2_writes h2
    _ = W3 m ρ c (Proc.devRef .tc r) := W4_keep m ρ c r n15
    _ = m ((c : Thread nD τ).loc r) := W3_arg m ρ c r h0 h1 n2

/-- The same when the fourth call starts. -/
theorem W6_arg (r : Ref sig .tc) (h0 : r ∉ (hostOps0_W : List (Ref sig .tc))) (h1 : r ∉ (hostOps1_W : List (Ref sig .tc)))
    (h2 : r ∉ (hostOps2_W : List (Ref sig .tc))) (n2 : r ≠ main_v2) (n15 : r ≠ main_v15) (n19 : r ≠ main_v19) :
    W6 m ρ c (Proc.devRef .tc r) = m ((c : Thread nD τ).loc r) :=
  (W6_keep m ρ c r n19).trans (W5_arg m ρ c r h0 h1 h2 n2 n15)

/-- The same when the fifth call starts. -/
theorem W7_arg (r : Ref sig .tc) (h0 : r ∉ (hostOps0_W : List (Ref sig .tc))) (h1 : r ∉ (hostOps1_W : List (Ref sig .tc)))
    (h2 : r ∉ (hostOps2_W : List (Ref sig .tc))) (n2 : r ≠ main_v2) (n15 : r ≠ main_v15) (n19 : r ≠ main_v19)
    (n20 : r ≠ main_v20) : W7 m ρ c (Proc.devRef .tc r) = m ((c : Thread nD τ).loc r) :=
  (W7_keep m ρ c r n20).trans (W6_arg m ρ c r h0 h1 h2 n2 n15 n19)

/-- The residual input of the third call is still the flattened input. -/
theorem keep5_v0 : W5 m ρ c (Proc.devRef .tc main_v0) = W1 m ρ c (Proc.devRef .tc main_v0) :=
  calc W5 m ρ c (Proc.devRef .tc main_v0)
    _ = W4 m ρ c (Proc.devRef .tc main_v0) := StableHlo.after_of_writes_sub hostOps2 _ hostOps2_writes (by decide)
    _ = W3 m ρ c (Proc.devRef .tc main_v0) := W4_keep m ρ c main_v0 (by decide)
    _ = W2 m ρ c (Proc.devRef .tc main_v0) := StableHlo.after_of_writes_sub hostOps1 _ hostOps1_writes (by decide)
    _ = W1 m ρ c (Proc.devRef .tc main_v0) := W2_keep m ρ c main_v0 (by decide)

/-- The fourth call leaves the third call's result in place. -/
theorem keep7_v19 : W7 m ρ c (Proc.devRef .tc main_v19) = W6 m ρ c (Proc.devRef .tc main_v19) :=
  W7_keep m ρ c main_v19 (by decide)

/-- The weight of the projection, as launched, at the first call. -/
theorem keep1_arg1 : W1 m ρ c (Proc.devRef .tc main_arg1) = m ((c : Thread nD τ).loc main_arg1) :=
  W1_arg m ρ c main_arg1 (by decide)

/-- The third call's weight, bias, gain and shift, as launched. -/
theorem keep5_arg2 : W5 m ρ c (Proc.devRef .tc main_arg2) = m ((c : Thread nD τ).loc main_arg2) :=
  W5_arg m ρ c main_arg2 (by decide) (by decide) (by decide) (by decide) (by decide)
theorem keep5_arg3 : W5 m ρ c (Proc.devRef .tc main_arg3) = m ((c : Thread nD τ).loc main_arg3) :=
  W5_arg m ρ c main_arg3 (by decide) (by decide) (by decide) (by decide) (by decide)
theorem keep5_arg8 : W5 m ρ c (Proc.devRef .tc main_arg8) = m ((c : Thread nD τ).loc main_arg8) :=
  W5_arg m ρ c main_arg8 (by decide) (by decide) (by decide) (by decide) (by decide)
theorem keep5_arg9 : W5 m ρ c (Proc.devRef .tc main_arg9) = m ((c : Thread nD τ).loc main_arg9) :=
  W5_arg m ρ c main_arg9 (by decide) (by decide) (by decide) (by decide) (by decide)

/-- The fourth call's weight and bias, as launched. -/
theorem keep6_arg4 : W6 m ρ c (Proc.devRef .tc main_arg4) = m ((c : Thread nD τ).loc main_arg4) :=
  W6_arg m ρ c main_arg4 (by decide) (by decide) (by decide) (by decide) (by decide) (by decide)
theorem keep6_arg5 : W6 m ρ c (Proc.devRef .tc main_arg5) = m ((c : Thread nD τ).loc main_arg5) :=
  W6_arg m ρ c main_arg5 (by decide) (by decide) (by decide) (by decide) (by decide) (by decide)

/-- The fifth call's weight, bias, gain and shift, as launched. -/
theorem keep7_arg6 : W7 m ρ c (Proc.devRef .tc main_arg6) = m ((c : Thread nD τ).loc main_arg6) :=
  W7_arg m ρ c main_arg6 (by decide) (by decide) (by decide) (by decide) (by decide) (by decide) (by decide)
theorem keep7_arg7 : W7 m ρ c (Proc.devRef .tc main_arg7) = m ((c : Thread nD τ).loc main_arg7) :=
  W7_arg m ρ c main_arg7 (by decide) (by decide) (by decide) (by decide) (by decide) (by decide) (by decide)
theorem keep7_arg10 : W7 m ρ c (Proc.devRef .tc main_arg10) = m ((c : Thread nD τ).loc main_arg10) :=
  W7_arg m ρ c main_arg10 (by decide) (by decide) (by decide) (by decide) (by decide) (by decide) (by decide)
theorem keep7_arg11 : W7 m ρ c (Proc.devRef .tc main_arg11) = m ((c : Thread nD τ).loc main_arg11) :=
  W7_arg m ρ c main_arg11 (by decide) (by decide) (by decide) (by decide) (by decide) (by decide) (by decide)

end Cert.KernelIdeal.Hand

end
-- ==== Proof.KI.ValBase.lean ====
/- Two spellings of the zero offsets of a whole-window rectangle, shared by the regions' value modules. -/
import Idealize.ShloMosaic.Lib.Pipeline.Value

namespace Cert.KernelIdeal.Hand

/-- The offsets ![0, 0] of a whole rank-2 rectangle are zero on every axis. -/
theorem zeros2 : (![0, 0] : Fin 2 → Nat) = fun _ => 0 := funext fun a => by fin_cases a <;> rfl
/-- The offsets ![0] of a whole rank-1 rectangle are zero on its axis. -/
theorem zeros1 : (![0] : Fin 1 → Nat) = fun _ => 0 := funext fun a => by fin_cases a <;> rfl

end Cert.KernelIdeal.Hand
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibPlainProduct.lean ====
/-
  A matrix unit's product with the plain dimension numbers, read on the extended reals — general in the
  extents M, K, N.

  The plain dimension numbers contract the second axis of an [M, K] left operand against the first axis of a
  [K, N] right operand, with no batch axis. At an output index (r, j) and contraction coordinate k the two
  operand indices are then (r, k) and (k, j), so the product accumulated into the zero array is, entry by entry,
  the sum over k of l (r, k) · w (k, j): the array `rowsTimes l w`. The same holds of any record of dimension
  numbers equal to the plain one, whatever its own well-formedness proof.
-/
import proofs.«151460_j71262097375467_2_alg».proof.Proof.LibRowsTimes

noncomputable section

namespace Cert.Dense

open Idealize.ShloMosaic Idealize.ShloMosaic.ValueIdx

variable {M K N : Nat}

/-- The left operand's row coordinate is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The left operand's index at output index `j` and contraction coordinate `k` is (row of `j`, `k`). -/
theorem plain_lhsIdx (j : (⟨2, ![M, N]⟩ : Shape).Idx) (k : Fin K) :
    (DotDims.plain M K N).lhsIdx j ((contrEquiv1 (DotDims.plain M K N) K rfl rfl).symm k) = ix2 (j 0 : Fin M) k := by
  have hk := contrEquiv1_symm_val (DotDims.plain M K N) K rfl rfl k
  funext a
  apply Fin.ext
  match a with
  | ⟨0, _⟩ => exact plain_lhs_row j _
  | ⟨1, _⟩ => exact (plain_lhs_col j _).trans hk

/-- The right operand's index there is (`k`, column of `j`). -/
theorem plain_rhsIdx (j : (⟨2, ![M, N]⟩ : Shape).Idx) (k : Fin K) :
    (DotDims.plain M K N).rhsIdx j ((contrEquiv1 (DotDims.plain M K N) K rfl rfl).symm k) = ix2 k (j 1 : Fin N) := by
  have hk := contrEquiv1_symm_val (DotDims.plain M K N) K rfl rfl k
  funext a
  apply Fin.ext
  match a with
  | ⟨0, _⟩ => exact (plain_rhs_row j _).trans hk
  | ⟨1, _⟩ => exact plain_rhs_col j _

/-- The product into the zero array is `rowsTimes`, whatever the two operands' float formats. -/
theorem matmul_plain_zero {φ₁ φ₂ : FTy} (prec : Option ContractPrecision)
    (l : FVec Ideal ⟨2, ![M, K]⟩ φ₁) (w : FVec Ideal ⟨2, ![K, N]⟩ φ₂) :
    matmul (DotDims.plain M K N) prec l w (constant (F := Ideal) ⟨2, ![M, N]⟩ .f32 0x00000000#32) = rowsTimes l w := by
  funext j
  simp only [matmul]
  rw [Ideal.matmul_constant_zero_apply]
  exact contraction_eq (DotDims.plain M K N) rfl rfl l w l w j j
    (fun k => congrArg l (plain_lhsIdx j k)) (fun k => congrArg w (plain_rhsIdx j k))

/-- The same of a record `d` of dimension numbers that is the plain one. -/
theorem matmul_zero_of_plain {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (w : FVec Ideal ⟨2, ![K, N]⟩ φ₂) :
    matmul d prec l w (constant (F := Ideal) ⟨2, ![M, N]⟩ .f32 0x00000000#32) = rowsTimes l w := by
  subst hd
  exact matmul_plain_zero prec l w

end Cert.Dense

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KI.Val0.lean ====
/- The VALUE of region 0 (the fused projection) on the extended reals: after the region's run the output array
   holds, at every (r, j), the sum over k of x (r, k) · W (k, j) plus the bias entry b (j), where x, W and b are the
   contents the region finds in its three input arrays.

   Three steps. The body's payload read at one index of a block (the two roundings are the identity on the extended
   reals, the matrix unit's product into the zero array is the entrywise sum of products, the bias row is repeated
   down the rows). What a point writes back is the block of that function of the WHOLE arrays: the activations'
   block moves with the output's row block, the weight and bias blocks are the whole arrays. The eight row blocks
   cover the array. -/
import proofs.«151460_j71262097375467_2_alg».proof.Proof.KI.Reg0
import proofs.«151460_j71262097375467_2_alg».proof.Proof.KI.ValBase
import proofs.«151460_j71262097375467_2_alg».proof.Proof.Spec
import proofs.«151460_j71262097375467_2_alg».proof.Proof.LibPlainProduct
import proofs.«151460_j71262097375467_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The payload at an index -/

/-- The body's payload at row p, column q of the output block: the p-th row of the activations' block against the
    q-th column of the weight block, plus the q-th bias entry. -/
theorem pay0_apply (x0 : Vec Ideal S512x768 .f32) (x1 : Vec Ideal S768x2304 .f32) (x2 : Vec Ideal S2304 .f32)
    (p : Fin 512) (q : Fin 2304) :
    k0_pay1 (F := Ideal) x0 x1 x2 (ix2 p q) = (∑ k : Fin 768, x0 (ix2 p k) * x1 (ix2 k q)) + x2 (ix1 q) := by
  unfold k0_pay1
  simp only [shapeCast_self]
  have hm := Cert.Dense.matmul_zero_of_plain (M := 512) (K := 768) (N := 2304) dot_S512x768_S768x2304_S512x2304_1_0_0_1_n_n rfl none
    (truncf .bf16 x0 bitsLt_bf16_f32) (truncf .bf16 x1 bitsLt_bf16_f32)
  rw [truncf_apply, addf_apply, hm, ColumnLayout.row_broadcast_apply]
  rfl

/-! ## From blocks to the array -/

/-- What the output array ends holding, as one function of the three input arrays, index by index. -/
abbrev G0 (X : S4096x768.Idx → EReal) (W : S768x2304.Idx → EReal) (b : S2304.Idx → EReal) : S4096x2304.Idx → EReal :=
  fun i => Cert.Spec.qkv (fun r k => X (ix2 r k)) (fun k j => W (ix2 k j)) (i 0 : Fin 4096) (i 1 : Fin 2304) + b (ix1 (i 1 : Fin 2304))

/-- The payload of blocks that hold, at the rows and columns index j names, what the whole arrays hold at the rows and
    columns index i names, is G0 of the whole arrays at i. -/
theorem pay0_eq_G0 (X : S4096x768.Idx → EReal) (W : S768x2304.Idx → EReal) (b : S2304.Idx → EReal)
    (x0 : Vec Ideal S512x768 .f32) (x1 : Vec Ideal S768x2304 .f32) (x2 : Vec Ideal S2304 .f32)
    (j : S512x2304.Idx) (i : S4096x2304.Idx)
    (h0 : ∀ k : Fin 768, x0 (ix2 (j 0 : Fin 512) k) = X (ix2 (i 0 : Fin 4096) k))
    (h1 : ∀ k : Fin 768, x1 (ix2 k (j 1 : Fin 2304)) = W (ix2 k (i 1 : Fin 2304)))
    (h2 : x2 (ix1 (j 1 : Fin 2304)) = b (ix1 (i 1 : Fin 2304))) :
    k0_pay1 (F := Ideal) x0 x1 x2 j = G0 X W b i := by
  obtain ⟨p, q, rfl⟩ : ∃ (p : Fin 512) (q : Fin 2304), j = ix2 p q := ⟨j 0, j 1, eq_ix2 j⟩
  have h0' : ∀ k : Fin 768, x0 (ix2 p k) = X (ix2 (i 0 : Fin 4096) k) := h0
  have h1' : ∀ k : Fin 768, x1 (ix2 k q) = W (ix2 k (i 1 : Fin 2304)) := h1
  have h2' : x2 (ix1 q) = b (ix1 (i 1 : Fin 2304)) := h2
  rw [pay0_apply, h2']
  unfold G0 Cert.Spec.qkv
  exact congrArg (· + b (ix1 (i 1 : Fin 2304))) (Finset.sum_congr rfl fun k _ => by rw [h0' k, h1' k])

/-- The printed index maps, decided over the grid: the activations' block index follows the output's row block, the
    weight and bias blocks do not move, the output's block index is (point, 0). -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (0 : Fin 2) ≤ 7 ∧ win0_3.index t (1 : Fin 2) = 0 :=
  (by decide +kernel : ∀ t : Fin grid0.N, _)

/-- Every row block is some point's. -/
theorem idx_onto0 : ∀ q0 : Fin 8, ∃ t : Fin cfg0.N, win0_3.index t = ![q0.val, 0] :=
  (by decide +kernel : ∀ q0 : Fin 8, ∃ t : Fin grid0.N, win0_3.index t = ![q0.val, 0])

variable (V : (c : Dev nD) → (b : Ref sig .tc) → Buf (Elt Ideal) ((c : Thread nD τ).loc b))

/-- What point t writes back is block t of G0 of the arrays as the region finds them. -/
theorem flushed0_eq (c : Dev nD) (t : Fin cfg0.N) :
    (dat0 (F := Ideal) V c).flushed 3 t
      = ((cfg0.win 3).blk t).view.read (Elt Ideal) (G0 (V c main_v0) (V c main_arg1) (V c main_v1)) := by
  show (cfg0.win 3).cut (grid0.coords t) ((dat0 V c).after 3 t) = _
  rw [after0_3]
  unfold out0
  rw [View.canon_unit_zero zeros2]
  simp only [View.ld_unit_zero (S := S512x768) zeros2, View.ld_unit_zero (S := S768x2304) zeros2, View.ld_unit_zero (S := S2304) zeros1]
  obtain ⟨e0, e1, e2, e3, e4, e5, e6⟩ := idx_facts0 t
  funext j
  show k0_pay1 (F := Ideal) (iblk0 V c 0 t) (iblk0 V c 1 t) (iblk0 V c 2 t) j
    = G0 (V c main_v0) (V c main_arg1) (V c main_v1) (((cfg0.win 3).blk t).view.emb j)
  refine pay0_eq_G0 _ _ _ _ _ _ j _ ?_ ?_ ?_
  · intro k
    show V c main_v0 (((cfg0.win 0).blk t).view.emb (ix2 (j 0 : Fin 512) k)) = V c main_v0 _
    congr 1
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 768 + 1 * k.val = k.val; omega
  · intro k
    show V c main_arg1 (((cfg0.win 1).blk t).view.emb (ix2 k (j 1 : Fin 2304))) = V c main_arg1 _
    congr 1
    funext a; apply Fin.ext
    match a with
    | ⟨0, _⟩ => show win0_1.index t (0 : Fin 2) * 768 + 1 * k.val = k.val; omega
    | ⟨1, _⟩ => show win0_1.index t (1 : Fin 2) * 2304 + 1 * (j 1).val = win0_3.index t (1 : Fin 2) * 2304 + 1 * (j 1).val; omega
  · show V c main_v1 (((cfg0.win 2).blk t).view.emb (ix1 (j 1 : Fin 2304))) = V c main_v1 _
    congr 1
    funext a; apply Fin.ext
    match a with
    | ⟨0, _⟩ => show win0_2.index t (0 : Fin 1) * 2304 + 1 * (j 1).val = win0_3.index t (1 : Fin 2) * 2304 + 1 * (j 1).val; omega

/-- An index of the array is in point t's block iff each coordinate is in the block's range on its axis. -/
theorem mem_blk0 (t : Fin cfg0.N) (i : S4096x2304.Idx) :
    i ∈ ((cfg0.win 3).blk t).view.set ↔ ∀ a : Fin 2, win0_3.index t a * S512x2304.size a ≤ (i a).val ∧ (i a).val < win0_3.index t a * S512x2304.size a + S512x2304.size a := by
  show i ∈ ((View.whole main_v2).slice (win0_3.rect t)).set ↔ _
  rw [View.set_slice_whole, Rect.mem_set_unit]
  exact Iff.rfl

/-- The eight row blocks cover the array: row r is in block r / 512. -/
theorem cover_arr0 (i : S4096x2304.Idx) :
    ∃ t : Fin cfg0.N, (cfg0.win 3).flush t = true ∧ i ∈ ((cfg0.win 3).blk t).view.set := by
  have hi0 : (i 0).val < 4096 := (i 0).isLt
  have hi1 : (i 1).val < 2304 := (i 1).isLt
  obtain ⟨t, ht⟩ := idx_onto0 ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2304 ≤ (i 1).val ∧ (i 1).val < win0_3.index t (1 : Fin 2) * 2304 + 2304; omega

/-- THE ARRAY after the region's run: the projection of the activations by the weights plus the bias array, entry by
    entry, of the arrays as the region finds them. -/
theorem arr0 (c : Dev nD) :
    ((dat0 (F := Ideal) V c).arrAt 3 cfg0.N : S4096x2304.Idx → EReal)
      = fun i => Cert.Spec.qkv (fun r k => V c main_v0 (ix2 r k)) (fun k j => V c main_arg1 (ix2 k j)) (i 0) (i 1)
          + V c main_v1 (ix1 (i 1)) :=
  (dat0 (F := Ideal) V c).arrAt_eq_of_cover 3 (G0 (V c main_v0) (V c main_arg1) (V c main_v1))
    (fun t _ => flushed0_eq V c t) cover_arr0

end Cert.KernelIdeal.Hand

end
-- ==== Proof.KI.Ln.lean ====
/- Layer normalisation as the kernels spell it — gain · ((z − mean) · rsqrt (variance + ε)) + shift — and the one
   algebraic law that identifies it with the specification's spelling gain · (z − mean) / √(variance + ε) + shift
   when the entries and the gains are real: the variance is then a nonnegative real, ε is a positive real, so
   rsqrt s is the real 1 / √s and the division is the product with that real; both sides are the same real. -/
import proofs.«151460_j71262097375467_2_alg».proof.Proof.Spec

noncomputable section

open scoped BigOperators

namespace Cert.KernelIdeal.Hand

open Idealize.ShloMosaic

/-- The kernels' spelling of the layer norm: mean and variance are the specification's (the same divisor word). -/
def lnK (z : Fin 4096 → Fin 768 → EReal) (g b : Fin 768 → EReal) (r : Fin 4096) (e : Fin 768) : EReal :=
  g e * ((z r e - Cert.Spec.mean z r) * Ideal.rsqrt (Cert.Spec.var z r + Ideal.ofBits .f32 0x3727C5AC#32)) + b e

/-- A finite sum of reals, taken in the extended reals, is the real sum. -/
theorem coe_sum_real {ι : Type*} (s : Finset ι) (f : ι → ℝ) :
    (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The ε word denotes a positive real. -/
theorem eps_pos : ∃ ε : ℝ, 0 < ε ∧ Ideal.ofBits .f32 0x3727C5AC#32 = ((ε : ℝ) : EReal) := by
  simp [Ideal.ofBits, Ideal.ieee, -EReal.coe_mul]

/-- THE LAW: on real entries and real gains the kernels' spelling is the specification's layer norm. -/
theorem lnK_eq_ln (z : Fin 4096 → Fin 768 → EReal) (g b : Fin 768 → EReal)
    (hz : ∀ r e, ∃ x : ℝ, z r e = x) (hg : ∀ e, ∃ x : ℝ, g e = x) : lnK z g b = Cert.Spec.ln z g b := by
  choose zr hzr using hz
  choose gr hgr using hg
  obtain ⟨ε, hε, hεw⟩ := eps_pos
  funext r e
  -- the row's mean is a real
  obtain ⟨m, hm⟩ : ∃ m : ℝ, Cert.Spec.mean z r = ((m : ℝ) : EReal) := by
    refine ⟨(∑ e', zr r e') * (1 / 768), ?_⟩
    unfold Cert.Spec.mean
    rw [Cert.Spec.div_768]
    simp only [hzr]
    rw [coe_sum_real, ← EReal.coe_mul]
  -- the row's variance is a nonnegative real
  obtain ⟨v, hv, hvar⟩ : ∃ v : ℝ, 0 ≤ v ∧ Cert.Spec.var z r = ((v : ℝ) : EReal) := by
    refine ⟨(∑ e', (zr r e' - m) * (zr r e' - m)) * (1 / 768),
      mul_nonneg (Finset.sum_nonneg fun e' _ => mul_self_nonneg _) (by norm_num), ?_⟩
    unfold Cert.Spec.var
    rw [Cert.Spec.div_768, hm]
    simp only [hzr, ← EReal.coe_sub, ← EReal.coe_mul]
    rw [coe_sum_real, ← EReal.coe_mul]
  have hs : 0 < v + ε := by linarith
  unfold lnK Cert.Spec.ln
  rw [hvar, hm, hεw, hzr r e, hgr e, ← EReal.coe_add, ← EReal.coe_sub, Ideal.rsqrt_coe, Ideal.sqrt_coe,
    if_neg (not_lt.mpr hs.le), if_neg hs.ne', if_neg (not_lt.mpr hs.le), Ideal.div_coe (Real.sqrt_pos.mpr hs).ne']
  simp only [← EReal.coe_mul]
  have hreal : gr e * ((zr r e - m) * (Real.sqrt (v + ε))⁻¹) = gr e * (zr r e - m) * (1 / Real.sqrt (v + ε)) := by
    rw [one_div]; ring
  rw [hreal]

end Cert.KernelIdeal.Hand

end
-- ==== Proof.KI.LnTail.lean ====
/- The layer-norm tail of the two residual kernels, read at an index of a [512, 768] block on the extended reals.

   Both kernels end with the same operations on the block z of pre-normalisation values: each row's sum kept as a
   column, divided by the 768.0 word and repeated along the row (the mean), the deviations from it, the same again of
   their squares (the variance), the reciprocal square root of the variance plus the ε word, and the scale and shift
   rows repeated down the rows. At (p, e) this is the layer norm of row p alone, in the kernels' spelling. -/
import proofs.«151460_j71262097375467_2_alg».proof.Proof.Gen.KernelIdeal.Skeleton
import proofs.«151460_j71262097375467_2_alg».proof.Proof.KI.Ln
import proofs.«151460_j71262097375467_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx

/-! ## One row's layer norm -/

/-- A row's mean (the divisor is the f32 word of 768.0). -/
def rowMean (zr : Fin 768 → EReal) : EReal := Ideal.div (∑ e : Fin 768, zr e) (Ideal.ofBits .f32 0x44400000#32)
/-- A row's variance: the mean of the squared deviations. -/
def rowVar (zr : Fin 768 → EReal) : EReal :=
  Ideal.div (∑ e : Fin 768, (zr e - rowMean zr) * (zr e - rowMean zr)) (Ideal.ofBits .f32 0x44400000#32)
/-- A row's layer norm in the kernels' spelling. -/
def lnRow (zr g b : Fin 768 → EReal) (e : Fin 768) : EReal :=
  g e * ((zr e - rowMean zr) * Ideal.rsqrt (rowVar zr + Ideal.ofBits .f32 0x3727C5AC#32)) + b e

/-- The layer norm of an array of rows is, row by row, the row's layer norm. -/
theorem lnK_eq_lnRow (z : Fin 4096 → Fin 768 → EReal) (g b : Fin 768 → EReal) (r : Fin 4096) (e : Fin 768) :
    lnK z g b r e = lnRow (z r) g b e := rfl

/-! ## The tail's vector operations -/

/-- Each row's sum. -/
def rowSums (v : FVec Ideal S512x768 .f32) : FVec Ideal S512 .f32 :=
  multiReduction .add [1] S512 v 0x00000000#32 reduces_S512x768_S512 (.inl rfl) rfl
/-- A row statistic kept as a column and divided by the 768.0 word. -/
def colOver768 (s : FVec Ideal S512 .f32) : FVec Ideal S512x1 .f32 :=
  divf (shapeCast S512x1 s shapeCasts_S512_S512x1) (broadcast S512x1 (Scalar.ofBits .f32 0x44400000#32 : Ideal .f32))
/-- A column repeated along the rows' other axis. -/
def alongRow (col : FVec Ideal S512x1 .f32) : FVec Ideal S512x768 .f32 :=
  broadcastTo S512x768 col broadcasts_S512x1_S512x768
/-- A row repeated down the rows. -/
def downRows (g : Vec Ideal S768 .f32) : FVec Ideal S512x768 .f32 :=
  broadcastTo S512x768 (shapeCast S1x768 g shapeCasts_S768_S1x768) broadcasts_S1x768_S512x768
/-- The deviations from the rows' means. -/
def centred (z : FVec Ideal S512x768 .f32) : FVec Ideal S512x768 .f32 :=
  subf z (alongRow (colOver768 (rowSums z)))
/-- The tail: the layer norm of every row of the block. -/
def lnTail (z : FVec Ideal S512x768 .f32) (g b : Vec Ideal S768 .f32) : FVec Ideal S512x768 .f32 :=
  addf (mulf (downRows g) (mulf (centred z) (alongRow (rsqrt (addf (colOver768 (rowSums (mulf (centred z) (centred z))))
    (broadcast S512x1 (Scalar.ofBits .f32 0x3727C5AC#32 : Ideal .f32))))))) (downRows b)

theorem rowSums_apply (v : FVec Ideal S512x768 .f32) (p : Fin 512) : rowSums v (ix1 p) = ∑ e : Fin 768, v (ix2 p e) :=
  (Ideal.multiReduction_add_single v 0x00000000#32 reduces_S512x768_S512 (.inl rfl) rfl (ix1 p)).trans
    (Finset.sum_congr rfl fun e _ => congrArg v (funext fun a => Fin.ext (by
      match a with
      | ⟨0, _⟩ => rfl
      | ⟨1, _⟩ => rfl)))

theorem colOver768_apply (s : FVec Ideal S512 .f32) (p : Fin 512) (u : Fin 1) :
    colOver768 s (ix2 p u) = Ideal.div (s (ix1 p)) (Ideal.ofBits .f32 0x44400000#32) := by
  unfold colOver768
  rw [divf_apply, ColumnLayout.shapeCast_a_a1_apply]
  rfl

theorem alongRow_apply (col : FVec Ideal S512x1 .f32) (p : Fin 512) (e : Fin 768) :
    alongRow col (ix2 p e) = col (ix2 p (0 : Fin 1)) :=
  ColumnLayout.broadcastTo_a1_ab_apply col broadcasts_S512x1_S512x768 p e

theorem downRows_apply (g : Vec Ideal S768 .f32) (p : Fin 512) (e : Fin 768) : downRows g (ix2 p e) = g (ix1 e) :=
  ColumnLayout.row_broadcast_apply g shapeCasts_S768_S1x768 broadcasts_S1x768_S512x768 p e

theorem centred_apply (z : FVec Ideal S512x768 .f32) (p : Fin 512) (e : Fin 768) :
    centred z (ix2 p e) = z (ix2 p e) - rowMean (fun e' => z (ix2 p e')) := by
  unfold centred
  rw [subf_apply, alongRow_apply, colOver768_apply, rowSums_apply]
  rfl

/-- THE TAIL AT AN INDEX: the layer norm of row p of the block, at column e. -/
theorem lnTail_apply (z : FVec Ideal S512x768 .f32) (g b : Vec Ideal S768 .f32) (p : Fin 512) (e : Fin 768) :
    lnTail z g b (ix2 p e) = lnRow (fun e' => z (ix2 p e')) (fun e' => g (ix1 e')) (fun e' => b (ix1 e')) e := by
  have hvar : colOver768 (rowSums (mulf (centred z) (centred z))) (ix2 p (0 : Fin 1)) = rowVar (fun e' => z (ix2 p e')) := by
    rw [colOver768_apply, rowSums_apply]
    unfold rowVar
    exact congrArg (Ideal.div · (Ideal.ofBits .f32 0x44400000#32))
      (Finset.sum_congr rfl fun e' _ => by rw [mulf_apply, centred_apply])
  unfold lnTail
  rw [addf_apply, mulf_apply, mulf_apply, downRows_apply, downRows_apply, centred_apply, alongRow_apply]
  show g (ix1 e) * ((z (ix2 p e) - rowMean fun e' => z (ix2 p e'))
      * Ideal.rsqrt ((colOver768 (rowSums (mulf (centred z) (centred z))) (ix2 p (0 : Fin 1)))
          + Ideal.ofBits .f32 0x3727C5AC#32)) + b (ix1 e) = _
  rw [hvar]
  rfl

end Cert.KernelIdeal.Hand

end
-- ==== Proof.KI.Val2.lean ====
/- The VALUE of region 2 (the attention output projected, the residual added, normalised) on the extended reals: after the region's run the
   output array holds, at every (r, e), the layer norm — in the kernel's spelling, lnK — of the rows
   z (r, ·) = residual (r, ·) + (activations (r, ·) · W + bias), with the scale and shift rows, where the six arrays are
   the contents the region finds in its input arrays.

   The body's payload is the layer-norm tail (module LnTail) of the block of z: the matrix unit's product into the
   zero array is the entrywise sum of products, the bias row is repeated down the rows, the residual block is added.
   What a point writes back is the block of lnK of the WHOLE arrays: the residual's and the activations' blocks move
   with the output's row block, the weight and the three rows are whole arrays, and the layer norm of a row needs that
   row alone. The eight row blocks cover the array. -/
import proofs.«151460_j71262097375467_2_alg».proof.Proof.KI.Reg2
import proofs.«151460_j71262097375467_2_alg».proof.Proof.KI.ValBase
import proofs.«151460_j71262097375467_2_alg».proof.Proof.KI.LnTail
import proofs.«151460_j71262097375467_2_alg».proof.Proof.Spec
import proofs.«151460_j71262097375467_2_alg».proof.Proof.LibPlainProduct
import proofs.«151460_j71262097375467_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The payload at an index -/

/-- The block of pre-normalisation values: the residual block plus (the activations' block times the weight block,
    plus the bias row down the rows). -/
def z2 (x1 : Vec Ideal S512x768 .bf16) (x2 : Vec Ideal S768x768 .f32) (x3 : Vec Ideal S768 .f32) (x0 : Vec Ideal S512x768 .f32) :
    FVec Ideal S512x768 .f32 :=
  addf (shapeCast S512x768 x0 shapeCasts_S512x768_S512x768)
    (addf (matmul dot_S512x768_S768x768_S512x768_1_0_0_1_n_n none (shapeCast S512x768 x1 shapeCasts_S512x768_S512x768 : FVec Ideal S512x768 .bf16)
      (truncf .bf16 x2 bitsLt_bf16_f32 : FVec Ideal S768x768 .bf16) (constant S512x768 .f32 0x00000000#32)) (downRows x3))

/-- The body's payload is the layer-norm tail of that block. -/
theorem pay2_split (x1 : Vec Ideal S512x768 .bf16) (x2 : Vec Ideal S768x768 .f32) (x3 : Vec Ideal S768 .f32)
    (x0 : Vec Ideal S512x768 .f32) (x4 x5 : Vec Ideal S768 .f32) :
    k2_pay1 (F := Ideal) x1 x2 x3 x0 x4 x5 = lnTail (z2 x1 x2 x3 x0) x4 x5 := rfl

/-- The block of pre-normalisation values at row p, column e. -/
theorem z2_apply (x1 : Vec Ideal S512x768 .bf16) (x2 : Vec Ideal S768x768 .f32) (x3 : Vec Ideal S768 .f32)
    (x0 : Vec Ideal S512x768 .f32) (p : Fin 512) (e : Fin 768) :
    z2 x1 x2 x3 x0 (ix2 p e) = x0 (ix2 p e) + ((∑ k : Fin 768, x1 (ix2 p k) * x2 (ix2 k e)) + x3 (ix1 e)) := by
  unfold z2
  simp only [shapeCast_self]
  have hm := Cert.Dense.matmul_zero_of_plain (M := 512) (K := 768) (N := 768) (φ₁ := .bf16) (φ₂ := .bf16)
    dot_S512x768_S768x768_S512x768_1_0_0_1_n_n rfl none x1 (truncf .bf16 x2 bitsLt_bf16_f32)
  rw [addf_apply, addf_apply, hm, downRows_apply]
  rfl

/-- The body's payload at row p, column e of the output block: the layer norm of row p of the block. -/
theorem pay2_apply (x1 : Vec Ideal S512x768 .bf16) (x2 : Vec Ideal S768x768 .f32) (x3 : Vec Ideal S768 .f32)
    (x0 : Vec Ideal S512x768 .f32) (x4 x5 : Vec Ideal S768 .f32) (p : Fin 512) (e : Fin 768) :
    k2_pay1 (F := Ideal) x1 x2 x3 x0 x4 x5 (ix2 p e)
      = lnRow (fun e' => x0 (ix2 p e') + ((∑ k : Fin 768, x1 (ix2 p k) * x2 (ix2 k e')) + x3 (ix1 e')))
          (fun e' => x4 (ix1 e')) (fun e' => x5 (ix1 e')) e := by
  rw [pay2_split, lnTail_apply]
  exact congrArg (fun zr => lnRow zr (fun e' => x4 (ix1 e')) (fun e' => x5 (ix1 e')) e)
    (funext fun e' => z2_apply x1 x2 x3 x0 p e')

/-! ## From blocks to the array -/

/-- What the output array ends holding, as one function of the six input arrays, index by index. -/
abbrev G2 (X : S4096x768.Idx → EReal) (A : S4096x768.Idx → EReal) (W : S768x768.Idx → EReal) (b g be : S768.Idx → EReal) :
    S4096x768.Idx → EReal :=
  fun i => lnK (fun r e => X (ix2 r e) + (∑ k : Fin 768, A (ix2 r k) * W (ix2 k e) + b (ix1 e)))
    (fun e => g (ix1 e)) (fun e => be (ix1 e)) (i 0 : Fin 4096) (i 1 : Fin 768)

/-- The payload of blocks that hold, at the row index j names, what the residual and activations arrays hold at the
    row index i names, and whose weight and row blocks are the whole arrays, is G2 of the whole arrays at i. -/
theorem pay2_eq_G2 (X : S4096x768.Idx → EReal) (A : S4096x768.Idx → EReal) (W : S768x768.Idx → EReal) (b g be : S768.Idx → EReal)
    (x1 : Vec Ideal S512x768 .bf16) (x2 : Vec Ideal S768x768 .f32) (x3 : Vec Ideal S768 .f32)
    (x0 : Vec Ideal S512x768 .f32) (x4 x5 : Vec Ideal S768 .f32)
    (j : S512x768.Idx) (i : S4096x768.Idx)
    (h0 : ∀ e' : Fin 768, x0 (ix2 (j 0 : Fin 512) e') = X (ix2 (i 0 : Fin 4096) e'))
    (h1 : ∀ k : Fin 768, x1 (ix2 (j 0 : Fin 512) k) = A (ix2 (i 0 : Fin 4096) k))
    (h2 : ∀ (k : Fin 768) (e' : Fin 768), x2 (ix2 k e') = W (ix2 k e'))
    (h3 : ∀ e' : Fin 768, x3 (ix1 e') = b (ix1 e'))
    (h4 : ∀ e' : Fin 768, x4 (ix1 e') = g (ix1 e'))
    (h5 : ∀ e' : Fin 768, x5 (ix1 e') = be (ix1 e'))
    (hc : (j 1 : Fin 768) = (i 1 : Fin 768)) :
    k2_pay1 (F := Ideal) x1 x2 x3 x0 x4 x5 j = G2 X A W b g be i := by
  obtain ⟨p, e, rfl⟩ : ∃ (p : Fin 512) (e : Fin 768), j = ix2 p e := ⟨j 0, j 1, eq_ix2 j⟩
  have h0' : ∀ e' : Fin 768, x0 (ix2 p e') = X (ix2 (i 0 : Fin 4096) e') := h0
  have h1' : ∀ k : Fin 768, x1 (ix2 p k) = A (ix2 (i 0 : Fin 4096) k) := h1
  have hc' : e = (i 1 : Fin 768) := hc
  have ez : (fun e' : Fin 768 => x0 (ix2 p e') + ((∑ k : Fin 768, x1 (ix2 p k) * x2 (ix2 k e')) + x3 (ix1 e')))
      = (fun e' : Fin 768 => X (ix2 (i 0 : Fin 4096) e') + ((∑ k : Fin 768, A (ix2 (i 0 : Fin 4096) k) * W (ix2 k e')) + b (ix1 e'))) :=
    funext fun e' => by
      rw [h0' e', h3 e']
      exact congrArg (fun s => X (ix2 (i 0 : Fin 4096) e') + (s + b (ix1 e')))
        (Finset.sum_congr rfl fun k _ => by rw [h1' k, h2 k e'])
  rw [pay2_apply, ez, funext h4, funext h5, hc']
  rfl

/-- The printed index maps, decided over the grid: the residual's and the activations' block indices follow the
    output's row block, the weight and the three rows do not move, the output's block index is (point, 0). -/
theorem idx_facts2 : ∀ t : Fin cfg2.N, win2_0.index t (0 : Fin 2) = win2_6.index t (0 : Fin 2)
    ∧ win2_0.index t (1 : Fin 2) = 0
    ∧ win2_1.index t (0 : Fin 2) = win2_6.index t (0 : Fin 2) ∧ win2_1.index t (1 : Fin 2) = 0
    ∧ win2_2.index t (0 : Fin 2) = 0 ∧ win2_2.index t (1 : Fin 2) = 0
    ∧ win2_3.index t (0 : Fin 1) = 0 ∧ win2_4.index t (0 : Fin 1) = 0 ∧ win2_5.index t (0 : Fin 1) = 0
    ∧ win2_6.index t (0 : Fin 2) ≤ 7 ∧ win2_6.index t (1 : Fin 2) = 0 :=
  (by decide +kernel : ∀ t : Fin grid2.N, _)

/-- Every row block is some point's. -/
theorem idx_onto2 : ∀ q0 : Fin 8, ∃ t : Fin cfg2.N, win2_6.index t = ![q0.val, 0] :=
  (by decide +kernel : ∀ q0 : Fin 8, ∃ t : Fin grid2.N, win2_6.index t = ![q0.val, 0])

variable (V : (c : Dev nD) → (b : Ref sig .tc) → Buf (Elt Ideal) ((c : Thread nD τ).loc b))

/-- What point t writes back is block t of G2 of the arrays as the region finds them. -/
theorem flushed2_eq (c : Dev nD) (t : Fin cfg2.N) :
    (dat2 (F := Ideal) V c).flushed 6 t
      = ((cfg2.win 6).blk t).view.read (Elt Ideal) (G2 (V c main_v0) (V c main_v18) (V c main_arg2) (V c main_arg3) (V c main_arg8) (V c main_arg9)) := by
  show (cfg2.win 6).cut (grid2.coords t) ((dat2 V c).after 6 t) = _
  rw [after2_6]
  unfold out2
  rw [View.canon_unit_zero zeros2]
  simp only [View.ld_unit_zero (S := S512x768) zeros2, View.ld_unit_zero (S := S512x768) zeros2,
    View.ld_unit_zero (S := S768x768) zeros2, View.ld_unit_zero (S := S768) zeros1]
  obtain ⟨e0, e1, e2, e3, e4, e5, e6, e7, e8, e9, e10⟩ := idx_facts2 t
  funext j
  show k2_pay1 (F := Ideal) (iblk2 V c 1 t) (iblk2 V c 2 t) (iblk2 V c 3 t) (iblk2 V c 0 t) (iblk2 V c 4 t) (iblk2 V c 5 t) j
    = G2 (V c main_v0) (V c main_v18) (V c main_arg2) (V c main_arg3) (V c main_arg8) (V c main_arg9) (((cfg2.win 6).blk t).view.emb j)
  refine pay2_eq_G2 _ _ _ _ _ _ _ _ _ _ _ _ j _ ?_ ?_ ?_ ?_ ?_ ?_ ?_
  · intro e'
    show V c main_v0 (((cfg2.win 0).blk t).view.emb (ix2 (j 0 : Fin 512) e')) = V c main_v0 _
    congr 1
    funext a; apply Fin.ext
    match a with
    | ⟨0, _⟩ => show win2_0.index t (0 : Fin 2) * 512 + 1 * (j 0).val = win2_6.index t (0 : Fin 2) * 512 + 1 * (j 0).val; omega
    | ⟨1, _⟩ => show win2_0.index t (1 : Fin 2) * 768 + 1 * e'.val = e'.val; omega
  · intro k
    show V c main_v18 (((cfg2.win 1).blk t).view.emb (ix2 (j 0 : Fin 512) k)) = V c main_v18 _
    congr 1
    funext a; apply Fin.ext
    match a with
    | ⟨0, _⟩ => show win2_1.index t (0 : Fin 2) * 512 + 1 * (j 0).val = win2_6.index t (0 : Fin 2) * 512 + 1 * (j 0).val; omega
    | ⟨1, _⟩ => show win2_1.index t (1 : Fin 2) * 768 + 1 * k.val = k.val; omega
  · intro k e'
    show V c main_arg2 (((cfg2.win 2).blk t).view.emb (ix2 k e')) = V c main_arg2 _
    congr 1
    funext a; apply Fin.ext
    match a with
    | ⟨0, _⟩ => show win2_2.index t (0 : Fin 2) * 768 + 1 * k.val = k.val; omega
    | ⟨1, _⟩ => show win2_2.index t (1 : Fin 2) * 768 + 1 * e'.val = e'.val; omega
  · intro e'
    show V c main_arg3 (((cfg2.win 3).blk t).view.emb (ix1 e')) = V c main_arg3 _
    congr 1
    funext a; apply Fin.ext
    match a with
    | ⟨0, _⟩ => show win2_3.index t (0 : Fin 1) * 768 + 1 * e'.val = e'.val; omega
  · intro e'
    show V c main_arg8 (((cfg2.win 4).blk t).view.emb (ix1 e')) = V c main_arg8 _
    congr 1
    funext a; apply Fin.ext
    match a with
    | ⟨0, _⟩ => show win2_4.index t (0 : Fin 1) * 768 + 1 * e'.val = e'.val; omega
  · intro e'
    show V c main_arg9 (((cfg2.win 5).blk t).view.emb (ix1 e')) = V c main_arg9 _
    congr 1
    funext a; apply Fin.ext
    match a with
    | ⟨0, _⟩ => show win2_5.index t (0 : Fin 1) * 768 + 1 * e'.val = e'.val; omega
  · apply Fin.ext
    show (j 1).val = win2_6.index t (1 : Fin 2) * 768 + 1 * (j 1).val
    omega

/-- An index of the array is in point t's block iff each coordinate is in the block's range on its axis. -/
theorem mem_blk2 (t : Fin cfg2.N) (i : S4096x768.Idx) :
    i ∈ ((cfg2.win 6).blk t).view.set ↔ ∀ a : Fin 2, win2_6.index t a * S512x768.size a ≤ (i a).val ∧ (i a).val < win2_6.index t a * S512x768.size a + S512x768.size a := by
  show i ∈ ((View.whole main_v19).slice (win2_6.rect t)).set ↔ _
  rw [View.set_slice_whole, Rect.mem_set_unit]
  exact Iff.rfl

/-- The eight row blocks cover the array: row r is in block r / 512. -/
theorem cover_arr2 (i : S4096x768.Idx) :
    ∃ t : Fin cfg2.N, (cfg2.win 6).flush t = true ∧ i ∈ ((cfg2.win 6).blk t).view.set := by
  have hi0 : (i 0).val < 4096 := (i 0).isLt
  have hi1 : (i 1).val < 768 := (i 1).isLt
  obtain ⟨t, ht⟩ := idx_onto2 ⟨(i 0).val / 512, by omega⟩
  have q0 : win2_6.index t (0 : Fin 2) = (i 0).val / 512 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 512 ≤ (i 0).val ∧ (i 0).val < win2_6.index t (0 : Fin 2) * 512 + 512; omega
  | ⟨1, _⟩ => show win2_6.index t (1 : Fin 2) * 768 ≤ (i 1).val ∧ (i 1).val < win2_6.index t (1 : Fin 2) * 768 + 768; omega

/-- THE ARRAY after the region's run: G2 of the arrays as the region finds them, that is, at every index i,
    lnK (fun r e => residual (r, e) + (∑ k, activations (r, k) · W (k, e) + bias e)) scale shift (i 0) (i 1). -/
theorem arr2 (c : Dev nD) :
    ((dat2 (F := Ideal) V c).arrAt 6 cfg2.N : S4096x768.Idx → EReal)
      = G2 (V c main_v0) (V c main_v18) (V c main_arg2) (V c main_arg3) (V c main_arg8) (V c main_arg9) :=
  (dat2 (F := Ideal) V c).arrAt_eq_of_cover 6 (G2 (V c main_v0) (V c main_v18) (V c main_arg2) (V c main_arg3) (V c main_arg8) (V c main_arg9))
    (fun t _ => flushed2_eq V c t) cover_arr2

end Cert.KernelIdeal.Hand

end
-- ==== Proof.KI.Val3.lean ====
/- The VALUE of region 3 (the feed-forward's hidden layer) on the extended reals: after the region's run the output
   array holds, at every (r, f), the maximum with zero of the sum over k of h (r, k) · W (k, f) plus the bias entry
   b (f), where h, W and b are the contents the region finds in its three input arrays.

   Three steps. The body's payload read at one index of a block (the two roundings are the identity on the extended
   reals, the matrix unit's product into the zero array is the entrywise sum of products, the bias row is repeated
   down the rows, the zero the maximum is taken with is the real zero). What a point writes back is the block of that
   function of the WHOLE arrays: the activations' block moves with the output's row block, the weight and bias blocks
   are the whole arrays. The eight row blocks cover the array. -/
import proofs.«151460_j71262097375467_2_alg».proof.Proof.KI.Reg3
import proofs.«151460_j71262097375467_2_alg».proof.Proof.KI.ValBase
import proofs.«151460_j71262097375467_2_alg».proof.Proof.Spec
import proofs.«151460_j71262097375467_2_alg».proof.Proof.LibPlainProduct
import proofs.«151460_j71262097375467_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The payload at an index -/

/-- The body's payload at row p, column q of the output block: the maximum with zero of the p-th row of the
    activations' block against the q-th column of the weight block plus the q-th bias entry. -/
theorem pay3_apply (x0 : Vec Ideal S512x768 .f32) (x1 : Vec Ideal S768x3072 .f32) (x2 : Vec Ideal S3072 .f32)
    (p : Fin 512) (q : Fin 3072) :
    k3_pay1 (F := Ideal) x0 x1 x2 (ix2 p q) = max ((∑ k : Fin 768, x0 (ix2 p k) * x1 (ix2 k q)) + x2 (ix1 q)) 0 := by
  unfold k3_pay1
  simp only [shapeCast_self]
  have hm := Cert.Dense.matmul_zero_of_plain (M := 512) (K := 768) (N := 3072) dot_S512x768_S768x3072_S512x3072_1_0_0_1_n_n rfl none
    (truncf .bf16 x0 bitsLt_bf16_f32) (truncf .bf16 x1 bitsLt_bf16_f32)
  rw [truncf_apply, maximumf_apply, addf_apply, hm, ColumnLayout.row_broadcast_apply, broadcast_apply]
  show max _ (Ideal.ofBits .f32 0x00000000#32) = _
  rw [Ideal.ofBits_zero_f32]
  rfl

/-! ## From blocks to the array -/

/-- What the output array ends holding, as one function of the three input arrays, index by index. -/
abbrev G3 (X : S4096x768.Idx → EReal) (W : S768x3072.Idx → EReal) (b : S3072.Idx → EReal) : S4096x3072.Idx → EReal :=
  fun i => Cert.Spec.ff1 (fun r k => X (ix2 r k)) (fun k f => W (ix2 k f)) (fun f => b (ix1 f)) (i 0 : Fin 4096) (i 1 : Fin 3072)

/-- The payload of blocks that hold, at the rows and columns index j names, what the whole arrays hold at the rows and
    columns index i names, is G3 of the whole arrays at i. -/
theorem pay3_eq_G3 (X : S4096x768.Idx → EReal) (W : S768x3072.Idx → EReal) (b : S3072.Idx → EReal)
    (x0 : Vec Ideal S512x768 .f32) (x1 : Vec Ideal S768x3072 .f32) (x2 : Vec Ideal S3072 .f32)
    (j : S512x3072.Idx) (i : S4096x3072.Idx)
    (h0 : ∀ k : Fin 768, x0 (ix2 (j 0 : Fin 512) k) = X (ix2 (i 0 : Fin 4096) k))
    (h1 : ∀ k : Fin 768, x1 (ix2 k (j 1 : Fin 3072)) = W (ix2 k (i 1 : Fin 3072)))
    (h2 : x2 (ix1 (j 1 : Fin 3072)) = b (ix1 (i 1 : Fin 3072))) :
    k3_pay1 (F := Ideal) x0 x1 x2 j = G3 X W b i := by
  obtain ⟨p, q, rfl⟩ : ∃ (p : Fin 512) (q : Fin 3072), j = ix2 p q := ⟨j 0, j 1, eq_ix2 j⟩
  have h0' : ∀ k : Fin 768, x0 (ix2 p k) = X (ix2 (i 0 : Fin 4096) k) := h0
  have h1' : ∀ k : Fin 768, x1 (ix2 k q) = W (ix2 k (i 1 : Fin 3072)) := h1
  have h2' : x2 (ix1 q) = b (ix1 (i 1 : Fin 3072)) := h2
  rw [pay3_apply, h2']
  unfold G3 Cert.Spec.ff1
  exact congrArg (fun s => max (s + b (ix1 (i 1 : Fin 3072))) 0) (Finset.sum_congr rfl fun k _ => by rw [h0' k, h1' k])

/-- The printed index maps, decided over the grid: the activations' block index follows the output's row block, the
    weight and bias blocks do not move, the output's block index is (point, 0). -/
theorem idx_facts3 : ∀ t : Fin cfg3.N, win3_0.index t (0 : Fin 2) = win3_3.index t (0 : Fin 2)
    ∧ win3_0.index t (1 : Fin 2) = 0
    ∧ win3_1.index t (0 : Fin 2) = 0 ∧ win3_1.index t (1 : Fin 2) = 0
    ∧ win3_2.index t (0 : Fin 1) = 0
    ∧ win3_3.index t (0 : Fin 2) ≤ 7 ∧ win3_3.index t (1 : Fin 2) = 0 :=
  (by decide +kernel : ∀ t : Fin grid3.N, _)

/-- Every row block is some point's. -/
theorem idx_onto3 : ∀ q0 : Fin 8, ∃ t : Fin cfg3.N, win3_3.index t = ![q0.val, 0] :=
  (by decide +kernel : ∀ q0 : Fin 8, ∃ t : Fin grid3.N, win3_3.index t = ![q0.val, 0])

variable (V : (c : Dev nD) → (b : Ref sig .tc) → Buf (Elt Ideal) ((c : Thread nD τ).loc b))

/-- What point t writes back is block t of G3 of the arrays as the region finds them. -/
theorem flushed3_eq (c : Dev nD) (t : Fin cfg3.N) :
    (dat3 (F := Ideal) V c).flushed 3 t
      = ((cfg3.win 3).blk t).view.read (Elt Ideal) (G3 (V c main_v19) (V c main_arg4) (V c main_arg5)) := by
  show (cfg3.win 3).cut (grid3.coords t) ((dat3 V c).after 3 t) = _
  rw [after3_3]
  unfold out3
  rw [View.canon_unit_zero zeros2]
  simp only [View.ld_unit_zero (S := S512x768) zeros2, View.ld_unit_zero (S := S768x3072) zeros2, View.ld_unit_zero (S := S3072) zeros1]
  obtain ⟨e0, e1, e2, e3, e4, e5, e6⟩ := idx_facts3 t
  funext j
  show k3_pay1 (F := Ideal) (iblk3 V c 0 t) (iblk3 V c 1 t) (iblk3 V c 2 t) j
    = G3 (V c main_v19) (V c main_arg4) (V c main_arg5) (((cfg3.win 3).blk t).view.emb j)
  refine pay3_eq_G3 _ _ _ _ _ _ j _ ?_ ?_ ?_
  · intro k
    show V c main_v19 (((cfg3.win 0).blk t).view.emb (ix2 (j 0 : Fin 512) k)) = V c main_v19 _
    congr 1
    funext a; apply Fin.ext
    match a with
    | ⟨0, _⟩ => show win3_0.index t (0 : Fin 2) * 512 + 1 * (j 0).val = win3_3.index t (0 : Fin 2) * 512 + 1 * (j 0).val; omega
    | ⟨1, _⟩ => show win3_0.index t (1 : Fin 2) * 768 + 1 * k.val = k.val; omega
  · intro k
    show V c main_arg4 (((cfg3.win 1).blk t).view.emb (ix2 k (j 1 : Fin 3072))) = V c main_arg4 _
    congr 1
    funext a; apply Fin.ext
    match a with
    | ⟨0, _⟩ => show win3_1.index t (0 : Fin 2) * 768 + 1 * k.val = k.val; omega
    | ⟨1, _⟩ => show win3_1.index t (1 : Fin 2) * 3072 + 1 * (j 1).val = win3_3.index t (1 : Fin 2) * 3072 + 1 * (j 1).val; omega
  · show V c main_arg5 (((cfg3.win 2).blk t).view.emb (ix1 (j 1 : Fin 3072))) = V c main_arg5 _
    congr 1
    funext a; apply Fin.ext
    match a with
    | ⟨0, _⟩ => show win3_2.index t (0 : Fin 1) * 3072 + 1 * (j 1).val = win3_3.index t (1 : Fin 2) * 3072 + 1 * (j 1).val; omega

/-- An index of the array is in point t's block iff each coordinate is in the block's range on its axis. -/
theorem mem_blk3 (t : Fin cfg3.N) (i : S4096x3072.Idx) :
    i ∈ ((cfg3.win 3).blk t).view.set ↔ ∀ a : Fin 2, win3_3.index t a * S512x3072.size a ≤ (i a).val ∧ (i a).val < win3_3.index t a * S512x3072.size a + S512x3072.size a := by
  show i ∈ ((View.whole main_v20).slice (win3_3.rect t)).set ↔ _
  rw [View.set_slice_whole, Rect.mem_set_unit]
  exact Iff.rfl

/-- The eight row blocks cover the array: row r is in block r / 512. -/
theorem cover_arr3 (i : S4096x3072.Idx) :
    ∃ t : Fin cfg3.N, (cfg3.win 3).flush t = true ∧ i ∈ ((cfg3.win 3).blk t).view.set := by
  have hi0 : (i 0).val < 4096 := (i 0).isLt
  have hi1 : (i 1).val < 3072 := (i 1).isLt
  obtain ⟨t, ht⟩ := idx_onto3 ⟨(i 0).val / 512, by omega⟩
  have q0 : win3_3.index t (0 : Fin 2) = (i 0).val / 512 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 3072 ≤ (i 1).val ∧ (i 1).val < win3_3.index t (1 : Fin 2) * 3072 + 3072; omega

/-- THE ARRAY after the region's run: the hidden layer of the arrays as the region finds them, entry by entry. -/
theorem arr3 (c : Dev nD) :
    ((dat3 (F := Ideal) V c).arrAt 3 cfg3.N : S4096x3072.Idx → EReal)
      = fun i => Cert.Spec.ff1 (fun r k => V c main_v19 (ix2 r k)) (fun k f => V c main_arg4 (ix2 k f))
          (fun f => V c main_arg5 (ix1 f)) (i 0) (i 1) :=
  (dat3 (F := Ideal) V c).arrAt_eq_of_cover 3 (G3 (V c main_v19) (V c main_arg4) (V c main_arg5))
    (fun t _ => flushed3_eq V c t) cover_arr3

end Cert.KernelIdeal.Hand

end
-- ==== Proof.KI.Val4.lean ====
/- The VALUE of region 4 (the hidden layer projected back, the residual added, normalised) on the extended reals: after the region's run the
   output array holds, at every (r, e), the layer norm — in the kernel's spelling, lnK — of the rows
   z (r, ·) = residual (r, ·) + (activations (r, ·) · W + bias), with the scale and shift rows, where the six arrays are
   the contents the region finds in its input arrays.

   The body's payload is the layer-norm tail (module LnTail) of the block of z: the matrix unit's product into the
   zero array is the entrywise sum of products, the bias row is repeated down the rows, the residual block is added.
   What a point writes back is the block of lnK of the WHOLE arrays: the residual's and the activations' blocks move
   with the output's row block, the weight and the three rows are whole arrays, and the layer norm of a row needs that
   row alone. The eight row blocks cover the array. -/
import proofs.«151460_j71262097375467_2_alg».proof.Proof.KI.Reg4
import proofs.«151460_j71262097375467_2_alg».proof.Proof.KI.ValBase
import proofs.«151460_j71262097375467_2_alg».proof.Proof.KI.LnTail
import proofs.«151460_j71262097375467_2_alg».proof.Proof.Spec
import proofs.«151460_j71262097375467_2_alg».proof.Proof.LibPlainProduct
import proofs.«151460_j71262097375467_2_alg».proof.Proof.LibColumnLayout
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The payload at an index -/

/-- The block of pre-normalisation values: the residual block plus (the activations' block times the weight block,
    plus the bias row down the rows). -/
def z4 (x1 : Vec Ideal S512x3072 .bf16) (x2 : Vec Ideal S3072x768 .f32) (x3 : Vec Ideal S768 .f32) (x0 : Vec Ideal S512x768 .f32) :
    FVec Ideal S512x768 .f32 :=
  addf (shapeCast S512x768 x0 shapeCasts_S512x768_S512x768)
    (addf (matmul dot_S512x3072_S3072x768_S512x768_1_0_0_1_n_n none (shapeCast S512x3072 x1 shapeCasts_S512x3072_S512x3072 : FVec Ideal S512x3072 .bf16)
      (truncf .bf16 x2 bitsLt_bf16_f32 : FVec Ideal S3072x768 .bf16) (constant S512x768 .f32 0x00000000#32)) (downRows x3))

/-- The body's payload is the layer-norm tail of that block. -/
theorem pay4_split (x1 : Vec Ideal S512x3072 .bf16) (x2 : Vec Ideal S3072x768 .f32) (x3 : Vec Ideal S768 .f32)
    (x0 : Vec Ideal S512x768 .f32) (x4 x5 : Vec Ideal S768 .f32) :
    k4_pay1 (F := Ideal) x1 x2 x3 x0 x4 x5 = lnTail (z4 x1 x2 x3 x0) x4 x5 := rfl

/-- The block of pre-normalisation values at row p, column e. -/
theorem z4_apply (x1 : Vec Ideal S512x3072 .bf16) (x2 : Vec Ideal S3072x768 .f32) (x3 : Vec Ideal S768 .f32)
    (x0 : Vec Ideal S512x768 .f32) (p : Fin 512) (e : Fin 768) :
    z4 x1 x2 x3 x0 (ix2 p e) = x0 (ix2 p e) + ((∑ k : Fin 3072, x1 (ix2 p k) * x2 (ix2 k e)) + x3 (ix1 e)) := by
  unfold z4
  simp only [shapeCast_self]
  have hm := Cert.Dense.matmul_zero_of_plain (M := 512) (K := 3072) (N := 768) (φ₁ := .bf16) (φ₂ := .bf16)
    dot_S512x3072_S3072x768_S512x768_1_0_0_1_n_n rfl none x1 (truncf .bf16 x2 bitsLt_bf16_f32)
  rw [addf_apply, addf_apply, hm, downRows_apply]
  rfl

/-- The body's payload at row p, column e of the output block: the layer norm of row p of the block. -/
theorem pay4_fused_apply (x1 : Vec Ideal S512x3072 .bf16) (x2 : Vec Ideal S3072x768 .f32) (x3 : Vec Ideal S768 .f32)
    (x0 : Vec Ideal S512x768 .f32) (x4 x5 : Vec Ideal S768 .f32) (p : Fin 512) (e : Fin 768) :
    k4_pay1 (F := Ideal) x1 x2 x3 x0 x4 x5 (ix2 p e)
      = lnRow (fun e' => x0 (ix2 p e') + ((∑ k : Fin 3072, x1 (ix2 p k) * x2 (ix2 k e')) + x3 (ix1 e')))
          (fun e' => x4 (ix1 e')) (fun e' => x5 (ix1 e')) e := by
  rw [pay4_split, lnTail_apply]
  exact congrArg (fun zr => lnRow zr (fun e' => x4 (ix1 e')) (fun e' => x5 (ix1 e')) e)
    (funext fun e' => z4_apply x1 x2 x3 x0 p e')

/-! ## From blocks to the array -/

/-- What the output array ends holding, as one function of the six input arrays, index by index. -/
abbrev G4 (X : S4096x768.Idx → EReal) (A : S4096x3072.Idx → EReal) (W : S3072x768.Idx → EReal) (b g be : S768.Idx → EReal) :
    S4096x768.Idx → EReal :=
  fun i => lnK (fun r e => X (ix2 r e) + (∑ k : Fin 3072, A (ix2 r k) * W (ix2 k e) + b (ix1 e)))
    (fun e => g (ix1 e)) (fun e => be (ix1 e)) (i 0 : Fin 4096) (i 1 : Fin 768)

/-- The payload of blocks that hold, at the row index j names, what the residual and activations arrays hold at the
    row index i names, and whose weight and row blocks are the whole arrays, is G4 of the whole arrays at i. -/
theorem pay4_eq_G4 (X : S4096x768.Idx → EReal) (A : S4096x3072.Idx → EReal) (W : S3072x768.Idx → EReal) (b g be : S768.Idx → EReal)
    (x1 : Vec Ideal S512x3072 .bf16) (x2 : Vec Ideal S3072x768 .f32) (x3 : Vec Ideal S768 .f32)
    (x0 : Vec Ideal S512x768 .f32) (x4 x5 : Vec Ideal S768 .f32)
    (j : S512x768.Idx) (i : S4096x768.Idx)
    (h0 : ∀ e' : Fin 768, x0 (ix2 (j 0 : Fin 512) e') = X (ix2 (i 0 : Fin 4096) e'))
    (h1 : ∀ k : Fin 3072, x1 (ix2 (j 0 : Fin 512) k) = A (ix2 (i 0 : Fin 4096) k))
    (h2 : ∀ (k : Fin 3072) (e' : Fin 768), x2 (ix2 k e') = W (ix2 k e'))
    (h3 : ∀ e' : Fin 768, x3 (ix1 e') = b (ix1 e'))
    (h4 : ∀ e' : Fin 768, x4 (ix1 e') = g (ix1 e'))
    (h5 : ∀ e' : Fin 768, x5 (ix1 e') = be (ix1 e'))
    (hc : (j 1 : Fin 768) = (i 1 : Fin 768)) :
    k4_pay1 (F := Ideal) x1 x2 x3 x0 x4 x5 j = G4 X A W b g be i := by
  obtain ⟨p, e, rfl⟩ : ∃ (p : Fin 512) (e : Fin 768), j = ix2 p e := ⟨j 0, j 1, eq_ix2 j⟩
  have h0' : ∀ e' : Fin 768, x0 (ix2 p e') = X (ix2 (i 0 : Fin 4096) e') := h0
  have h1' : ∀ k : Fin 3072, x1 (ix2 p k) = A (ix2 (i 0 : Fin 4096) k) := h1
  have hc' : e = (i 1 : Fin 768) := hc
  have ez : (fun e' : Fin 768 => x0 (ix2 p e') + ((∑ k : Fin 3072, x1 (ix2 p k) * x2 (ix2 k e')) + x3 (ix1 e')))
      = (fun e' : Fin 768 => X (ix2 (i 0 : Fin 4096) e') + ((∑ k : Fin 3072, A (ix2 (i 0 : Fin 4096) k) * W (ix2 k e')) + b (ix1 e'))) :=
    funext fun e' => by
      rw [h0' e', h3 e']
      exact congrArg (fun s => X (ix2 (i 0 : Fin 4096) e') + (s + b (ix1 e')))
        (Finset.sum_congr rfl fun k _ => by rw [h1' k, h2 k e'])
  rw [pay4_fused_apply, ez, funext h4, funext h5, hc']
  rfl

/-- The printed index maps, decided over the grid: the residual's and the activations' block indices follow the
    output's row block, the weight and the three rows do not move, the output's block index is (point, 0). -/
theorem idx_facts4 : ∀ t : Fin cfg4.N, win4_0.index t (0 : Fin 2) = win4_6.index t (0 : Fin 2)
    ∧ win4_0.index t (1 : Fin 2) = 0
    ∧ win4_1.index t (0 : Fin 2) = win4_6.index t (0 : Fin 2) ∧ win4_1.index t (1 : Fin 2) = 0
    ∧ win4_2.index t (0 : Fin 2) = 0 ∧ win4_2.index t (1 : Fin 2) = 0
    ∧ win4_3.index t (0 : Fin 1) = 0 ∧ win4_4.index t (0 : Fin 1) = 0 ∧ win4_5.index t (0 : Fin 1) = 0
    ∧ win4_6.index t (0 : Fin 2) ≤ 7 ∧ win4_6.index t (1 : Fin 2) = 0 :=
  (by decide +kernel : ∀ t : Fin grid4.N, _)

/-- Every row block is some point's. -/
theorem idx_onto4 : ∀ q0 : Fin 8, ∃ t : Fin cfg4.N, win4_6.index t = ![q0.val, 0] :=
  (by decide +kernel : ∀ q0 : Fin 8, ∃ t : Fin grid4.N, win4_6.index t = ![q0.val, 0])

variable (V : (c : Dev nD) → (b : Ref sig .tc) → Buf (Elt Ideal) ((c : Thread nD τ).loc b))

/-- What point t writes back is block t of G4 of the arrays as the region finds them. -/
theorem flushed4_eq (c : Dev nD) (t : Fin cfg4.N) :
    (dat4 (F := Ideal) V c).flushed 6 t
      = ((cfg4.win 6).blk t).view.read (Elt Ideal) (G4 (V c main_v19) (V c main_v20) (V c main_arg6) (V c main_arg7) (V c main_arg10) (V c main_arg11)) := by
  show (cfg4.win 6).cut (grid4.coords t) ((dat4 V c).after 6 t) = _
  rw [after4_6]
  unfold out4
  rw [View.canon_unit_zero zeros2]
  simp only [View.ld_unit_zero (S := S512x768) zeros2, View.ld_unit_zero (S := S512x3072) zeros2,
    View.ld_unit_zero (S := S3072x768) zeros2, View.ld_unit_zero (S := S768) zeros1]
  obtain ⟨e0, e1, e2, e3, e4, e5, e6, e7, e8, e9, e10⟩ := idx_facts4 t
  funext j
  show k4_pay1 (F := Ideal) (iblk4 V c 1 t) (iblk4 V c 2 t) (iblk4 V c 3 t) (iblk4 V c 0 t) (iblk4 V c 4 t) (iblk4 V c 5 t) j
    = G4 (V c main_v19) (V c main_v20) (V c main_arg6) (V c main_arg7) (V c main_arg10) (V c main_arg11) (((cfg4.win 6).blk t).view.emb j)
  refine pay4_eq_G4 _ _ _ _ _ _ _ _ _ _ _ _ j _ ?_ ?_ ?_ ?_ ?_ ?_ ?_
  · intro e'
    show V c main_v19 (((cfg4.win 0).blk t).view.emb (ix2 (j 0 : Fin 512) e')) = V c main_v19 _
    congr 1
    funext a; apply Fin.ext
    match a with
    | ⟨0, _⟩ => show win4_0.index t (0 : Fin 2) * 512 + 1 * (j 0).val = win4_6.index t (0 : Fin 2) * 512 + 1 * (j 0).val; omega
    | ⟨1, _⟩ => show win4_0.index t (1 : Fin 2) * 768 + 1 * e'.val = e'.val; omega
  · intro k
    show V c main_v20 (((cfg4.win 1).blk t).view.emb (ix2 (j 0 : Fin 512) k)) = V c main_v20 _
    congr 1
    funext a; apply Fin.ext
    match a with
    | ⟨0, _⟩ => show win4_1.index t (0 : Fin 2) * 512 + 1 * (j 0).val = win4_6.index t (0 : Fin 2) * 512 + 1 * (j 0).val; omega
    | ⟨1, _⟩ => show win4_1.index t (1 : Fin 2) * 3072 + 1 * k.val = k.val; omega
  · intro k e'
    show V c main_arg6 (((cfg4.win 2).blk t).view.emb (ix2 k e')) = V c main_arg6 _
    congr 1
    funext a; apply Fin.ext
    match a with
    | ⟨0, _⟩ => show win4_2.index t (0 : Fin 2) * 3072 + 1 * k.val = k.val; omega
    | ⟨1, _⟩ => show win4_2.index t (1 : Fin 2) * 768 + 1 * e'.val = e'.val; omega
  · intro e'
    show V c main_arg7 (((cfg4.win 3).blk t).view.emb (ix1 e')) = V c main_arg7 _
    congr 1
    funext a; apply Fin.ext
    match a with
    | ⟨0, _⟩ => show win4_3.index t (0 : Fin 1) * 768 + 1 * e'.val = e'.val; omega
  · intro e'
    show V c main_arg10 (((cfg4.win 4).blk t).view.emb (ix1 e')) = V c main_arg10 _
    congr 1
    funext a; apply Fin.ext
    match a with
    | ⟨0, _⟩ => show win4_4.index t (0 : Fin 1) * 768 + 1 * e'.val = e'.val; omega
  · intro e'
    show V c main_arg11 (((cfg4.win 5).blk t).view.emb (ix1 e')) = V c main_arg11 _
    congr 1
    funext a; apply Fin.ext
    match a with
    | ⟨0, _⟩ => show win4_5.index t (0 : Fin 1) * 768 + 1 * e'.val = e'.val; omega
  · apply Fin.ext
    show (j 1).val = win4_6.index t (1 : Fin 2) * 768 + 1 * (j 1).val
    omega

/-- An index of the array is in point t's block iff each coordinate is in the block's range on its axis. -/
theorem mem_blk4 (t : Fin cfg4.N) (i : S4096x768.Idx) :
    i ∈ ((cfg4.win 6).blk t).view.set ↔ ∀ a : Fin 2, win4_6.index t a * S512x768.size a ≤ (i a).val ∧ (i a).val < win4_6.index t a * S512x768.size a + S512x768.size a := by
  show i ∈ ((View.whole main_v21).slice (win4_6.rect t)).set ↔ _
  rw [View.set_slice_whole, Rect.mem_set_unit]
  exact Iff.rfl

/-- The eight row blocks cover the array: row r is in block r / 512. -/
theorem cover_arr4 (i : S4096x768.Idx) :
    ∃ t : Fin cfg4.N, (cfg4.win 6).flush t = true ∧ i ∈ ((cfg4.win 6).blk t).view.set := by
  have hi0 : (i 0).val < 4096 := (i 0).isLt
  have hi1 : (i 1).val < 768 := (i 1).isLt
  obtain ⟨t, ht⟩ := idx_onto4 ⟨(i 0).val / 512, by omega⟩
  have q0 : win4_6.index t (0 : Fin 2) = (i 0).val / 512 := congrFun ht 0
  have q1 : win4_6.index t (1 : Fin 2) = 0 := congrFun ht 1
  refine ⟨t, flush4_6 t, ?_⟩
  rw [mem_blk4]
  intro a
  match a with
  | ⟨0, _⟩ => show win4_6.index t (0 : Fin 2) * 512 ≤ (i 0).val ∧ (i 0).val < win4_6.index t (0 : Fin 2) * 512 + 512; omega
  | ⟨1, _⟩ => show win4_6.index t (1 : Fin 2) * 768 ≤ (i 1).val ∧ (i 1).val < win4_6.index t (1 : Fin 2) * 768 + 768; omega

/-- THE ARRAY after the region's run: G4 of the arrays as the region finds them, that is, at every index i,
    lnK (fun r e => residual (r, e) + (∑ k, activations (r, k) · W (k, e) + bias e)) scale shift (i 0) (i 1). -/
theorem arr4 (c : Dev nD) :
    ((dat4 (F := Ideal) V c).arrAt 6 cfg4.N : S4096x768.Idx → EReal)
      = G4 (V c main_v19) (V c main_v20) (V c main_arg6) (V c main_arg7) (V c main_arg10) (V c main_arg11) :=
  (dat4 (F := Ideal) V c).arrAt_eq_of_cover 6 (G4 (V c main_v19) (V c main_v20) (V c main_arg6) (V c main_arg7) (V c main_arg10) (V c main_arg11))
    (fun t _ => flushed4_eq V c t) cover_arr4

end Cert.KernelIdeal.Hand

end
-- ==== Proof.AssembleStages.lean ====
/-
  The kernel program's regions as the specification's stages, entry by entry. Region 0 leaves the projection with a zero
  added; given that the merged attention output is the specification's context of that projection, region 2 leaves the
  kernel's spelling of the first half, region 3 the hidden layer of it, region 4 the kernel's spelling of the second half.
-/
import proofs.«151460_j71262097375467_2_alg».proof.Proof.KI.Run
import proofs.«151460_j71262097375467_2_alg».proof.Proof.KI.Glue
import proofs.«151460_j71262097375467_2_alg».proof.Proof.KI.Val0
import proofs.«151460_j71262097375467_2_alg».proof.Proof.KI.Val2
import proofs.«151460_j71262097375467_2_alg».proof.Proof.KI.Val3
import proofs.«151460_j71262097375467_2_alg».proof.Proof.KI.Val4
import proofs.«151460_j71262097375467_2_alg».proof.Proof.KI.Ln
import proofs.«151460_j71262097375467_2_alg».proof.Proof.Spec

set_option maxRecDepth 16384
set_option quotPrecheck false

noncomputable section

open scoped BigOperators

namespace Cert.Proof.Claims

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

local notation "aX" => Cert.Spec.flat3 (n := 768) (m ((c : Thread nD τ).loc main_arg0))
local notation "aWq" => Cert.Spec.mat (m := 768) (n := 2304) (m ((c : Thread nD τ).loc main_arg1))
local notation "aWo" => Cert.Spec.mat (m := 768) (n := 768) (m ((c : Thread nD τ).loc main_arg2))
local notation "abo" => Cert.Spec.vec (n := 768) (m ((c : Thread nD τ).loc main_arg3))
local notation "aW1" => Cert.Spec.mat (m := 768) (n := 3072) (m ((c : Thread nD τ).loc main_arg4))
local notation "ab1" => Cert.Spec.vec (n := 3072) (m ((c : Thread nD τ).loc main_arg5))
local notation "aW2" => Cert.Spec.mat (m := 3072) (n := 768) (m ((c : Thread nD τ).loc main_arg6))
local notation "ab2" => Cert.Spec.vec (n := 768) (m ((c : Thread nD τ).loc main_arg7))
local notation "ag1" => Cert.Spec.vec (n := 768) (m ((c : Thread nD τ).loc main_arg8))
local notation "abe1" => Cert.Spec.vec (n := 768) (m ((c : Thread nD τ).loc main_arg9))
local notation "ag2" => Cert.Spec.vec (n := 768) (m ((c : Thread nD τ).loc main_arg10))
local notation "abe2" => Cert.Spec.vec (n := 768) (m ((c : Thread nD τ).loc main_arg11))
/-- The kernel's projection: the specification's with a zero added. -/
local notation "Qk" => (fun (r : Fin 4096) (j : Fin 2304) => Cert.Spec.qkv aX aWq r j + 0)
/-- What the first fused layer normalisation is applied to. -/
local notation "Z2" => (fun (r : Fin 4096) (e : Fin 768) => aX r e + (∑ k : Fin 768, Cert.Spec.ctx Qk r k * aWo k e + abo e))
/-- The kernel's first half. -/
local notation "Hk" => lnK Z2 ag1 abe1
/-- What the second fused layer normalisation is applied to. -/
local notation "Z4" => (fun (r : Fin 4096) (e : Fin 768) => Hk r e + (∑ f : Fin 3072, Cert.Spec.ff1 Hk aW1 ab1 r f * aW2 f e + ab2 e))

/-- Region 0's result: the projection, with the zero bias added. -/
theorem stage_Q (r : Fin 4096) (j : Fin 2304) :
    (W2 m ρ c (Proc.devRef .tc main_v2) : S4096x2304.Idx → EReal) (ix2 r j) = Qk r j := by
  have h1 : (W2 m ρ c (Proc.devRef .tc main_v2) : S4096x2304.Idx → EReal)
      = ((dat0 (F := Ideal) (V1 m ρ) c).arrAt 3 cfg0.N : S4096x2304.Idx → EReal) := W2_arr m ρ c 3
  rw [h1, arr0 (V1 m ρ) c]
  show Cert.Spec.qkv (fun r k => (W1 m ρ c (Proc.devRef .tc main_v0) : S4096x768.Idx → EReal) (ix2 r k))
      (fun k j => (W1 m ρ c (Proc.devRef .tc main_arg1) : S768x2304.Idx → EReal) (ix2 k j)) r j
      + (W1 m ρ c (Proc.devRef .tc main_v1) : S2304.Idx → EReal) (ix1 j) = _
  rw [glue_v1, keep1_arg1,
    show (fun r k => (W1 m ρ c (Proc.devRef .tc main_v0) : S4096x768.Idx → EReal) (ix2 r k)) = aX from
      funext fun r => funext fun k => glue_v0 m ρ c r k]
  rfl

/-- The fused matmul + layer normalisation of regions 2 and 4 at (r, e), its residual and activations given entry by
    entry. -/
theorem G2_of (X A : S4096x768.Idx → EReal) (W : S768x768.Idx → EReal) (b g be : S768.Idx → EReal)
    (x' C' : Fin 4096 → Fin 768 → EReal) (hX : ∀ r e, X (ix2 r e) = x' r e) (hA : ∀ r k, A (ix2 r k) = C' r k)
    (r : Fin 4096) (e : Fin 768) :
    G2 X A W b g be (ix2 r e)
      = lnK (fun r e => x' r e + (∑ k : Fin 768, C' r k * Cert.Spec.mat W k e + Cert.Spec.vec b e)) (Cert.Spec.vec g)
          (Cert.Spec.vec be) r e := by
  show lnK (fun r e => X (ix2 r e) + (∑ k : Fin 768, A (ix2 r k) * W (ix2 k e) + b (ix1 e))) (fun e => g (ix1 e))
      (fun e => be (ix1 e)) r e = _
  rw [show (fun (r : Fin 4096) (e : Fin 768) => X (ix2 r e) + (∑ k : Fin 768, A (ix2 r k) * W (ix2 k e) + b (ix1 e)))
      = (fun r e => x' r e + (∑ k : Fin 768, C' r k * Cert.Spec.mat W k e + Cert.Spec.vec b e)) from
    funext fun r => funext fun e => by
      rw [hX r e, Finset.sum_congr rfl fun k _ => by rw [hA r k]]
      rfl]
  rfl

theorem G4_of (X : S4096x768.Idx → EReal) (A : S4096x3072.Idx → EReal) (W : S3072x768.Idx → EReal) (b g be : S768.Idx → EReal)
    (x' : Fin 4096 → Fin 768 → EReal) (F' : Fin 4096 → Fin 3072 → EReal) (hX : ∀ r e, X (ix2 r e) = x' r e)
    (hA : ∀ r k, A (ix2 r k) = F' r k) (r : Fin 4096) (e : Fin 768) :
    G4 X A W b g be (ix2 r e)
      = lnK (fun r e => x' r e + (∑ k : Fin 3072, F' r k * Cert.Spec.mat W k e + Cert.Spec.vec b e)) (Cert.Spec.vec g)
          (Cert.Spec.vec be) r e := by
  show lnK (fun r e => X (ix2 r e) + (∑ k : Fin 3072, A (ix2 r k) * W (ix2 k e) + b (ix1 e))) (fun e => g (ix1 e))
      (fun e => be (ix1 e)) r e = _
  rw [show (fun (r : Fin 4096) (e : Fin 768) => X (ix2 r e) + (∑ k : Fin 3072, A (ix2 r k) * W (ix2 k e) + b (ix1 e)))
      = (fun r e => x' r e + (∑ k : Fin 3072, F' r k * Cert.Spec.mat W k e + Cert.Spec.vec b e)) from
    funext fun r => funext fun e => by
      rw [hX r e, Finset.sum_congr rfl fun k _ => by rw [hA r k]]
      rfl]
  rfl

/-- Region 2's result, given the merged attention output: the kernel's spelling of the first half. -/
theorem stage_H (hC : ∀ (r : Fin 4096) (e : Fin 768),
      (W5 m ρ c (Proc.devRef .tc main_v18) : S4096x768.Idx → EReal) (ix2 r e) = Cert.Spec.ctx Qk r e)
    (r : Fin 4096) (e : Fin 768) :
    (W6 m ρ c (Proc.devRef .tc main_v19) : S4096x768.Idx → EReal) (ix2 r e) = Hk r e := by
  have h1 : (W6 m ρ c (Proc.devRef .tc main_v19) : S4096x768.Idx → EReal)
      = ((dat2 (F := Ideal) (V5 m ρ) c).arrAt 6 cfg2.N : S4096x768.Idx → EReal) := W6_arr m ρ c 6
  rw [h1, arr2 (V5 m ρ) c]
  show G2 (W5 m ρ c (Proc.devRef .tc main_v0)) (W5 m ρ c (Proc.devRef .tc main_v18))
      (W5 m ρ c (Proc.devRef .tc main_arg2)) (W5 m ρ c (Proc.devRef .tc main_arg3))
      (W5 m ρ c (Proc.devRef .tc main_arg8)) (W5 m ρ c (Proc.devRef .tc main_arg9)) (ix2 r e) = _
  rw [keep5_v0, keep5_arg2, keep5_arg3, keep5_arg8, keep5_arg9]
  exact G2_of _ _ _ _ _ _ _ _ (fun r e => glue_v0 m ρ c r e) hC r e

/-- Region 3's result: the hidden layer of the first half. -/
theorem stage_FF (hH : ∀ (r : Fin 4096) (e : Fin 768),
      (W6 m ρ c (Proc.devRef .tc main_v19) : S4096x768.Idx → EReal) (ix2 r e) = Hk r e)
    (r : Fin 4096) (f : Fin 3072) :
    (W7 m ρ c (Proc.devRef .tc main_v20) : S4096x3072.Idx → EReal) (ix2 r f) = Cert.Spec.ff1 Hk aW1 ab1 r f := by
  have h1 : (W7 m ρ c (Proc.devRef .tc main_v20) : S4096x3072.Idx → EReal)
      = ((dat3 (F := Ideal) (V6 m ρ) c).arrAt 3 cfg3.N : S4096x3072.Idx → EReal) := W7_arr m ρ c 3
  rw [h1, arr3 (V6 m ρ) c]
  show Cert.Spec.ff1 (fun r k => (W6 m ρ c (Proc.devRef .tc main_v19) : S4096x768.Idx → EReal) (ix2 r k))
      (fun k f => (W6 m ρ c (Proc.devRef .tc main_arg4) : S768x3072.Idx → EReal) (ix2 k f))
      (fun f => (W6 m ρ c (Proc.devRef .tc main_arg5) : S3072.Idx → EReal) (ix1 f)) r f = _
  rw [keep6_arg4, keep6_arg5,
    show (fun r k => (W6 m ρ c (Proc.devRef .tc main_v19) : S4096x768.Idx → EReal) (ix2 r k)) = Hk from
      funext fun r => funext fun k => hH r k]
  rfl

/-- Region 4's result: the kernel's spelling of the second half. -/
theorem stage_R (hH : ∀ (r : Fin 4096) (e : Fin 768),
      (W6 m ρ c (Proc.devRef .tc main_v19) : S4096x768.Idx → EReal) (ix2 r e) = Hk r e)
    (hFF : ∀ (r : Fin 4096) (f : Fin 3072),
      (W7 m ρ c (Proc.devRef .tc main_v20) : S4096x3072.Idx → EReal) (ix2 r f) = Cert.Spec.ff1 Hk aW1 ab1 r f)
    (r : Fin 4096) (e : Fin 768) :
    (W8 m ρ c (Proc.devRef .tc main_v21) : S4096x768.Idx → EReal) (ix2 r e) = lnK Z4 ag2 abe2 r e := by
  have h1 : (W8 m ρ c (Proc.devRef .tc main_v21) : S4096x768.Idx → EReal)
      = ((dat4 (F := Ideal) (V7 m ρ) c).arrAt 6 cfg4.N : S4096x768.Idx → EReal) := W8_arr m ρ c 6
  rw [h1, arr4 (V7 m ρ) c]
  show G4 (W7 m ρ c (Proc.devRef .tc main_v19)) (W7 m ρ c (Proc.devRef .tc main_v20))
      (W7 m ρ c (Proc.devRef .tc main_arg6)) (W7 m ρ c (Proc.devRef .tc main_arg7))
      (W7 m ρ c (Proc.devRef .tc main_arg10)) (W7 m ρ c (Proc.devRef .tc main_arg11)) (ix2 r e) = _
  rw [keep7_v19, keep7_arg6, keep7_arg7, keep7_arg10, keep7_arg11]
  exact G4_of _ _ _ _ _ _ _ _ hH hFF r e

end Cert.Proof.Claims

end
-- ==== Proof.KI.Attn.Pieces.lean ====
/-
  Causal attention: what each control case leaves in the accumulators and the output tile, read back as the body's
  arithmetic. One step from (M, L, A) over the point's query, key and value tiles leaves
  (max M rowmax, e^(M−M')·L + Σ e^(s−M'), e^(M−M')·A + Σ e^(s−M')·v); a reset starts it from (−∞ word, 0, 0);
  the diagonal point's output tile is the new numerator over the new denominator.
-/
import proofs.«151460_j71262097375467_2_alg».proof.Proof.KI.Attn.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole buffer after a run of stores whose last one covers it reads that store's payload. -/
theorem readCov_cons_unit_zero' {S : Shape} {e : EltTy} {sg : RefSig} {κ : Kind} {sp : Space} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem rdS0 (h : (scM1_0 : Memref sig .tc .vmem S512x1 .f32).IsWhole) (x : Vec F S512x1 .f32) :
    View.read (Elt F) (View.whole cc1_scratch0 : View sig .tc .vmem S512x1 .f32) (h.unread x) = x := h.read_unread x
theorem rdS1 (h : (scM1_1 : Memref sig .tc .vmem S512x1 .f32).IsWhole) (x : Vec F S512x1 .f32) :
    View.read (Elt F) (View.whole cc1_scratch1 : View sig .tc .vmem S512x1 .f32) (h.unread x) = x := h.read_unread x
theorem rdS2 (h : (scM1_2 : Memref sig .tc .vmem S512x64 .f32).IsWhole) (x : Vec F S512x64 .f32) :
    View.read (Elt F) (View.whole cc1_scratch2 : View sig .tc .vmem S512x64 .f32) (h.unread x) = x := h.read_unread x

/-- One step of the running softmax at point `t`, from the accumulators `(M, L, A)`. -/
def step1 (c : Dev nD) (t : Fin cfg1.N) (M L : Vec F S512x1 .f32) (A : Vec F S512x64 .f32) : Vec F S512x1 .f32 × Vec F S512x1 .f32 × Vec F S512x64 .f32 :=
  (k1_pay5 (k1_pay9 (BitVec.ofNat 32 ((grid1.coords t) 1).val) (BitVec.ofNat 32 ((grid1.coords t) 2).val) (iblk1 V c 0 t) (iblk1 V c 1 t) M), k1_pay12 (BitVec.ofNat 32 ((grid1.coords t) 1).val) (BitVec.ofNat 32 ((grid1.coords t) 2).val) (iblk1 V c 0 t) (iblk1 V c 1 t) M L, k1_pay4 (k1_pay7 (iblk1 V c 2 t)) (k1_pay10 (BitVec.ofNat 32 ((grid1.coords t) 1).val) (BitVec.ofNat 32 ((grid1.coords t) 2).val) (iblk1 V c 0 t) (iblk1 V c 1 t) M) (k1_pay11 (BitVec.ofNat 32 ((grid1.coords t) 1).val) (BitVec.ofNat 32 ((grid1.coords t) 2).val) (iblk1 V c 0 t) (iblk1 V c 1 t) M) A)

/-- The output tile from the numerator and the denominator. -/
abbrev fin1 (A : Vec F S512x64 .f32) (L : Vec F S512x1 .f32) : Vec F S1x512x64 .bf16 := k1_pay6 A L

theorem stC_m (c : Dev nD) (t : Fin cfg1.N) (h0) (h1) (h2) (s : St1 F) : (stC V c t h0 h1 h2 s).2.1 = (step1 V c t s.2.1 s.2.2.1 s.2.2.2).1 := by
  show rdM (ptC V c t h0 h1 h2 s).1 = k1_pay5 (k1_pay9 (BitVec.ofNat 32 ((grid1.coords t) 1).val) (BitVec.ofNat 32 ((grid1.coords t) 2).val) (iblk1 V c 0 t) (iblk1 V c 1 t) s.2.1)
  unfold rdM
  rw [View.read_writes_eq_canon _ _ _ (coverC_s0 V c t h0 h1 h2 s)]
  unfold ptC kernelRun1_C
  dsimp only
  sl_unfold_words
  first | rw [View.canon_unit_zero hz2] | rw [View.canon_unit_zero hz3]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
theorem stC_l (c : Dev nD) (t : Fin cfg1.N) (h0) (h1) (h2) (s : St1 F) : (stC V c t h0 h1 h2 s).2.2.1 = (step1 V c t s.2.1 s.2.2.1 s.2.2.2).2.1 := by
  show rdL (ptC V c t h0 h1 h2 s).2.1 = k1_pay12 (BitVec.ofNat 32 ((grid1.coords t) 1).val) (BitVec.ofNat 32 ((grid1.coords t) 2).val) (iblk1 V c 0 t) (iblk1 V c 1 t) s.2.1 s.2.2.1
  unfold rdL
  rw [View.read_writes_eq_canon _ _ _ (coverC_s1 V c t h0 h1 h2 s)]
  unfold ptC kernelRun1_C
  dsimp only
  sl_unfold_words
  first | rw [View.canon_unit_zero hz2] | rw [View.canon_unit_zero hz3]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
theorem stC_a (c : Dev nD) (t : Fin cfg1.N) (h0) (h1) (h2) (s : St1 F) : (stC V c t h0 h1 h2 s).2.2.2 = (step1 V c t s.2.1 s.2.2.1 s.2.2.2).2.2 := by
  show rdA (ptC V c t h0 h1 h2 s).2.2.1 = k1_pay4 (k1_pay7 (iblk1 V c 2 t)) (k1_pay10 (BitVec.ofNat 32 ((grid1.coords t) 1).val) (BitVec.ofNat 32 ((grid1.coords t) 2).val) (iblk1 V c 0 t) (iblk1 V c 1 t) s.2.1) (k1_pay11 (BitVec.ofNat 32 ((grid1.coords t) 1).val) (BitVec.ofNat 32 ((grid1.coords t) 2).val) (iblk1 V c 0 t) (iblk1 V c 1 t) s.2.1) s.2.2.2
  unfold rdA
  rw [View.read_writes_eq_canon _ _ _ (coverC_s2 V c t h0 h1 h2 s)]
  unfold ptC kernelRun1_C
  dsimp only
  sl_unfold_words
  first | rw [View.canon_unit_zero hz2] | rw [View.canon_unit_zero hz3]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]

/-- The accumulators a reset leaves. -/
abbrev init1 : Vec F S512x1 .f32 × Vec F S512x1 .f32 × Vec F S512x64 .f32 := (k1_pay1, k1_pay2, k1_pay3)

theorem stB_m (c : Dev nD) (t : Fin cfg1.N) (h0) (h2) (s : St1 F) : (stB V c t h0 h2 s).2.1 = (step1 V c t k1_pay1 k1_pay2 k1_pay3).1 := by
  show rdM (ptB V c t h0 h2).1 = k1_pay5 (k1_pay9 (BitVec.ofNat 32 ((grid1.coords t) 1).val) (BitVec.ofNat 32 ((grid1.coords t) 2).val) (iblk1 V c 0 t) (iblk1 V c 1 t) (k1_pay1 (F := F)))
  unfold rdM
  rw [View.read_writes_eq_canon _ _ _ (coverB_s0 V c t h0 h2)]
  unfold ptB kernelRun1_B
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
theorem stB_l (c : Dev nD) (t : Fin cfg1.N) (h0) (h2) (s : St1 F) : (stB V c t h0 h2 s).2.2.1 = (step1 V c t k1_pay1 k1_pay2 k1_pay3).2.1 := by
  show rdL (ptB V c t h0 h2).2.1 = k1_pay12 (BitVec.ofNat 32 ((grid1.coords t) 1).val) (BitVec.ofNat 32 ((grid1.coords t) 2).val) (iblk1 V c 0 t) (iblk1 V c 1 t) (k1_pay1 (F := F)) (k1_pay2 (F := F))
  unfold rdL
  rw [View.read_writes_eq_canon _ _ _ (coverB_s1 V c t h0 h2)]
  unfold ptB kernelRun1_B
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
theorem stB_a (c : Dev nD) (t : Fin cfg1.N) (h0) (h2) (s : St1 F) : (stB V c t h0 h2 s).2.2.2 = (step1 V c t k1_pay1 k1_pay2 k1_pay3).2.2 := by
  show rdA (ptB V c t h0 h2).2.2.1 = k1_pay4 (k1_pay7 (iblk1 V c 2 t)) (k1_pay10 (BitVec.ofNat 32 ((grid1.coords t) 1).val) (BitVec.ofNat 32 ((grid1.coords t) 2).val) (iblk1 V c 0 t) (iblk1 V c 1 t) (k1_pay1 (F := F))) (k1_pay11 (BitVec.ofNat 32 ((grid1.coords t) 1).val) (BitVec.ofNat 32 ((grid1.coords t) 2).val) (iblk1 V c 0 t) (iblk1 V c 1 t) (k1_pay1 (F := F))) (k1_pay3 (F := F))
  unfold rdA
  rw [View.read_writes_eq_canon _ _ _ (coverB_s2 V c t h0 h2)]
  unfold ptB kernelRun1_B
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]

theorem stA_m (c : Dev nD) (t : Fin cfg1.N) (h0) (h2) : (stA V c t h0 h2).2.1 = (step1 V c t k1_pay1 k1_pay2 k1_pay3).1 := by
  show rdM (ptA V c t h0 h2).2.1 = k1_pay5 (k1_pay9 (BitVec.ofNat 32 ((grid1.coords t) 1).val) (BitVec.ofNat 32 ((grid1.coords t) 2).val) (iblk1 V c 0 t) (iblk1 V c 1 t) (k1_pay1 (F := F)))
  unfold rdM
  rw [View.read_writes_eq_canon _ _ _ (coverA_s0 V c t h0 h2)]
  unfold ptA kernelRun1_A
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
theorem stA_l (c : Dev nD) (t : Fin cfg1.N) (h0) (h2) : (stA V c t h0 h2).2.2.1 = (step1 V c t k1_pay1 k1_pay2 k1_pay3).2.1 := by
  show rdL (ptA V c t h0 h2).2.2.1 = k1_pay12 (BitVec.ofNat 32 ((grid1.coords t) 1).val) (BitVec.ofNat 32 ((grid1.coords t) 2).val) (iblk1 V c 0 t) (iblk1 V c 1 t) (k1_pay1 (F := F)) (k1_pay2 (F := F))
  unfold rdL
  rw [View.read_writes_eq_canon _ _ _ (coverA_s1 V c t h0 h2)]
  unfold ptA kernelRun1_A
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
theorem stA_a (c : Dev nD) (t : Fin cfg1.N) (h0) (h2) : (stA V c t h0 h2).2.2.2 = (step1 V c t k1_pay1 k1_pay2 k1_pay3).2.2 := by
  show rdA (ptA V c t h0 h2).2.2.2.1 = k1_pay4 (k1_pay7 (iblk1 V c 2 t)) (k1_pay10 (BitVec.ofNat 32 ((grid1.coords t) 1).val) (BitVec.ofNat 32 ((grid1.coords t) 2).val) (iblk1 V c 0 t) (iblk1 V c 1 t) (k1_pay1 (F := F))) (k1_pay11 (BitVec.ofNat 32 ((grid1.coords t) 1).val) (BitVec.ofNat 32 ((grid1.coords t) 2).val) (iblk1 V c 0 t) (iblk1 V c 1 t) (k1_pay1 (F := F))) (k1_pay3 (F := F))
  unfold rdA
  rw [View.read_writes_eq_canon _ _ _ (coverA_s2 V c t h0 h2)]
  unfold ptA kernelRun1_A
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
set_option maxHeartbeats 2000000 in
theorem stA_o_aux (c : Dev nD) (t : Fin cfg1.N) (h0) (h2) : rdO (ptA V c t h0 h2).1 = k1_pay6 (k1_pay4 (k1_pay7 (iblk1 V c 2 t)) (k1_pay10 (BitVec.ofNat 32 ((grid1.coords t) 1).val) (BitVec.ofNat 32 ((grid1.coords t) 2).val) (iblk1 V c 0 t) (iblk1 V c 1 t) (k1_pay1 (F := F))) (k1_pay11 (BitVec.ofNat 32 ((grid1.coords t) 1).val) (BitVec.ofNat 32 ((grid1.coords t) 2).val) (iblk1 V c 0 t) (iblk1 V c 1 t) (k1_pay1 (F := F))) (k1_pay3 (F := F))) (k1_pay12 (BitVec.ofNat 32 ((grid1.coords t) 1).val) (BitVec.ofNat 32 ((grid1.coords t) 2).val) (iblk1 V c 0 t) (iblk1 V c 1 t) (k1_pay1 (F := F)) (k1_pay2 (F := F))) := by
  unfold rdO
  rw [View.read_writes_eq_canon _ _ _ (coverA_3 V c t h0 h2)]
  unfold ptA kernelRun1_A
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]

theorem stD_m (c : Dev nD) (t : Fin cfg1.N) (h0) (h2) (s : St1 F) : (stD V c t h0 h2 s).2.1 = (step1 V c t s.2.1 s.2.2.1 s.2.2.2).1 := by
  show rdM (ptD V c t h0 h2 s).2.1 = k1_pay5 (k1_pay9 (BitVec.ofNat 32 ((grid1.coords t) 1).val) (BitVec.ofNat 32 ((grid1.coords t) 2).val) (iblk1 V c 0 t) (iblk1 V c 1 t) s.2.1)
  unfold rdM
  rw [View.read_writes_eq_canon _ _ _ (coverD_s0 V c t h0 h2 s)]
  unfold ptD kernelRun1_D
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
theorem stD_l (c : Dev nD) (t : Fin cfg1.N) (h0) (h2) (s : St1 F) : (stD V c t h0 h2 s).2.2.1 = (step1 V c t s.2.1 s.2.2.1 s.2.2.2).2.1 := by
  show rdL (ptD V c t h0 h2 s).2.2.1 = k1_pay12 (BitVec.ofNat 32 ((grid1.coords t) 1).val) (BitVec.ofNat 32 ((grid1.coords t) 2).val) (iblk1 V c 0 t) (iblk1 V c 1 t) s.2.1 s.2.2.1
  unfold rdL
  rw [View.read_writes_eq_canon _ _ _ (coverD_s1 V c t h0 h2 s)]
  unfold ptD kernelRun1_D
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
theorem stD_a (c : Dev nD) (t : Fin cfg1.N) (h0) (h2) (s : St1 F) : (stD V c t h0 h2 s).2.2.2 = (step1 V c t s.2.1 s.2.2.1 s.2.2.2).2.2 := by
  show rdA (ptD V c t h0 h2 s).2.2.2.1 = k1_pay4 (k1_pay7 (iblk1 V c 2 t)) (k1_pay10 (BitVec.ofNat 32 ((grid1.coords t) 1).val) (BitVec.ofNat 32 ((grid1.coords t) 2).val) (iblk1 V c 0 t) (iblk1 V c 1 t) s.2.1) (k1_pay11 (BitVec.ofNat 32 ((grid1.coords t) 1).val) (BitVec.ofNat 32 ((grid1.coords t) 2).val) (iblk1 V c 0 t) (iblk1 V c 1 t) s.2.1) s.2.2.2
  unfold rdA
  rw [View.read_writes_eq_canon _ _ _ (coverD_s2 V c t h0 h2 s)]
  unfold ptD kernelRun1_D
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]
set_option maxHeartbeats 2000000 in
theorem stD_o_aux (c : Dev nD) (t : Fin cfg1.N) (h0) (h2) (s : St1 F) : rdO (ptD V c t h0 h2 s).1 = k1_pay6 (k1_pay4 (k1_pay7 (iblk1 V c 2 t)) (k1_pay10 (BitVec.ofNat 32 ((grid1.coords t) 1).val) (BitVec.ofNat 32 ((grid1.coords t) 2).val) (iblk1 V c 0 t) (iblk1 V c 1 t) s.2.1) (k1_pay11 (BitVec.ofNat 32 ((grid1.coords t) 1).val) (BitVec.ofNat 32 ((grid1.coords t) 2).val) (iblk1 V c 0 t) (iblk1 V c 1 t) s.2.1) s.2.2.2) (k1_pay12 (BitVec.ofNat 32 ((grid1.coords t) 1).val) (BitVec.ofNat 32 ((grid1.coords t) 2).val) (iblk1 V c 0 t) (iblk1 V c 1 t) s.2.1 s.2.2.1) := by
  unfold rdO
  rw [View.read_writes_eq_canon _ _ _ (coverD_3 V c t h0 h2 s)]
  unfold ptD kernelRun1_D
  dsimp only
  sl_unfold_words
  simp only [View.canon_cons_unit_zero (S := S512x1) hz2, View.canon_cons_unit_zero (S := S512x64) hz2, View.canon_unit_zero (S := S512x1) hz2, View.canon_unit_zero (S := S512x64) hz2, View.canon_unit_zero (S := S1x512x64) hz3, View.readCov_unit_zero (S := S512x1) _ hz2, View.readCov_unit_zero (S := S512x64) _ hz2, View.canon_cons_unit_zero (S := S1x512x64) hz3, View.readCov_unit_zero (S := S1x512x64) _ hz3, readCov_cons_unit_zero' (S := S512x1) _ hz2, readCov_cons_unit_zero' (S := S512x64) _ hz2]
  simp only [View.readAt_eq_ld, (hs1_0 t).read_unread, (hs1_1 t).read_unread, (hs1_2 t).read_unread, (hs1_3 t).read_unread, Memref.IsWhole.read_unread, View.ld_unit_zero (S := S1x512x64) hz3, View.ld_unit_zero (S := S512x1) hz2, View.ld_unit_zero (S := S512x64) hz2, shapeCast_self, rdS0, rdS1, rdS2]

set_option maxHeartbeats 2000000 in
theorem stA_o (c : Dev nD) (t : Fin cfg1.N) (h0) (h2) : (stA V c t h0 h2).1 = fin1 (step1 V c t k1_pay1 k1_pay2 k1_pay3).2.2 (step1 V c t k1_pay1 k1_pay2 k1_pay3).2.1 :=
  stA_o_aux V c t h0 h2
set_option maxHeartbeats 2000000 in
theorem stD_o (c : Dev nD) (t : Fin cfg1.N) (h0) (h2) (s : St1 F) : (stD V c t h0 h2 s).1 = fin1 (step1 V c t s.2.1 s.2.2.1 s.2.2.2).2.2 (step1 V c t s.2.1 s.2.2.1 s.2.2.2).2.1 :=
  stD_o_aux V c t h0 h2 s

end Cert.KernelIdeal.Hand

end
-- ==== Proof.KI.Attn.Fold.lean ====
/-
  Causal attention: the accumulators after the points of one (batch·head, query tile) group are the running softmax
  folded over the group's key tiles 0 … qi, and the tile the group's last point writes back is the numerator over the
  denominator after the diagonal tile.
-/
import proofs.«151460_j71262097375467_2_alg».proof.Proof.KI.Attn.Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The three accumulators after the body at point `t`. -/
abbrev acc1 (c : Dev nD) (t : Fin cfg1.N) : Vec F S512x1 .f32 × Vec F S512x1 .f32 × Vec F S512x64 .f32 := (outsAt1 V c t.val t.isLt).2

theorem acc1_first (c : Dev nD) (t : Fin cfg1.N) (h0 : t.val % 4 = 0) : acc1 V c t = step1 V c t k1_pay1 k1_pay2 k1_pay3 := by
  by_cases h2 : t.val % 4 = t.val / 4 % 4
  · show (outsAt1 V c t.val t.isLt).2 = _
    rw [outsAt1_A V c t h0 h2]
    exact Prod.ext (stA_m V c t h0 h2) (Prod.ext (stA_l V c t h0 h2) (stA_a V c t h0 h2))
  · show (outsAt1 V c t.val t.isLt).2 = _
    rw [outsAt1_B V c t h0 h2]
    exact Prod.ext (stB_m V c t h0 h2 _) (Prod.ext (stB_l V c t h0 h2 _) (stB_a V c t h0 h2 _))

theorem acc1_step (c : Dev nD) (t : Fin cfg1.N) (h0 : ¬t.val % 4 = 0) (h1 : t.val % 4 ≤ t.val / 4 % 4) :
    acc1 V c t = step1 V c t (prev1 V c t).2.1 (prev1 V c t).2.2.1 (prev1 V c t).2.2.2 := by
  by_cases h2 : t.val % 4 = t.val / 4 % 4
  · show (outsAt1 V c t.val t.isLt).2 = _
    rw [outsAt1_D V c t h0 h2]
    exact Prod.ext (stD_m V c t h0 h2 _) (Prod.ext (stD_l V c t h0 h2 _) (stD_a V c t h0 h2 _))
  · show (outsAt1 V c t.val t.isLt).2 = _
    rw [outsAt1_C V c t h0 h1 h2]
    exact Prod.ext (stC_m V c t h0 h1 h2 _) (Prod.ext (stC_l V c t h0 h1 h2 _) (stC_a V c t h0 h1 h2 _))

/-- On the diagonal the output tile is the new numerator over the new denominator. -/
theorem out1_diag (c : Dev nD) (t : Fin cfg1.N) (h2 : t.val % 4 = t.val / 4 % 4) :
    (outsAt1 V c t.val t.isLt).1 = fin1 (acc1 V c t).2.2 (acc1 V c t).2.1 := by
  by_cases h0 : t.val % 4 = 0
  · rw [show acc1 V c t = step1 V c t k1_pay1 k1_pay2 k1_pay3 from acc1_first V c t h0, outsAt1_A V c t h0 h2]
    exact stA_o V c t h0 h2
  · rw [show acc1 V c t = _ from acc1_step V c t h0 (le_of_eq h2), outsAt1_D V c t h0 h2]
    exact stD_o V c t h0 h2 _

/-- The running softmax of group `g` (points 4g … 4g+3) folded over its first `j` key tiles. -/
def accG (c : Dev nD) (g : ℕ) : ℕ → Vec F S512x1 .f32 × Vec F S512x1 .f32 × Vec F S512x64 .f32
  | 0 => (k1_pay1, k1_pay2, k1_pay3)
  | j + 1 => if h : 4 * g + j < cfg1.N then step1 V c ⟨4 * g + j, h⟩ (accG c g j).1 (accG c g j).2.1 (accG c g j).2.2 else accG c g j

/-- After key tile `j ≤ qi` of group `g` the accumulators are the fold over tiles 0 … j. -/
theorem acc1_eq_accG (c : Dev nD) (g : ℕ) (hg : g < 96) : ∀ (j : ℕ) (hj : j ≤ g % 4) (h : 4 * g + j < cfg1.N),
    acc1 V c ⟨4 * g + j, h⟩ = accG V c g (j + 1) := by
  intro j
  induction j with
  | zero =>
    intro _ h
    rw [acc1_first V c ⟨4 * g + 0, h⟩ (by show (4 * g + 0) % 4 = 0; omega)]
    show _ = if h' : 4 * g + 0 < cfg1.N then _ else _
    rw [dif_pos h]
    rfl
  | succ j ih =>
    intro hj h
    have h' : 4 * g + j < cfg1.N := by omega
    have hq : g % 4 < 4 := Nat.mod_lt _ (by norm_num)
    have hdj : (4 * g + (j + 1)) / 4 = g := by omega
    have hmj : (4 * g + (j + 1)) % 4 = j + 1 := by omega
    rw [acc1_step V c ⟨4 * g + (j + 1), h⟩ (by show ¬(4 * g + (j + 1)) % 4 = 0; rw [hmj]; omega) (by show (4 * g + (j + 1)) % 4 ≤ (4 * g + (j + 1)) / 4 % 4; rw [hdj, hmj]; omega)]
    show step1 V c ⟨4 * g + (j + 1), h⟩ (outsAt1 V c (4 * g + (j + 1) - 1) _).2.1 (outsAt1 V c (4 * g + (j + 1) - 1) _).2.2.1 (outsAt1 V c (4 * g + (j + 1) - 1) _).2.2.2 = if h'' : 4 * g + (j + 1) < cfg1.N then _ else _
    rw [dif_pos h]
    have e := ih (by omega) h'
    have e' : (outsAt1 V c (4 * g + (j + 1) - 1) (Nat.lt_of_le_of_lt (Nat.sub_le _ _) h)).2 = accG V c g (j + 1) := e
    rw [← e']

/-- The tile the group's last point writes back. -/
theorem out1_flush (c : Dev nD) (g : ℕ) (hg : g < 96) (h3 : 4 * g + 3 < cfg1.N) :
    (outsAt1 V c (4 * g + 3) h3).1 = fin1 (accG V c g (g % 4 + 1)).2.2 (accG V c g (g % 4 + 1)).2.1 := by
  have hN : cfg1.N = 384 := N_1
  have hq : g % 4 < 4 := Nat.mod_lt _ (by norm_num)
  have hd : 4 * g + g % 4 < cfg1.N := by omega
  have hdiv : (4 * g + g % 4) / 4 = g := by omega
  have hmod : (4 * g + g % 4) % 4 = g % 4 := by omega
  -- the masked points after the diagonal carry the tile
  have carry : ∀ (k : ℕ) (hk : g % 4 + k ≤ 3) (h : 4 * g + (g % 4 + k) < cfg1.N), (outsAt1 V c (4 * g + (g % 4 + k)) h).1 = (outsAt1 V c (4 * g + g % 4) hd).1 := by
    intro k
    induction k with
    | zero => intro _ _; rfl
    | succ k ih =>
      intro hk h
      have hdk : (4 * g + (g % 4 + (k + 1))) / 4 = g := by omega
      have hmk : (4 * g + (g % 4 + (k + 1))) % 4 = g % 4 + (k + 1) := by omega
      have hm : ¬(4 * g + (g % 4 + (k + 1))) % 4 ≤ (4 * g + (g % 4 + (k + 1))) / 4 % 4 := by rw [hdk, hmk]; omega
      have e := outsAt1_E V c ⟨4 * g + (g % 4 + (k + 1)), h⟩ hm
      rw [show outsAt1 V c (4 * g + (g % 4 + (k + 1))) h = _ from e]
      exact ih (by omega) (by omega)
  have e3 : (outsAt1 V c (4 * g + 3) h3).1 = (outsAt1 V c (4 * g + g % 4) hd).1 := by
    have := carry (3 - g % 4) (by omega) (by rw [show g % 4 + (3 - g % 4) = 3 by omega]; exact h3)
    rw [← this]
    congr 2
    omega
  rw [e3, out1_diag V c ⟨4 * g + g % 4, hd⟩ (by show (4 * g + g % 4) % 4 = (4 * g + g % 4) / 4 % 4; rw [hdiv, hmod]), acc1_eq_accG V c g hg (g % 4) (le_refl _) hd]

end Cert.KernelIdeal.Hand

end
-- ==== Proof.KI.Attn.Blocks.lean ====
/- The attention region's blocks and its result array on the extended reals.

   The grid is [24, 4, 4]: point t = (bh·4 + qi)·4 + ki. The query window's and the output window's block at t is
   rows qi·512 … of plane bh; the key and value windows' is rows min ki qi · 512 … of plane bh. The output window is
   written back at the last point of each group of four only, and that point holds the group's finished tile; so
   the result array at (bh, s, d) is the tile of group bh·4 + s / 512 at (s % 512, d): what each point writes back
   is its block of that whole-array function, and the 96 written blocks cover the array. -/
import proofs.«151460_j71262097375467_2_alg».proof.Proof.KI.Attn.Fold
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-- A point's number is below 384. -/
theorem lt384 (t : Fin cfg1.N) : t.val < 384 := by
  have h : t.val < grid1.N := t.isLt
  rwa [N_1] at h

/-- The printed index maps, decided over the grid: plane bh = t / 16 for every window; row block qi = t / 4 % 4 for
    the queries and the output, min ki qi for the keys and the values; the depth axis is whole. -/
theorem idx_facts1 : ∀ t : Fin cfg1.N,
    win1_0.index t (0 : Fin 3) = t.val / 16 ∧ win1_0.index t (1 : Fin 3) = t.val / 4 % 4 ∧ win1_0.index t (2 : Fin 3) = 0
    ∧ win1_1.index t (0 : Fin 3) = t.val / 16 ∧ win1_1.index t (1 : Fin 3) = min (t.val % 4) (t.val / 4 % 4) ∧ win1_1.index t (2 : Fin 3) = 0
    ∧ win1_2.index t (0 : Fin 3) = t.val / 16 ∧ win1_2.index t (1 : Fin 3) = min (t.val % 4) (t.val / 4 % 4) ∧ win1_2.index t (2 : Fin 3) = 0
    ∧ win1_3.index t (0 : Fin 3) = t.val / 16 ∧ win1_3.index t (1 : Fin 3) = t.val / 4 % 4 ∧ win1_3.index t (2 : Fin 3) = 0 :=
  (by decide +kernel : ∀ t : Fin grid1.N, _)

variable (V : (c : Dev nD) → (b : Ref sig .tc) → Buf (Elt Ideal) ((c : Thread nD τ).loc b))

/-! ## The input windows' blocks -/

/-- The query block at point t: rows (t / 4 % 4) · 512 … of plane t / 16. -/
theorem iblk1_q (c : Dev nD) (t : Fin cfg1.N) (p : Fin 512) (d : Fin 64) :
    iblk1 V c 0 t (ix3 (0 : Fin 1) p d)
      = (V c main_v8 : S24x2048x64.Idx → EReal) (ix3 (⟨t.val / 16, by have := lt384 t; omega⟩ : Fin 24)
          (⟨t.val / 4 % 4 * 512 + p.val, by have := p.isLt; omega⟩ : Fin 2048) d) := by
  obtain ⟨e0, e1, e2, -⟩ := idx_facts1 t
  show V c main_v8 (((cfg1.win 0).blk t).view.emb (ix3 (0 : Fin 1) p d)) = V c main_v8 _
  congr 1
  funext a; apply Fin.ext
  match a with
  | ⟨0, _⟩ => show win1_0.index t (0 : Fin 3) * 1 + 1 * 0 = t.val / 16; omega
  | ⟨1, _⟩ => show win1_0.index t (1 : Fin 3) * 512 + 1 * p.val = t.val / 4 % 4 * 512 + p.val; omega
  | ⟨2, _⟩ => show win1_0.index t (2 : Fin 3) * 64 + 1 * d.val = d.val; omega

/-- The key block at point t: rows min (t % 4) (t / 4 % 4) · 512 … of plane t / 16. -/
theorem iblk1_k (c : Dev nD) (t : Fin cfg1.N) (p : Fin 512) (d : Fin 64) :
    iblk1 V c 1 t (ix3 (0 : Fin 1) p d)
      = (V c main_v11 : S24x2048x64.Idx → EReal) (ix3 (⟨t.val / 16, by have := lt384 t; omega⟩ : Fin 24)
          (⟨min (t.val % 4) (t.val / 4 % 4) * 512 + p.val, by have := p.isLt; omega⟩ : Fin 2048) d) := by
  obtain ⟨-, -, -, e0, e1, e2, -⟩ := idx_facts1 t
  show V c main_v11 (((cfg1.win 1).blk t).view.emb (ix3 (0 : Fin 1) p d)) = V c main_v11 _
  congr 1
  funext a; apply Fin.ext
  match a with
  | ⟨0, _⟩ => show win1_1.index t (0 : Fin 3) * 1 + 1 * 0 = t.val / 16; omega
  | ⟨1, _⟩ => show win1_1.index t (1 : Fin 3) * 512 + 1 * p.val = min (t.val % 4) (t.val / 4 % 4) * 512 + p.val; omega
  | ⟨2, _⟩ => show win1_1.index t (2 : Fin 3) * 64 + 1 * d.val = d.val; omega

/-- The value block at point t: the same rows of the value array. -/
theorem iblk1_v (c : Dev nD) (t : Fin cfg1.N) (p : Fin 512) (d : Fin 64) :
    iblk1 V c 2 t (ix3 (0 : Fin 1) p d)
      = (V c main_v14 : S24x2048x64.Idx → EReal) (ix3 (⟨t.val / 16, by have := lt384 t; omega⟩ : Fin 24)
          (⟨min (t.val % 4) (t.val / 4 % 4) * 512 + p.val, by have := p.isLt; omega⟩ : Fin 2048) d) := by
  obtain ⟨-, -, -, -, -, -, e0, e1, e2, -⟩ := idx_facts1 t
  show V c main_v14 (((cfg1.win 2).blk t).view.emb (ix3 (0 : Fin 1) p d)) = V c main_v14 _
  congr 1
  funext a; apply Fin.ext
  match a with
  | ⟨0, _⟩ => show win1_2.index t (0 : Fin 3) * 1 + 1 * 0 = t.val / 16; omega
  | ⟨1, _⟩ => show win1_2.index t (1 : Fin 3) * 512 + 1 * p.val = min (t.val % 4) (t.val / 4 % 4) * 512 + p.val; omega
  | ⟨2, _⟩ => show win1_2.index t (2 : Fin 3) * 64 + 1 * d.val = d.val; omega

/-! ## From blocks to the array -/

/-- The finished tile of group g after n key tiles. -/
def tile1 (c : Dev nD) (g n : ℕ) : S1x512x64.Idx → EReal :=
  fin1 (F := Ideal) (accG V c g n).2.2 (accG V c g n).2.1

theorem tile1_congr (c : Dev nD) {g g' n n' : ℕ} {y y' : S1x512x64.Idx} (hg : g = g') (hn : n = n') (hy : y = y') :
    tile1 V c g n y = tile1 V c g' n' y' := by subst hg hn hy; rfl

/-- What the result array ends holding: at (bh, s, d) the tile of group bh·4 + s / 512 at (s % 512, d). -/
def G1 (c : Dev nD) : S24x2048x64.Idx → EReal := fun i =>
  tile1 V c ((i 0).val * 4 + (i 1).val / 512) ((i 1).val / 512 + 1)
    (ix3 (0 : Fin 1) (⟨(i 1).val % 512, Nat.mod_lt _ (by norm_num)⟩ : Fin 512) (i 2 : Fin 64))

theorem outsAt1_congr (c : Dev nD) {n m : ℕ} (h : n = m) (hn : n < cfg1.N) (hm : m < cfg1.N) :
    outsAt1 V c n hn = outsAt1 V c m hm := by subst h; rfl

/-- What a writing point t (t % 4 = 3) writes back is block t of G1. -/
theorem flushed1_eq (c : Dev nD) (t : Fin cfg1.N) (hf : (cfg1.win 3).flush t = true) :
    (dat1 (F := Ideal) V c).flushed 3 t = ((cfg1.win 3).blk t).view.read (Elt Ideal) (G1 V c) := by
  have h3 : t.val % 4 = 3 := (flushAt1_3 t).mp hf
  have hN : t.val < 384 := lt384 t
  have ht : t.val = 4 * (t.val / 4) + 3 := by omega
  have hlt : 4 * (t.val / 4) + 3 < cfg1.N := by rw [← ht]; exact t.isLt
  have e : (outsAt1 V c t.val t.isLt).1 = tile1 V c (t.val / 4) (t.val / 4 % 4 + 1) := by
    rw [outsAt1_congr V c ht t.isLt hlt]
    exact out1_flush V c (t.val / 4) (by omega) hlt
  show (cfg1.win 3).cut (grid1.coords t) ((dat1 V c).after 3 t) = _
  rw [after1_3, e]
  obtain ⟨-, -, -, -, -, -, -, -, -, e0, e1, e2⟩ := idx_facts1 t
  funext j
  show tile1 V c (t.val / 4) (t.val / 4 % 4 + 1) j = G1 V c (((cfg1.win 3).blk t).view.emb j)
  have hj0 : (j 0).val < 1 := (j 0).isLt
  have hj1 : (j 1).val < 512 := (j 1).isLt
  have hj2 : (j 2).val < 64 := (j 2).isLt
  unfold G1
  refine tile1_congr V c ?_ ?_ ?_
  · show t.val / 4 = (win1_3.index t (0 : Fin 3) * 1 + 1 * (j 0).val) * 4 + (win1_3.index t (1 : Fin 3) * 512 + 1 * (j 1).val) / 512
    omega
  · show t.val / 4 % 4 + 1 = (win1_3.index t (1 : Fin 3) * 512 + 1 * (j 1).val) / 512 + 1
    omega
  · funext a; apply Fin.ext
    match a with
    | ⟨0, _⟩ => show (j 0).val = 0; omega
    | ⟨1, _⟩ => show (j 1).val = (win1_3.index t (1 : Fin 3) * 512 + 1 * (j 1).val) % 512; omega
    | ⟨2, _⟩ => show (j 2).val = win1_3.index t (2 : Fin 3) * 64 + 1 * (j 2).val; omega

/-- An index of the array is in point t's block iff each coordinate is in the block's range on its axis. -/
theorem mem_blk1 (t : Fin cfg1.N) (i : S24x2048x64.Idx) :
    i ∈ ((cfg1.win 3).blk t).view.set ↔ ∀ a : Fin 3, win1_3.index t a * S1x512x64.size a ≤ (i a).val ∧ (i a).val < win1_3.index t a * S1x512x64.size a + S1x512x64.size a := by
  show i ∈ ((View.whole main_v15).slice (win1_3.rect t)).set ↔ _
  rw [View.set_slice_whole, Rect.mem_set_unit]
  exact Iff.rfl

/-- The written blocks cover the array: (bh, s, d) is in the block of point 16·bh + 4·(s / 512) + 3. -/
theorem cover_arr1 (i : S24x2048x64.Idx) :
    ∃ t : Fin cfg1.N, (cfg1.win 3).flush t = true ∧ i ∈ ((cfg1.win 3).blk t).view.set := by
  have hi0 : (i 0).val < 24 := (i 0).isLt
  have hi1 : (i 1).val < 2048 := (i 1).isLt
  have hi2 : (i 2).val < 64 := (i 2).isLt
  have hlt : 16 * (i 0).val + 4 * ((i 1).val / 512) + 3 < cfg1.N := by
    show _ < grid1.N
    rw [N_1]; omega
  obtain ⟨-, -, -, -, -, -, -, -, -, e0, e1, e2⟩ := idx_facts1 ⟨16 * (i 0).val + 4 * ((i 1).val / 512) + 3, hlt⟩
  have q0 : win1_3.index ⟨16 * (i 0).val + 4 * ((i 1).val / 512) + 3, hlt⟩ (0 : Fin 3) = (i 0).val := by
    rw [e0]; show (16 * (i 0).val + 4 * ((i 1).val / 512) + 3) / 16 = (i 0).val; omega
  have q1 : win1_3.index ⟨16 * (i 0).val + 4 * ((i 1).val / 512) + 3, hlt⟩ (1 : Fin 3) = (i 1).val / 512 := by
    rw [e1]; show (16 * (i 0).val + 4 * ((i 1).val / 512) + 3) / 4 % 4 = (i 1).val / 512; omega
  refine ⟨⟨16 * (i 0).val + 4 * ((i 1).val / 512) + 3, hlt⟩, (flushAt1_3 _).mpr (by show (16 * (i 0).val + 4 * ((i 1).val / 512) + 3) % 4 = 3; omega), ?_⟩
  rw [mem_blk1]
  intro a
  match a with
  | ⟨0, _⟩ => show win1_3.index _ (0 : Fin 3) * 1 ≤ (i 0).val ∧ (i 0).val < win1_3.index _ (0 : Fin 3) * 1 + 1; rw [q0]; omega
  | ⟨1, _⟩ => show win1_3.index _ (1 : Fin 3) * 512 ≤ (i 1).val ∧ (i 1).val < win1_3.index _ (1 : Fin 3) * 512 + 512; rw [q1]; omega
  | ⟨2, _⟩ => show win1_3.index _ (2 : Fin 3) * 64 ≤ (i 2).val ∧ (i 2).val < win1_3.index _ (2 : Fin 3) * 64 + 64; rw [e2]; omega

/-- THE ARRAY after the region's run is G1. -/
theorem arr1_eq (c : Dev nD) : ((dat1 (F := Ideal) V c).arrAt 3 cfg1.N : S24x2048x64.Idx → EReal) = G1 V c :=
  (dat1 (F := Ideal) V c).arrAt_eq_of_cover 3 (G1 V c) (fun t hf => flushed1_eq V c t hf) cover_arr1

/-- THE ARRAY at (bh, s, d): the finished tile of group bh·4 + s / 512, at row s % 512 and depth d. -/
theorem arr1 (c : Dev nD) (bh : Fin 24) (s : Fin 2048) (d : Fin 64) :
    ((dat1 (F := Ideal) V c).arrAt 3 cfg1.N : S24x2048x64.Idx → EReal) (ix3 bh s d)
      = (fin1 (F := Ideal) (accG V c (bh.val * 4 + s.val / 512) (s.val / 512 + 1)).2.2
          (accG V c (bh.val * 4 + s.val / 512) (s.val / 512 + 1)).2.1 : S1x512x64.Idx → EReal)
          (ix3 (0 : Fin 1) (⟨s.val % 512, Nat.mod_lt _ (by norm_num)⟩ : Fin 512) d) := by
  rw [arr1_eq]
  rfl

end Cert.KernelIdeal.Hand

end
-- ==== Proof.LibOnlineSoftmax.lean ====
/-
  The online (tile by tile) evaluation of a softmax-weighted sum, on the extended reals.

  A row of scores is visited one tile of keys at a time. The state is a running maximum `M`, a running
  denominator `L` and a running numerator `A`; a tile with scores `s k` and values `v k` replaces them by
      M' = max M (max_k s k),   L' = e^(M − M')·L + Σ_k e^(s k − M'),   A' = e^(M − M')·A + Σ_k e^(s k − M')·v k,
  starting from `(−∞, 0, 0)`. For real scores and values, after at least one tile the state is
  `(M, Σ e^(s − M), Σ e^(s − M)·v)` over all keys seen so far, for SOME real `M`; so `A / L` is the softmax-weighted
  sum `Σ e^s·v / Σ e^s`, whatever `M` is: a weighted sum normalised by its own weights does not change when every
  weight is multiplied by the same positive number `e^(−M)`. The same holds for the one-pass form
  `Σ_k (e^(s k − M) / Σ_j e^(s j − M))·v k` at any real `M`. Hence the two agree.
-/
import Idealize.ShloMosaic.PureOps.Ideal

noncomputable section

namespace Cert.LibOnlineSoftmax

open Idealize.ShloMosaic

/-- The coercion of a finite real sum is the sum of the coercions. -/
theorem coe_sum {ι : Type} (s : Finset ι) (f : ι → ℝ) :
    ((∑ k ∈ s, f k : ℝ) : EReal) = ∑ k ∈ s, (f k : EReal) := by
  classical
  refine Finset.induction_on s (by simp) ?_
  intro a s ha ih
  rw [Finset.sum_insert ha, Finset.sum_insert ha, EReal.coe_add, ih]

/-- The coercion of the larger of two real numbers is the larger of the coercions. -/
theorem coe_max (a b : ℝ) : ((max a b : ℝ) : EReal) = max (a : EReal) (b : EReal) :=
  EReal.coe_strictMono.monotone.map_max

variable {κ : Type} [Fintype κ]

/-- The maximum of real numbers taken from `−∞` or from a real number is again `−∞` or a real number, -/
theorem fold_max_botOrReal (t : Finset κ) (f : κ → ℝ) (a : EReal) (ha : a = ⊥ ∨ ∃ r : ℝ, a = r) :
    (t.fold max a (fun k => (f k : EReal)) = ⊥ ∧ t = ∅ ∧ a = ⊥) ∨ ∃ r : ℝ, t.fold max a (fun k => (f k : EReal)) = r := by
  classical
  refine Finset.induction_on t ?_ ?_
  · rcases ha with h | ⟨r, h⟩
    · left; exact ⟨by simp [h], rfl, h⟩
    · right; exact ⟨r, by simp [h]⟩
  · intro k t hk ih
    right
    rw [Finset.fold_insert hk]
    rcases ih with ⟨h, -, -⟩ | ⟨r, h⟩
    · exact ⟨f k, by rw [h]; simp⟩
    · exact ⟨max (f k) r, by rw [h, coe_max]⟩

/-- and over a nonempty family from `−∞` it is a real number. -/
theorem fold_max_real [Nonempty κ] (f : κ → ℝ) :
    ∃ r : ℝ, (Finset.univ : Finset κ).fold max (⊥ : EReal) (fun k => (f k : EReal)) = r := by
  rcases fold_max_botOrReal (Finset.univ : Finset κ) f ⊥ (Or.inl rfl) with ⟨-, h, -⟩ | h
  · exact absurd h (Finset.univ_nonempty.ne_empty)
  · exact h

/-- One tile's update of the running maximum, denominator and numerator. -/
def step (st : EReal × EReal × EReal) (s v : κ → EReal) : EReal × EReal × EReal :=
  (max st.1 ((Finset.univ : Finset κ).fold max ⊥ s),
   Ideal.exp (st.1 - max st.1 ((Finset.univ : Finset κ).fold max ⊥ s)) * st.2.1
     + ∑ k, Ideal.exp (s k - max st.1 ((Finset.univ : Finset κ).fold max ⊥ s)),
   Ideal.exp (st.1 - max st.1 ((Finset.univ : Finset κ).fold max ⊥ s)) * st.2.2
     + ∑ k, Ideal.exp (s k - max st.1 ((Finset.univ : Finset κ).fold max ⊥ s)) * v k)

/-- The weights' sum and the weighted sum of one tile, relative to a level `M`. -/
def den (M : ℝ) (s : κ → ℝ) : ℝ := ∑ k, Real.exp (s k - M)
def num (M : ℝ) (s v : κ → ℝ) : ℝ := ∑ k, Real.exp (s k - M) * v k

theorem den_shift (M M' : ℝ) (s : κ → ℝ) : Real.exp (M - M') * den M s = den M' s := by
  unfold den; rw [Finset.mul_sum]; refine Finset.sum_congr rfl fun k _ => ?_
  rw [← Real.exp_add]; congr 1; ring

theorem num_shift (M M' : ℝ) (s v : κ → ℝ) : Real.exp (M - M') * num M s v = num M' s v := by
  unfold num; rw [Finset.mul_sum]; refine Finset.sum_congr rfl fun k _ => ?_
  rw [← mul_assoc, ← Real.exp_add]; congr 2; ring

/-- The first tile: from `(−∞, 0, 0)` the state becomes `(M, den M, num M)` of that tile at a real level `M`. -/
theorem step_first [Nonempty κ] (s v : κ → ℝ) :
    ∃ M : ℝ, step ((⊥ : EReal), (0 : EReal), (0 : EReal)) (fun k => (s k : EReal)) (fun k => (v k : EReal))
      = ((M : EReal), ((den M s : ℝ) : EReal), ((num M s v : ℝ) : EReal)) := by
  obtain ⟨M, hM⟩ := fold_max_real s
  refine ⟨M, ?_⟩
  unfold step
  simp only [hM, bot_le, max_eq_right, EReal.bot_sub, Ideal.exp_bot, mul_zero, zero_add]
  refine Prod.ext rfl (Prod.ext ?_ ?_)
  · simp only [den, coe_sum]
    refine Finset.sum_congr rfl fun k _ => ?_
    rw [← EReal.coe_sub, Ideal.exp_coe]
  · simp only [num, coe_sum]
    refine Finset.sum_congr rfl fun k _ => ?_
    rw [← EReal.coe_sub, Ideal.exp_coe, EReal.coe_mul]

/-- A later tile: from real `(M, L, A)` the state becomes `(M', e^(M−M')·L + den M', e^(M−M')·A + num M')` at a real level `M'`. -/
theorem step_real [Nonempty κ] (M L A : ℝ) (s v : κ → ℝ) :
    ∃ M' : ℝ, step ((M : EReal), (L : EReal), (A : EReal)) (fun k => (s k : EReal)) (fun k => (v k : EReal))
      = ((M' : EReal), ((Real.exp (M - M') * L + den M' s : ℝ) : EReal), ((Real.exp (M - M') * A + num M' s v : ℝ) : EReal)) := by
  obtain ⟨R, hR⟩ := fold_max_real s
  refine ⟨max M R, ?_⟩
  unfold step
  simp only [hR, ← coe_max, ← EReal.coe_sub, Ideal.exp_coe]
  refine Prod.ext rfl (Prod.ext ?_ ?_)
  · simp only [den, EReal.coe_add, EReal.coe_mul, coe_sum]
  · simp only [num, EReal.coe_add, EReal.coe_mul, coe_sum]

/-- The state after the first `n` tiles. -/
def run (s v : ℕ → κ → ℝ) : ℕ → EReal × EReal × EReal
  | 0 => ((⊥ : EReal), (0 : EReal), (0 : EReal))
  | n + 1 => step (run s v n) (fun k => (s n k : EReal)) (fun k => (v n k : EReal))

/-- After at least one tile the state is, at some real level `M`, the weights' sum and the weighted sum over every key
    seen so far. -/
theorem run_succ [Nonempty κ] (s v : ℕ → κ → ℝ) (n : ℕ) :
    ∃ M : ℝ, run s v (n + 1)
      = ((M : EReal), ((∑ j ∈ Finset.range (n + 1), den M (s j) : ℝ) : EReal), ((∑ j ∈ Finset.range (n + 1), num M (s j) (v j) : ℝ) : EReal)) := by
  induction n with
  | zero =>
    obtain ⟨M, hM⟩ := step_first (s 0) (v 0)
    refine ⟨M, ?_⟩
    show step ((⊥ : EReal), (0 : EReal), (0 : EReal)) _ _ = _
    rw [hM, Nat.zero_add, Finset.sum_range_one, Finset.sum_range_one]
  | succ n ih =>
    obtain ⟨M, hM⟩ := ih
    obtain ⟨M', hM'⟩ := step_real M (∑ j ∈ Finset.range (n + 1), den M (s j)) (∑ j ∈ Finset.range (n + 1), num M (s j) (v j)) (s (n + 1)) (v (n + 1))
    refine ⟨M', ?_⟩
    rw [show run s v (n + 1 + 1) = step (run s v (n + 1)) (fun k => (s (n + 1) k : EReal)) (fun k => (v (n + 1) k : EReal)) from rfl, hM, hM']
    refine Prod.ext rfl (Prod.ext ?_ ?_)
    · show ((_ : ℝ) : EReal) = ((_ : ℝ) : EReal)
      rw [Finset.sum_range_succ _ (n + 1), Finset.mul_sum, Finset.sum_congr rfl fun j _ => den_shift M M' (s j)]
    · show ((_ : ℝ) : EReal) = ((_ : ℝ) : EReal)
      rw [Finset.sum_range_succ _ (n + 1), Finset.mul_sum, Finset.sum_congr rfl fun j _ => num_shift M M' (s j) (v j)]

/-! ## The quotient, and the one-pass form -/

/-- The quotient of two real numbers, the divisor not zero, on the extended reals. -/
theorem div_real (A L : ℝ) (hL : L ≠ 0) : Ideal.div (A : EReal) (L : EReal) = ((A / L : ℝ) : EReal) := by
  rw [Ideal.div_coe hL, ← EReal.coe_mul, mul_one_div]

theorem den_pos [Nonempty κ] (M : ℝ) (s : κ → ℝ) : 0 < den M s :=
  Finset.sum_pos (fun k _ => Real.exp_pos _) Finset.univ_nonempty

theorem sum_den_pos [Nonempty κ] (M : ℝ) (s : ℕ → κ → ℝ) (n : ℕ) : 0 < ∑ j ∈ Finset.range (n + 1), den M (s j) :=
  Finset.sum_pos (fun j _ => den_pos M (s j)) ⟨0, Finset.mem_range.mpr (Nat.succ_pos n)⟩

/-- A weighted sum normalised by its weights does not depend on the level the weights are taken at. -/
theorem ratio_shift [Nonempty κ] (M : ℝ) (s v : ℕ → κ → ℝ) (n : ℕ) :
    (∑ j ∈ Finset.range (n + 1), num M (s j) (v j)) / (∑ j ∈ Finset.range (n + 1), den M (s j))
      = (∑ j ∈ Finset.range (n + 1), num 0 (s j) (v j)) / (∑ j ∈ Finset.range (n + 1), den 0 (s j)) := by
  have hn : ∑ j ∈ Finset.range (n + 1), num M (s j) (v j) = Real.exp (0 - M) * ∑ j ∈ Finset.range (n + 1), num 0 (s j) (v j) := by
    rw [Finset.mul_sum]; exact Finset.sum_congr rfl fun j _ => (num_shift 0 M (s j) (v j)).symm
  have hd : ∑ j ∈ Finset.range (n + 1), den M (s j) = Real.exp (0 - M) * ∑ j ∈ Finset.range (n + 1), den 0 (s j) := by
    rw [Finset.mul_sum]; exact Finset.sum_congr rfl fun j _ => (den_shift 0 M (s j)).symm
  rw [hn, hd, mul_div_mul_left _ _ (Real.exp_pos _).ne']

/-- THE ONLINE FORM: after `n + 1` tiles the running numerator over the running denominator is the softmax-weighted sum
    of the values over every key seen. -/
theorem run_quotient [Nonempty κ] (s v : ℕ → κ → ℝ) (n : ℕ) :
    Ideal.div (run s v (n + 1)).2.2 (run s v (n + 1)).2.1
      = (((∑ j ∈ Finset.range (n + 1), num 0 (s j) (v j)) / (∑ j ∈ Finset.range (n + 1), den 0 (s j)) : ℝ) : EReal) := by
  obtain ⟨M, hM⟩ := run_succ s v n
  rw [hM]
  show Ideal.div ((_ : ℝ) : EReal) ((_ : ℝ) : EReal) = _
  rw [div_real _ _ (sum_den_pos M s n).ne', ratio_shift]

/-- THE ONE-PASS FORM: every weight `e^(s k − R)` (any real level `R`) divided by the weights' sum taken from zero, times the
    value, summed over the keys, is the same softmax-weighted sum. -/
theorem onepass {K : Type} [Fintype K] [Nonempty K] (S V : K → ℝ) (R : ℝ) :
    ∑ k, Ideal.div (Ideal.exp ((S k : EReal) - (R : EReal))) (0 + ∑ k', Ideal.exp ((S k' : EReal) - (R : EReal))) * (V k : EReal)
      = (((∑ k, Real.exp (S k) * V k) / (∑ k, Real.exp (S k)) : ℝ) : EReal) := by
  have hpos : 0 < ∑ k', Real.exp (S k' - R) := Finset.sum_pos (fun k _ => Real.exp_pos _) Finset.univ_nonempty
  have hden : (0 : EReal) + ∑ k', Ideal.exp ((S k' : EReal) - (R : EReal)) = ((∑ k', Real.exp (S k' - R) : ℝ) : EReal) := by
    rw [zero_add, coe_sum]; exact Finset.sum_congr rfl fun k _ => by rw [← EReal.coe_sub, Ideal.exp_coe]
  rw [hden]
  have hterm : ∀ k, Ideal.div (Ideal.exp ((S k : EReal) - (R : EReal))) ((∑ k', Real.exp (S k' - R) : ℝ) : EReal) * (V k : EReal)
      = ((Real.exp (S k - R) / (∑ k', Real.exp (S k' - R)) * V k : ℝ) : EReal) := fun k => by
    rw [← EReal.coe_sub, Ideal.exp_coe, div_real _ _ hpos.ne', ← EReal.coe_mul]
  rw [Finset.sum_congr rfl fun k _ => hterm k, ← coe_sum]
  congr 1
  have he : ∀ k, Real.exp (S k - R) = Real.exp (-R) * Real.exp (S k) := fun k => by rw [← Real.exp_add]; congr 1; ring
  simp only [he, ← Finset.mul_sum]
  rw [Finset.sum_div]
  refine Finset.sum_congr rfl fun k _ => ?_
  rw [mul_div_mul_left _ _ (Real.exp_pos _).ne']
  ring

/-- THE TWO AGREE. The keys `K` are laid out as `n + 1` tiles of `κ` (`e`); the online evaluation over the tiles of
    `S ∘ e`, `V ∘ e` gives what the one-pass form over `K` gives, at any real level. -/
theorem online_eq_onepass [Nonempty κ] {K : Type} [Fintype K] [Nonempty K] (n : ℕ) (e : Fin (n + 1) × κ ≃ K) (S V : K → ℝ) (R : ℝ)
    (s v : ℕ → κ → ℝ) (hs : ∀ (j : Fin (n + 1)) (k : κ), s j k = S (e (j, k))) (hv : ∀ (j : Fin (n + 1)) (k : κ), v j k = V (e (j, k))) :
    Ideal.div (run s v (n + 1)).2.2 (run s v (n + 1)).2.1
      = ∑ k, Ideal.div (Ideal.exp ((S k : EReal) - (R : EReal))) (0 + ∑ k', Ideal.exp ((S k' : EReal) - (R : EReal))) * (V k : EReal) := by
  rw [run_quotient, onepass]
  congr 2
  · rw [← e.sum_comp, Fintype.sum_prod_type, Finset.sum_range]
    refine Finset.sum_congr rfl fun j _ => ?_
    unfold num
    refine Finset.sum_congr rfl fun k _ => ?_
    rw [hs j k, hv j k, sub_zero]
  · rw [← e.sum_comp, Fintype.sum_prod_type, Finset.sum_range]
    refine Finset.sum_congr rfl fun j _ => ?_
    unfold den
    refine Finset.sum_congr rfl fun k _ => ?_
    rw [hs j k, sub_zero]

/-- THE FORM A TILED KERNEL MEETS. Any sequence of states that starts at `(−∞, 0, 0)` and advances by `step` over the
    `n + 1` tiles of the keys `K` (laid out by `e`) ends with numerator over denominator equal to the softmax-weighted
    sum in its one-pass form, the weights normalised by their plain sum, at any real level `R`. -/
theorem tiled_eq_onepass [Nonempty κ] {K : Type} [Fintype K] [Nonempty K] (n : ℕ) (e : Fin (n + 1) × κ ≃ K) (S V : K → ℝ) (R : ℝ)
    (st : ℕ → EReal × EReal × EReal) (h0 : st 0 = ((⊥ : EReal), (0 : EReal), (0 : EReal)))
    (hstep : ∀ (j : ℕ) (hj : j < n + 1), st (j + 1)
      = step (st j) (fun k => (S (e (⟨j, hj⟩, k)) : EReal)) (fun k => (V (e (⟨j, hj⟩, k)) : EReal))) :
    Ideal.div (st (n + 1)).2.2 (st (n + 1)).2.1
      = ∑ k, Ideal.div (Ideal.exp ((S k : EReal) - (R : EReal))) (∑ k', Ideal.exp ((S k' : EReal) - (R : EReal))) * (V k : EReal) := by
  let s : ℕ → κ → ℝ := fun j k => if hj : j < n + 1 then S (e (⟨j, hj⟩, k)) else 0
  let v : ℕ → κ → ℝ := fun j k => if hj : j < n + 1 then V (e (⟨j, hj⟩, k)) else 0
  have hrun : ∀ j, j ≤ n + 1 → st j = run s v j := by
    intro j
    induction j with
    | zero => intro _; exact h0
    | succ j ih =>
      intro hj
      have hj' : j < n + 1 := hj
      rw [hstep j hj', ih (Nat.le_of_lt hj')]
      show step (run s v j) _ _ = step (run s v j) (fun k => (s j k : EReal)) (fun k => (v j k : EReal))
      simp only [s, v, dif_pos hj']
  rw [hrun (n + 1) (Nat.le_refl _)]
  have h := online_eq_onepass n e S V R s v (fun j k => by simp only [s, dif_pos j.isLt]) (fun j k => by simp only [v, dif_pos j.isLt])
  rw [h]
  simp only [zero_add]

end Cert.LibOnlineSoftmax

end
-- ==== Proof.KI.Attn.Rows.lean ====
/-
  Causal attention at the ideal values, one query row at a time. Row p of a step's three stores — the new running
  maximum, the new denominator, and column d of the new numerator — is one update of the online softmax from row p of
  the old ones, over the 512 masked scores of row p against the tile's keys and column d of the tile's values.
-/
import proofs.«151460_j71262097375467_2_alg».proof.Proof.Gen.KernelIdeal.Skeleton
import proofs.«151460_j71262097375467_2_alg».proof.Proof.LibOnlineSoftmax
import proofs.«151460_j71262097375467_2_alg».proof.Proof.LibColumnLayout
import proofs.«151460_j71262097375467_2_alg».proof.Proof.LibPlainProduct
import proofs.«151460_j71262097375467_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open scoped BigOperators
open Cert.KernelIdeal Cert.KernelIdeal.Gen
open Idealize.ShloMosaic Idealize.ShloMosaic.ValueIdx

variable (a1 a2 : BitVec 32) (q k v : Vec Ideal S1x512x64 .bf16) (M L : Vec Ideal S512x1 .f32) (A : Vec Ideal S512x64 .f32)

/-- The masked, scaled score of query row p against key row j of the tile. -/
def sc1 (p j : Fin 512) : EReal := k1_pay8 (F := Ideal) a1 a2 q k (ix2 p j)

/-- A row's maximum from the word of −∞ is the fold of max from ⊥ over the row. -/
theorem rowMax_apply (X : FVec Ideal S512x512 .f32) (p : Fin 512) :
    multiReduction .maximumf [1] S512 X 0xFF800000#32 reduces_S512x512_S512 (.inl rfl) rfl (ix1 p)
      = (Finset.univ : Finset (Fin 512)).fold max ⊥ (fun j => X (ix2 p j)) := by
  refine (Ideal.multiReduction_maximumf_single X 0xFF800000#32 reduces_S512x512_S512 (.inl rfl) rfl (ix1 p)).trans ?_
  rw [show (FloatOps.ofBits (F := Ideal) .f32 0xFF800000#32 : EReal) = ⊥ from Cert.Spec.ofBits_neg_inf]
  refine congrArg (Finset.fold max ⊥ · Finset.univ) (funext fun j => congrArg X (funext fun a => Fin.ext (by
    match a with
    | ⟨0, _⟩ => rfl
    | ⟨1, _⟩ => rfl)))

/-- A row's sum from the zero word is the sum over the row. -/
theorem rowSum_apply (X : FVec Ideal S512x512 .f32) (p : Fin 512) :
    multiReduction .add [1] S512 X 0x00000000#32 reduces_S512x512_S512 (.inl rfl) rfl (ix1 p) = ∑ j : Fin 512, X (ix2 p j) :=
  (Ideal.multiReduction_add_single X 0x00000000#32 reduces_S512x512_S512 (.inl rfl) rfl (ix1 p)).trans
    (Finset.sum_congr rfl fun j _ => congrArg X (funext fun a => Fin.ext (by
      match a with
      | ⟨0, _⟩ => rfl
      | ⟨1, _⟩ => rfl)))

/-- The new running maximum of row p. -/
theorem pay9_apply (p : Fin 512) (u : Fin 1) :
    k1_pay9 (F := Ideal) a1 a2 q k M (ix2 p u) = max (M (ix2 p u)) ((Finset.univ : Finset (Fin 512)).fold max ⊥ (sc1 a1 a2 q k p)) := by
  unfold k1_pay9
  rw [maximumf_apply, ColumnLayout.shapeCast_a_a1_apply, rowMax_apply]
  rfl

/-- The rescaling factor e^(M − M') of row p. -/
theorem pay10_apply (p : Fin 512) (u : Fin 1) :
    k1_pay10 (F := Ideal) a1 a2 q k M (ix2 p u) = Ideal.exp (M (ix2 p u) - k1_pay9 (F := Ideal) a1 a2 q k M (ix2 p u)) := by
  unfold k1_pay10
  rfl

/-- The weight e^(s − M') of key j for row p. -/
theorem pay11_apply (p j : Fin 512) :
    k1_pay11 (F := Ideal) a1 a2 q k M (ix2 p j) = Ideal.exp (sc1 a1 a2 q k p j - k1_pay9 (F := Ideal) a1 a2 q k M (ix2 p (0 : Fin 1))) := by
  unfold k1_pay11
  show Ideal.exp ((subf (k1_pay8 (F := Ideal) a1 a2 q k) (broadcastTo S512x512 (k1_pay9 (F := Ideal) a1 a2 q k M) broadcasts_S512x1_S512x512)) (ix2 p j)) = _
  rw [subf_apply, ColumnLayout.broadcastTo_a1_ab_apply]
  rfl

/-- The new denominator of row p. -/
theorem pay12_apply (p : Fin 512) (u : Fin 1) :
    k1_pay12 (F := Ideal) a1 a2 q k M L (ix2 p u)
      = k1_pay10 (F := Ideal) a1 a2 q k M (ix2 p u) * L (ix2 p u) + ∑ j : Fin 512, k1_pay11 (F := Ideal) a1 a2 q k M (ix2 p j) := by
  unfold k1_pay12
  simp only [shapeCast_self]
  rw [addf_apply, mulf_apply, ColumnLayout.shapeCast_a_a1_apply, rowSum_apply]

/-- A value tile without its unit axis. -/
theorem pay7_apply (j : Fin 512) (d : Fin 64) : k1_pay7 (F := Ideal) v (ix2 j d) = v (ix3 (0 : Fin 1) j d) := by
  unfold k1_pay7
  refine (shapeCast_dropUnit_apply ![512, 64] v shapeCasts_S1x512x64_S512x64 (ix2 j d)).trans (congrArg v (funext fun a => Fin.ext (by
    match a with
    | ⟨0, _⟩ => rfl
    | ⟨1, _⟩ => rfl
    | ⟨2, _⟩ => rfl)))

/-- Column d of the new numerator of row p. -/
theorem pay4_apply (vv : FVec Ideal S512x64 .bf16) (e : FVec Ideal S512x1 .f32) (w : FVec Ideal S512x512 .f32) (p : Fin 512) (d : Fin 64) :
    k1_pay4 (F := Ideal) vv e w A (ix2 p d) = e (ix2 p (0 : Fin 1)) * A (ix2 p d) + ∑ j : Fin 512, w (ix2 p j) * vv (ix2 j d) := by
  unfold k1_pay4
  simp only [shapeCast_self]
  have hm := Cert.Dense.matmul_zero_of_plain (M := 512) (K := 512) (N := 64) dot_S512x512_S512x64_S512x64_1_0_0_1_n_n rfl none
    (truncf .bf16 w bitsLt_bf16_f32) vv
  rw [addf_apply, mulf_apply, hm, ColumnLayout.broadcastTo_a1_ab_apply]
  rfl

/-- ONE STEP AT A ROW: row p of the three stores is the online-softmax update of row p of the old accumulators. -/
theorem step_row (p : Fin 512) (d : Fin 64) :
    (k1_pay5 (F := Ideal) (k1_pay9 a1 a2 q k M) (ix2 p (0 : Fin 1)), k1_pay12 (F := Ideal) a1 a2 q k M L (ix2 p (0 : Fin 1)),
      k1_pay4 (F := Ideal) (k1_pay7 v) (k1_pay10 a1 a2 q k M) (k1_pay11 a1 a2 q k M) A (ix2 p d))
    = Cert.LibOnlineSoftmax.step (M (ix2 p (0 : Fin 1)), L (ix2 p (0 : Fin 1)), A (ix2 p d)) (sc1 a1 a2 q k p) (fun j => v (ix3 (0 : Fin 1) j d)) := by
  unfold Cert.LibOnlineSoftmax.step k1_pay5
  simp only [shapeCast_self]
  rw [pay12_apply, pay4_apply, pay10_apply]
  simp only [pay11_apply, pay9_apply, pay7_apply]

end Cert.KernelIdeal.Hand

end
-- ==== Proof.KI.Attn.Score.lean ====
/-
  Causal attention at the ideal values: the masked, scaled score of a query row against a key row of a tile. With
  query tile qi and key tile ki (both below 4), row p of the queries is position qi·512 + p and row j of the keys is
  position ki·512 + j; the entry is the dot product over the 64 depths times the word of 1/8 where the key position
  is not after the query position, and the mask fill (⊥) elsewhere.
-/
import proofs.«151460_j71262097375467_2_alg».proof.Proof.KI.Attn.Rows
import Idealize.ShloMosaic.PureOps.IdealRules

set_option maxRecDepth 16384

noncomputable section

open scoped BigOperators

namespace Cert.KernelIdeal.Hand

open Cert.KernelIdeal Cert.KernelIdeal.Gen
open Idealize.ShloMosaic Idealize.ShloMosaic.ValueIdx

/-- The mask fill's name denotes ⊥ at the ideal values, by the certificate's table. -/
theorem neg_big_bot : Named.named (F := Ideal) Cert.KernelIdeal.κ "neg_big" (φ := .f32) 0xF149F2CA#32 = (⊥ : EReal) :=
  IdealRules.named_const.ideal_named_scalar _ _ _ _ rfl

/-- The signed comparison of two small positions, as words. -/
theorem sge_words (x y : ℕ) (hx : x < 4096) (hy : y < 4096) :
    Scalar.cmpi .sge (BitVec.ofNat 32 x) (BitVec.ofNat 32 y) = 1#1 ↔ y ≤ x := by
  show BitVec.ofBool ((BitVec.ofNat 32 y).sle (BitVec.ofNat 32 x)) = 1#1 ↔ y ≤ x
  have toInt_small : ∀ z : ℕ, z < 4096 → (BitVec.ofNat 32 z).toInt = (z : ℤ) := fun z hz => by
    rw [BitVec.toInt_eq_toNat_cond]
    simp only [BitVec.toNat_ofNat]
    have : z % 2 ^ 32 = z := Nat.mod_eq_of_lt (by omega)
    rw [this]
    split <;> omega
  have hsle : (BitVec.ofNat 32 y).sle (BitVec.ofNat 32 x) = decide (y ≤ x) := by
    rw [BitVec.sle_eq_decide, toInt_small x hx, toInt_small y hy]
    simp only [Nat.cast_le]
  rw [hsle]
  by_cases h : y ≤ x <;> simp [h]

/-- The position word of row `p` of tile `a`. -/
theorem pos_word (a p : ℕ) (ha : a < 4) (hp : p < 512) :
    IntOp.addi (Scalar.muli (BitVec.ofNat 32 a) 512#32) (BitVec.ofNat 32 p) = BitVec.ofNat 32 (a * 512 + p) := by
  show BitVec.ofNat 32 a * 512#32 + BitVec.ofNat 32 p = BitVec.ofNat 32 (a * 512 + p)
  apply BitVec.eq_of_toNat_eq
  simp only [BitVec.toNat_add, BitVec.toNat_mul, BitVec.toNat_ofNat]
  omega

theorem sc1_apply (qi ki : ℕ) (hq : qi < 4) (hk : ki < 4) (q k : FVec Ideal S1x512x64 .bf16) (p j : Fin 512) :
    sc1 (BitVec.ofNat 32 qi) (BitVec.ofNat 32 ki) q k p j
      = if ki * 512 + j.val ≤ qi * 512 + p.val then (∑ d : Fin 64, q (ix3 (0 : Fin 1) p d) * k (ix3 (0 : Fin 1) j d)) * Ideal.ofBits .f32 0x3E000000#32 else ⊥ := by
  unfold sc1 k1_pay8
  have hm := Cert.Dense.matmul_zero_of_plain (M := 512) (K := 64) (N := 512) (φ₁ := .bf16) (φ₂ := .bf16) dot_S512x64_S64x512_S512x512_1_0_0_1_n_n rfl none
    (shapeCast S512x64 q shapeCasts_S1x512x64_S512x64 : FVec Ideal S512x64 .bf16)
    (transpose S64x512 [1, 0] (shapeCast S512x64 k shapeCasts_S1x512x64_S512x64 : FVec Ideal S512x64 .bf16) transposes_S512x64_p1_0_S64x512 : FVec Ideal S64x512 .bf16)
  rw [select_apply]
  have hc : cmpi .sge (addi (broadcast S512x512 (Scalar.muli (BitVec.ofNat 32 qi) 512#32)) (iota .tc S512x512 32 [0] iota_S512x512_d0_w32))
        (addi (broadcast S512x512 (Scalar.muli (BitVec.ofNat 32 ki) 512#32)) (iota .tc S512x512 32 [1] iota_S512x512_d1_w32)) (ix2 p j)
      = Scalar.cmpi .sge (BitVec.ofNat 32 (qi * 512 + p.val)) (BitVec.ofNat 32 (ki * 512 + j.val)) := by
    show IntOp.cmpi .sge (IntOp.addi _ (iota .tc S512x512 32 [0] iota_S512x512_d0_w32 (ix2 p j))) (IntOp.addi _ (iota .tc S512x512 32 [1] iota_S512x512_d1_w32 (ix2 p j))) = _
    rw [iota_single_apply, iota_single_apply]
    show IntOp.cmpi .sge (IntOp.addi (Scalar.muli (BitVec.ofNat 32 qi) 512#32) (BitVec.ofNat 32 p.val)) (IntOp.addi (Scalar.muli (BitVec.ofNat 32 ki) 512#32) (BitVec.ofNat 32 j.val)) = _
    rw [pos_word qi p.val hq p.isLt, pos_word ki j.val hk j.isLt]
    rfl
  rw [hc]
  have hval : mulf (matmul dot_S512x64_S64x512_S512x512_1_0_0_1_n_n none (shapeCast S512x64 q shapeCasts_S1x512x64_S512x64)
        (transpose S64x512 [1, 0] (shapeCast S512x64 k shapeCasts_S1x512x64_S512x64) transposes_S512x64_p1_0_S64x512) (constant (F := Ideal) S512x512 .f32 0x00000000#32))
        (broadcast S512x512 (Scalar.ofBits .f32 0x3E000000#32 : Ideal .f32)) (ix2 p j)
      = (∑ d : Fin 64, q (ix3 (0 : Fin 1) p d) * k (ix3 (0 : Fin 1) j d)) * Ideal.ofBits .f32 0x3E000000#32 := by
    rw [mulf_apply, hm]
    refine congrArg (· * _) (Finset.sum_congr rfl fun d _ => ?_)
    have e1 : shapeCast S512x64 q shapeCasts_S1x512x64_S512x64 (ix2 p d) = q (ix3 (0 : Fin 1) p d) := pay7_apply q p d
    have e2 : transpose S64x512 [1, 0] (shapeCast S512x64 k shapeCasts_S1x512x64_S512x64) transposes_S512x64_p1_0_S64x512 (ix2 d j) = k (ix3 (0 : Fin 1) j d) := by
      refine (transpose_apply [1, 0] _ transposes_S512x64_p1_0_S64x512 (ix2 d j) (ix2 j d) (fun a => ?_)).trans (pay7_apply k j d)
      match a with
      | ⟨0, _⟩ => rfl
      | ⟨1, _⟩ => rfl
    show shapeCast S512x64 q shapeCasts_S1x512x64_S512x64 (ix2 (ix2 p j 0) d) * _ = _
    rw [show (ix2 p j 0 : Fin 512) = p from rfl, e1]
    show _ * transpose S64x512 [1, 0] _ _ (ix2 d (ix2 p j 1)) = _
    rw [show (ix2 p j 1 : Fin 512) = j from rfl, e2]
  by_cases h : ki * 512 + j.val ≤ qi * 512 + p.val
  · rw [if_pos h, (sge_words _ _ (by have := p.isLt; omega) (by have := j.isLt; omega)).mpr h, select_one]
    exact hval
  · rw [if_neg h]
    have h0 : Scalar.cmpi .sge (BitVec.ofNat 32 (qi * 512 + p.val)) (BitVec.ofNat 32 (ki * 512 + j.val)) = 0#1 := by
      rcases BitVec.eq_zero_or_eq_one (Scalar.cmpi .sge (BitVec.ofNat 32 (qi * 512 + p.val)) (BitVec.ofNat 32 (ki * 512 + j.val))) with h' | h'
      · exact h'
      · exact absurd ((sge_words _ _ (by have := p.isLt; omega) (by have := j.isLt; omega)).mp h') h
    rw [h0, select_zero]
    show Named.named (F := Ideal) Cert.KernelIdeal.κ "neg_big" (φ := .f32) 0xF149F2CA#32 = _
    exact neg_big_bot

end Cert.KernelIdeal.Hand

end
-- ==== Proof.LibRealValued.lean ====
/-
  Extended reals that are real numbers: a small library for value proofs whose algebra fails at the infinities.

  The extended reals have the two infinities, and `a - a` is 0 only when `a` is neither of them; likewise cancelling,
  distributing and moving a factor across a sum hold for real numbers and can fail at an infinity. A proof that needs such
  a law first shows that the terms involved are real numbers. This file has

    * `IsReal` and its closure under sums, products and finite sums;
    * the evaluations a real number minus itself is 0, exp 0 = 1, 1 / 1 = 1, and max (-inf) y = y — together, the softmax
      over an axis of length one is exp (s - s) / (0 + exp (s - s)) = 1 for a real score `s`;
    * a float pattern whose exponent field is not all ones denotes a real number (so a finite literal is `IsReal`, by
      `decide` on its bits, without evaluating it);
    * a fold over an axis of length one;
    * the "every float input is finite" precondition read back: |a| < +inf says `a` is a real number, and one
      "all entries have |a| < +inf" conjunct gives it of every entry.
-/
import Idealize.ShloMosaic.PureOps.Ideal
import Idealize.ShloMosaic.Lib.ReduceAll
import Idealize.ShloMosaic.Lib.ValueIdx

noncomputable section

namespace Cert.RealValued

open Idealize.ShloMosaic Idealize.ShloMosaic.ValueIdx

/-- An extended real that is a real number: neither infinity. -/
def IsReal (a : EReal) : Prop := ∃ r : ℝ, a = (r : EReal)

/-- The sum of two real numbers is a real number. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The product of two real numbers is a real number. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- Zero is a real number. -/
theorem isReal_zero : IsReal 0 := ⟨0, EReal.coe_zero.symm⟩

/-- A finite sum of real numbers is a real number. -/
theorem isReal_sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- A real number minus itself is 0 (false at either infinity). -/
theorem sub_self_of_isReal {a : EReal} (h : IsReal a) : a - a = 0 := by
  obtain ⟨r, rfl⟩ := h
  rw [← EReal.coe_sub, sub_self, EReal.coe_zero]

/-- The exponential of zero is one. -/
theorem exp_zero : Ideal.exp 0 = 1 := by
  rw [← EReal.coe_zero, Ideal.exp_coe, Real.exp_zero, EReal.coe_one]

/-- One divided by one is one. -/
theorem div_one_one : Ideal.div 1 1 = 1 := by
  have h := Ideal.div_coe (y := 1) one_ne_zero (1 : EReal)
  simpa using h

/-- A float pattern whose exponent field is not all ones denotes a real number. -/
theorem ieee_isReal (e m : Nat) {w : Nat} (b : BitVec w) (h : (b.extractLsb' m e).toNat ≠ 2 ^ e - 1) :
    IsReal (Ideal.ieee e m b) := by
  unfold Ideal.ieee
  dsimp only
  rw [if_neg h]
  split <;> exact ⟨_, rfl⟩

/-- The f32 pattern of minus infinity is the least extended real: the maximum with it changes nothing. -/
theorem max_negInf_left (y : EReal) : max (Ideal.ofBits .f32 0xFF800000#32) y = y := by
  simp [Ideal.ofBits, Ideal.ieee]

/-- The same with the operands in the other order. -/
theorem max_negInf_right (y : EReal) : max y (Ideal.ofBits .f32 0xFF800000#32) = y := by
  rw [max_comm]; exact max_negInf_left y

/-- A fold over an axis of length one meets its one term once. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- |a| < +inf on the extended reals, where |a| = max a (-a) is +inf at either infinity: `a` is a real number. -/
theorem isReal_of_abs_lt_inf (a : EReal)
    (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a using EReal.rec with
  | bot => simp [Ideal.cmp] at h
  | top => simp [Ideal.cmp] at h
  | coe r => exact ⟨r, rfl⟩

/-- One conjunct of a finiteness precondition, "all entries of `a` have |a| < +inf" (a reduction by `and`, over every axis,
    of the comparison of |a| with the +inf pattern broadcast from a scalar), gives that every entry is a real number. -/
theorem all_isReal {s : Shape} {axes : List (Fin s.rank)} (a : FVec Ideal s .f32)
    (dims : Fin (⟨0, ![]⟩ : Shape).rank → Fin s.rank) (bc : (⟨0, ![]⟩ : Shape).BroadcastsInDim s dims)
    (h' : s.ReducesTo axes ⟨0, ![]⟩) (hu : 0 < (⟨0, ![]⟩ : Shape).numel)
    (e : Host.reduce IntOp.andi
      (cmpf .olt (Host.absf a) (broadcastInDim s dims bc (constant (F := Ideal) ⟨0, ![]⟩ .f32 0x7F800000#32)))
      (constantI ⟨0, ![]⟩ 1 1#1) h' hu ix0 = 1#1) (i : s.Idx) : IsReal (a i) := by
  haveI : Subsingleton (⟨0, ![]⟩ : Shape).Idx := ⟨fun a b => funext fun d => d.elim0⟩
  exact isReal_of_abs_lt_inf (a i) (Host.reduce_andi_all _ _ h' hu ix0 e i)

end Cert.RealValued

end
-- ==== Proof.LibMaskedOnlineSoftmax.lean ====
/-
  The online (tile by tile) evaluation of a softmax-weighted sum when some scores are masked, on the extended reals.

  A score is either masked, −∞, or a real number; a masked key has weight e^(−∞ − M) = 0 at every real level M, so it
  adds nothing to the denominator and, its value being real, nothing to the numerator. The tile-by-tile state
  (running maximum M, denominator L, numerator A) of the unmasked case is updated in the same way,
      M' = max M (max_k s k),   L' = e^(M − M')·L + Σ_k e^(s k − M'),   A' = e^(M − M')·A + Σ_k e^(s k − M')·v k,
  from (−∞, 0, 0). If the first tile has an unmasked key, the running maximum is real from the first tile on, and after
  each tile the state is (M, Σ w_M, Σ w_M·v) over the keys seen so far, where w_M x is e^(x − M) for a real score x and
  0 for a masked one, at SOME real level M. A weighted sum normalised by its own weights does not depend on the level,
  so A / L is the weighted mean of the values of the unmasked keys seen; the one-pass form, whose level is the
  supremum of all scores, is the same mean over all keys. When every key past the tiles visited is masked the two agree.
-/
import Idealize.ShloMosaic.PureOps.Ideal
import proofs.«151460_j71262097375467_2_alg».proof.Proof.LibOnlineSoftmax

noncomputable section

namespace Cert.LibMaskedOnlineSoftmax

open Idealize.ShloMosaic Cert.LibOnlineSoftmax

/-! ## Scores and their weights -/

/-- A score is masked (−∞) or a real number. -/
def IsScore (x : EReal) : Prop := x = ⊥ ∨ ∃ r : ℝ, x = r

/-- −∞ is a score. -/
theorem isScore_bot : IsScore ⊥ := Or.inl rfl

/-- A real number is a score. -/
theorem isScore_coe (r : ℝ) : IsScore (r : EReal) := Or.inr ⟨r, rfl⟩

/-- The larger of two scores is a score. -/
theorem isScore_max {a b : EReal} (ha : IsScore a) (hb : IsScore b) : IsScore (max a b) := by
  rcases ha with rfl | ⟨r, rfl⟩
  · rw [max_eq_right bot_le]; exact hb
  · rcases hb with rfl | ⟨t, rfl⟩
    · rw [max_eq_left bot_le]; exact isScore_coe r
    · rw [← coe_max]; exact isScore_coe _

/-- A score that is not −∞ is a real number. -/
theorem IsScore.real {x : EReal} (hx : IsScore x) (h : x ≠ ⊥) : ∃ r : ℝ, x = r :=
  hx.resolve_left h

/-- The weight of a score at the real level M: e^(x − M) for a real score, 0 for a masked one. -/
def wt (M : ℝ) (x : EReal) : ℝ := if x = ⊥ then 0 else Real.exp (x.toReal - M)

/-- A masked score has weight zero. -/
theorem wt_bot (M : ℝ) : wt M ⊥ = 0 := if_pos rfl

/-- A real score has weight e^(r − M). -/
theorem wt_coe (M r : ℝ) : wt M (r : EReal) = Real.exp (r - M) := by
  unfold wt; rw [if_neg (EReal.coe_ne_bot r), EReal.toReal_coe]

/-- Weights are not negative. -/
theorem wt_nonneg (M : ℝ) (x : EReal) : 0 ≤ wt M x := by
  unfold wt; split_ifs
  · exact le_refl 0
  · exact (Real.exp_pos _).le

/-- A real score's weight is positive. -/
theorem wt_pos_coe (M r : ℝ) : 0 < wt M (r : EReal) := by rw [wt_coe]; exact Real.exp_pos _

/-- On the extended reals the exponential of a score minus a real level is the score's weight at that level. -/
theorem exp_sub_coe (M : ℝ) {x : EReal} (hx : IsScore x) : Ideal.exp (x - (M : EReal)) = ((wt M x : ℝ) : EReal) := by
  rcases hx with rfl | ⟨r, rfl⟩
  · rw [EReal.bot_sub, Ideal.exp_bot, wt_bot, EReal.coe_zero]
  · rw [← EReal.coe_sub, Ideal.exp_coe, wt_coe]

/-- Moving the level from M to M' multiplies every weight by e^(M − M'). -/
theorem wt_shift (M M' : ℝ) (x : EReal) : Real.exp (M - M') * wt M x = wt M' x := by
  unfold wt; split_ifs
  · rw [mul_zero]
  · rw [← Real.exp_add]; congr 1; ring

variable {κ : Type} [Fintype κ]

/-- The maximum of scores, taken from a score, is a score. -/
theorem isScore_fold_max (t : Finset κ) (s : κ → EReal) (hs : ∀ k, IsScore (s k)) (a : EReal) (ha : IsScore a) :
    IsScore (t.fold max a s) := by
  classical
  refine Finset.induction_on t ?_ ?_
  · rw [Finset.fold_empty]; exact ha
  · intro k t hk ih
    rw [Finset.fold_insert hk]
    exact isScore_max (hs k) ih

/-- The supremum of scores is a score. -/
theorem isScore_sup {K : Type} [Fintype K] (S : K → EReal) (hS : ∀ k, IsScore (S k)) : IsScore (Finset.univ.sup S) :=
  Finset.sup_induction isScore_bot (fun a ha b hb => isScore_max ha hb) (fun k _ => hS k)

/-! ## One tile -/

/-- The weights' sum of one tile at the level M. -/
def den (M : ℝ) (s : κ → EReal) : ℝ := ∑ k, wt M (s k)

/-- The weighted sum of one tile's values at the level M. -/
def num (M : ℝ) (s : κ → EReal) (v : κ → ℝ) : ℝ := ∑ k, wt M (s k) * v k

/-- Moving the level multiplies a tile's weights' sum by e^(M − M'). -/
theorem den_shift (M M' : ℝ) (s : κ → EReal) : Real.exp (M - M') * den M s = den M' s := by
  unfold den; rw [Finset.mul_sum]; exact Finset.sum_congr rfl fun k _ => wt_shift M M' (s k)

/-- Moving the level multiplies a tile's weighted sum by e^(M − M'). -/
theorem num_shift (M M' : ℝ) (s : κ → EReal) (v : κ → ℝ) : Real.exp (M - M') * num M s v = num M' s v := by
  unfold num; rw [Finset.mul_sum]; refine Finset.sum_congr rfl fun k _ => ?_
  rw [← mul_assoc, wt_shift]

/-- A tile's weights' sum is not negative. -/
theorem den_nonneg (M : ℝ) (s : κ → EReal) : 0 ≤ den M s := Finset.sum_nonneg fun k _ => wt_nonneg M (s k)

/-- A tile of masked scores has weights' sum zero, -/
theorem den_masked (M : ℝ) (s : κ → EReal) (hs : ∀ k, s k = ⊥) : den M s = 0 := by
  unfold den; exact Finset.sum_eq_zero fun k _ => by rw [hs k, wt_bot]

/-- and weighted sum zero. -/
theorem num_masked (M : ℝ) (s : κ → EReal) (v : κ → ℝ) (hs : ∀ k, s k = ⊥) : num M s v = 0 := by
  unfold num; exact Finset.sum_eq_zero fun k _ => by rw [hs k, wt_bot, zero_mul]

/-- One tile's update. The running maximum m is a score, the running sums L, A are real; if the running maximum is real
    or the tile has an unmasked key, the new running maximum is a real number M' and the new sums are the old ones
    rescaled by the old maximum's weight at M', plus the tile's sums at M'. -/
theorem step_score (m : EReal) (hm : IsScore m) (L A : ℝ) (s : κ → EReal) (hs : ∀ k, IsScore (s k)) (v : κ → ℝ)
    (hreal : m ≠ ⊥ ∨ ∃ k, s k ≠ ⊥) :
    ∃ M' : ℝ, step (m, (L : EReal), (A : EReal)) s (fun k => (v k : EReal))
      = ((M' : EReal), ((wt M' m * L + den M' s : ℝ) : EReal), ((wt M' m * A + num M' s v : ℝ) : EReal)) := by
  have hfold : IsScore ((Finset.univ : Finset κ).fold max ⊥ s) := isScore_fold_max _ s hs ⊥ isScore_bot
  have hne : max m ((Finset.univ : Finset κ).fold max ⊥ s) ≠ ⊥ := by
    intro h
    have h1 : m ≤ ⊥ := by
      have := le_max_left m ((Finset.univ : Finset κ).fold max ⊥ s); rwa [h] at this
    have h2 : (Finset.univ : Finset κ).fold max ⊥ s ≤ ⊥ := by
      have := le_max_right m ((Finset.univ : Finset κ).fold max ⊥ s); rwa [h] at this
    rcases hreal with hm' | ⟨k, hk⟩
    · exact hm' (le_bot_iff.mp h1)
    · have h3 : s k ≤ (Finset.univ : Finset κ).fold max ⊥ s :=
        (Finset.le_fold_max _).mpr (Or.inr ⟨k, Finset.mem_univ k, le_refl _⟩)
      exact hk (le_bot_iff.mp (h3.trans h2))
  obtain ⟨M', hM'⟩ := (isScore_max hm hfold).real hne
  refine ⟨M', ?_⟩
  unfold step
  simp only [hM']
  refine Prod.ext rfl (Prod.ext ?_ ?_)
  · show Ideal.exp (m - (M' : EReal)) * (L : EReal) + ∑ k, Ideal.exp (s k - (M' : EReal)) = _
    rw [exp_sub_coe M' hm, Finset.sum_congr rfl fun k _ => exp_sub_coe M' (hs k), ← coe_sum, ← EReal.coe_mul,
      ← EReal.coe_add]
    rfl
  · show Ideal.exp (m - (M' : EReal)) * (A : EReal) + ∑ k, Ideal.exp (s k - (M' : EReal)) * (v k : EReal) = _
    rw [exp_sub_coe M' hm, Finset.sum_congr rfl fun k _ => by rw [exp_sub_coe M' (hs k), ← EReal.coe_mul], ← coe_sum,
      ← EReal.coe_mul, ← EReal.coe_add]
    rfl

/-! ## The tiles in order -/

/-- The state after the first n tiles. -/
def run (s : ℕ → κ → EReal) (v : ℕ → κ → ℝ) : ℕ → EReal × EReal × EReal
  | 0 => ((⊥ : EReal), (0 : EReal), (0 : EReal))
  | n + 1 => step (run s v n) (s n) (fun k => (v n k : EReal))

/-- After at least one tile, the first tile having an unmasked key, the state is at some real level M the weights' sum
    and the weighted sum over every key seen so far. -/
theorem run_succ (s : ℕ → κ → EReal) (hs : ∀ j k, IsScore (s j k)) (v : ℕ → κ → ℝ) (h0 : ∃ k, s 0 k ≠ ⊥) (n : ℕ) :
    ∃ M : ℝ, run s v (n + 1)
      = ((M : EReal), ((∑ j ∈ Finset.range (n + 1), den M (s j) : ℝ) : EReal),
          ((∑ j ∈ Finset.range (n + 1), num M (s j) (v j) : ℝ) : EReal)) := by
  induction n with
  | zero =>
    obtain ⟨M, hM⟩ := step_score ⊥ isScore_bot 0 0 (s 0) (hs 0) (v 0) (Or.inr h0)
    refine ⟨M, ?_⟩
    have e : run s v (0 + 1) = step ((⊥ : EReal), ((0 : ℝ) : EReal), ((0 : ℝ) : EReal)) (s 0) (fun k => (v 0 k : EReal)) := by
      show step ((⊥ : EReal), (0 : EReal), (0 : EReal)) (s 0) (fun k => (v 0 k : EReal)) = _
      rw [EReal.coe_zero]
    rw [e, hM]
    simp only [Nat.zero_add, Finset.sum_range_one, mul_zero, zero_add]
  | succ n ih =>
    obtain ⟨M, hM⟩ := ih
    obtain ⟨M', hM'⟩ := step_score (M : EReal) (isScore_coe M) (∑ j ∈ Finset.range (n + 1), den M (s j))
      (∑ j ∈ Finset.range (n + 1), num M (s j) (v j)) (s (n + 1)) (hs (n + 1)) (v (n + 1)) (Or.inl (EReal.coe_ne_bot M))
    refine ⟨M', ?_⟩
    rw [show run s v (n + 1 + 1) = step (run s v (n + 1)) (s (n + 1)) (fun k => (v (n + 1) k : EReal)) from rfl, hM, hM',
      wt_coe]
    refine Prod.ext rfl (Prod.ext ?_ ?_)
    · show ((_ : ℝ) : EReal) = ((_ : ℝ) : EReal)
      rw [Finset.sum_range_succ _ (n + 1), Finset.mul_sum, Finset.sum_congr rfl fun j _ => den_shift M M' (s j)]
    · show ((_ : ℝ) : EReal) = ((_ : ℝ) : EReal)
      rw [Finset.sum_range_succ _ (n + 1), Finset.mul_sum, Finset.sum_congr rfl fun j _ => num_shift M M' (s j) (v j)]

/-- The weights' sum over the tiles seen is positive when the first tile has an unmasked key. -/
theorem sum_den_pos (s : ℕ → κ → EReal) (hs : ∀ j k, IsScore (s j k)) (M : ℝ) (h0 : ∃ k, s 0 k ≠ ⊥) (n : ℕ) :
    0 < ∑ j ∈ Finset.range (n + 1), den M (s j) := by
  obtain ⟨k, hk⟩ := h0
  obtain ⟨r, hr⟩ := (hs 0 k).real hk
  have h1 : 0 < den M (s 0) := by
    unfold den
    exact Finset.sum_pos' (fun k _ => wt_nonneg M _) ⟨k, Finset.mem_univ k, by rw [hr]; exact wt_pos_coe M r⟩
  exact Finset.sum_pos' (fun j _ => den_nonneg M (s j)) ⟨0, Finset.mem_range.mpr (Nat.succ_pos n), h1⟩

/-- A weighted sum normalised by its weights does not depend on the level the weights are taken at. -/
theorem ratio_shift (M R : ℝ) (s : ℕ → κ → EReal) (v : ℕ → κ → ℝ) (n : ℕ) :
    (∑ j ∈ Finset.range (n + 1), num M (s j) (v j)) / (∑ j ∈ Finset.range (n + 1), den M (s j))
      = (∑ j ∈ Finset.range (n + 1), num R (s j) (v j)) / (∑ j ∈ Finset.range (n + 1), den R (s j)) := by
  have hn : ∑ j ∈ Finset.range (n + 1), num M (s j) (v j)
      = Real.exp (R - M) * ∑ j ∈ Finset.range (n + 1), num R (s j) (v j) := by
    rw [Finset.mul_sum]; exact Finset.sum_congr rfl fun j _ => (num_shift R M (s j) (v j)).symm
  have hd : ∑ j ∈ Finset.range (n + 1), den M (s j) = Real.exp (R - M) * ∑ j ∈ Finset.range (n + 1), den R (s j) := by
    rw [Finset.mul_sum]; exact Finset.sum_congr rfl fun j _ => (den_shift R M (s j)).symm
  rw [hn, hd, mul_div_mul_left _ _ (Real.exp_pos _).ne']

/-- THE ONLINE FORM: after n + 1 tiles the running numerator over the running denominator is the weighted mean of the
    values over every key seen, the weights taken at any real level R. -/
theorem run_quotient (s : ℕ → κ → EReal) (hs : ∀ j k, IsScore (s j k)) (v : ℕ → κ → ℝ) (h0 : ∃ k, s 0 k ≠ ⊥) (n : ℕ)
    (R : ℝ) :
    Ideal.div (run s v (n + 1)).2.2 (run s v (n + 1)).2.1
      = (((∑ j ∈ Finset.range (n + 1), num R (s j) (v j)) / (∑ j ∈ Finset.range (n + 1), den R (s j)) : ℝ) : EReal) := by
  obtain ⟨M, hM⟩ := run_succ s hs v h0 n
  rw [hM]
  show Ideal.div ((_ : ℝ) : EReal) ((_ : ℝ) : EReal) = _
  rw [div_real _ _ (sum_den_pos s hs M h0 n).ne', ratio_shift M R]

/-- THE ONE-PASS FORM: every weight e^(S k − R) (R a real level) divided by the weights' sum, times the value, summed
    over the keys, is the same weighted mean, provided some key is unmasked. -/
theorem onepass {K : Type} [Fintype K] (S : K → EReal) (hS : ∀ k, IsScore (S k)) (V : K → ℝ) (R : ℝ)
    (hpos : 0 < ∑ k, wt R (S k)) :
    ∑ k, Ideal.div (Ideal.exp (S k - (R : EReal))) (∑ k', Ideal.exp (S k' - (R : EReal))) * (V k : EReal)
      = (((∑ k, wt R (S k) * V k) / (∑ k, wt R (S k)) : ℝ) : EReal) := by
  have hden : ∑ k', Ideal.exp (S k' - (R : EReal)) = ((∑ k', wt R (S k') : ℝ) : EReal) := by
    rw [coe_sum]; exact Finset.sum_congr rfl fun k _ => exp_sub_coe R (hS k)
  rw [hden]
  have hterm : ∀ k, Ideal.div (Ideal.exp (S k - (R : EReal))) ((∑ k', wt R (S k') : ℝ) : EReal) * (V k : EReal)
      = ((wt R (S k) / (∑ k', wt R (S k')) * V k : ℝ) : EReal) := fun k => by
    rw [exp_sub_coe R (hS k), div_real _ _ hpos.ne', ← EReal.coe_mul]
  rw [Finset.sum_congr rfl fun k _ => hterm k, ← coe_sum]
  congr 1
  rw [Finset.sum_div]
  exact Finset.sum_congr rfl fun k _ => by ring

/-! ## 2048 keys in four tiles of 512, the tiles past the n-th masked -/

/-- The 2048 keys as four tiles of 512: key j·512 + k is key k of tile j. -/
def tileEquiv : Fin 4 × Fin 512 ≃ Fin 2048 where
  toFun p := ⟨p.1.val * 512 + p.2.val, by omega⟩
  invFun i := (⟨i.val / 512, by omega⟩, ⟨i.val % 512, by omega⟩)
  left_inv := fun ⟨j, k⟩ => Prod.ext
    (Fin.ext (by show (j.val * 512 + k.val) / 512 = j.val; omega))
    (Fin.ext (by show (j.val * 512 + k.val) % 512 = k.val; omega))
  right_inv := fun i => Fin.ext (by show i.val / 512 * 512 + i.val % 512 = i.val; omega)

/-- A sum over the 2048 keys is the sum over the tiles of the sums over each tile's keys. -/
theorem sum_keys (f : Fin 2048 → ℝ) : ∑ i, f i = ∑ j : Fin 4, ∑ k : Fin 512, f (tileEquiv (j, k)) := by
  rw [← tileEquiv.sum_comp, Fintype.sum_prod_type]

/-- THE FORM A CAUSAL TILED KERNEL MEETS. The 2048 scores of a row are real or masked, key 0 unmasked, every key past tile
    n masked. A sequence of states that starts at (−∞, 0, 0) and advances by step over the tiles 0 … n of 512 keys ends with
    numerator over denominator equal to the one-pass masked softmax-weighted sum over all 2048 keys, whose level is the
    supremum of the scores. -/
theorem causal_tiled (n : ℕ) (hn : n < 4) (S : Fin 2048 → EReal) (V : Fin 2048 → ℝ)
    (hS : ∀ j, S j = ⊥ ∨ ∃ r : ℝ, S j = r)
    (h0 : ∃ r : ℝ, S ⟨0, by norm_num⟩ = r)
    (hmask : ∀ j : Fin 2048, (n + 1) * 512 ≤ j.val → S j = ⊥)
    (st : ℕ → EReal × EReal × EReal) (hst0 : st 0 = ((⊥ : EReal), (0 : EReal), (0 : EReal)))
    (hstep : ∀ (j : ℕ) (hj : j < n + 1), st (j + 1)
      = step (st j) (fun k : Fin 512 => S ⟨j * 512 + k.val, by omega⟩)
          (fun k : Fin 512 => (V ⟨j * 512 + k.val, by omega⟩ : EReal))) :
    Ideal.div (st (n + 1)).2.2 (st (n + 1)).2.1
      = ∑ j : Fin 2048, Ideal.div (Ideal.exp (S j - Finset.univ.sup S))
          (∑ j' : Fin 2048, Ideal.exp (S j' - Finset.univ.sup S)) * (V j : EReal) := by
  -- the tiles as sequences indexed by all naturals: past the fourth tile, masked scores and zero values
  let s : ℕ → Fin 512 → EReal := fun j k => if hj : j < 4 then S ⟨j * 512 + k.val, by omega⟩ else ⊥
  let v : ℕ → Fin 512 → ℝ := fun j k => if hj : j < 4 then V ⟨j * 512 + k.val, by omega⟩ else 0
  have hs : ∀ j k, IsScore (s j k) := by
    intro j k
    by_cases hj : j < 4
    · simp only [s, dif_pos hj]; exact hS _
    · simp only [s, dif_neg hj]; exact isScore_bot
  obtain ⟨r0, hr0⟩ := h0
  have h0' : ∃ k, s 0 k ≠ ⊥ := by
    refine ⟨⟨0, by norm_num⟩, ?_⟩
    have e : s 0 ⟨0, by norm_num⟩ = S ⟨0, by norm_num⟩ := by
      simp only [s, dif_pos (show (0 : ℕ) < 4 by norm_num)]
    rw [e, hr0]; exact EReal.coe_ne_bot r0
  -- the given states are the run over these tiles
  have hrun : ∀ j, j ≤ n + 1 → st j = run s v j := by
    intro j
    induction j with
    | zero => intro _; exact hst0
    | succ j ih =>
      intro hj
      have hj' : j < n + 1 := hj
      rw [hstep j hj', ih (Nat.le_of_lt hj')]
      show step (run s v j) _ _ = step (run s v j) (s j) (fun k => (v j k : EReal))
      simp only [s, v, dif_pos (show j < 4 by omega)]
  rw [hrun (n + 1) (Nat.le_refl _)]
  -- the supremum of the scores is a real number
  have hsupne : Finset.univ.sup S ≠ ⊥ := by
    intro h
    have h1 : S ⟨0, by norm_num⟩ ≤ Finset.univ.sup S := Finset.le_sup (Finset.mem_univ _)
    rw [h, hr0] at h1
    exact EReal.coe_ne_bot r0 (le_bot_iff.mp h1)
  obtain ⟨R, hR⟩ := (isScore_sup S hS).real hsupne
  have hposall : 0 < ∑ i : Fin 2048, wt R (S i) :=
    Finset.sum_pos' (fun i _ => wt_nonneg R _) ⟨⟨0, by norm_num⟩, Finset.mem_univ _, by rw [hr0]; exact wt_pos_coe R r0⟩
  rw [hR, run_quotient s hs v h0' n R, onepass S hS V R hposall]
  -- the tiles past the n-th are masked, so the sums over the tiles seen are the sums over all four
  have hmasked : ∀ j, j ∈ Finset.range 4 → j ∉ Finset.range (n + 1) → ∀ k, s j k = ⊥ := by
    intro j hj4 hjn k
    have h4 : j < 4 := Finset.mem_range.mp hj4
    have hn' : n + 1 ≤ j := Nat.le_of_not_lt (fun h => hjn (Finset.mem_range.mpr h))
    simp only [s, dif_pos h4]
    exact hmask _ (by show (n + 1) * 512 ≤ j * 512 + k.val; omega)
  have hsub : Finset.range (n + 1) ⊆ Finset.range 4 := Finset.range_mono (by omega)
  congr 2
  · rw [Finset.sum_subset hsub fun j hj4 hjn => num_masked R (s j) (v j) (hmasked j hj4 hjn), Finset.sum_range, sum_keys]
    refine Finset.sum_congr rfl fun j _ => ?_
    unfold num
    refine Finset.sum_congr rfl fun k _ => ?_
    simp only [s, v, dif_pos j.isLt]
    rfl
  · rw [Finset.sum_subset hsub fun j hj4 hjn => den_masked R (s j) (hmasked j hj4 hjn), Finset.sum_range, sum_keys]
    refine Finset.sum_congr rfl fun j _ => ?_
    unfold den
    refine Finset.sum_congr rfl fun k _ => ?_
    simp only [s, dif_pos j.isLt]
    rfl

end Cert.LibMaskedOnlineSoftmax

end
-- ==== Proof.SpecReal.lean ====
/-
  The specification on real inputs. When every entry of the argument arrays is a real number, so is every entry of every
  stage: the projections are finite sums of products; a masked score is −∞ or real, and real on and below the diagonal;
  the softmax's weights at the (real) row maximum have a positive real sum, so the context is a weighted mean of real
  values; a row's variance is a mean of squares, not negative, so variance plus ε is positive and the normalised row is
  real. With that, the kernel's spelling of the block — its projection carrying an added zero, its layer normalisations
  multiplying by the reciprocal square root where the specification divides by the square root — is the specification's
  block.
-/
import proofs.«151460_j71262097375467_2_alg».proof.Proof.Spec
import proofs.«151460_j71262097375467_2_alg».proof.Proof.LibRealValued
import proofs.«151460_j71262097375467_2_alg».proof.Proof.LibMaskedOnlineSoftmax
import proofs.«151460_j71262097375467_2_alg».proof.Proof.KI.Ln

noncomputable section

open scoped BigOperators

namespace Cert.Spec

open Idealize.ShloMosaic Cert.RealValued Cert.LibOnlineSoftmax Cert.LibMaskedOnlineSoftmax

/-- Every entry of a two-index array is a real number. -/
def IsRealM {α β : Type} (z : α → β → EReal) : Prop := ∀ r e, ∃ x : ℝ, z r e = (x : EReal)

/-- Every entry of a one-index array is a real number. -/
def IsRealV {α : Type} (g : α → EReal) : Prop := ∀ e, ∃ x : ℝ, g e = (x : EReal)

/-- The difference of two real numbers is a real number. -/
theorem isReal_sub {a b : EReal} (ha : IsReal a) (hb : IsReal b) : IsReal (a - b) := by
  obtain ⟨r, rfl⟩ := ha
  obtain ⟨s, rfl⟩ := hb
  exact ⟨r - s, (EReal.coe_sub r s).symm⟩

/-- A real number divided by the word of 8 is a real number. -/
theorem isReal_div_8 {a : EReal} (ha : IsReal a) : IsReal (Ideal.div a (Ideal.ofBits .f32 0x41000000#32)) := by
  rw [div_8]; exact ha.mul ⟨_, rfl⟩

/-- A real number divided by the word of 768 is a real number. -/
theorem isReal_div_768 {a : EReal} (ha : IsReal a) : IsReal (Ideal.div a (Ideal.ofBits .f32 0x44400000#32)) := by
  rw [div_768]; exact ha.mul ⟨_, rfl⟩

/-! ## The projection -/

/-- Real inputs and weights give a real projection. -/
theorem qkv_real {x : Fin 4096 → Fin 768 → EReal} {Wqkv : Fin 768 → Fin 2304 → EReal} (hx : IsRealM x)
    (hW : IsRealM Wqkv) : IsRealM (qkv x Wqkv) := fun r j =>
  isReal_sum _ _ fun k _ => IsReal.mul (hx r k) (hW k j)

/-- The same with a zero added to every entry. -/
theorem qkv_add_zero_real {x : Fin 4096 → Fin 768 → EReal} {Wqkv : Fin 768 → Fin 2304 → EReal} (hx : IsRealM x)
    (hW : IsRealM Wqkv) : IsRealM (fun r j => qkv x Wqkv r j + 0) := fun r j =>
  IsReal.add (qkv_real hx hW r j) isReal_zero

/-! ## The attention -/

/-- On and below the diagonal a score of a real projection is a real number. -/
theorem score_real {Q : Fin 4096 → Fin 2304 → EReal} (hQ : IsRealM Q) (b : Fin 2) (h : Fin 12) {s j : Fin 2048}
    (hjs : j ≤ s) : IsReal (score Q b h s j) := by
  unfold score
  rw [if_pos hjs]
  exact isReal_div_8 (isReal_sum _ _ fun d _ => IsReal.mul (hQ _ _) (hQ _ _))

/-- Every score of a real projection is −∞ or a real number. -/
theorem score_isScore {Q : Fin 4096 → Fin 2304 → EReal} (hQ : IsRealM Q) (b : Fin 2) (h : Fin 12) (s j : Fin 2048) :
    score Q b h s j = ⊥ ∨ ∃ r : ℝ, score Q b h s j = (r : EReal) := by
  by_cases hjs : j ≤ s
  · exact Or.inr (score_real hQ b h hjs)
  · left; unfold score; rw [if_neg hjs]

/-- The score against key 0 is a real number. -/
theorem score_zero_real {Q : Fin 4096 → Fin 2304 → EReal} (hQ : IsRealM Q) (b : Fin 2) (h : Fin 12) (s : Fin 2048) :
    ∃ r : ℝ, score Q b h s ⟨0, by norm_num⟩ = (r : EReal) :=
  score_real hQ b h (Fin.mk_le_of_le_val (Nat.zero_le _))

/-- The row maximum of a real projection's scores is a real number. -/
theorem rowmax_real {Q : Fin 4096 → Fin 2304 → EReal} (hQ : IsRealM Q) (b : Fin 2) (h : Fin 12) (s : Fin 2048) :
    ∃ R : ℝ, rowmax Q b h s = (R : EReal) := by
  unfold rowmax
  refine (isScore_sup _ (fun j => score_isScore hQ b h s j)).real ?_
  intro hbot
  obtain ⟨r0, hr0⟩ := score_zero_real hQ b h s
  have h1 : score Q b h s ⟨0, by norm_num⟩ ≤ Finset.univ.sup fun j : Fin 2048 => score Q b h s j :=
    Finset.le_sup (f := fun j : Fin 2048 => score Q b h s j) (Finset.mem_univ _)
  rw [hbot, hr0] at h1
  exact EReal.coe_ne_bot r0 (le_bot_iff.mp h1)

/-- The context by coordinates of a real projection is a real number: a weighted mean of real values, the weights' sum
    positive because key 0 is never masked. -/
theorem ctxh_real {Q : Fin 4096 → Fin 2304 → EReal} (hQ : IsRealM Q) (b : Fin 2) (h : Fin 12) (s : Fin 2048)
    (d : Fin 64) : IsReal (ctxh Q b h s d) := by
  obtain ⟨R, hR⟩ := rowmax_real hQ b h s
  obtain ⟨r0, hr0⟩ := score_zero_real hQ b h s
  have hS : ∀ j, IsScore (score Q b h s j) := fun j => score_isScore hQ b h s j
  have hpos : 0 < ∑ j : Fin 2048, wt R (score Q b h s j) :=
    Finset.sum_pos' (fun j _ => wt_nonneg R _) ⟨⟨0, by norm_num⟩, Finset.mem_univ _, by rw [hr0]; exact wt_pos_coe R r0⟩
  have hV : ∀ j : Fin 2048, Q (row b j) (col 2 h d) = (((Q (row b j) (col 2 h d)).toReal : ℝ) : EReal) := fun j => by
    obtain ⟨x, hx⟩ := hQ (row b j) (col 2 h d)
    rw [hx, EReal.toReal_coe]
  have e := onepass (fun j : Fin 2048 => score Q b h s j) hS (fun j => (Q (row b j) (col 2 h d)).toReal) R hpos
  refine ⟨_, Eq.trans ?_ e⟩
  unfold ctxh attn denom expw
  rw [hR]
  exact Finset.sum_congr rfl fun j _ => by rw [← hV j]

/-- The flat context of a real projection is real. -/
theorem ctx_real {Q : Fin 4096 → Fin 2304 → EReal} (hQ : IsRealM Q) : IsRealM (ctx Q) := fun r e =>
  ctxh_real hQ _ _ _ _

/-! ## The layer normalisation -/

/-- A real row's mean, as a real number. -/
theorem mean_coe {z : Fin 4096 → Fin 768 → EReal} (zr : Fin 4096 → Fin 768 → ℝ) (hz : ∀ r e, z r e = (zr r e : EReal))
    (r : Fin 4096) : mean z r = (((∑ e, zr r e) * (1 / 768) : ℝ) : EReal) := by
  unfold mean
  rw [div_768, Finset.sum_congr rfl fun e _ => hz r e, ← coe_sum, ← EReal.coe_mul]

/-- A real row's variance, as a real number: a mean of squares. -/
theorem var_coe {z : Fin 4096 → Fin 768 → EReal} (zr : Fin 4096 → Fin 768 → ℝ) (hz : ∀ r e, z r e = (zr r e : EReal))
    (r : Fin 4096) :
    var z r = (((∑ e, (zr r e - (∑ e', zr r e') * (1 / 768)) * (zr r e - (∑ e', zr r e') * (1 / 768))) * (1 / 768) : ℝ) : EReal) := by
  unfold var
  rw [mean_coe zr hz r, div_768,
    Finset.sum_congr rfl fun e _ => show (z r e - (((∑ e', zr r e') * (1 / 768) : ℝ) : EReal)) * (z r e - (((∑ e', zr r e') * (1 / 768) : ℝ) : EReal))
      = (((zr r e - (∑ e', zr r e') * (1 / 768)) * (zr r e - (∑ e', zr r e') * (1 / 768)) : ℝ) : EReal) by
        rw [hz r e, ← EReal.coe_sub, ← EReal.coe_mul],
    ← coe_sum, ← EReal.coe_mul]

/-- Real rows, gains and biases give a real normalised array: variance plus ε is positive. -/
theorem ln_real {z : Fin 4096 → Fin 768 → EReal} {g b : Fin 768 → EReal} (hz : IsRealM z) (hg : IsRealV g)
    (hb : IsRealV b) : IsRealM (ln z g b) := by
  intro r e
  choose zr hzr using hz
  obtain ⟨ε, hε, heps⟩ := Cert.KernelIdeal.Hand.eps_pos
  obtain ⟨γ, hγ⟩ := hg e
  obtain ⟨β, hβ⟩ := hb e
  have hv : 0 ≤ (∑ e, (zr r e - (∑ e', zr r e') * (1 / 768)) * (zr r e - (∑ e', zr r e') * (1 / 768))) * (1 / 768) :=
    mul_nonneg (Finset.sum_nonneg fun e' _ => mul_self_nonneg _) (by norm_num)
  have hs : 0 < (∑ e, (zr r e - (∑ e', zr r e') * (1 / 768)) * (zr r e - (∑ e', zr r e') * (1 / 768))) * (1 / 768) + ε := by
    linarith
  unfold ln
  rw [var_coe zr hzr r, mean_coe zr hzr r, heps, hzr r e, hγ, hβ, ← EReal.coe_add, Ideal.sqrt_coe,
    if_neg (not_lt.mpr hs.le), ← EReal.coe_sub, ← EReal.coe_mul, div_real _ _ (Real.sqrt_pos.mpr hs).ne', ← EReal.coe_add]
  exact ⟨_, rfl⟩

/-! ## The two halves and the hidden layer -/

/-- What the first layer normalisation is applied to is real. -/
theorem resid1_real {x C : Fin 4096 → Fin 768 → EReal} {Wout : Fin 768 → Fin 768 → EReal} {bout : Fin 768 → EReal}
    (hx : IsRealM x) (hC : IsRealM C) (hW : IsRealM Wout) (hb : IsRealV bout) :
    IsRealM (fun r e => x r e + (∑ k : Fin 768, C r k * Wout k e + bout e)) := fun r e =>
  IsReal.add (hx r e) (IsReal.add (isReal_sum _ _ fun k _ => IsReal.mul (hC r k) (hW k e)) (hb e))

/-- The first half is real. -/
theorem hmid_real {x C : Fin 4096 → Fin 768 → EReal} {Wout : Fin 768 → Fin 768 → EReal} {bout g1 be1 : Fin 768 → EReal}
    (hx : IsRealM x) (hC : IsRealM C) (hW : IsRealM Wout) (hb : IsRealV bout) (hg : IsRealV g1) (hbe : IsRealV be1) :
    IsRealM (hmid x C Wout bout g1 be1) :=
  ln_real (resid1_real hx hC hW hb) hg hbe

/-- The hidden layer is real. -/
theorem ff1_real {Hm : Fin 4096 → Fin 768 → EReal} {W1 : Fin 768 → Fin 3072 → EReal} {b1 : Fin 3072 → EReal}
    (hH : IsRealM Hm) (hW : IsRealM W1) (hb : IsRealV b1) : IsRealM (ff1 Hm W1 b1) := fun r f => by
  obtain ⟨y, hy⟩ := IsReal.add (isReal_sum _ _ fun k _ => IsReal.mul (hH r k) (hW k f)) (hb f)
  unfold ff1
  rw [hy, ← EReal.coe_zero, ← coe_max]
  exact ⟨_, rfl⟩

/-- What the second layer normalisation is applied to is real. -/
theorem resid2_real {Hm : Fin 4096 → Fin 768 → EReal} {F : Fin 4096 → Fin 3072 → EReal} {W2 : Fin 3072 → Fin 768 → EReal}
    {b2 : Fin 768 → EReal} (hH : IsRealM Hm) (hF : IsRealM F) (hW : IsRealM W2) (hb : IsRealV b2) :
    IsRealM (fun r e => Hm r e + (∑ f : Fin 3072, F r f * W2 f e + b2 e)) := fun r e =>
  IsReal.add (hH r e) (IsReal.add (isReal_sum _ _ fun f _ => IsReal.mul (hF r f) (hW f e)) (hb e))

/-- The second half is real. -/
theorem out_real {Hm : Fin 4096 → Fin 768 → EReal} {F : Fin 4096 → Fin 3072 → EReal} {W2 : Fin 3072 → Fin 768 → EReal}
    {b2 g2 be2 : Fin 768 → EReal} (hH : IsRealM Hm) (hF : IsRealM F) (hW : IsRealM W2) (hb : IsRealV b2)
    (hg : IsRealV g2) (hbe : IsRealV be2) : IsRealM (out Hm F W2 b2 g2 be2) :=
  ln_real (resid2_real hH hF hW hb) hg hbe

/-! ## The kernel's spelling of the block -/

open Cert.KernelIdeal.Hand in
/-- THE KERNEL'S SPELLING IS THE BLOCK. With all twelve arrays real: the kernel's projection carries an added zero, its two
    layer normalisations multiply by the reciprocal square root; everything else is the specification's own stage. -/
theorem block_kernel (x : Fin 4096 → Fin 768 → EReal) (Wqkv : Fin 768 → Fin 2304 → EReal) (Wout : Fin 768 → Fin 768 → EReal)
    (bout : Fin 768 → EReal) (W1 : Fin 768 → Fin 3072 → EReal) (b1 : Fin 3072 → EReal)
    (W2 : Fin 3072 → Fin 768 → EReal) (b2 g1 be1 g2 be2 : Fin 768 → EReal)
    (hx : IsRealM x) (hWqkv : IsRealM Wqkv) (hWout : IsRealM Wout) (hbout : IsRealV bout) (hW1 : IsRealM W1)
    (hb1 : IsRealV b1) (hW2 : IsRealM W2) (hb2 : IsRealV b2) (hg1 : IsRealV g1) (hbe1 : IsRealV be1) (hg2 : IsRealV g2)
    (hbe2 : IsRealV be2) :
    lnK (fun r e =>
        lnK (fun r e => x r e + (∑ k : Fin 768, ctx (fun r j => qkv x Wqkv r j + 0) r k * Wout k e + bout e)) g1 be1 r e
          + (∑ f : Fin 3072,
              ff1 (lnK (fun r e => x r e + (∑ k : Fin 768, ctx (fun r j => qkv x Wqkv r j + 0) r k * Wout k e + bout e)) g1 be1)
                W1 b1 r f * W2 f e + b2 e)) g2 be2
      = block x Wqkv Wout bout W1 b1 W2 b2 g1 be1 g2 be2 := by
  have hq : (fun r j => qkv x Wqkv r j + 0) = qkv x Wqkv := funext fun r => funext fun j => add_zero _
  rw [hq]
  have hC : IsRealM (ctx (qkv x Wqkv)) := ctx_real (qkv_real hx hWqkv)
  rw [lnK_eq_ln _ g1 be1 (resid1_real hx hC hWout hbout) hg1]
  have hH : IsRealM (hmid x (ctx (qkv x Wqkv)) Wout bout g1 be1) := hmid_real hx hC hWout hbout hg1 hbe1
  have hF : IsRealM (ff1 (hmid x (ctx (qkv x Wqkv)) Wout bout g1 be1) W1 b1) := ff1_real hH hW1 hb1
  have e1 : ln (fun r e => x r e + (∑ k : Fin 768, ctx (qkv x Wqkv) r k * Wout k e + bout e)) g1 be1
      = hmid x (ctx (qkv x Wqkv)) Wout bout g1 be1 := rfl
  rw [e1, lnK_eq_ln _ g2 be2 (resid2_real hH hF hW2 hb2) hg2]
  rfl

end Cert.Spec

end
-- ==== Proof.SpecTiled.lean ====
/-
  The specification's attention met tile by tile, and the block met entry by entry.
  The kernel scales a score by multiplying with the word of 0.125 where the specification divides by the word of 8: one
  function on the extended reals. For a real projection, a row's context by coordinates is what the online softmax
  over the tiles 0 … s / 512 of 512 keys ends with: the keys past those tiles lie above the diagonal, so their scores are
  masked, key 0 never is, and the one-pass form the online evaluation agrees with is the specification's own spelling.
  Last, an array that agrees with the block at every (b, s, e) is the specification's result array, and arrays of real
  entries are real as flat arrays.
-/
import proofs.«151460_j71262097375467_2_alg».proof.Proof.Spec
import proofs.«151460_j71262097375467_2_alg».proof.Proof.SpecReal
import proofs.«151460_j71262097375467_2_alg».proof.Proof.LibMaskedOnlineSoftmax

noncomputable section

open scoped BigOperators

namespace Cert.Spec

open Idealize.ShloMosaic Idealize.ShloMosaic.ValueIdx Cert.RealValued Cert.LibOnlineSoftmax Cert.LibMaskedOnlineSoftmax

/-! ## The scale -/

/-- The f32 word of 0.125 denotes the real 1/8. -/
theorem ofBits_eighth : Ideal.ofBits .f32 0x3E000000#32 = ((1 / 8 : ℝ) : EReal) := by
  simp [Ideal.ofBits, Ideal.ieee, -EReal.coe_mul]; norm_num

/-- Multiplying by the word of 0.125 is dividing by the word of 8, on every extended real. -/
theorem eighth (x : EReal) : x * Ideal.ofBits .f32 0x3E000000#32 = Ideal.div x (Ideal.ofBits .f32 0x41000000#32) := by
  rw [div_8, ofBits_eighth]

/-! ## The context, tile by tile -/

/-- A row's context by coordinates is what the online softmax over the tiles 0 … s / 512 ends with. -/
theorem ctxh_of_tiled (Q : Fin 4096 → Fin 2304 → EReal) (hQ : IsRealM Q) (b : Fin 2) (h : Fin 12) (s : Fin 2048) (d : Fin 64)
    (st : ℕ → EReal × EReal × EReal) (hst0 : st 0 = ((⊥ : EReal), (0 : EReal), (0 : EReal)))
    (hstep : ∀ (j : ℕ) (hj : j < s.val / 512 + 1), st (j + 1) = Cert.LibOnlineSoftmax.step (st j)
        (fun kk : Fin 512 => score Q b h s ⟨j * 512 + kk.val, by omega⟩)
        (fun kk : Fin 512 => Q (row b ⟨j * 512 + kk.val, by omega⟩) (col 2 h d))) :
    Ideal.div (st (s.val / 512 + 1)).2.2 (st (s.val / 512 + 1)).2.1 = ctxh Q b h s d := by
  have hV : ∀ j : Fin 2048, Q (row b j) (col 2 h d) = (((Q (row b j) (col 2 h d)).toReal : ℝ) : EReal) := fun j => by
    obtain ⟨x, hx⟩ := hQ (row b j) (col 2 h d)
    rw [hx, EReal.toReal_coe]
  have hmask : ∀ j : Fin 2048, (s.val / 512 + 1) * 512 ≤ j.val → score Q b h s j = ⊥ := by
    intro j hj
    unfold score
    rw [if_neg]
    intro hjs
    have : j.val ≤ s.val := hjs
    omega
  have e := causal_tiled (s.val / 512) (by omega) (fun j : Fin 2048 => score Q b h s j)
    (fun j : Fin 2048 => (Q (row b j) (col 2 h d)).toReal) (fun j => score_isScore hQ b h s j) (score_zero_real hQ b h s)
    hmask st hst0
    (fun j hj => (hstep j hj).trans (congrArg (Cert.LibOnlineSoftmax.step (st j) _) (funext fun kk => hV _)))
  rw [e]
  unfold ctxh attn denom expw rowmax
  exact Finset.sum_congr rfl fun j _ => by rw [← hV j]

/-! ## Entry by entry -/

/-- An array that is the block at every (b, s, e) is the specification's result array. -/
theorem result_of_flat (x : FVec Ideal ⟨3, ![2, 2048, 768]⟩ .f32) (Wqkv : FVec Ideal ⟨2, ![768, 2304]⟩ .f32)
    (Wout : FVec Ideal ⟨2, ![768, 768]⟩ .f32) (bout : FVec Ideal ⟨1, ![768]⟩ .f32)
    (W1 : FVec Ideal ⟨2, ![768, 3072]⟩ .f32) (b1 : FVec Ideal ⟨1, ![3072]⟩ .f32)
    (W2 : FVec Ideal ⟨2, ![3072, 768]⟩ .f32) (b2 g1 be1 g2 be2 : FVec Ideal ⟨1, ![768]⟩ .f32)
    (R : FVec Ideal ⟨3, ![2, 2048, 768]⟩ .f32)
    (hR : ∀ (b : Fin 2) (s : Fin 2048) (e : Fin 768), R (ix3 b s e)
      = block (flat3 x) (mat Wqkv) (mat Wout) (vec bout) (mat W1) (vec b1) (mat W2) (vec b2) (vec g1) (vec be1)
          (vec g2) (vec be2) (row b s) e) :
    R = result x Wqkv Wout bout W1 b1 W2 b2 g1 be1 g2 be2 := by
  funext i
  obtain ⟨b, s, e, rfl⟩ : ∃ (b : Fin 2) (s : Fin 2048) (e : Fin 768), i = ix3 b s e := ⟨i 0, i 1, i 2, eq_ix3 i⟩
  rw [hR, result_apply]

/-- A [2, 2048, n] array of real entries is real as a flat array. -/
theorem flat3_real {n : Nat} (a : FVec Ideal ⟨3, ![2, 2048, n]⟩ .f32) (h : ∀ i, ∃ y : ℝ, a i = (y : EReal)) :
    IsRealM (flat3 a) := fun r k => h _

/-- A rank-2 array of real entries is real as a function of its two coordinates. -/
theorem mat_real {m n : Nat} (W : FVec Ideal ⟨2, ![m, n]⟩ .f32) (h : ∀ i, ∃ y : ℝ, W i = (y : EReal)) :
    IsRealM (mat W) := fun k j => h _

/-- A rank-1 array of real entries is real as a function of its coordinate. -/
theorem vec_real {n : Nat} (v : FVec Ideal ⟨1, ![n]⟩ .f32) (h : ∀ i, ∃ y : ℝ, v i = (y : EReal)) :
    IsRealV (vec v) := fun e => h _

end Cert.Spec

end
-- ==== Proof.KI.Attn.Value.lean ====
/-
  Causal attention at the ideal values: the result array. Entry (g, s, d) — batch·head g, query position s, depth d —
  is the numerator over the denominator after the diagonal key tile of row s's group; row by row the accumulators
  advance by the online-softmax update over the masked scores, so the entry is the masked softmax-weighted sum of the
  values: the specification's attention output.
-/
import proofs.«151460_j71262097375467_2_alg».proof.Proof.KI.Attn.Blocks
import proofs.«151460_j71262097375467_2_alg».proof.Proof.KI.Attn.Score
import proofs.«151460_j71262097375467_2_alg».proof.Proof.SpecTiled

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The grid's second and third coordinates of a point: the query tile and the key tile. -/
theorem coords1_qi : ∀ t : Fin cfg1.N, ((grid1.coords t) 1).val = t.val / 4 % 4 :=
  (by decide +kernel : ∀ t : Fin grid1.N, ((grid1.coords t) 1).val = t.val / 4 % 4)
theorem coords1_ki : ∀ t : Fin cfg1.N, ((grid1.coords t) 2).val = t.val % 4 :=
  (by decide +kernel : ∀ t : Fin grid1.N, ((grid1.coords t) 2).val = t.val % 4)

/-- The output tile at (0, p, d): column d of row p's numerator over row p's denominator. -/
theorem fin1_apply (A : Vec Ideal S512x64 .f32) (L : Vec Ideal S512x1 .f32) (p : Fin 512) (d : Fin 64) :
    (fin1 A L : S1x512x64.Idx → EReal) (ix3 (0 : Fin 1) p d) = Ideal.div (A (ix2 p d)) (L (ix2 p (0 : Fin 1))) := by
  unfold fin1 k1_pay6
  have e : ∀ (x : FVec Ideal S512x64 .bf16), shapeCast S1x512x64 x shapeCasts_S512x64_S1x512x64 (ix3 (0 : Fin 1) p d) = x (ix2 p d) := fun x =>
    shapeCast_apply x shapeCasts_S512x64_S1x512x64 _ _ (by
      rw [Shape.rowMajor_val_three, Shape.rowMajor_val_two]
      show p.val * 64 + d.val = ((0 : ℕ) * 512 + p.val) * 64 + d.val
      omega)
  rw [e, truncf_apply, divf_apply, ColumnLayout.broadcastTo_a1_ab_apply]

/-- A reset's row: (−∞, 0, 0). -/
theorem init_row (p : Fin 512) (d : Fin 64) :
    ((k1_pay1 (F := Ideal) : S512x1.Idx → EReal) (ix2 p (0 : Fin 1)), (k1_pay2 (F := Ideal) : S512x1.Idx → EReal) (ix2 p (0 : Fin 1)),
      (k1_pay3 (F := Ideal) : S512x64.Idx → EReal) (ix2 p d)) = ((⊥ : EReal), (0 : EReal), (0 : EReal)) := by
  unfold k1_pay1 k1_pay2 k1_pay3
  simp only [shapeCast_self]
  refine Prod.ext ?_ (Prod.ext ?_ ?_)
  · exact neg_big_bot
  · exact Ideal.ofBits_zero_f32
  · exact Ideal.ofBits_zero_f32

/-- THE ATTENTION REGION'S RESULT. If the three head arrays the region reads are the query, key and value columns of a
    real projection `Q` for batch b and head h (g = 12·b + h), then entry (g, s, d) of what the region leaves is the
    specification's attention output. -/
theorem ctx_entry (c : Dev nD) (Q : Fin 4096 → Fin 2304 → EReal) (hQ : Cert.Spec.IsRealM Q) (b : Fin 2) (h : Fin 12) (g : Fin 24)
    (hg : g.val = b.val * 12 + h.val)
    (hq : ∀ (s : Fin 2048) (d : Fin 64), (V c main_v8 : S24x2048x64.Idx → EReal) (ix3 g s d) = Q (Cert.Spec.row b s) (Cert.Spec.col 0 h d))
    (hk : ∀ (s : Fin 2048) (d : Fin 64), (V c main_v11 : S24x2048x64.Idx → EReal) (ix3 g s d) = Q (Cert.Spec.row b s) (Cert.Spec.col 1 h d))
    (hv : ∀ (s : Fin 2048) (d : Fin 64), (V c main_v14 : S24x2048x64.Idx → EReal) (ix3 g s d) = Q (Cert.Spec.row b s) (Cert.Spec.col 2 h d))
    (s : Fin 2048) (d : Fin 64) :
    ((dat1 (F := Ideal) V c).arrAt 3 cfg1.N : S24x2048x64.Idx → EReal) (ix3 g s d) = Cert.Spec.ctxh Q b h s d := by
  have hN : cfg1.N = 384 := N_1
  have hgl := g.isLt
  have hsl := s.isLt
  rw [arr1 V c g s d, fin1_apply]
  -- row s % 512 of the accumulators along the group's key tiles
  refine Cert.Spec.ctxh_of_tiled Q hQ b h s d
    (fun j => ((accG V c (g.val * 4 + s.val / 512) j).1 (ix2 ⟨s.val % 512, Nat.mod_lt _ (by norm_num)⟩ (0 : Fin 1)),
      (accG V c (g.val * 4 + s.val / 512) j).2.1 (ix2 ⟨s.val % 512, Nat.mod_lt _ (by norm_num)⟩ (0 : Fin 1)),
      (accG V c (g.val * 4 + s.val / 512) j).2.2 (ix2 ⟨s.val % 512, Nat.mod_lt _ (by norm_num)⟩ d))) ?_ ?_
  · exact init_row ⟨s.val % 512, Nat.mod_lt _ (by norm_num)⟩ d
  · intro j hj
    have ht : 4 * (g.val * 4 + s.val / 512) + j < cfg1.N := by omega
    have hj4 : j < 4 := by omega
    have hx4 : (4 * (g.val * 4 + s.val / 512) + j) % 4 = j := by omega
    have hxd : (4 * (g.val * 4 + s.val / 512) + j) / 4 = g.val * 4 + s.val / 512 := by omega
    have hxq : (g.val * 4 + s.val / 512) % 4 = s.val / 512 := by omega
    have hx16 : (4 * (g.val * 4 + s.val / 512) + j) / 16 = g.val := by omega
    have hmin : min j (s.val / 512) = j := by omega
    have hsp : s.val / 512 * 512 + s.val % 512 = s.val := by omega
    show ((accG V c (g.val * 4 + s.val / 512) (j + 1)).1 _, (accG V c (g.val * 4 + s.val / 512) (j + 1)).2.1 _, (accG V c (g.val * 4 + s.val / 512) (j + 1)).2.2 _) = _
    rw [show accG V c (g.val * 4 + s.val / 512) (j + 1) = step1 V c ⟨4 * (g.val * 4 + s.val / 512) + j, ht⟩ (accG V c (g.val * 4 + s.val / 512) j).1 (accG V c (g.val * 4 + s.val / 512) j).2.1 (accG V c (g.val * 4 + s.val / 512) j).2.2 from dif_pos ht]
    unfold step1
    dsimp only
    rw [step_row _ _ _ _ _ _ _ _ (⟨s.val % 512, Nat.mod_lt _ (by norm_num)⟩ : Fin 512) d]
    -- the tile's scores and values are the specification's
    have hqi : ((grid1.coords ⟨4 * (g.val * 4 + s.val / 512) + j, ht⟩) 1).val = s.val / 512 := by
      rw [coords1_qi]; show (4 * (g.val * 4 + s.val / 512) + j) / 4 % 4 = s.val / 512; rw [hxd, hxq]
    have hki : ((grid1.coords ⟨4 * (g.val * 4 + s.val / 512) + j, ht⟩) 2).val = j := by
      rw [coords1_ki]; show (4 * (g.val * 4 + s.val / 512) + j) % 4 = j; exact hx4
    rw [hqi, hki]
    congr 1
    · funext kk
      rw [sc1_apply (s.val / 512) j (by omega) (by omega)]
      unfold Cert.Spec.score
      have hcond : (j * 512 + kk.val ≤ s.val / 512 * 512 + s.val % 512) ↔ ((⟨j * 512 + kk.val, by have := kk.isLt; omega⟩ : Fin 2048) ≤ s) := by
        rw [Fin.le_def]; show _ ↔ j * 512 + kk.val ≤ s.val; rw [hsp]
      by_cases hc : j * 512 + kk.val ≤ s.val / 512 * 512 + s.val % 512
      · rw [if_pos hc, if_pos (hcond.mp hc), Cert.Spec.eighth]
        refine congrArg (Ideal.div · _) (Finset.sum_congr rfl fun d' _ => ?_)
        rw [iblk1_q V c _ _ d', iblk1_k V c _ _ d']
        have e1 := hq s d'
        have e2 := hk ⟨j * 512 + kk.val, by have := kk.isLt; omega⟩ d'
        rw [← e1, ← e2]
        congr 2
        · refine congrArg₂ (fun (a : Fin 24) (b' : Fin 2048) => ix3 a b' d') (Fin.ext ?_) (Fin.ext ?_)
          · show (4 * (g.val * 4 + s.val / 512) + j) / 16 = g.val; exact hx16
          · show (4 * (g.val * 4 + s.val / 512) + j) / 4 % 4 * 512 + s.val % 512 = s.val; rw [hxd, hxq]; exact hsp
        · refine congrArg₂ (fun (a : Fin 24) (b' : Fin 2048) => ix3 a b' d') (Fin.ext ?_) (Fin.ext ?_)
          · show (4 * (g.val * 4 + s.val / 512) + j) / 16 = g.val; exact hx16
          · show min ((4 * (g.val * 4 + s.val / 512) + j) % 4) ((4 * (g.val * 4 + s.val / 512) + j) / 4 % 4) * 512 + kk.val = j * 512 + kk.val
            rw [hx4, hxd, hxq, hmin]
      · rw [if_neg hc, if_neg (fun h' => hc (hcond.mpr h'))]
    · funext kk
      rw [iblk1_v V c _ _ d]
      rw [← hv ⟨j * 512 + kk.val, by have := kk.isLt; omega⟩ d]
      refine congrArg (V c main_v14 : S24x2048x64.Idx → EReal) ?_
      refine congrArg₂ (fun (a : Fin 24) (b' : Fin 2048) => ix3 a b' d) (Fin.ext ?_) (Fin.ext ?_)
      · show (4 * (g.val * 4 + s.val / 512) + j) / 16 = g.val; exact hx16
      · show min ((4 * (g.val * 4 + s.val / 512) + j) % 4) ((4 * (g.val * 4 + s.val / 512) + j) / 4 % 4) * 512 + kk.val = j * 512 + kk.val
        rw [hx4, hxd, hxq, hmin]

end Cert.KernelIdeal.Hand

end
-- ==== Proof.KI.PreReal.lean ====
/-
  From the precondition to real entries. The precondition "every float input is finite" is one i1 word: the conjunction,
  over the twelve argument arrays, of "all entries have |a| < +∞" (each a reduction by and, over every axis, of the
  comparison of |a| with the +∞ word broadcast from a scalar). It being 1 gives each conjunct, and a conjunct gives that
  every entry of its array is a real number. So under the precondition every entry of every argument array of the
  idealized kernel program is a real number.
-/
import proofs.«151460_j71262097375467_2_alg».proof.Defs
import proofs.«151460_j71262097375467_2_alg».proof.Proof.LibRealValued
import Idealize.ShloMosaic.Lib.ReduceAll
import Idealize.ShloMosaic.Lib.ValueIdx

noncomputable section

namespace Cert.KernelIdeal.Hand

open Idealize.ShloMosaic Idealize.ShloMosaic.TcCoe Idealize.SL.Sem Idealize.ShloMosaic.ValueIdx

/-- The printed precondition, as a function of the twelve arrays: if it is all ones, every entry of every array is a
    real number. -/
theorem fn_real [hPre : Cert.Pre_finite_inputs.Facts] (a0 : FVec Ideal ⟨3, ![2, 2048, 768]⟩ .f32) (a1 : FVec Ideal ⟨2, ![768, 2304]⟩ .f32) (a2 : FVec Ideal ⟨2, ![768, 768]⟩ .f32) (a3 : FVec Ideal ⟨1, ![768]⟩ .f32) (a4 : FVec Ideal ⟨2, ![768, 3072]⟩ .f32) (a5 : FVec Ideal ⟨1, ![3072]⟩ .f32) (a6 : FVec Ideal ⟨2, ![3072, 768]⟩ .f32) (a7 : FVec Ideal ⟨1, ![768]⟩ .f32) (a8 : FVec Ideal ⟨1, ![768]⟩ .f32) (a9 : FVec Ideal ⟨1, ![768]⟩ .f32) (a10 : FVec Ideal ⟨1, ![768]⟩ .f32) (a11 : FVec Ideal ⟨1, ![768]⟩ .f32)
    (h : Cert.Pre_finite_inputs.fn (F := Ideal) a0 a1 a2 a3 a4 a5 a6 a7 a8 a9 a10 a11 = fun _ => 1#1) :
    (∀ i, Cert.RealValued.IsReal (a0 i))
      ∧ (∀ i, Cert.RealValued.IsReal (a1 i))
      ∧ (∀ i, Cert.RealValued.IsReal (a2 i))
      ∧ (∀ i, Cert.RealValued.IsReal (a3 i))
      ∧ (∀ i, Cert.RealValued.IsReal (a4 i))
      ∧ (∀ i, Cert.RealValued.IsReal (a5 i))
      ∧ (∀ i, Cert.RealValued.IsReal (a6 i))
      ∧ (∀ i, Cert.RealValued.IsReal (a7 i))
      ∧ (∀ i, Cert.RealValued.IsReal (a8 i))
      ∧ (∀ i, Cert.RealValued.IsReal (a9 i))
      ∧ (∀ i, Cert.RealValued.IsReal (a10 i))
      ∧ (∀ i, Cert.RealValued.IsReal (a11 i)) := by
  have h0 := congrFun h ix0
  dsimp only [Cert.Pre_finite_inputs.fn, Cert.Pre_finite_inputs.fn_part1, Cert.Pre_finite_inputs.fn_part2,
    Cert.Pre_finite_inputs.fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => Cert.RealValued.all_isReal a0 _ _ _ _ e0 i,
    fun i => Cert.RealValued.all_isReal a1 _ _ _ _ e1 i,
    fun i => Cert.RealValued.all_isReal a2 _ _ _ _ e2 i,
    fun i => Cert.RealValued.all_isReal a3 _ _ _ _ e3 i,
    fun i => Cert.RealValued.all_isReal a4 _ _ _ _ e4 i,
    fun i => Cert.RealValued.all_isReal a5 _ _ _ _ e5 i,
    fun i => Cert.RealValued.all_isReal a6 _ _ _ _ e6 i,
    fun i => Cert.RealValued.all_isReal a7 _ _ _ _ e7 i,
    fun i => Cert.RealValued.all_isReal a8 _ _ _ _ e8 i,
    fun i => Cert.RealValued.all_isReal a9 _ _ _ _ e9 i,
    fun i => Cert.RealValued.all_isReal a10 _ _ _ _ e10 i,
    fun i => Cert.RealValued.all_isReal a11 _ _ _ _ e11 i⟩

/-- Under the precondition, every entry of every argument array of the idealized kernel program is a real number. -/
theorem pre_real [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    (∀ i, ∃ y : ℝ, (m ((c.tc : Thread Cert.KernelIdeal.nD Cert.KernelIdeal.τ).loc Cert.KernelIdeal.main_arg0) : FVec Ideal ⟨3, ![2, 2048, 768]⟩ .f32) i = (y : EReal))
      ∧ (∀ i, ∃ y : ℝ, (m ((c.tc : Thread Cert.KernelIdeal.nD Cert.KernelIdeal.τ).loc Cert.KernelIdeal.main_arg1) : FVec Ideal ⟨2, ![768, 2304]⟩ .f32) i = (y : EReal))
      ∧ (∀ i, ∃ y : ℝ, (m ((c.tc : Thread Cert.KernelIdeal.nD Cert.KernelIdeal.τ).loc Cert.KernelIdeal.main_arg2) : FVec Ideal ⟨2, ![768, 768]⟩ .f32) i = (y : EReal))
      ∧ (∀ i, ∃ y : ℝ, (m ((c.tc : Thread Cert.KernelIdeal.nD Cert.KernelIdeal.τ).loc Cert.KernelIdeal.main_arg3) : FVec Ideal ⟨1, ![768]⟩ .f32) i = (y : EReal))
      ∧ (∀ i, ∃ y : ℝ, (m ((c.tc : Thread Cert.KernelIdeal.nD Cert.KernelIdeal.τ).loc Cert.KernelIdeal.main_arg4) : FVec Ideal ⟨2, ![768, 3072]⟩ .f32) i = (y : EReal))
      ∧ (∀ i, ∃ y : ℝ, (m ((c.tc : Thread Cert.KernelIdeal.nD Cert.KernelIdeal.τ).loc Cert.KernelIdeal.main_arg5) : FVec Ideal ⟨1, ![3072]⟩ .f32) i = (y : EReal))
      ∧ (∀ i, ∃ y : ℝ, (m ((c.tc : Thread Cert.KernelIdeal.nD Cert.KernelIdeal.τ).loc Cert.KernelIdeal.main_arg6) : FVec Ideal ⟨2, ![3072, 768]⟩ .f32) i = (y : EReal))
      ∧ (∀ i, ∃ y : ℝ, (m ((c.tc : Thread Cert.KernelIdeal.nD Cert.KernelIdeal.τ).loc Cert.KernelIdeal.main_arg7) : FVec Ideal ⟨1, ![768]⟩ .f32) i = (y : EReal))
      ∧ (∀ i, ∃ y : ℝ, (m ((c.tc : Thread Cert.KernelIdeal.nD Cert.KernelIdeal.τ).loc Cert.KernelIdeal.main_arg8) : FVec Ideal ⟨1, ![768]⟩ .f32) i = (y : EReal))
      ∧ (∀ i, ∃ y : ℝ, (m ((c.tc : Thread Cert.KernelIdeal.nD Cert.KernelIdeal.τ).loc Cert.KernelIdeal.main_arg9) : FVec Ideal ⟨1, ![768]⟩ .f32) i = (y : EReal))
      ∧ (∀ i, ∃ y : ℝ, (m ((c.tc : Thread Cert.KernelIdeal.nD Cert.KernelIdeal.τ).loc Cert.KernelIdeal.main_arg10) : FVec Ideal ⟨1, ![768]⟩ .f32) i = (y : EReal))
      ∧ (∀ i, ∃ y : ℝ, (m ((c.tc : Thread Cert.KernelIdeal.nD Cert.KernelIdeal.τ).loc Cert.KernelIdeal.main_arg11) : FVec Ideal ⟨1, ![768]⟩ .f32) i = (y : EReal)) :=
  fn_real _ _ _ _ _ _ _ _ _ _ _ _ (h c)

/-- Under the precondition every entry of argument 0 (x) is a real number. -/
theorem pre_real_arg0 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg0) : FVec Ideal ⟨3, ![2, 2048, 768]⟩ .f32) i = (y : EReal) :=
  (pre_real m h c).1

/-- Under the precondition every entry of argument 1 (Wqkv) is a real number. -/
theorem pre_real_arg1 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg1) : FVec Ideal ⟨2, ![768, 2304]⟩ .f32) i = (y : EReal) :=
  (pre_real m h c).2.1

/-- Under the precondition every entry of argument 2 (Wout) is a real number. -/
theorem pre_real_arg2 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg2) : FVec Ideal ⟨2, ![768, 768]⟩ .f32) i = (y : EReal) :=
  (pre_real m h c).2.2.1

/-- Under the precondition every entry of argument 3 (bout) is a real number. -/
theorem pre_real_arg3 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg3) : FVec Ideal ⟨1, ![768]⟩ .f32) i = (y : EReal) :=
  (pre_real m h c).2.2.2.1

/-- Under the precondition every entry of argument 4 (W1) is a real number. -/
theorem pre_real_arg4 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg4) : FVec Ideal ⟨2, ![768, 3072]⟩ .f32) i = (y : EReal) :=
  (pre_real m h c).2.2.2.2.1

/-- Under the precondition every entry of argument 5 (b1) is a real number. -/
theorem pre_real_arg5 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg5) : FVec Ideal ⟨1, ![3072]⟩ .f32) i = (y : EReal) :=
  (pre_real m h c).2.2.2.2.2.1

/-- Under the precondition every entry of argument 6 (W2) is a real number. -/
theorem pre_real_arg6 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg6) : FVec Ideal ⟨2, ![3072, 768]⟩ .f32) i = (y : EReal) :=
  (pre_real m h c).2.2.2.2.2.2.1

/-- Under the precondition every entry of argument 7 (b2) is a real number. -/
theorem pre_real_arg7 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg7) : FVec Ideal ⟨1, ![768]⟩ .f32) i = (y : EReal) :=
  (pre_real m h c).2.2.2.2.2.2.2.1

/-- Under the precondition every entry of argument 8 (g1) is a real number. -/
theorem pre_real_arg8 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg8) : FVec Ideal ⟨1, ![768]⟩ .f32) i = (y : EReal) :=
  (pre_real m h c).2.2.2.2.2.2.2.2.1

/-- Under the precondition every entry of argument 9 (be1) is a real number. -/
theorem pre_real_arg9 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg9) : FVec Ideal ⟨1, ![768]⟩ .f32) i = (y : EReal) :=
  (pre_real m h c).2.2.2.2.2.2.2.2.2.1

/-- Under the precondition every entry of argument 10 (g2) is a real number. -/
theorem pre_real_arg10 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg10) : FVec Ideal ⟨1, ![768]⟩ .f32) i = (y : EReal) :=
  (pre_real m h c).2.2.2.2.2.2.2.2.2.2.1

/-- Under the precondition every entry of argument 11 (be2) is a real number. -/
theorem pre_real_arg11 [hPre : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ y : ℝ, (m ((c.tc : Thread Cert.KernelIdeal.nD Cert.KernelIdeal.τ).loc Cert.KernelIdeal.main_arg11) : FVec Ideal ⟨1, ![768]⟩ .f32) i = (y : EReal) :=
  (pre_real m h c).2.2.2.2.2.2.2.2.2.2.2

end Cert.KernelIdeal.Hand

end
-- ==== Proof.Assemble.lean ====
/-
  The value claim assembled. The attention region's merged output is the specification's context of the kernel's
  projection (the projection is real because the inputs are); so, entry by entry, the last region's array is the kernel's
  spelling of the block, which on real inputs is the specification's block: the kernel program's result array is the
  specification's result array of the argument arrays. The reference's result is the same specification of its
  argument arrays, and the two programs' argument arrays agree.
-/
import proofs.«151460_j71262097375467_2_alg».proof.Proof.Frames
import proofs.«151460_j71262097375467_2_alg».proof.Proof.AssembleStages
import proofs.«151460_j71262097375467_2_alg».proof.Proof.KI.Attn.Value
import proofs.«151460_j71262097375467_2_alg».proof.Proof.KI.PreReal
import proofs.«151460_j71262097375467_2_alg».proof.Proof.SpecReal
import proofs.«151460_j71262097375467_2_alg».proof.Proof.SpecTiled
import proofs.«151460_j71262097375467_2_alg».proof.Proof.Ref.RefIsSpec

set_option maxRecDepth 16384
set_option quotPrecheck false

noncomputable section

open scoped BigOperators

namespace Cert.Proof.Claims

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

local notation "aX" => Cert.Spec.flat3 (n := 768) (m ((c : Thread nD τ).loc main_arg0))
local notation "aWq" => Cert.Spec.mat (m := 768) (n := 2304) (m ((c : Thread nD τ).loc main_arg1))
local notation "aWo" => Cert.Spec.mat (m := 768) (n := 768) (m ((c : Thread nD τ).loc main_arg2))
local notation "abo" => Cert.Spec.vec (n := 768) (m ((c : Thread nD τ).loc main_arg3))
local notation "aW1" => Cert.Spec.mat (m := 768) (n := 3072) (m ((c : Thread nD τ).loc main_arg4))
local notation "ab1" => Cert.Spec.vec (n := 3072) (m ((c : Thread nD τ).loc main_arg5))
local notation "aW2" => Cert.Spec.mat (m := 3072) (n := 768) (m ((c : Thread nD τ).loc main_arg6))
local notation "ab2" => Cert.Spec.vec (n := 768) (m ((c : Thread nD τ).loc main_arg7))
local notation "ag1" => Cert.Spec.vec (n := 768) (m ((c : Thread nD τ).loc main_arg8))
local notation "abe1" => Cert.Spec.vec (n := 768) (m ((c : Thread nD τ).loc main_arg9))
local notation "ag2" => Cert.Spec.vec (n := 768) (m ((c : Thread nD τ).loc main_arg10))
local notation "abe2" => Cert.Spec.vec (n := 768) (m ((c : Thread nD τ).loc main_arg11))
/-- The kernel's projection: the specification's with a zero added. -/
local notation "Qk" => (fun (r : Fin 4096) (j : Fin 2304) => Cert.Spec.qkv aX aWq r j + 0)
/-- What the first fused layer normalisation is applied to. -/
local notation "Z2" => (fun (r : Fin 4096) (e : Fin 768) => aX r e + (∑ k : Fin 768, Cert.Spec.ctx Qk r k * aWo k e + abo e))
/-- The kernel's first half. -/
local notation "Hk" => lnK Z2 ag1 abe1
/-- What the second fused layer normalisation is applied to. -/
local notation "Z4" => (fun (r : Fin 4096) (e : Fin 768) => Hk r e + (∑ f : Fin 3072, Cert.Spec.ff1 Hk aW1 ab1 r f * aW2 f e + ab2 e))

/-- The attention region's merged output: the specification's context of the kernel's projection. -/
theorem stage_C (hx : Cert.Spec.IsRealM aX) (hW : Cert.Spec.IsRealM aWq) (r : Fin 4096) (e : Fin 768) :
    (W5 m ρ c (Proc.devRef .tc main_v18) : S4096x768.Idx → EReal) (ix2 r e) = Cert.Spec.ctx Qk r e := by
  have hQ : Cert.Spec.IsRealM Qk := Cert.Spec.qkv_add_zero_real hx hW
  obtain ⟨b, s, rfl⟩ : ∃ b s, r = Cert.Spec.row b s := ⟨_, _, (Cert.Spec.row_rowB_rowS r).symm⟩
  obtain ⟨h, d, rfl⟩ : ∃ h d, e = Cert.Spec.ecol h d := ⟨_, _, (Cert.Spec.ecol_colH_colD e).symm⟩
  rw [glue_ctx m ρ c b h s d, Cert.Spec.ctx_row_ecol]
  have h1 : (W4 m ρ c (Proc.devRef .tc main_v15) : S24x2048x64.Idx → EReal)
      = ((dat1 (F := Ideal) (V3 m ρ) c).arrAt 3 cfg1.N : S24x2048x64.Idx → EReal) := W4_arr m ρ c 3
  rw [h1]
  exact ctx_entry (V3 m ρ) c Qk hQ b h ⟨b.val * 12 + h.val, by have := b.isLt; have := h.isLt; omega⟩ rfl
    (fun s d => (glue_q m ρ c b h s d).trans (stage_Q m ρ c _ _))
    (fun s d => (glue_k m ρ c b h s d).trans (stage_Q m ρ c _ _))
    (fun s d => (glue_v m ρ c b h s d).trans (stage_Q m ρ c _ _)) s d

/-- THE KERNEL PROGRAM'S RESULT: under the precondition, the specification's result array of the argument arrays. -/
theorem kernel_result [hPre : Cert.Pre_finite_inputs.Facts] (hpre : Cert.Pre_KernelIdeal m) :
    (W9 (F := Ideal) m ρ c (Proc.devRef .tc main_v22) : FVec Ideal ⟨3, ![2, 2048, 768]⟩ .f32)
      = Cert.Spec.result (m ((c : Thread nD τ).loc main_arg0))
          (m ((c : Thread nD τ).loc main_arg1))
          (m ((c : Thread nD τ).loc main_arg2))
          (m ((c : Thread nD τ).loc main_arg3))
          (m ((c : Thread nD τ).loc main_arg4))
          (m ((c : Thread nD τ).loc main_arg5))
          (m ((c : Thread nD τ).loc main_arg6))
          (m ((c : Thread nD τ).loc main_arg7))
          (m ((c : Thread nD τ).loc main_arg8))
          (m ((c : Thread nD τ).loc main_arg9))
          (m ((c : Thread nD τ).loc main_arg10))
          (m ((c : Thread nD τ).loc main_arg11)) := by
  have hx : Cert.Spec.IsRealM aX := Cert.Spec.flat3_real _ (pre_real_arg0 m hpre c)
  have hWq : Cert.Spec.IsRealM aWq := Cert.Spec.mat_real _ (pre_real_arg1 m hpre c)
  have hWo : Cert.Spec.IsRealM aWo := Cert.Spec.mat_real _ (pre_real_arg2 m hpre c)
  have hbo : Cert.Spec.IsRealV abo := Cert.Spec.vec_real _ (pre_real_arg3 m hpre c)
  have hW1 : Cert.Spec.IsRealM aW1 := Cert.Spec.mat_real _ (pre_real_arg4 m hpre c)
  have hb1 : Cert.Spec.IsRealV ab1 := Cert.Spec.vec_real _ (pre_real_arg5 m hpre c)
  have hW2 : Cert.Spec.IsRealM aW2 := Cert.Spec.mat_real _ (pre_real_arg6 m hpre c)
  have hb2 : Cert.Spec.IsRealV ab2 := Cert.Spec.vec_real _ (pre_real_arg7 m hpre c)
  have hg1 : Cert.Spec.IsRealV ag1 := Cert.Spec.vec_real _ (pre_real_arg8 m hpre c)
  have hbe1 : Cert.Spec.IsRealV abe1 := Cert.Spec.vec_real _ (pre_real_arg9 m hpre c)
  have hg2 : Cert.Spec.IsRealV ag2 := Cert.Spec.vec_real _ (pre_real_arg10 m hpre c)
  have hbe2 : Cert.Spec.IsRealV abe2 := Cert.Spec.vec_real _ (pre_real_arg11 m hpre c)
  have hC := stage_C m ρ c hx hWq
  have hH := stage_H m ρ c hC
  have hFF := stage_FF m ρ c hH
  refine Cert.Spec.result_of_flat _ _ _ _ _ _ _ _ _ _ _ _ _ (fun b s e => ?_)
  rw [glue_out m ρ c b s e, stage_R m ρ c hH hFF]
  exact congrFun (congrFun (Cert.Spec.block_kernel aX aWq aWo abo aW1 ab1 aW2 ab2 ag1 abe1 ag2 abe2
    hx hWq hWo hbo hW1 hb1 hW2 hb2 hg1 hbe1 hg2 hbe2) (Cert.Spec.row b s)) e

/-- At the ideal instance the kernel program's result array and the reference's are one array: the specification of
    the argument arrays, which agree. -/
theorem algebraic : Cert.algebraic_KernelIdeal_ReferenceIdeal := fun m ρ m' ρ' hpre hagree =>
  ⟨fun c => W9 (F := Ideal) m ρ c (Proc.devRef .tc main_v22),
    (θ_run (Cert.KernelIdeal.defs (F := Ideal)) _ _).mono (fun r h c =>
      ⟨h c _ (Cert.KernelIdeal.Hand.mem_uc Cert.KernelIdeal.main_v22 (by decide)),
        (h c _ (Cert.KernelIdeal.Hand.mem_uc Cert.KernelIdeal.main_arg0 (by decide))).trans (Cert.KernelIdeal.Hand.W9_keep m ρ c Cert.KernelIdeal.main_arg0 (by decide) (by decide) (by decide) (by decide) (by decide) (by decide) (by decide) (by decide) (by decide)),
        (h c _ (Cert.KernelIdeal.Hand.mem_uc Cert.KernelIdeal.main_arg1 (by decide))).trans (Cert.KernelIdeal.Hand.W9_keep m ρ c Cert.KernelIdeal.main_arg1 (by decide) (by decide) (by decide) (by decide) (by decide) (by decide) (by decide) (by decide) (by decide)),
        (h c _ (Cert.KernelIdeal.Hand.mem_uc Cert.KernelIdeal.main_arg2 (by decide))).trans (Cert.KernelIdeal.Hand.W9_keep m ρ c Cert.KernelIdeal.main_arg2 (by decide) (by decide) (by decide) (by decide) (by decide) (by decide) (by decide) (by decide) (by decide)),
        (h c _ (Cert.KernelIdeal.Hand.mem_uc Cert.KernelIdeal.main_arg3 (by decide))).trans (Cert.KernelIdeal.Hand.W9_keep m ρ c Cert.KernelIdeal.main_arg3 (by decide) (by decide) (by decide) (by decide) (by decide) (by decide) (by decide) (by decide) (by decide)),
        (h c _ (Cert.KernelIdeal.Hand.mem_uc Cert.KernelIdeal.main_arg4 (by decide))).trans (Cert.KernelIdeal.Hand.W9_keep m ρ c Cert.KernelIdeal.main_arg4 (by decide) (by decide) (by decide) (by decide) (by decide) (by decide) (by decide) (by decide) (by decide)),
        (h c _ (Cert.KernelIdeal.Hand.mem_uc Cert.KernelIdeal.main_arg5 (by decide))).trans (Cert.KernelIdeal.Hand.W9_keep m ρ c Cert.KernelIdeal.main_arg5 (by decide) (by decide) (by decide) (by decide) (by decide) (by decide) (by decide) (by decide) (by decide)),
        (h c _ (Cert.KernelIdeal.Hand.mem_uc Cert.KernelIdeal.main_arg6 (by decide))).trans (Cert.KernelIdeal.Hand.W9_keep m ρ c Cert.KernelIdeal.main_arg6 (by decide) (by decide) (by decide) (by decide) (by decide) (by decide) (by decide) (by decide) (by decide)),
        (h c _ (Cert.KernelIdeal.Hand.mem_uc Cert.KernelIdeal.main_arg7 (by decide))).trans (Cert.KernelIdeal.Hand.W9_keep m ρ c Cert.KernelIdeal.main_arg7 (by decide) (by decide) (by decide) (by decide) (by decide) (by decide) (by decide) (by decide) (by decide)),
        (h c _ (Cert.KernelIdeal.Hand.mem_uc Cert.KernelIdeal.main_arg8 (by decide))).trans (Cert.KernelIdeal.Hand.W9_keep m ρ c Cert.KernelIdeal.main_arg8 (by decide) (by decide) (by decide) (by decide) (by decide) (by decide) (by decide) (by decide) (by decide)),
        (h c _ (Cert.KernelIdeal.Hand.mem_uc Cert.KernelIdeal.main_arg9 (by decide))).trans (Cert.KernelIdeal.Hand.W9_keep m ρ c Cert.KernelIdeal.main_arg9 (by decide) (by decide) (by decide) (by decide) (by decide) (by decide) (by decide) (by decide) (by decide)),
        (h c _ (Cert.KernelIdeal.Hand.mem_uc Cert.KernelIdeal.main_arg10 (by decide))).trans (Cert.KernelIdeal.Hand.W9_keep m ρ c Cert.KernelIdeal.main_arg10 (by decide) (by decide) (by decide) (by decide) (by decide) (by decide) (by decide) (by decide) (by decide)),
        (h c _ (Cert.KernelIdeal.Hand.mem_uc Cert.KernelIdeal.main_arg11 (by decide))).trans (Cert.KernelIdeal.Hand.W9_keep m ρ c Cert.KernelIdeal.main_arg11 (by decide) (by decide) (by decide) (by decide) (by decide) (by decide) (by decide) (by decide) (by decide))⟩)
      (Cert.KernelIdeal.Hand.run_all (F := Ideal) m ρ),
    (θ_run (Cert.ReferenceIdeal.defs (F := Ideal)) _ _).mono (fun r h c =>
      ⟨(h c).1.trans (by
          rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
          exact (kernel_result m ρ c hpre).symm),
        (h c).2⟩)
      (Cert.ReferenceIdeal.RefValue.run_spec m' ρ')⟩

end Cert.Proof.Claims

end
-- ==== Proof.lean ====
/- The certificate of the transformer block: three frames, the ledger, and the value claim.
   Frames: the kernel program (bit-exact and idealized) and the idealized reference run to their end, nothing faulting,
   with their argument arrays unchanged. Ledger: the mask fill's word is named −∞ at the ideal instance, at both of its
   sites. Value: at the ideal instance, on finite inputs, the five kernel regions leave the specification's stages — the
   fused projection; the causal attention, evaluated tile by tile by the online softmax; the output projection with
   residual and layer normalisation fused into one call; the relu layer; the second projection with residual and layer
   normalisation — so the kernel program's result array is the specification's block of the argument arrays, and the
   reference's result array is the same specification. -/
import proofs.«151460_j71262097375467_2_alg».proof.Defs
import proofs.«151460_j71262097375467_2_alg».proof.Proof.Gen.Kernel
import proofs.«151460_j71262097375467_2_alg».proof.Proof.Gen.KernelIdeal
import proofs.«151460_j71262097375467_2_alg».proof.Proof.Gen.ReferenceIdeal
import proofs.«151460_j71262097375467_2_alg».proof.Proof.Gen.Pre_finite_inputs
import proofs.«151460_j71262097375467_2_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
